-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.sign_bit.Statement Cert.KernelIdeal.S1024x1024 .f32
  ∧ IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x784 : Shape := ⟨2, ![8192, 784]⟩
abbrev S3072x784 : Shape := ⟨2, ![3072, 784]⟩
abbrev S3072 : Shape := ⟨1, ![3072]⟩
abbrev S6144x3072 : Shape := ⟨2, ![6144, 3072]⟩
abbrev S6144 : Shape := ⟨1, ![6144]⟩
abbrev S6144x6144 : Shape := ⟨2, ![6144, 6144]⟩
abbrev S10x6144 : Shape := ⟨2, ![10, 6144]⟩
abbrev S10 : Shape := ⟨1, ![10]⟩
abbrev S_ : Shape := ⟨0, ![]⟩

class Facts : Prop where
  bcast_S_S8192x784 : S_.BroadcastsInDim S8192x784 (![] : Fin 0 → Fin S8192x784.rank)
  reducesTo_S8192x784_S_d0_1 : S8192x784.ReducesTo [0, 1] S_
  h_S_ : 0 < S_.numel
  bcast_S_S3072x784 : S_.BroadcastsInDim S3072x784 (![] : Fin 0 → Fin S3072x784.rank)
  reducesTo_S3072x784_S_d0_1 : S3072x784.ReducesTo [0, 1] S_
  bcast_S_S3072 : S_.BroadcastsInDim S3072 (![] : Fin 0 → Fin S3072.rank)
  reducesTo_S3072_S_d0 : S3072.ReducesTo [0] S_
  bcast_S_S6144x3072 : S_.BroadcastsInDim S6144x3072 (![] : Fin 0 → Fin S6144x3072.rank)
  reducesTo_S6144x3072_S_d0_1 : S6144x3072.ReducesTo [0, 1] S_
  bcast_S_S6144 : S_.BroadcastsInDim S6144 (![] : Fin 0 → Fin S6144.rank)
  reducesTo_S6144_S_d0 : S6144.ReducesTo [0] S_
  bcast_S_S6144x6144 : S_.BroadcastsInDim S6144x6144 (![] : Fin 0 → Fin S6144x6144.rank)
  reducesTo_S6144x6144_S_d0_1 : S6144x6144.ReducesTo [0, 1] S_
  bcast_S_S10x6144 : S_.BroadcastsInDim S10x6144 (![] : Fin 0 → Fin S10x6144.rank)
  reducesTo_S10x6144_S_d0_1 : S10x6144.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_v98 : IVec S_ 1) (main_v101 : IVec S10 1) (main_c_39 : IVec S_ 1) : IVec S_ 1 :=
  let main_v102 : IVec S_ 1 := (fun x v => Host.reduce IntOp.andi x v reducesTo_S10_S_d0 h_S_) main_v101 main_c_39
  let main_v103 : IVec S_ 1 := andi main_v98 main_v102
  main_v103

def fn_part5 {F : FTy → Type} [FloatOps F] (main_arg18 : FVec F S6144 .f32) (main_arg19 : FVec F S10x6144 .f32) (main_arg20 : FVec F S10 .f32) (main_v83 : IVec S_ 1) (main_v84 : FVec F S6144 .f32) (main_cst_32 : FVec F S_ .f32) : IVec S_ 1 :=
  let main_v85 : FVec F S6144 .f32 := broadcastInDim S6144 ![] bcast_S_S6144 main_cst_32
  let main_v86 : IVec S6144 1 := cmpf .olt main_v84 main_v85
  let main_c_33 : IVec S_ 1 := constantI S_ 1 1#1
  let main_v87 : IVec S_ 1 := (fun x v => Host.reduce IntOp.andi x v reducesTo_S6144_S_d0 h_S_) main_v86 main_c_33
  let main_v88 : IVec S_ 1 := andi main_v83 main_v87
  let main_v89 : FVec F S6144 .f32 := Host.absf main_arg18
  let main_cst_34 : FVec F S_ .f32 := constant S_ .f32 0x7F800000#32
  let main_v90 : FVec F S6144 .f32 := broadcastInDim S6144 ![] bcast_S_S6144 main_cst_34
  let main_v91 : IVec S6144 1 := cmpf .olt main_v89 main_v90
  let main_c_35 : IVec S_ 1 := constantI S_ 1 1#1
  let main_v92 : IVec S_ 1 := (fun x v => Host.reduce IntOp.andi x v reducesTo_S6144_S_d0 h_S_) main_v91 main_c_35
  let main_v93 : IVec S_ 1 := andi main_v88 main_v92
  let main_v94 : FVec F S10x6144 .f32 := Host.absf main_arg19
  let main_cst_36 : FVec F S_ .f32 := constant S_ .f32 0x7F800000#32
  let main_v95 : FVec F S10x6144 .f32 := broadcastInDim S10x6144 ![] bcast_S_S10x6144 main_cst_36
  let main_v96 : IVec S10x6144 1 := cmpf .olt main_v94 main_v95
  let main_c_37 : IVec S_ 1 := constantI S_ 1 1#1
  let main_v97 : IVec S_ 1 := (fun x v => Host.reduce IntOp.andi x v reducesTo_S10x6144_S_d0_1 h_S_) main_v96 main_c_37
  let main_v98 : IVec S_ 1 := andi main_v93 main_v97
  let main_v99 : FVec F S10 .f32 := Host.absf main_arg20
  let main_cst_38 : FVec F S_ .f32 := constant S_ .f32 0x7F800000#32
  let main_v100 : FVec F S10 .f32 := broadcastInDim S10 ![] bcast_S_S10 main_cst_38
  let main_v101 : IVec S10 1 := cmpf .olt main_v99 main_v100
  let main_c_39 : IVec S_ 1 := constantI S_ 1 1#1
  fn_part6 (F := F) main_v98 main_v101 main_c_39

def fn_part4 {F : FTy → Type} [FloatOps F] (main_arg14 : FVec F S6144 .f32) (main_arg15 : FVec F S6144 .f32) (main_arg16 : FVec F S6144 .f32) (main_arg17 : FVec F S6144 .f32) (main_arg18 : FVec F S6144 .f32) (main_arg19 : FVec F S10x6144 .f32) (main_arg20 : FVec F S10 .f32) (main_v63 : IVec S_ 1) (main_v67 : IVec S_ 1) : IVec S_ 1 :=
  let main_v68 : IVec S_ 1 := andi main_v63 main_v67
  let main_v69 : FVec F S6144 .f32 := Host.absf main_arg14
  let main_cst_26 : FVec F S_ .f32 := constant S_ .f32 0x7F800000#32
  let main_v70 : FVec F S6144 .f32 := broadcastInDim S6144 ![] bcast_S_S6144 main_cst_26
  let main_v71 : IVec S6144 1 := cmpf .olt main_v69 main_v70
  let main_c_27 : IVec S_ 1 := constantI S_ 1 1#1
  let main_v72 : IVec S_ 1 := (fun x v => Host.reduce IntOp.andi x v reducesTo_S6144_S_d0 h_S_) main_v71 main_c_27
  let main_v73 : IVec S_ 1 := andi main_v68 main_v72
  let main_v74 : FVec F S6144 .f32 := Host.absf main_arg15
  let main_cst_28 : FVec F S_ .f32 := constant S_ .f32 0x7F800000#32
  let main_v75 : FVec F S6144 .f32 := broadcastInDim S6144 ![] bcast_S_S6144 main_cst_28
  let main_v76 : IVec S6144 1 := cmpf .olt main_v74 main_v75
  let main_c_29 : IVec S_ 1 := constantI S_ 1 1#1
  let main_v77 : IVec S_ 1 := (fun x v => Host.reduce IntOp.andi x v reducesTo_S6144_S_d0 h_S_) main_v76 main_c_29
  let main_v78 : IVec S_ 1 := andi main_v73 main_v77
  let main_v79 : FVec F S6144 .f32 := Host.absf main_arg16
  let main_cst_30 : FVec F S_ .f32 := constant S_ .f32 0x7F800000#32
  let main_v80 : FVec F S6144 .f32 := broadcastInDim S6144 ![] bcast_S_S6144 main_cst_30
  let main_v81 : IVec S6144 1 := cmpf .olt main_v79 main_v80
  let main_c_31 : IVec S_ 1 := constantI S_ 1 1#1
  let main_v82 : IVec S_ 1 := (fun x v => Host.reduce IntOp.andi x v reducesTo_S6144_S_d0 h_S_) main_v81 main_c_31
  let main_v83 : IVec S_ 1 := andi main_v78 main_v82
  let main_v84 : FVec F S6144 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S6144 .f32) (main_arg12 : FVec F S6144 .f32) (main_arg13 : FVec F S6144x6144 .f32) (main_arg14 : FVec F S6144 .f32) (main_arg15 : FVec F S6144 .f32) (main_arg16 : FVec F S6144 .f32) (main_arg17 : FVec F S6144 .f32) (main_arg18 : FVec F S6144 .f32) (main_arg19 : FVec F S10x6144 .f32) (main_arg20 : FVec F S10 .f32) (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  let main_v54 : FVec F S6144 .f32 := Host.absf main_arg11
  let main_cst_20 : FVec F S_ .f32 := constant S_ .f32 0x7F800000#32
  let main_v55 : FVec F S6144 .f32 := broadcastInDim S6144 ![] bcast_S_S6144 main_cst_20
  let main_v56 : IVec S6144 1 := cmpf .olt main_v54 main_v55
  let main_c_21 : IVec S_ 1 := constantI S_ 1 1#1
  let main_v57 : IVec S_ 1 := (fun x v => Host.reduce IntOp.andi x v reducesTo_S6144_S_d0 h_S_) main_v56 main_c_21
  let main_v58 : IVec S_ 1 := andi main_v53 main_v57
  let main_v59 : FVec F S6144 .f32 := Host.absf main_arg12
  let main_cst_22 : FVec F S_ .f32 := constant S_ .f32 0x7F800000#32
  let main_v60 : FVec F S6144 .f32 := broadcastInDim S6144 ![] bcast_S_S6144 main_cst_22
  let main_v61 : IVec S6144 1 := cmpf .olt main_v59 main_v60
  let main_c_23 : IVec S_ 1 := constantI S_ 1 1#1
  let main_v62 : IVec S_ 1 := (fun x v => Host.reduce IntOp.andi x v reducesTo_S6144_S_d0 h_S_) main_v61 main_c_23
  let main_v63 : IVec S_ 1 := andi main_v58 main_v62
  let main_v64 : FVec F S6144x6144 .f32 := Host.absf main_arg13
  let main_cst_24 : FVec F S_ .f32 := constant S_ .f32 0x7F800000#32
  let main_v65 : FVec F S6144x6144 .f32 := broadcastInDim S6144x6144 ![] bcast_S_S6144x6144 main_cst_24
  let main_v66 : IVec S6144x6144 1 := cmpf .olt main_v64 main_v65
  let main_c_25 : IVec S_ 1 := constantI S_ 1 1#1
  let main_v67 : IVec S_ 1 := (fun x v => Host.reduce IntOp.andi x v reducesTo_S6144x6144_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S6144x3072 .f32) (main_arg8 : FVec F S6144 .f32) (main_arg9 : FVec F S6144 .f32) (main_arg10 : FVec F S6144 .f32) (main_arg11 : FVec F S6144 .f32) (main_arg12 : FVec F S6144 .f32) (main_arg13 : FVec F S6144x6144 .f32) (main_arg14 : FVec F S6144 .f32) (main_arg15 : FVec F S6144 .f32) (main_arg16 : FVec F S6144 .f32) (main_arg17 : FVec F S6144 .f32) (main_arg18 : FVec F S6144 .f32) (main_arg19 : FVec F S10x6144 .f32) (main_arg20 : FVec F S10 .f32) (main_v33 : IVec S_ 1) : IVec S_ 1 :=
  let main_v34 : FVec F S6144x3072 .f32 := Host.absf main_arg7
  let main_cst_12 : FVec F S_ .f32 := constant S_ .f32 0x7F800000#32
  let main_v35 : FVec F S6144x3072 .f32 := broadcastInDim S6144x3072 ![] bcast_S_S6144x3072 main_cst_12
  let main_v36 : IVec S6144x3072 1 := cmpf .olt main_v34 main_v35
  let main_c_13 : IVec S_ 1 := constantI S_ 1 1#1
  let main_v37 : IVec S_ 1 := (fun x v => Host.reduce IntOp.andi x v reducesTo_S6144x3072_S_d0_1 h_S_) main_v36 main_c_13
  let main_v38 : IVec S_ 1 := andi main_v33 main_v37
  let main_v39 : FVec F S6144 .f32 := Host.absf main_arg8
  let main_cst_14 : FVec F S_ .f32 := constant S_ .f32 0x7F800000#32
  let main_v40 : FVec F S6144 .f32 := broadcastInDim S6144 ![] bcast_S_S6144 main_cst_14
  let main_v41 : IVec S6144 1 := cmpf .olt main_v39 main_v40
  let main_c_15 : IVec S_ 1 := constantI S_ 1 1#1
  let main_v42 : IVec S_ 1 := (fun x v => Host.reduce IntOp.andi x v reducesTo_S6144_S_d0 h_S_) main_v41 main_c_15
  let main_v43 : IVec S_ 1 := andi main_v38 main_v42
  let main_v44 : FVec F S6144 .f32 := Host.absf main_arg9
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S6144 .f32 := Host.absf main_arg10
  let main_cst_18 : FVec F S_ .f32 := constant S_ .f32 0x7F800000#32
  let main_v50 : FVec F S6144 .f32 := broadcastInDim S6144 ![] bcast_S_S6144 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S3072 .f32) (main_arg5 : FVec F S3072 .f32) (main_arg6 : FVec F S3072 .f32) (main_arg7 : FVec F S6144x3072 .f32) (main_arg8 : FVec F S6144 .f32) (main_arg9 : FVec F S6144 .f32) (main_arg10 : FVec F S6144 .f32) (main_arg11 : FVec F S6144 .f32) (main_arg12 : FVec F S6144 .f32) (main_arg13 : FVec F S6144x6144 .f32) (main_arg14 : FVec F S6144 .f32) (main_arg15 : FVec F S6144 .f32) (main_arg16 : FVec F S6144 .f32) (main_arg17 : FVec F S6144 .f32) (main_arg18 : FVec F S6144 .f32) (main_arg19 : FVec F S10x6144 .f32) (main_arg20 : FVec F S10 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S3072 .f32 := Host.absf main_arg6
  let main_cst_10 : FVec F S_ .f32 := constant S_ .f32 0x7F800000#32
  let main_v30 : FVec F S3072 .f32 := broadcastInDim S3072 ![] bcast_S_S3072 main_cst_10
  let main_v31 : IVec S3072 1 := cmpf .olt main_v29 main_v30
  let main_c_11 : IVec S_ 1 := constantI S_ 1 1#1
  let main_v32 : IVec S_ 1 := (fun x v => Host.reduce IntOp.andi x v reducesTo_S3072_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S8192x784 .f32) (main_arg1 : FVec F S3072x784 .f32) (main_arg2 : FVec F S3072 .f32) (main_arg3 : FVec F S3072 .f32) (main_arg4 : FVec F S3072 .f32) (main_arg5 : FVec F S3072 .f32) (main_arg6 : FVec F S3072 .f32) (main_arg7 : FVec F S6144x3072 .f32) (main_arg8 : FVec F S6144 .f32) (main_arg9 : FVec F S6144 .f32) (main_arg10 : FVec F S6144 .f32) (main_arg11 : FVec F S6144 .f32) (main_arg12 : FVec F S6144 .f32) (main_arg13 : FVec F S6144x6144 .f32) (main_arg14 : FVec F S6144 .f32) (main_arg15 : FVec F S6144 .f32) (main_arg16 : FVec F S6144 .f32) (main_arg17 : FVec F S6144 .f32) (main_arg18 : FVec F S6144 .f32) (main_arg19 : FVec F S10x6144 .f32) (main_arg20 : FVec F S10 .f32) : IVec S_ 1 :=
  let main_v0 : FVec F S8192x784 .f32 := Host.absf main_arg0
  let main_cst : FVec F S_ .f32 := constant S_ .f32 0x7F800000#32
  let main_v1 : FVec F S8192x784 .f32 := broadcastInDim S8192x784 ![] bcast_S_S8192x784 main_cst
  let main_v2 : IVec S8192x784 1 := cmpf .olt main_v0 main_v1
  let main_c : IVec S_ 1 := constantI S_ 1 1#1
  let main_v3 : IVec S_ 1 := (fun x v => Host.reduce IntOp.andi x v reducesTo_S8192x784_S_d0_1 h_S_) main_v2 main_c
  let main_v4 : FVec F S3072x784 .f32 := Host.absf main_arg1
  let main_cst_0 : FVec F S_ .f32 := constant S_ .f32 0x7F800000#32
  let main_v5 : FVec F S3072x784 .f32 := broadcastInDim S3072x784 ![] bcast_S_S3072x784 main_cst_0
  let main_v6 : IVec S3072x784 1 := cmpf .olt main_v4 main_v5
  let main_c_1 : IVec S_ 1 := constantI S_ 1 1#1
  let main_v7 : IVec S_ 1 := (fun x v => Host.reduce IntOp.andi x v reducesTo_S3072x784_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S8192x784 : Shape := ⟨2, ![8192, 784]⟩
abbrev S3072x784 : Shape := ⟨2, ![3072, 784]⟩
abbrev S3072 : Shape := ⟨1, ![3072]⟩
abbrev S6144x3072 : Shape := ⟨2, ![6144, 3072]⟩
abbrev S6144 : Shape := ⟨1, ![6144]⟩
abbrev S6144x6144 : Shape := ⟨2, ![6144, 6144]⟩
abbrev S10x6144 : Shape := ⟨2, ![10, 6144]⟩
abbrev S10 : Shape := ⟨1, ![10]⟩
abbrev S1x3072 : Shape := ⟨2, ![1, 3072]⟩
abbrev S8192x3072 : Shape := ⟨2, ![8192, 3072]⟩
abbrev S1024x784 : Shape := ⟨2, ![1024, 784]⟩
abbrev S1x1024 : Shape := ⟨2, ![1, 1024]⟩
abbrev S1024x1024 : Shape := ⟨2, ![1024, 1024]⟩
abbrev S784x1024 : Shape := ⟨2, ![784, 1024]⟩
abbrev S1x6144 : Shape := ⟨2, ![1, 6144]⟩
abbrev S8192x6144 : Shape := ⟨2, ![8192, 6144]⟩
abbrev S1x10 : Shape := ⟨2, ![1, 10]⟩
abbrev S8192x10 : Shape := ⟨2, ![8192, 10]⟩
abbrev S1024x6144 : Shape := ⟨2, ![1024, 6144]⟩
abbrev S1024x10 : Shape := ⟨2, ![1024, 10]⟩
abbrev S6144x10 : Shape := ⟨2, ![6144, 10]⟩
abbrev S1024 : Shape := ⟨1, ![1024]⟩
abbrev S1024x1 : Shape := ⟨2, ![1024, 1]⟩

abbrev nBuf : Space → Nat
  | .hbm => 48
  | .vmem => 57
  | .smem => 0
  | _ => 0

abbrev bufTy : (tb : Table) → Fin (tcTables nBuf tb) → BufTy
  | .hbm, ⟨0, _⟩ => ⟨S8192x784, .f32⟩
  | .hbm, ⟨1, _⟩ => ⟨S3072x784, .f32⟩
  | .hbm, ⟨2, _⟩ => ⟨S3072, .f32⟩
  | .hbm, ⟨3, _⟩ => ⟨S3072, .f32⟩
  | .hbm, ⟨4, _⟩ => ⟨S3072, .f32⟩
  | .hbm, ⟨5, _⟩ => ⟨S3072, .f32⟩
  | .hbm, ⟨6, _⟩ => ⟨S3072, .f32⟩
  | .hbm, ⟨7, _⟩ => ⟨S6144x3072, .f32⟩
  | .hbm, ⟨8, _⟩ => ⟨S6144, .f32⟩
  | .hbm, ⟨9, _⟩ => ⟨S6144, .f32⟩
  | .hbm, ⟨10, _⟩ => ⟨S6144, .f32⟩
  | .hbm, ⟨11, _⟩ => ⟨S6144, .f32⟩
  | .hbm, ⟨12, _⟩ => ⟨S6144, .f32⟩
  | .hbm, ⟨13, _⟩ => ⟨S6144x6144, .f32⟩
  | .hbm, ⟨14, _⟩ => ⟨S6144, .f32⟩
  | .hbm, ⟨15, _⟩ => ⟨S6144, .f32⟩
  | .hbm, ⟨16, _⟩ => ⟨S6144, .f32⟩
  | .hbm, ⟨17, _⟩ => ⟨S6144, .f32⟩
  | .hbm, ⟨18, _⟩ => ⟨S6144, .f32⟩
  | .hbm, ⟨19, _⟩ => ⟨S10x6144, .f32⟩
  | .hbm, ⟨20, _⟩ => ⟨S10, .f32⟩
  | .hbm, ⟨21, _⟩ => ⟨S8192x784, .bf16⟩
  | .hbm, ⟨22, _⟩ => ⟨S3072x784, .f32⟩
  | .hbm, ⟨23, _⟩ => ⟨S3072x784, .bf16⟩
  | .hbm, ⟨24, _⟩ => ⟨S6144x3072, .f32⟩
  | .hbm, ⟨25, _⟩ => ⟨S6144x3072, .bf16⟩
  | .hbm, ⟨26, _⟩ => ⟨S6144x6144, .f32⟩
  | .hbm, ⟨27, _⟩ => ⟨S6144x6144, .bf16⟩
  | .hbm, ⟨28, _⟩ => ⟨S1x3072, .f32⟩
  | .hbm, ⟨29, _⟩ => ⟨S1x3072, .f32⟩
  | .hbm, ⟨30, _⟩ => ⟨S1x3072, .f32⟩
  | .hbm, ⟨31, _⟩ => ⟨S1x3072, .f32⟩
  | .hbm, ⟨32, _⟩ => ⟨S1x3072, .f32⟩
  | .hbm, ⟨33, _⟩ => ⟨S8192x3072, .bf16⟩
  | .hbm, ⟨34, _⟩ => ⟨S1x6144, .f32⟩
  | .hbm, ⟨35, _⟩ => ⟨S1x6144, .f32⟩
  | .hbm, ⟨36, _⟩ => ⟨S1x6144, .f32⟩
  | .hbm, ⟨37, _⟩ => ⟨S1x6144, .f32⟩
  | .hbm, ⟨38, _⟩ => ⟨S1x6144, .f32⟩
  | .hbm, ⟨39, _⟩ => ⟨S8192x6144, .bf16⟩
  | .hbm, ⟨40, _⟩ => ⟨S1x6144, .f32⟩
  | .hbm, ⟨41, _⟩ => ⟨S1x6144, .f32⟩
  | .hbm, ⟨42, _⟩ => ⟨S1x6144, .f32⟩
  | .hbm, ⟨43, _⟩ => ⟨S1x6144, .f32⟩
  | .hbm, ⟨44, _⟩ => ⟨S1x6144, .f32⟩
  | .hbm, ⟨45, _⟩ => ⟨S8192x6144, .bf16⟩
  | .hbm, ⟨46, _⟩ => ⟨S1x10, .f32⟩
  | .hbm, ⟨47, _⟩ => ⟨S8192x10, .f32⟩
  | .local _ .vmem, ⟨0, _⟩ => ⟨S1024x784, .bf16⟩
  | .local _ .vmem, ⟨1, _⟩ => ⟨S1024x784, .bf16⟩
  | .local _ .vmem, ⟨2, _⟩ => ⟨S1024x784, .bf16⟩
  | .local _ .vmem, ⟨3, _⟩ => ⟨S1024x784, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1024x1024, .bf16⟩
  | .local _ .vmem, ⟨32, _⟩ => ⟨S1024x1024, .bf16⟩
  | .local _ .vmem, ⟨33, _⟩ => ⟨S1024x1024, .f32⟩
  | .local _ .vmem, ⟨34, _⟩ => ⟨S1024x1024, .bf16⟩
  | .local _ .vmem, ⟨35, _⟩ => ⟨S1024x1024, .bf16⟩
  | .local _ .vmem, ⟨36, _⟩ => ⟨S1024x1024, .bf16⟩
  | .local _ .vmem, ⟨37, _⟩ => ⟨S1024x1024, .bf16⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1024x1024, .bf16⟩
  | .local _ .vmem, ⟨49, _⟩ => ⟨S1024x1024, .bf16⟩
  | .local _ .vmem, ⟨50, _⟩ => ⟨S1024x1024, .f32⟩
  | .local _ .vmem, ⟨51, _⟩ => ⟨S1024x6144, .bf16⟩
  | .local _ .vmem, ⟨52, _⟩ => ⟨S1024x6144, .bf16⟩
  | .local _ .vmem, ⟨53, _⟩ => ⟨S10x6144, .f32⟩
  | .local _ .vmem, ⟨54, _⟩ => ⟨S1x10, .f32⟩
  | .local _ .vmem, ⟨55, _⟩ => ⟨S1024x10, .f32⟩
  | .local _ .vmem, ⟨56, _⟩ => ⟨S1024x10, .f32⟩
  | _, _ => ⟨S8192x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_scratch0 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg4_1 : Ref sig .tc := ⟨.vmem, 43, rfl⟩
abbrev cc2_stg5_0 : Ref sig .tc := ⟨.vmem, 44, rfl⟩
abbrev cc2_stg5_1 : Ref sig .tc := ⟨.vmem, 45, rfl⟩
abbrev cc2_stg6_0 : Ref sig .tc := ⟨.vmem, 46, rfl⟩
abbrev cc2_stg6_1 : Ref sig .tc := ⟨.vmem, 47, rfl⟩
abbrev cc2_stg7_0 : Ref sig .tc := ⟨.vmem, 48, rfl⟩
abbrev cc2_stg7_1 : Ref sig .tc := ⟨.vmem, 49, rfl⟩
abbrev cc2_scratch0 : Ref sig .tc := ⟨.vmem, 50, rfl⟩
abbrev cc3_stg0_0 : Ref sig .tc := ⟨.vmem, 51, rfl⟩
abbrev cc3_stg0_1 : Ref sig .tc := ⟨.vmem, 52, rfl⟩
abbrev cc3_stg1_0 : Ref sig .tc := ⟨.vmem, 53, rfl⟩
abbrev cc3_stg2_0 : Ref sig .tc := ⟨.vmem, 54, rfl⟩
abbrev cc3_stg3_0 : Ref sig .tc := ⟨.vmem, 55, rfl⟩
abbrev cc3_stg3_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem2_0 : DmaSem sig := 51
abbrev cc3_sem3_0 : DmaSem sig := 52
abbrev cc3_sem3_1 : DmaSem sig := 53

abbrev nD : Nat := 1
abbrev τ : Topo := Topo.v7x

variable {F : FTy → Type} [BitOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x784 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x784 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![8, 6, 3], ![false, false, false]⟩

def k1_cond2 (i : grid1.Coords) : BitVec 1 :=
  let arg2 : BitVec 32 := BitVec.ofNat 32 (i 2).val
  let c2_i32 : BitVec 32 := 2#32
  let v14 : BitVec 1 := Scalar.cmpi .eq arg2 c2_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, false]

abbrev stage1_7 : Fin 2 → Memref sig .tc .vmem S1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨3, ![8, 6, 6], ![false, false, false]⟩

def k2_cond2 (i : grid2.Coords) : BitVec 1 :=
  let arg2 : BitVec 32 := BitVec.ofNat 32 (i 2).val
  let c5_i32 : BitVec 32 := 5#32
  let v14 : BitVec 1 := Scalar.cmpi .eq arg2 c5_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, false]

abbrev stage2_5 : Fin 2 → Memref sig .tc .vmem S1x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true, false]

abbrev stage2_6 : Fin 2 → Memref sig .tc .vmem S1x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true, false]

abbrev stage2_7 : Fin 2 → Memref sig .tc .vmem S1024x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x6144 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10x6144 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x10 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bitsLt_bf16_f32 : FTy.bits .bf16 < FTy.bits .f32
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x784_S1024x784_0_0 : ∀ a, (![0, 0] : Fin 2 → Nat) a + S1024x784.size a ≤ S1024x784.size a
  h_S1024x784 : 0 < S1024x784.numel
  shapeCasts_S1024x784_S1024x784 : S1024x784.ShapeCasts S1024x784
  transposes_S1024x784_p1_0_S784x1024 : S1024x784.Transposes [1, 0] S784x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S6144_S1x6144 : S6144.ShapeCasts S1x6144
  transposes_S1024x1024_p1_0_S1024x1024 : S1024x1024.Transposes [1, 0] S1024x1024
  shapeCasts_S10_S1x10 : S10.ShapeCasts S1x10
  inb_S1024x6144_S1024x6144_0_0 : ∀ a, (![0, 0] : Fin 2 → Nat) a + S1024x6144.size a ≤ S1024x6144.size a
  h_S1024x6144 : 0 < S1024x6144.numel
  shapeCasts_S1024x6144_S1024x6144 : S1024x6144.ShapeCasts S1024x6144
  inb_S10x6144_S10x6144_0_0 : ∀ a, (![0, 0] : Fin 2 → Nat) a + S10x6144.size a ≤ S10x6144.size a
  h_S10x6144 : 0 < S10x6144.numel
  transposes_S10x6144_p1_0_S6144x10 : S10x6144.Transposes [1, 0] S6144x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  inb_S1024x10_S1024x10_0_0 : ∀ a, (![0, 0] : Fin 2 → Nat) a + S1024x10.size a ≤ S1024x10.size a
  h_S1024x10 : 0 < S1024x10.numel
  dot_S1024x784_S784x1024_S1024x1024_1_0_0_1_n_n_wf : DotDims.WF S1024x784 S784x1024 S1024x1024 [1] [0] [0] [1] [] []
  dot_S1024x1024_S1024x1024_S1024x1024_1_0_0_1_n_n_wf : DotDims.WF S1024x1024 S1024x1024 S1024x1024 [1] [0] [0] [1] [] []
  dot_S1024x6144_S6144x10_S1024x10_1_0_0_1_n_n_wf : DotDims.WF S1024x6144 S6144x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S8192x784.size a
  hwx0_0 : ∀ i : grid0.Coords, EltTy.bits .bf16 = 32 ∨ (Rect.block (s := S8192x784) S1024x784.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x784.size a ≤ S3072x784.size a
  hwx0_1 : ∀ i : grid0.Coords, EltTy.bits .bf16 = 32 ∨ (Rect.block (s := S3072x784) S1024x784.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x3072.size a
  hwx0_3 : ∀ i : grid0.Coords, EltTy.bits .f32 = 32 ∨ (Rect.block (s := S1x3072) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x3072.size a
  hwx0_4 : ∀ i : grid0.Coords, EltTy.bits .f32 = 32 ∨ (Rect.block (s := S1x3072) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x3072.size a
  hwx0_5 : ∀ i : grid0.Coords, EltTy.bits .f32 = 32 ∨ (Rect.block (s := S1x3072) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x3072.size a
  hwx0_6 : ∀ i : grid0.Coords, EltTy.bits .f32 = 32 ∨ (Rect.block (s := S1x3072) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x3072.size a
  hwx0_7 : ∀ i : grid0.Coords, EltTy.bits .bf16 = 32 ∨ (Rect.block (s := S8192x3072) S1024x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x3072.size a
  hwx1_0 : ∀ i : grid1.Coords, EltTy.bits .bf16 = 32 ∨ (Rect.block (s := S8192x3072) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S6144x3072.size a
  hwx1_1 : ∀ i : grid1.Coords, EltTy.bits .bf16 = 32 ∨ (Rect.block (s := S6144x3072) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x6144.size a
  hwx1_2 : ∀ i : grid1.Coords, EltTy.bits .f32 = 32 ∨ (Rect.block (s := S1x6144) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x6144.size a
  hwx1_3 : ∀ i : grid1.Coords, EltTy.bits .f32 = 32 ∨ (Rect.block (s := S1x6144) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x6144.size a
  hwx1_4 : ∀ i : grid1.Coords, EltTy.bits .f32 = 32 ∨ (Rect.block (s := S1x6144) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x6144.size a
  hwx1_5 : ∀ i : grid1.Coords, EltTy.bits .f32 = 32 ∨ (Rect.block (s := S1x6144) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x6144.size a
  hwx1_6 : ∀ i : grid1.Coords, EltTy.bits .f32 = 32 ∨ (Rect.block (s := S1x6144) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S8192x6144.size a
  hwx1_7 : ∀ i : grid1.Coords, EltTy.bits .bf16 = 32 ∨ (Rect.block (s := S8192x6144) S1024x1024.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x6144.size a
  hwx2_0 : ∀ i : grid2.Coords, EltTy.bits .bf16 = 32 ∨ (Rect.block (s := S8192x6144) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S6144x6144.size a
  hwx2_1 : ∀ i : grid2.Coords, EltTy.bits .bf16 = 32 ∨ (Rect.block (s := S6144x6144) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x6144.size a
  hwx2_2 : ∀ i : grid2.Coords, EltTy.bits .f32 = 32 ∨ (Rect.block (s := S1x6144) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x6144.size a
  hwx2_3 : ∀ i : grid2.Coords, EltTy.bits .f32 = 32 ∨ (Rect.block (s := S1x6144) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x6144.size a
  hwx2_4 : ∀ i : grid2.Coords, EltTy.bits .f32 = 32 ∨ (Rect.block (s := S1x6144) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x6144.size a
  hwx2_5 : ∀ i : grid2.Coords, EltTy.bits .f32 = 32 ∨ (Rect.block (s := S1x6144) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x6144.size a
  hwx2_6 : ∀ i : grid2.Coords, EltTy.bits .f32 = 32 ∨ (Rect.block (s := S1x6144) S1x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x1024.size a ≤ S8192x6144.size a
  hwx2_7 : ∀ i : grid2.Coords, EltTy.bits .bf16 = 32 ∨ (Rect.block (s := S8192x6144) S1024x1024.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x6144.size a ≤ S8192x6144.size a
  hwx3_0 : ∀ i : grid3.Coords, EltTy.bits .bf16 = 32 ∨ (Rect.block (s := S8192x6144) S1024x6144.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10x6144.size a ≤ S10x6144.size a
  hwx3_1 : ∀ i : grid3.Coords, EltTy.bits .f32 = 32 ∨ (Rect.block (s := S10x6144) S10x6144.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x10.size a ≤ S8192x10.size a
  hwx3_3 : ∀ i : grid3.Coords, EltTy.bits .f32 = 32 ∨ (Rect.block (s := S8192x10) S1024x10.size (cc3_transform_3 i) (hinb3_3 i)).WholeWords (EltTy.packing .f32)

variable [Facts₀]

def dot_S1024x784_S784x1024_S1024x1024_1_0_0_1_n_n : DotDims S1024x784 S784x1024 S1024x1024 where
  lhsContracting := [1]
  rhsContracting := [0]
  lhsNonContracting := [0]
  rhsNonContracting := [1]
  lhsBatch := []
  rhsBatch := []
  wf := dot_S1024x784_S784x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x6144_S6144x10_S1024x10_1_0_0_1_n_n : DotDims S1024x6144 S6144x10 S1024x10 where
  lhsContracting := [1]
  rhsContracting := [0]
  lhsNonContracting := [0]
  rhsNonContracting := [1]
  lhsBatch := []
  rhsBatch := []
  wf := dot_S1024x6144_S6144x10_S1024x10_1_0_0_1_n_n_wf

abbrev win0_0 : Pipeline.Window sig grid0 :=
  Pipeline.Window.ofSpec (Memref.whole main_v0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x784.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v12) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v18) S1024x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v18) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v22) S1x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v23) S1x1024.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v24) S1024x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v24) S1024x6144.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg19) S10x6144.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v26) S1024x10.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8192x784 : Shape := ⟨2, ![8192, 784]⟩
abbrev S3072x784 : Shape := ⟨2, ![3072, 784]⟩
abbrev S3072 : Shape := ⟨1, ![3072]⟩
abbrev S6144x3072 : Shape := ⟨2, ![6144, 3072]⟩
abbrev S6144 : Shape := ⟨1, ![6144]⟩
abbrev S6144x6144 : Shape := ⟨2, ![6144, 6144]⟩
abbrev S10x6144 : Shape := ⟨2, ![10, 6144]⟩
abbrev S10 : Shape := ⟨1, ![10]⟩
abbrev S784x3072 : Shape := ⟨2, ![784, 3072]⟩
abbrev S8192x3072 : Shape := ⟨2, ![8192, 3072]⟩
abbrev S1x3072 : Shape := ⟨2, ![1, 3072]⟩
abbrev S_ : Shape := ⟨0, ![]⟩
abbrev S3072x6144 : Shape := ⟨2, ![3072, 6144]⟩
abbrev S8192x6144 : Shape := ⟨2, ![8192, 6144]⟩
abbrev S1x6144 : Shape := ⟨2, ![1, 6144]⟩
abbrev S6144x10 : Shape := ⟨2, ![6144, 10]⟩
abbrev S8192x10 : Shape := ⟨2, ![8192, 10]⟩
abbrev S1x10 : Shape := ⟨2, ![1, 10]⟩
abbrev S8192 : Shape := ⟨1, ![8192]⟩
abbrev S8192x1 : Shape := ⟨2, ![8192, 1]⟩

abbrev nBuf : Space → Nat
  | .hbm => 127
  | .vmem => 0
  | .smem => 0
  | _ => 0

abbrev bufTy : (tb : Table) → Fin (tcTables nBuf tb) → BufTy
  | .hbm, ⟨0, _⟩ => ⟨S8192x784, .f32⟩
  | .hbm, ⟨1, _⟩ => ⟨S3072x784, .f32⟩
  | .hbm, ⟨2, _⟩ => ⟨S3072, .f32⟩
  | .hbm, ⟨3, _⟩ => ⟨S3072, .f32⟩
  | .hbm, ⟨4, _⟩ => ⟨S3072, .f32⟩
  | .hbm, ⟨5, _⟩ => ⟨S3072, .f32⟩
  | .hbm, ⟨6, _⟩ => ⟨S3072, .f32⟩
  | .hbm, ⟨7, _⟩ => ⟨S6144x3072, .f32⟩
  | .hbm, ⟨8, _⟩ => ⟨S6144, .f32⟩
  | .hbm, ⟨9, _⟩ => ⟨S6144, .f32⟩
  | .hbm, ⟨10, _⟩ => ⟨S6144, .f32⟩
  | .hbm, ⟨11, _⟩ => ⟨S6144, .f32⟩
  | .hbm, ⟨12, _⟩ => ⟨S6144, .f32⟩
  | .hbm, ⟨13, _⟩ => ⟨S6144x6144, .f32⟩
  | .hbm, ⟨14, _⟩ => ⟨S6144, .f32⟩
  | .hbm, ⟨15, _⟩ => ⟨S6144, .f32⟩
  | .hbm, ⟨16, _⟩ => ⟨S6144, .f32⟩
  | .hbm, ⟨17, _⟩ => ⟨S6144, .f32⟩
  | .hbm, ⟨18, _⟩ => ⟨S6144, .f32⟩
  | .hbm, ⟨19, _⟩ => ⟨S10x6144, .f32⟩
  | .hbm, ⟨20, _⟩ => ⟨S10, .f32⟩
  | .hbm, ⟨21, _⟩ => ⟨S3072x784, .f32⟩
  | .hbm, ⟨22, _⟩ => ⟨S784x3072, .f32⟩
  | .hbm, ⟨23, _⟩ => ⟨S8192x3072, .f32⟩
  | .hbm, ⟨24, _⟩ => ⟨S1x3072, .f32⟩
  | .hbm, ⟨25, _⟩ => ⟨S8192x3072, .f32⟩
  | .hbm, ⟨26, _⟩ => ⟨S8192x3072, .f32⟩
  | .hbm, ⟨27, _⟩ => ⟨S1x3072, .f32⟩
  | .hbm, ⟨28, _⟩ => ⟨S8192x3072, .f32⟩
  | .hbm, ⟨29, _⟩ => ⟨S8192x3072, .f32⟩
  | .hbm, ⟨30, _⟩ => ⟨S_, .f32⟩
  | .hbm, ⟨31, _⟩ => ⟨S3072, .f32⟩
  | .hbm, ⟨32, _⟩ => ⟨S3072, .f32⟩
  | .hbm, ⟨33, _⟩ => ⟨S3072, .f32⟩
  | .hbm, ⟨34, _⟩ => ⟨S3072, .f32⟩
  | .hbm, ⟨35, _⟩ => ⟨S1x3072, .f32⟩
  | .hbm, ⟨36, _⟩ => ⟨S8192x3072, .f32⟩
  | .hbm, ⟨37, _⟩ => ⟨S8192x3072, .f32⟩
  | .hbm, ⟨38, _⟩ => ⟨S1x3072, .f32⟩
  | .hbm, ⟨39, _⟩ => ⟨S8192x3072, .f32⟩
  | .hbm, ⟨40, _⟩ => ⟨S8192x3072, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192x3072, .f32⟩
  | .hbm, ⟨45, _⟩ => ⟨S8192x3072, .f32⟩
  | .hbm, ⟨46, _⟩ => ⟨S_, .f32⟩
  | .hbm, ⟨47, _⟩ => ⟨S8192x3072, .f32⟩
  | .hbm, ⟨48, _⟩ => ⟨S8192x3072, .f32⟩
  | .hbm, ⟨49, _⟩ => ⟨S8192x3072, .f32⟩
  | .hbm, ⟨50, _⟩ => ⟨S6144x3072, .f32⟩
  | .hbm, ⟨51, _⟩ => ⟨S3072x6144, .f32⟩
  | .hbm, ⟨52, _⟩ => ⟨S8192x6144, .f32⟩
  | .hbm, ⟨53, _⟩ => ⟨S1x6144, .f32⟩
  | .hbm, ⟨54, _⟩ => ⟨S8192x6144, .f32⟩
  | .hbm, ⟨55, _⟩ => ⟨S8192x6144, .f32⟩
  | .hbm, ⟨56, _⟩ => ⟨S1x6144, .f32⟩
  | .hbm, ⟨57, _⟩ => ⟨S8192x6144, .f32⟩
  | .hbm, ⟨58, _⟩ => ⟨S8192x6144, .f32⟩
  | .hbm, ⟨59, _⟩ => ⟨S_, .f32⟩
  | .hbm, ⟨60, _⟩ => ⟨S6144, .f32⟩
  | .hbm, ⟨61, _⟩ => ⟨S6144, .f32⟩
  | .hbm, ⟨62, _⟩ => ⟨S6144, .f32⟩
  | .hbm, ⟨63, _⟩ => ⟨S6144, .f32⟩
  | .hbm, ⟨64, _⟩ => ⟨S1x6144, .f32⟩
  | .hbm, ⟨65, _⟩ => ⟨S8192x6144, .f32⟩
  | .hbm, ⟨66, _⟩ => ⟨S8192x6144, .f32⟩
  | .hbm, ⟨67, _⟩ => ⟨S1x6144, .f32⟩
  | .hbm, ⟨68, _⟩ => ⟨S8192x6144, .f32⟩
  | .hbm, ⟨69, _⟩ => ⟨S8192x6144, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S8192x6144, .f32⟩
  | .hbm, ⟨74, _⟩ => ⟨S8192x6144, .f32⟩
  | .hbm, ⟨75, _⟩ => ⟨S_, .f32⟩
  | .hbm, ⟨76, _⟩ => ⟨S8192x6144, .f32⟩
  | .hbm, ⟨77, _⟩ => ⟨S8192x6144, .f32⟩
  | .hbm, ⟨78, _⟩ => ⟨S8192x6144, .f32⟩
  | .hbm, ⟨79, _⟩ => ⟨S6144x6144, .f32⟩
  | .hbm, ⟨80, _⟩ => ⟨S6144x6144, .f32⟩
  | .hbm, ⟨81, _⟩ => ⟨S8192x6144, .f32⟩
  | .hbm, ⟨82, _⟩ => ⟨S1x6144, .f32⟩
  | .hbm, ⟨83, _⟩ => ⟨S8192x6144, .f32⟩
  | .hbm, ⟨84, _⟩ => ⟨S8192x6144, .f32⟩
  | .hbm, ⟨85, _⟩ => ⟨S1x6144, .f32⟩
  | .hbm, ⟨86, _⟩ => ⟨S8192x6144, .f32⟩
  | .hbm, ⟨87, _⟩ => ⟨S8192x6144, .f32⟩
  | .hbm, ⟨88, _⟩ => ⟨S_, .f32⟩
  | .hbm, ⟨89, _⟩ => ⟨S6144, .f32⟩
  | .hbm, ⟨90, _⟩ => ⟨S6144, .f32⟩
  | .hbm, ⟨91, _⟩ => ⟨S6144, .f32⟩
  | .hbm, ⟨92, _⟩ => ⟨S6144, .f32⟩
  | .hbm, ⟨93, _⟩ => ⟨S1x6144, .f32⟩
  | .hbm, ⟨94, _⟩ => ⟨S8192x6144, .f32⟩
  | .hbm, ⟨95, _⟩ => ⟨S8192x6144, .f32⟩
  | .hbm, ⟨96, _⟩ => ⟨S1x6144, .f32⟩
  | .hbm, ⟨97, _⟩ => ⟨S8192x6144, .f32⟩
  | .hbm, ⟨98, _⟩ => ⟨S8192x6144, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S8192x6144, .f32⟩
  | .hbm, ⟨103, _⟩ => ⟨S8192x6144, .f32⟩
  | .hbm, ⟨104, _⟩ => ⟨S_, .f32⟩
  | .hbm, ⟨105, _⟩ => ⟨S8192x6144, .f32⟩
  | .hbm, ⟨106, _⟩ => ⟨S8192x6144, .f32⟩
  | .hbm, ⟨107, _⟩ => ⟨S6144x10, .f32⟩
  | .hbm, ⟨108, _⟩ => ⟨S8192x10, .f32⟩
  | .hbm, ⟨109, _⟩ => ⟨S1x10, .f32⟩
  | .hbm, ⟨110, _⟩ => ⟨S8192x10, .f32⟩
  | .hbm, ⟨111, _⟩ => ⟨S8192x10, .f32⟩
  | .hbm, ⟨112, _⟩ => ⟨S_, .f32⟩
  | .hbm, ⟨113, _⟩ => ⟨S8192, .f32⟩
  | .hbm, ⟨114, _⟩ => ⟨S_, .f32⟩
  | .hbm, ⟨115, _⟩ => ⟨S8192, .f32⟩
  | .hbm, ⟨116, _⟩ => ⟨S8192, .f32⟩
  | .hbm, ⟨117, _⟩ => ⟨S8192x1, .f32⟩
  | .hbm, ⟨118, _⟩ => ⟨S8192x10, .f32⟩
  | .hbm, ⟨119, _⟩ => ⟨S8192x10, .f32⟩
  | .hbm, ⟨120, _⟩ => ⟨S8192x10, .f32⟩
  | .hbm, ⟨121, _⟩ => ⟨S_, .f32⟩
  | .hbm, ⟨122, _⟩ => ⟨S8192, .f32⟩
  | .hbm, ⟨123, _⟩ => ⟨S8192x1, .f32⟩
  | .hbm, ⟨124, _⟩ => ⟨S8192x1, .f32⟩
  | .hbm, ⟨125, _⟩ => ⟨S8192x10, .f32⟩
  | .hbm, ⟨126, _⟩ => ⟨S8192x10, .f32⟩
  | _, _ => ⟨S8192x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_0 : Ref sig .tc := ⟨.hbm, 41, rfl⟩
abbrev main_cst_1 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_2 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_3 : Ref sig .tc := ⟨.hbm, 70, rfl⟩
abbrev main_cst_4 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_5 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_6 : Ref sig .tc := ⟨.hbm, 99, rfl⟩
abbrev main_cst_7 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_call3_cst : Ref sig .tc := ⟨.hbm, 112, rfl⟩
abbrev main_call3_v0 : Ref sig .tc := ⟨.hbm, 113, rfl⟩
abbrev main_call3_cst_0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_v6 : Ref sig .tc := ⟨.hbm, 120, rfl⟩
abbrev main_call3_cst_1 : Ref sig .tc := ⟨.hbm, 121, rfl⟩
abbrev main_call3_v7 : Ref sig .tc := ⟨.hbm, 122, rfl⟩
abbrev main_call3_v8 : Ref sig .tc := ⟨.hbm, 123, rfl⟩
abbrev main_call3_v9 : Ref sig .tc := ⟨.hbm, 124, rfl⟩
abbrev main_call3_v10 : Ref sig .tc := ⟨.hbm, 125, rfl⟩
abbrev main_v67 : Ref sig .tc := ⟨.hbm, 126, rfl⟩

abbrev nD : Nat := 1
abbrev τ : Topo := Topo.v7x

variable {F : FTy → Type} [FloatOps F]

class Facts₀ : Prop where
  transposes_S3072x784_S784x3072_1_0 : S3072x784.Transposes [1, 0] S784x3072
  bcast_S3072_S1x3072_1 : S3072.BroadcastsInDim S1x3072 (![1] : Fin 1 → Fin S1x3072.rank)
  bcast_S1x3072_S8192x3072_0_1 : S1x3072.BroadcastsInDim S8192x3072 (![0, 1] : Fin 2 → Fin S8192x3072.rank)
  bcast_S_S3072 : S_.BroadcastsInDim S3072 (![] : Fin 0 → Fin S3072.rank)
  bcast_S_S8192x3072 : S_.BroadcastsInDim S8192x3072 (![] : Fin 0 → Fin S8192x3072.rank)
  transposes_S6144x3072_S3072x6144_1_0 : S6144x3072.Transposes [1, 0] S3072x6144
  bcast_S6144_S1x6144_1 : S6144.BroadcastsInDim S1x6144 (![1] : Fin 1 → Fin S1x6144.rank)
  bcast_S1x6144_S8192x6144_0_1 : S1x6144.BroadcastsInDim S8192x6144 (![0, 1] : Fin 2 → Fin S8192x6144.rank)
  bcast_S_S6144 : S_.BroadcastsInDim S6144 (![] : Fin 0 → Fin S6144.rank)
  bcast_S_S8192x6144 : S_.BroadcastsInDim S8192x6144 (![] : Fin 0 → Fin S8192x6144.rank)
  transposes_S6144x6144_S6144x6144_1_0 : S6144x6144.Transposes [1, 0] S6144x6144
  transposes_S10x6144_S6144x10_1_0 : S10x6144.Transposes [1, 0] S6144x10
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  reducesTo_S8192x10_S8192_d1 : S8192x10.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  dot_S8192x784_S784x3072_S8192x3072_1_0_0_1_n_n_wf : DotDims.WF S8192x784 S784x3072 S8192x3072 [1] [0] [0] [1] [] []
  dot_S8192x3072_S3072x6144_S8192x6144_1_0_0_1_n_n_wf : DotDims.WF S8192x3072 S3072x6144 S8192x6144 [1] [0] [0] [1] [] []
  dot_S8192x6144_S6144x6144_S8192x6144_1_0_0_1_n_n_wf : DotDims.WF S8192x6144 S6144x6144 S8192x6144 [1] [0] [0] [1] [] []
  dot_S8192x6144_S6144x10_S8192x10_1_0_0_1_n_n_wf : DotDims.WF S8192x6144 S6144x10 S8192x10 [1] [0] [0] [1] [] []

variable [Facts₀]

def dot_S8192x784_S784x3072_S8192x3072_1_0_0_1_n_n : DotDims S8192x784 S784x3072 S8192x3072 where
  lhsContracting := [1]
  rhsContracting := [0]
  lhsNonContracting := [0]
  rhsNonContracting := [1]
  lhsBatch := []
  rhsBatch := []
  wf := dot_S8192x784_S784x3072_S8192x3072_1_0_0_1_n_n_wf
def dot_S8192x3072_S3072x6144_S8192x6144_1_0_0_1_n_n : DotDims S8192x3072 S3072x6144 S8192x6144 where
  lhsContracting := [1]
  rhsContracting := [0]
  lhsNonContracting := [0]
  rhsNonContracting := [1]
  lhsBatch := []
  rhsBatch := []
  wf := dot_S8192x3072_S3072x6144_S8192x6144_1_0_0_1_n_n_wf
def dot_S8192x6144_S6144x6144_S8192x6144_1_0_0_1_n_n : DotDims S8192x6144 S6144x6144 S8192x6144 where
  lhsContracting := [1]
  rhsContracting := [0]
  lhsNonContracting := [0]
  rhsNonContracting := [1]
  lhsBatch := []
  rhsBatch := []
  wf := dot_S8192x6144_S6144x6144_S8192x6144_1_0_0_1_n_n_wf
def dot_S8192x6144_S6144x10_S8192x10_1_0_0_1_n_n : DotDims S8192x6144 S6144x10 S8192x10 where
  lhsContracting := [1]
  rhsContracting := [0]
  lhsNonContracting := [0]
  rhsNonContracting := [1]
  lhsBatch := []
  rhsBatch := []
  wf := dot_S8192x6144_S6144x10_S8192x10_1_0_0_1_n_n_wf

class Facts : Prop extends Facts₀ where

variable [Facts]
-- ==== Proof.K.L0Runs.lean ====
import proofs.«104501_j58892591563191_2_alg».proof.Proof.Gen.Kernel.Launch
import proofs.«104501_j58892591563191_2_alg».proof.Proof.Gen.Kernel.Skeleton
import proofs.«104501_j58892591563191_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## Region 0: the two conditions of the body, decided over the grid

The contraction axis is one block long, so every grid point both resets the accumulator and
finishes its block: both conditions hold at every point. -/

abbrev first0 (i : grid0.Coords) : Prop := (Scalar.cmpi .ne (Scalar.extui (Scalar.cmpi .eq (BitVec.ofNat 32 (i 2).val) 0#32)) 0#32) = 1#1
theorem first0_all : ∀ t : Fin cfg0.N, first0 (grid0.coords t) :=
  (by decide +kernel : ∀ t : Fin grid0.N, first0 (grid0.coords t))
abbrev last0 (i : grid0.Coords) : Prop := k0_cond2 i = 1#1
theorem last0_all : ∀ t : Fin cfg0.N, last0 (grid0.coords t) :=
  (by decide +kernel : ∀ t : Fin grid0.N, last0 (grid0.coords t))
/-- The output window is live at every point. -/
theorem live0_7 : ∀ t : Fin cfg0.N, cfg0.idle 7 (grid0.coords t) = false := by decide +kernel

abbrev VO0 : View sig .tc .vmem S1024x1024 .bf16 := (Memref.whole cc0_stg7_0 : Memref sig .tc .vmem S1024x1024 .bf16).view
abbrev scM0 : Memref sig .tc .vmem S1024x1024 .f32 := Memref.whole cc0_scratch0
abbrev VS0 : View sig .tc .vmem S1024x1024 .f32 := scM0.view

set_option maxHeartbeats 4000000 in
/-- The one step of a block: the accumulator, whatever it held, is zeroed and receives the whole product;
    the normalised, binarised block is stored into the output window's buffer, whatever that held. -/
noncomputable def kernelRun0_D (c : Dev nD) (i : grid0.Coords) (arg3 : Memref sig .tc .vmem S1024x784 .bf16) (harg3 : arg3.IsWhole) (arg4 : Memref sig .tc .vmem S1024x784 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : first0 i) (hc1 : last0 i)
    (x3 : Vec F S1024x784 .bf16) (x4 : Vec F S1024x784 .bf16) (x5 x6 x7 x8 x9 : Vec F S1x1024 .f32) :
    Σ' (L7 : List (View.Piece (Elt F) S1024x1024 .bf16)), { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS)) -∗ K ⟨⟩))
          ⊢ wp frame (wpE (defs₀ (F := F)) Variants.none c none) E (cc0__binary_layer_kernel i arg3 harg3 arg4 harg4 arg5 harg5 arg6 harg6 arg7 harg7 arg8 harg8 arg9 harg9 arg10 harg10 arg11 harg11) K } := by
  refine ⟨?_, ?_, fun E K => ?run⟩
  case run =>
    simp only [cc0__binary_layer_kernel_eq_skeleton]; unfold cc0__binary_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds, %fs, -, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; iexact HS

end Cert.Kernel.Hand

end
-- ==== Proof.K.L0Dat.lean ====
import proofs.«104501_j58892591563191_2_alg».proof.Proof.Gen.Kernel.Launch
import proofs.«104501_j58892591563191_2_alg».proof.Proof.Gen.Kernel.Skeleton
import proofs.«104501_j58892591563191_2_alg».proof.Proof.Gen.Kernel.Points
import proofs.«104501_j58892591563191_2_alg».proof.Proof.K.L0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## Region 0: the proof data of its pipeline, at the contents `V` it is entered with -/

abbrev ms0_0 (t : Fin cfg0.N) : Memref sig .tc .vmem S1024x784 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x784 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)

theorem PhiA0_eq (c : Dev nD) :
    (Pipeline.ΦA spec0 c : sProp 𝕄)
      = iprop(iprop(iprop((∃ d, owns (c : Thread nD τ) scM0 fullShare d)) ∗ Pipeline.scopedRestBut (Ix := Unit) (Name := ℕ) (U := Pipeline.UD sig nD τ) (Lvl := ℕ) (Val := Elt F) spec0 c [cc0_scratch0]) ∗ (∃ r, prngReg c r)) := by
  unfold Pipeline.ΦA; rw [scopedRest0_split]; simp only [scM0, owns_whole]; try rfl

abbrev runD0 (c : Dev nD) (t : Fin cfg0.N) (x3 x4 : Vec F S1024x784 .bf16) (x5 x6 x7 x8 x9 : Vec F S1x1024 .f32) :=
  kernelRun0_D (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (first0_all t) (last0_all t) x3 x4 x5 x6 x7 x8 x9

theorem scoverD0 (c : Dev nD) (t : Fin cfg0.N) (x3 x4 : Vec F S1024x784 .bf16) (x5 x6 x7 x8 x9 : Vec F S1x1024 .f32) (y : S1024x1024.Idx) :
    ∃ pc ∈ (runD0 c t x3 x4 x5 x6 x7 x8 x9).2.1, y ∈ pc.1.set :=
  View.cover_of_tiledL (runD0 c t x3 x4 x5 x6 x7 x8 x9).2.1 S1024x1024.size (by sl_kernel_rfl) y
theorem ocoverD0 (c : Dev nD) (t : Fin cfg0.N) (x3 x4 : Vec F S1024x784 .bf16) (x5 x6 x7 x8 x9 : Vec F S1x1024 .f32) (y : S1024x1024.Idx) :
    ∃ pc ∈ (runD0 c t x3 x4 x5 x6 x7 x8 x9).1, y ∈ pc.1.set :=
  View.cover_of_tiledL (runD0 c t x3 x4 x5 x6 x7 x8 x9).1 S1024x1024.size (by sl_kernel_rfl) y

def sD0 (c : Dev nD) (t : Fin cfg0.N) (x3 x4 : Vec F S1024x784 .bf16) (x5 x6 x7 x8 x9 : Vec F S1x1024 .f32) : Vec F S1024x1024 .f32 :=
  VS0.read (Elt F) (VS0.writes (Elt F) VS0.junk (runD0 c t x3 x4 x5 x6 x7 x8 x9).2.1)
def oD0 (c : Dev nD) (t : Fin cfg0.N) (x3 x4 : Vec F S1024x784 .bf16) (x5 x6 x7 x8 x9 : Vec F S1x1024 .f32) : Vec F S1024x1024 .bf16 :=
  VO0.read (Elt F) (VO0.writes (Elt F) VO0.junk (runD0 c t x3 x4 x5 x6 x7 x8 x9).1)

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the output block's buffer and the accumulator hold after the body at point `t`. -/
def outsAt0 (c : Dev nD) (t : Fin cfg0.N) : Vec F S1024x1024 .bf16 × Vec F S1024x1024 .f32 :=
  (oD0 c t (iblk0 V c 0 t) (iblk0 V c 1 t) (iblk0 V c 2 t) (iblk0 V c 3 t) (iblk0 V c 4 t) (iblk0 V c 5 t) (iblk0 V c 6 t), sD0 c t (iblk0 V c 0 t) (iblk0 V c 1 t) (iblk0 V c 2 t) (iblk0 V c 3 t) (iblk0 V c 4 t) (iblk0 V c 5 t) (iblk0 V c 6 t))

def PhiS0 (c : Dev nD) : (n : ℕ) → n ≤ cfg0.N → sProp 𝕄
  | 0, _ => Pipeline.ΦA spec0 c
  | n + 1, hn => iprop(iprop(iprop(owns (c : Thread nD τ) scM0 fullShare ((outsAt0 V c ⟨n, hn⟩).2)) ∗ Pipeline.scopedRestBut (Ix := Unit) (Name := ℕ) (U := Pipeline.UD sig nD τ) (Lvl := ℕ) (Val := Elt F) spec0 c [cc0_scratch0]) ∗ (∃ r, prngReg c r))
theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0 fullShare ((outsAt0 V c ⟨n, hn⟩).2)) ∗ Pipeline.scopedRestBut (Ix := Unit) (Name := ℕ) (U := Pipeline.UD sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(iprop(owns (c : Thread nD τ) scM0 fullShare ((outsAt0 V c ⟨n - 1, by omega⟩).2)) ∗ Pipeline.scopedRestBut (Ix := Unit) (Name := ℕ) (U := Pipeline.UD sig nD τ) (Lvl := ℕ) (Val := Elt F) spec0 c [cc0_scratch0]) ∗ (∃ r, prngReg c r)) := by
  cases n with
  | zero => exact absurd rfl hz
  | succ n => rfl

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t).1 := by dsimp only [dat0]
/-- Input window 0's current buffer holds its block at every point, fetched there or not (unfetched, its block index has not moved). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input window 1's current buffer holds its block at every point, fetched there or not (unfetched, its block index has not moved). -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Input window 2's current buffer holds its block at every point, fetched there or not (unfetched, its block index has not moved). -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- Input window 3's current buffer holds its block at every point, fetched there or not (unfetched, its block index has not moved). -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
/-- Input window 4's current buffer holds its block at every point, fetched there or not (unfetched, its block index has not moved). -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- Input window 5's current buffer holds its block at every point, fetched there or not (unfetched, its block index has not moved). -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
/-- Input window 6's current buffer holds its block at every point, fetched there or not (unfetched, its block index has not moved). -/
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ (dat0 V c).leavesExact 7 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6]
  rw [show (dat0 V c).leavesExact 7 t = owns (c : Thread nD τ) (ms0_7 t) fullShare ((dat0 V c).after 7 t) from by
    unfold Dat.leavesExact; rw [live0_7 t], after0_7]
  unfold outsAt0 oD0 sD0; (try dsimp only)
  by_cases hz : t.val = 0
  · rw [PhiS0_castSucc V c t, PhiS0_zero V c _ _ hz, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runD0 c t (iblk0 V c 0 t) (iblk0 V c 1 t) (iblk0 V c 2 t) (iblk0 V c 3 t) (iblk0 V c 4 t) (iblk0 V c 5 t) (iblk0 V c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, ⟨%es, HS⟩⟩
    isplitl [HS Hrest Hg]
    · isplitl [HS Hrest]
      · isplitl [HS]
        · unfold owns; iexists _; isplitr
          swap; · iexact HS
          ipureintro; exact View.read_writes_of_cover _ _ _ _ _ (scoverD0 c t _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (ocoverD0 c t _ _ _ _ _ _ _)
  · rw [PhiS0_castSucc V c t, PhiS0_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runD0 c t (iblk0 V c 0 t) (iblk0 V c 1 t) (iblk0 V c 2 t) (iblk0 V c 3 t) (iblk0 V c 4 t) (iblk0 V c 5 t) (iblk0 V c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexists _; iexact HS
    iintro ⟨H0, H1, H2, H3, H4, H5, H6, ⟨%e7, H7⟩, ⟨%es, HS⟩⟩
    isplitl [HS Hrest Hg]
    · isplitl [HS Hrest]
      · isplitl [HS]
        · unfold owns; iexists _; isplitr
          swap; · iexact HS
          ipureintro; exact View.read_writes_of_cover _ _ _ _ _ (scoverD0 c t _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (ocoverD0 c t _ _ _ _ _ _ _)

theorem body_obligation0 (c : Dev nD) : BodyObligation (dat0 (F := F) V c) (defs₀ (F := F)) Variants.none () Set.univ := fun t => by
  rw [bigSep_W0, bigSep_W0]
  exact sound_body0 V c t

theorem Phi0_first (c : Dev nD) : (dat0 V c).Φ 0 = Pipeline.ΦA spec0 c := rfl
theorem Phi0_last (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = grid0.N := rfl; have := N_0; omega), PhiA0_eq]
  iintro ⟨⟨HS, Hrest⟩, Hg⟩
  isplitl [HS Hrest]
  · isplitl [HS]; · iexists _; iexact HS
    iexact Hrest
  iexact Hg

end

end Cert.Kernel.Hand

end
-- ==== Proof.K.L1Runs.lean ====
import proofs.«104501_j58892591563191_2_alg».proof.Proof.Gen.Kernel.Launch
import proofs.«104501_j58892591563191_2_alg».proof.Proof.Gen.Kernel.Skeleton
import proofs.«104501_j58892591563191_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## Region 1: the two conditions of the body, decided over the grid

The body zeroes its accumulator when the innermost grid coordinate is 0 and writes the
normalised block out when it is the last one (2); in point order these are the points
≡ 0 and ≡ 2 modulo 3. -/

/-- The accumulator is reset: the innermost coordinate is 0. -/
abbrev first1 (i : grid1.Coords) : Prop := (Scalar.cmpi .ne (Scalar.extui (Scalar.cmpi .eq (BitVec.ofNat 32 (i 2).val) 0#32)) 0#32) = 1#1
theorem first1_iff : ∀ t : Fin cfg1.N, first1 (grid1.coords t) ↔ t.val % 3 = 0 :=
  (by decide +kernel : ∀ t : Fin grid1.N, first1 (grid1.coords t) ↔ t.val % 3 = 0)
/-- The block is finished: the innermost coordinate is the last. -/
abbrev last1 (i : grid1.Coords) : Prop := k1_cond2 i = 1#1
theorem last1_iff : ∀ t : Fin cfg1.N, last1 (grid1.coords t) ↔ t.val % 3 = 2 :=
  (by decide +kernel : ∀ t : Fin grid1.N, last1 (grid1.coords t) ↔ t.val % 3 = 2)

/-- Where the output window is idle: exactly where the block is not finished; there it is not written back. -/
theorem idle1_7 : ∀ t : Fin cfg1.N, ¬last1 (grid1.coords t) → cfg1.idle 7 (grid1.coords t) = true := by decide +kernel
theorem noFlush1_7 : ∀ t : Fin cfg1.N, ¬last1 (grid1.coords t) → (cfg1.win 7).flush t = false := by decide +kernel
theorem live1_7 : ∀ t : Fin cfg1.N, last1 (grid1.coords t) → cfg1.idle 7 (grid1.coords t) = false := by decide +kernel

/-- One staging buffer of the output window, through which its contents are stated. -/
abbrev VO1 : View sig .tc .vmem S1024x1024 .bf16 := (Memref.whole cc1_stg7_0 : Memref sig .tc .vmem S1024x1024 .bf16).view
/-- The accumulator scratch, as a memref and as a view. -/
abbrev scM1 : Memref sig .tc .vmem S1024x1024 .f32 := Memref.whole cc1_scratch0
abbrev VS1 : View sig .tc .vmem S1024x1024 .f32 := scM1.view

/-! ## The body run once per case -/

set_option maxHeartbeats 4000000 in
/-- First step of a block that has more to come: the accumulator, whatever it held, ends at the
    pieces the run finds (zero, then zero plus the first partial product). -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : first1 i) (hc1 : ¬last1 i)
    (x3 : Vec F S1024x1024 .bf16) (x4 : Vec F S1024x1024 .bf16) :
    { LS : List (View.Piece (Elt F) S1024x1024 .f32) //
      ∀ (E : Set ℕ) (K : PUnit → sProp 𝕄),
        iprop(owns (c : Thread nD τ) arg3 fullShare x3 ∗ owns (c : Thread nD τ) arg4 fullShare x4 ∗ (∃ d, owns (c : Thread nD τ) arg11 fullShare d)
            ∗ (iprop(owns (c : Thread nD τ) arg3 fullShare x3 ∗ owns (c : Thread nD τ) arg4 fullShare x4 ∗ (∃ f, arg11.view.loc (c : Thread nD τ) ↦[arg11.view.set]{fullShare} arg11.view.writes (Elt F) f LS)) -∗ K ⟨⟩))
          ⊢ wp frame (wpE (defs₀ (F := F)) Variants.none c none) E (cc1__binary_layer_kernel i arg3 harg3 arg4 harg4 arg5 harg5 arg6 harg6 arg7 harg7 arg8 harg8 arg9 harg9 arg10 harg10 arg11 harg11) K } := by
  refine ⟨?_, fun E K => ?run⟩
  case run =>
    simp only [cc1__binary_layer_kernel_eq_skeleton]; unfold cc1__binary_layer_kernel_skel
    unfold owns
    iintro ⟨⟨%f3, %hf3, H3⟩, ⟨%f4, %hf4, H4⟩, ⟨%ds, %fs, -, HS⟩, Hk⟩
    obtain rfl := harg3.eq_unread hf3; obtain rfl := harg4.eq_unread hf4
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    iexists _; iexact HS

set_option maxHeartbeats 4000000 in
/-- A middle step: the accumulator at the contents the step before left ends at the pieces the
    run finds (those contents plus this step's partial product). -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : ¬first1 i) (hc1 : ¬last1 i)
    (x3 : Vec F S1024x1024 .bf16) (x4 : Vec F S1024x1024 .bf16) (xs : Vec F S1024x1024 .f32) :
    { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg11 fullShare xs
            ∗ (iprop(owns (c : Thread nD τ) arg3 fullShare x3 ∗ owns (c : Thread nD τ) arg4 fullShare x4 ∗ (∃ f, arg11.view.loc (c : Thread nD τ) ↦[arg11.view.set]{fullShare} arg11.view.writes (Elt F) f LS)) -∗ K ⟨⟩))
          ⊢ wp frame (wpE (defs₀ (F := F)) Variants.none c none) E (cc1__binary_layer_kernel i arg3 harg3 arg4 harg4 arg5 harg5 arg6 harg6 arg7 harg7 arg8 harg8 arg9 harg9 arg10 harg10 arg11 harg11) K } := by
  refine ⟨?_, fun E K => ?run⟩
  case run =>
    simp only [cc1__binary_layer_kernel_eq_skeleton]; unfold cc1__binary_layer_kernel_skel
    unfold owns
    iintro ⟨⟨%f3, %hf3, H3⟩, ⟨%f4, %hf4, H4⟩, ⟨%fs, %hfs, HS⟩, Hk⟩
    obtain rfl := harg3.eq_unread hf3; obtain rfl := harg4.eq_unread hf4; obtain rfl := harg11.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    iexists _; iexact HS

set_option maxHeartbeats 4000000 in
/-- The last step: the accumulator is completed and the normalised, activated block is stored
    into the output window's buffer, whatever that held. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : ¬first1 i) (hc1 : last1 i)
    (x3 : Vec F S1024x1024 .bf16) (x4 : Vec F S1024x1024 .bf16) (x5 x6 x7 x8 x9 : Vec F S1x1024 .f32) (xs : Vec F S1024x1024 .f32) :
    Σ' (L7 : List (View.Piece (Elt F) S1024x1024 .bf16)), { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS)) -∗ K ⟨⟩))
          ⊢ wp frame (wpE (defs₀ (F := F)) Variants.none c none) E (cc1__binary_layer_kernel i arg3 harg3 arg4 harg4 arg5 harg5 arg6 harg6 arg7 harg7 arg8 harg8 arg9 harg9 arg10 harg10 arg11 harg11) K } := by
  refine ⟨?_, ?_, fun E K => ?run⟩
  case run =>
    simp only [cc1__binary_layer_kernel_eq_skeleton]; unfold cc1__binary_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg11.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; iexact HS

end Cert.Kernel.Hand

end
-- ==== Proof.K.L1Dat.lean ====
import proofs.«104501_j58892591563191_2_alg».proof.Proof.Gen.Kernel.Launch
import proofs.«104501_j58892591563191_2_alg».proof.Proof.Gen.Kernel.Skeleton
import proofs.«104501_j58892591563191_2_alg».proof.Proof.Gen.Kernel.Points
import proofs.«104501_j58892591563191_2_alg».proof.Proof.K.L1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## Region 1: the proof data of its pipeline, at the contents `V` it is entered with -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .bf16 := win1_7.stage (cfg1.slots t 7)
abbrev hs1_7 (t : Fin cfg1.N) : (ms1_7 t).IsWhole := hstage1_7 ((cfg1.slots t 7).cast nbuf1_7)

/-- The region's invariant with the accumulator scratch taken out of the scoped rest. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := Pipeline.UD sig nD τ) (Lvl := ℕ) (Val := Elt F) spec1 c [cc1_scratch0]) ∗ (∃ r, prngReg c r)) := by
  unfold Pipeline.ΦA; rw [scopedRest1_split]; simp only [scM1, owns_whole]; try rfl

/-- The three runs at a point's memrefs. -/
abbrev runA1 (c : Dev nD) (t : Fin cfg1.N) (h0 : t.val % 3 = 0) (x3 x4 : Vec F S1024x1024 .bf16) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((first1_iff t).mpr h0) (fun h => by have := (last1_iff t).mp h; omega) x3 x4
abbrev runB1 (c : Dev nD) (t : Fin cfg1.N) (h0 : ¬t.val % 3 = 0) (h1 : ¬t.val % 3 = 2) (x3 x4 : Vec F S1024x1024 .bf16) (xs : Vec F S1024x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((first1_iff t).mp h)) (fun h => h1 ((last1_iff t).mp h)) x3 x4 xs
abbrev runC1 (c : Dev nD) (t : Fin cfg1.N) (h0 : ¬t.val % 3 = 0) (h1 : t.val % 3 = 2) (x3 x4 : Vec F S1024x1024 .bf16) (x5 x6 x7 x8 x9 : Vec F S1x1024 .f32) (xs : Vec F S1024x1024 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((first1_iff t).mp h)) ((last1_iff t).mpr h1) x3 x4 x5 x6 x7 x8 x9 xs

/-- Each run's stores into the accumulator cover it; the last run's store covers the output block. -/
theorem scoverA1 (c : Dev nD) (t : Fin cfg1.N) (h0 : t.val % 3 = 0) (x3 x4 : Vec F S1024x1024 .bf16) (y : S1024x1024.Idx) :
    ∃ pc ∈ (runA1 c t h0 x3 x4).1, y ∈ pc.1.set :=
  View.cover_of_tiledL (runA1 c t h0 x3 x4).1 S1024x1024.size (by sl_kernel_rfl) y
theorem scoverB1 (c : Dev nD) (t : Fin cfg1.N) (h0 : ¬t.val % 3 = 0) (h1 : ¬t.val % 3 = 2) (x3 x4 : Vec F S1024x1024 .bf16) (xs : Vec F S1024x1024 .f32) (y : S1024x1024.Idx) :
    ∃ pc ∈ (runB1 c t h0 h1 x3 x4 xs).1, y ∈ pc.1.set :=
  View.cover_of_tiledL (runB1 c t h0 h1 x3 x4 xs).1 S1024x1024.size (by sl_kernel_rfl) y
theorem scoverC1 (c : Dev nD) (t : Fin cfg1.N) (h0 : ¬t.val % 3 = 0) (h1 : t.val % 3 = 2) (x3 x4 : Vec F S1024x1024 .bf16) (x5 x6 x7 x8 x9 : Vec F S1x1024 .f32) (xs : Vec F S1024x1024 .f32) (y : S1024x1024.Idx) :
    ∃ pc ∈ (runC1 c t h0 h1 x3 x4 x5 x6 x7 x8 x9 xs).2.1, y ∈ pc.1.set :=
  View.cover_of_tiledL (runC1 c t h0 h1 x3 x4 x5 x6 x7 x8 x9 xs).2.1 S1024x1024.size (by sl_kernel_rfl) y
theorem ocoverC1 (c : Dev nD) (t : Fin cfg1.N) (h0 : ¬t.val % 3 = 0) (h1 : t.val % 3 = 2) (x3 x4 : Vec F S1024x1024 .bf16) (x5 x6 x7 x8 x9 : Vec F S1x1024 .f32) (xs : Vec F S1024x1024 .f32) (y : S1024x1024.Idx) :
    ∃ pc ∈ (runC1 c t h0 h1 x3 x4 x5 x6 x7 x8 x9 xs).1, y ∈ pc.1.set :=
  View.cover_of_tiledL (runC1 c t h0 h1 x3 x4 x5 x6 x7 x8 x9 xs).1 S1024x1024.size (by sl_kernel_rfl) y

/-- What each run leaves in the accumulator, and the last one in the output block: its pieces read back. -/
def sA1 (c : Dev nD) (t : Fin cfg1.N) (h0 : t.val % 3 = 0) (x3 x4 : Vec F S1024x1024 .bf16) : Vec F S1024x1024 .f32 :=
  VS1.read (Elt F) (VS1.writes (Elt F) VS1.junk (runA1 c t h0 x3 x4).1)
def sB1 (c : Dev nD) (t : Fin cfg1.N) (h0 : ¬t.val % 3 = 0) (h1 : ¬t.val % 3 = 2) (x3 x4 : Vec F S1024x1024 .bf16) (xs : Vec F S1024x1024 .f32) : Vec F S1024x1024 .f32 :=
  VS1.read (Elt F) (VS1.writes (Elt F) VS1.junk (runB1 c t h0 h1 x3 x4 xs).1)
def sC1 (c : Dev nD) (t : Fin cfg1.N) (h0 : ¬t.val % 3 = 0) (h1 : t.val % 3 = 2) (x3 x4 : Vec F S1024x1024 .bf16) (x5 x6 x7 x8 x9 : Vec F S1x1024 .f32) (xs : Vec F S1024x1024 .f32) : Vec F S1024x1024 .f32 :=
  VS1.read (Elt F) (VS1.writes (Elt F) VS1.junk (runC1 c t h0 h1 x3 x4 x5 x6 x7 x8 x9 xs).2.1)
def oC1 (c : Dev nD) (t : Fin cfg1.N) (h0 : ¬t.val % 3 = 0) (h1 : t.val % 3 = 2) (x3 x4 : Vec F S1024x1024 .bf16) (x5 x6 x7 x8 x9 : Vec F S1x1024 .f32) (xs : Vec F S1024x1024 .f32) : Vec F S1024x1024 .bf16 :=
  VO1.read (Elt F) (VO1.writes (Elt F) VO1.junk (runC1 c t h0 h1 x3 x4 x5 x6 x7 x8 x9 xs).1)
/-- A placeholder for the output buffer at the points that store nothing into it (never consulted). -/
def oJunk1 : Vec F S1024x1024 .bf16 := VO1.read (Elt F) VO1.junk

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION: what the output block's buffer and the accumulator hold after the body at position `n`. -/
def outsAt1 (c : Dev nD) : (n : ℕ) → n < cfg1.N → Vec F S1024x1024 .bf16 × Vec F S1024x1024 .f32
  | 0, hn => (oJunk1, sA1 c ⟨0, hn⟩ (Nat.zero_mod _) (iblk1 V c 0 ⟨0, hn⟩) (iblk1 V c 1 ⟨0, hn⟩))
  | n + 1, hn =>
    if h0 : (n + 1) % 3 = 0 then
      (oJunk1, sA1 c ⟨n + 1, hn⟩ h0 (iblk1 V c 0 ⟨n + 1, hn⟩) (iblk1 V c 1 ⟨n + 1, hn⟩))
    else if h1 : (n + 1) % 3 = 2 then
      (oC1 c ⟨n + 1, hn⟩ h0 h1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2,
       sC1 c ⟨n + 1, hn⟩ h0 h1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
    else
      (oJunk1, sB1 c ⟨n + 1, hn⟩ h0 h1 (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 3 = 0) :
    outsAt1 V c t.val t.isLt = (oJunk1, sA1 c t h0 (iblk1 V c 0 t) (iblk1 V c 1 t)) := by
  obtain ⟨n, hn⟩ := t
  cases n with
  | zero => exact rfl
  | succ n => exact (dif_pos h0).trans rfl
theorem outsAt1_B (c : Dev nD) (t : Fin cfg1.N) (h0 : ¬t.val % 3 = 0) (h1 : ¬t.val % 3 = 2) :
    outsAt1 V c t.val t.isLt = (oJunk1, sB1 c t h0 h1 (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬t.val % 3 = 0) (h1 : t.val % 3 = 2) :
    outsAt1 V c t.val t.isLt = (oC1 c t h0 h1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2,
      sC1 c t h0 h1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The invariant before position `n`: before the first point the region's own; afterwards the accumulator at what
    the point before left in it, the rest of the scoped buffers and the generator register as they were. -/
def PhiS1 (c : Dev nD) : (n : ℕ) → n ≤ cfg1.N → sProp 𝕄
  | 0, _ => Pipeline.ΦA spec1 c
  | n + 1, hn => iprop(iprop(iprop(owns (c : Thread nD τ) scM1 fullShare ((outsAt1 V c n hn).2))
      ∗ Pipeline.scopedRestBut (Ix := Unit) (Name := ℕ) (U := Pipeline.UD sig nD τ) (Lvl := ℕ) (Val := Elt F) spec1 c [cc1_scratch0]) ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1 fullShare ((outsAt1 V c n hn).2))
      ∗ Pipeline.scopedRestBut (Ix := Unit) (Name := ℕ) (U := Pipeline.UD sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(iprop(owns (c : Thread nD τ) scM1 fullShare ((outsAt1 V c (n - 1) (by omega)).2))
      ∗ Pipeline.scopedRestBut (Ix := Unit) (Name := ℕ) (U := Pipeline.UD sig nD τ) (Lvl := ℕ) (Val := Elt F) spec1 c [cc1_scratch0]) ∗ (∃ r, prngReg c r)) := by
  cases n with
  | zero => exact absurd rfl hz
  | succ n => rfl

/-- The proof data of pipeline 1 on core `c`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
/-- Input window 0's current buffer holds its block at every point, fetched there or not (unfetched, its block index has not moved). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- Input window 1's current buffer holds its block at every point, fetched there or not (unfetched, its block index has not moved). -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- Input window 2's current buffer holds its block at every point, fetched there or not (unfetched, its block index has not moved). -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- Input window 3's current buffer holds its block at every point, fetched there or not (unfetched, its block index has not moved). -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- Input window 4's current buffer holds its block at every point, fetched there or not (unfetched, its block index has not moved). -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- Input window 5's current buffer holds its block at every point, fetched there or not (unfetched, its block index has not moved). -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
/-- Input window 6's current buffer holds its block at every point, fetched there or not (unfetched, its block index has not moved). -/
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ (dat1 V c).leavesExact 7 t)

set_option maxHeartbeats 8000000 in
/-- The body at any point: the inputs' buffers hold their blocks; which step of the block the point is decides the run;
    the invariant hands over the accumulator at what the step before left (anything at a block's first step) and
    takes it back at this step's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6]
  by_cases h0 : t.val % 3 = 0
  · have h1 : ¬t.val % 3 = 2 := by omega
    rw [Dat.leavesExact_idle (dat1 V c) 7 t (idle1_7 t (fun h => h1 ((last1_iff t).mp h))) (noFlush1_7 t (fun h => h1 ((last1_iff t).mp h)))]
    rw [outsAt1_A V c t h0]
    unfold sA1; (try dsimp only)
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA1 c t h0 (iblk1 V c 0 t) (iblk1 V c 1 t)).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scoverA1 c t h0 _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA1 c t h0 (iblk1 V c 0 t) (iblk1 V c 1 t)).2 Set.univ _)
      isplitl [H0]; · iexact H0
      isplitl [H1]; · iexact H1
      isplitl [HS]; · iexists _; iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scoverA1 c t h0 _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 3 = 2
    · rw [show (dat1 V c).leavesExact 7 t = owns (c : Thread nD τ) (ms1_7 t) fullShare ((dat1 V c).after 7 t) from by
        unfold Dat.leavesExact; rw [live1_7 t ((last1_iff t).mpr h1)], after1_7]
      rw [outsAt1_C V c t h0 h1]
      unfold oC1 sC1; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC1 c t h0 h1 (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverC1 c t h0 h1 _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (ocoverC1 c t h0 h1 _ _ _ _ _ _ _ _)
    · rw [Dat.leavesExact_idle (dat1 V c) 7 t (idle1_7 t (fun h => h1 ((last1_iff t).mp h))) (noFlush1_7 t (fun h => h1 ((last1_iff t).mp h)))]
      rw [outsAt1_B V c t h0 h1]
      unfold sB1; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB1 c t h0 h1 (iblk1 V c 0 t) (iblk1 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scoverB1 c t h0 h1 _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The region's invariant at its two ends is the class invariant (the accumulator's last contents forgotten). -/
theorem Phi1_first (c : Dev nD) : (dat1 V c).Φ 0 = Pipeline.ΦA spec1 c := rfl
theorem Phi1_last (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = grid1.N := rfl; have := N_1; omega), PhiA1_eq]
  iintro ⟨⟨HS, Hrest⟩, Hg⟩
  isplitl [HS Hrest]
  · isplitl [HS]; · iexists _; iexact HS
    iexact Hrest
  iexact Hg

end

end Cert.Kernel.Hand

end
-- ==== Proof.K.L2Runs.lean ====
import proofs.«104501_j58892591563191_2_alg».proof.Proof.Gen.Kernel.Launch
import proofs.«104501_j58892591563191_2_alg».proof.Proof.Gen.Kernel.Skeleton
import proofs.«104501_j58892591563191_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## Region 2: the two conditions of the body, decided over the grid

The body zeroes its accumulator when the innermost grid coordinate is 0 and writes the
normalised block out when it is the last one (5); in point order these are the points
≡ 0 and ≡ 5 modulo 6. -/

/-- The accumulator is reset: the innermost coordinate is 0. -/
abbrev first2 (i : grid2.Coords) : Prop := (Scalar.cmpi .ne (Scalar.extui (Scalar.cmpi .eq (BitVec.ofNat 32 (i 2).val) 0#32)) 0#32) = 1#1
theorem first2_iff : ∀ t : Fin cfg2.N, first2 (grid2.coords t) ↔ t.val % 6 = 0 :=
  (by decide +kernel : ∀ t : Fin grid2.N, first2 (grid2.coords t) ↔ t.val % 6 = 0)
/-- The block is finished: the innermost coordinate is the last. -/
abbrev last2 (i : grid2.Coords) : Prop := k2_cond2 i = 1#1
theorem last2_iff : ∀ t : Fin cfg2.N, last2 (grid2.coords t) ↔ t.val % 6 = 5 :=
  (by decide +kernel : ∀ t : Fin grid2.N, last2 (grid2.coords t) ↔ t.val % 6 = 5)

/-- Where the output window is idle: exactly where the block is not finished; there it is not written back. -/
theorem idle2_7 : ∀ t : Fin cfg2.N, ¬last2 (grid2.coords t) → cfg2.idle 7 (grid2.coords t) = true := by decide +kernel
theorem noFlush2_7 : ∀ t : Fin cfg2.N, ¬last2 (grid2.coords t) → (cfg2.win 7).flush t = false := by decide +kernel
theorem live2_7 : ∀ t : Fin cfg2.N, last2 (grid2.coords t) → cfg2.idle 7 (grid2.coords t) = false := by decide +kernel

/-- One staging buffer of the output window, through which its contents are stated. -/
abbrev VO2 : View sig .tc .vmem S1024x1024 .bf16 := (Memref.whole cc2_stg7_0 : Memref sig .tc .vmem S1024x1024 .bf16).view
/-- The accumulator scratch, as a memref and as a view. -/
abbrev scM2 : Memref sig .tc .vmem S1024x1024 .f32 := Memref.whole cc2_scratch0
abbrev VS2 : View sig .tc .vmem S1024x1024 .f32 := scM2.view

/-! ## The body run once per case -/

set_option maxHeartbeats 4000000 in
/-- First step of a block that has more to come: the accumulator, whatever it held, ends at the
    pieces the run finds (zero, then zero plus the first partial product). -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : first2 i) (hc1 : ¬last2 i)
    (x3 : Vec F S1024x1024 .bf16) (x4 : Vec F S1024x1024 .bf16) :
    { LS : List (View.Piece (Elt F) S1024x1024 .f32) //
      ∀ (E : Set ℕ) (K : PUnit → sProp 𝕄),
        iprop(owns (c : Thread nD τ) arg3 fullShare x3 ∗ owns (c : Thread nD τ) arg4 fullShare x4 ∗ (∃ d, owns (c : Thread nD τ) arg11 fullShare d)
            ∗ (iprop(owns (c : Thread nD τ) arg3 fullShare x3 ∗ owns (c : Thread nD τ) arg4 fullShare x4 ∗ (∃ f, arg11.view.loc (c : Thread nD τ) ↦[arg11.view.set]{fullShare} arg11.view.writes (Elt F) f LS)) -∗ K ⟨⟩))
          ⊢ wp frame (wpE (defs₀ (F := F)) Variants.none c none) E (cc2__binary_layer_kernel i arg3 harg3 arg4 harg4 arg5 harg5 arg6 harg6 arg7 harg7 arg8 harg8 arg9 harg9 arg10 harg10 arg11 harg11) K } := by
  refine ⟨?_, fun E K => ?run⟩
  case run =>
    simp only [cc2__binary_layer_kernel_eq_skeleton]; unfold cc2__binary_layer_kernel_skel
    unfold owns
    iintro ⟨⟨%f3, %hf3, H3⟩, ⟨%f4, %hf4, H4⟩, ⟨%ds, %fs, -, HS⟩, Hk⟩
    obtain rfl := harg3.eq_unread hf3; obtain rfl := harg4.eq_unread hf4
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    iexists _; iexact HS

set_option maxHeartbeats 4000000 in
/-- A middle step: the accumulator at the contents the step before left ends at the pieces the
    run finds (those contents plus this step's partial product). -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : ¬first2 i) (hc1 : ¬last2 i)
    (x3 : Vec F S1024x1024 .bf16) (x4 : Vec F S1024x1024 .bf16) (xs : Vec F S1024x1024 .f32) :
    { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg11 fullShare xs
            ∗ (iprop(owns (c : Thread nD τ) arg3 fullShare x3 ∗ owns (c : Thread nD τ) arg4 fullShare x4 ∗ (∃ f, arg11.view.loc (c : Thread nD τ) ↦[arg11.view.set]{fullShare} arg11.view.writes (Elt F) f LS)) -∗ K ⟨⟩))
          ⊢ wp frame (wpE (defs₀ (F := F)) Variants.none c none) E (cc2__binary_layer_kernel i arg3 harg3 arg4 harg4 arg5 harg5 arg6 harg6 arg7 harg7 arg8 harg8 arg9 harg9 arg10 harg10 arg11 harg11) K } := by
  refine ⟨?_, fun E K => ?run⟩
  case run =>
    simp only [cc2__binary_layer_kernel_eq_skeleton]; unfold cc2__binary_layer_kernel_skel
    unfold owns
    iintro ⟨⟨%f3, %hf3, H3⟩, ⟨%f4, %hf4, H4⟩, ⟨%fs, %hfs, HS⟩, Hk⟩
    obtain rfl := harg3.eq_unread hf3; obtain rfl := harg4.eq_unread hf4; obtain rfl := harg11.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    iexists _; iexact HS

set_option maxHeartbeats 4000000 in
/-- The last step: the accumulator is completed and the normalised, activated block is stored
    into the output window's buffer, whatever that held. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : ¬first2 i) (hc1 : last2 i)
    (x3 : Vec F S1024x1024 .bf16) (x4 : Vec F S1024x1024 .bf16) (x5 x6 x7 x8 x9 : Vec F S1x1024 .f32) (xs : Vec F S1024x1024 .f32) :
    Σ' (L7 : List (View.Piece (Elt F) S1024x1024 .bf16)), { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS)) -∗ K ⟨⟩))
          ⊢ wp frame (wpE (defs₀ (F := F)) Variants.none c none) E (cc2__binary_layer_kernel i arg3 harg3 arg4 harg4 arg5 harg5 arg6 harg6 arg7 harg7 arg8 harg8 arg9 harg9 arg10 harg10 arg11 harg11) K } := by
  refine ⟨?_, ?_, fun E K => ?run⟩
  case run =>
    simp only [cc2__binary_layer_kernel_eq_skeleton]; unfold cc2__binary_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg11.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; iexact HS

end Cert.Kernel.Hand

end
-- ==== Proof.K.L2Dat.lean ====
import proofs.«104501_j58892591563191_2_alg».proof.Proof.Gen.Kernel.Launch
import proofs.«104501_j58892591563191_2_alg».proof.Proof.Gen.Kernel.Skeleton
import proofs.«104501_j58892591563191_2_alg».proof.Proof.Gen.Kernel.Points
import proofs.«104501_j58892591563191_2_alg».proof.Proof.K.L2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## Region 2: the proof data of its pipeline, at the contents `V` it is entered with -/

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1024 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x1024 .bf16 := win2_7.stage (cfg2.slots t 7)
abbrev hs2_7 (t : Fin cfg2.N) : (ms2_7 t).IsWhole := hstage2_7 ((cfg2.slots t 7).cast nbuf2_7)

/-- The region's invariant with the accumulator scratch taken out of the scoped rest. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := Pipeline.UD sig nD τ) (Lvl := ℕ) (Val := Elt F) spec2 c [cc2_scratch0]) ∗ (∃ r, prngReg c r)) := by
  unfold Pipeline.ΦA; rw [scopedRest2_split]; simp only [scM2, owns_whole]; try rfl

/-- The three runs at a point's memrefs. -/
abbrev runA2 (c : Dev nD) (t : Fin cfg2.N) (h0 : t.val % 6 = 0) (x3 x4 : Vec F S1024x1024 .bf16) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((first2_iff t).mpr h0) (fun h => by have := (last2_iff t).mp h; omega) x3 x4
abbrev runB2 (c : Dev nD) (t : Fin cfg2.N) (h0 : ¬t.val % 6 = 0) (h1 : ¬t.val % 6 = 5) (x3 x4 : Vec F S1024x1024 .bf16) (xs : Vec F S1024x1024 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((first2_iff t).mp h)) (fun h => h1 ((last2_iff t).mp h)) x3 x4 xs
abbrev runC2 (c : Dev nD) (t : Fin cfg2.N) (h0 : ¬t.val % 6 = 0) (h1 : t.val % 6 = 5) (x3 x4 : Vec F S1024x1024 .bf16) (x5 x6 x7 x8 x9 : Vec F S1x1024 .f32) (xs : Vec F S1024x1024 .f32) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((first2_iff t).mp h)) ((last2_iff t).mpr h1) x3 x4 x5 x6 x7 x8 x9 xs

/-- Each run's stores into the accumulator cover it; the last run's store covers the output block. -/
theorem scoverA2 (c : Dev nD) (t : Fin cfg2.N) (h0 : t.val % 6 = 0) (x3 x4 : Vec F S1024x1024 .bf16) (y : S1024x1024.Idx) :
    ∃ pc ∈ (runA2 c t h0 x3 x4).1, y ∈ pc.1.set :=
  View.cover_of_tiledL (runA2 c t h0 x3 x4).1 S1024x1024.size (by sl_kernel_rfl) y
theorem scoverB2 (c : Dev nD) (t : Fin cfg2.N) (h0 : ¬t.val % 6 = 0) (h1 : ¬t.val % 6 = 5) (x3 x4 : Vec F S1024x1024 .bf16) (xs : Vec F S1024x1024 .f32) (y : S1024x1024.Idx) :
    ∃ pc ∈ (runB2 c t h0 h1 x3 x4 xs).1, y ∈ pc.1.set :=
  View.cover_of_tiledL (runB2 c t h0 h1 x3 x4 xs).1 S1024x1024.size (by sl_kernel_rfl) y
theorem scoverC2 (c : Dev nD) (t : Fin cfg2.N) (h0 : ¬t.val % 6 = 0) (h1 : t.val % 6 = 5) (x3 x4 : Vec F S1024x1024 .bf16) (x5 x6 x7 x8 x9 : Vec F S1x1024 .f32) (xs : Vec F S1024x1024 .f32) (y : S1024x1024.Idx) :
    ∃ pc ∈ (runC2 c t h0 h1 x3 x4 x5 x6 x7 x8 x9 xs).2.1, y ∈ pc.1.set :=
  View.cover_of_tiledL (runC2 c t h0 h1 x3 x4 x5 x6 x7 x8 x9 xs).2.1 S1024x1024.size (by sl_kernel_rfl) y
theorem ocoverC2 (c : Dev nD) (t : Fin cfg2.N) (h0 : ¬t.val % 6 = 0) (h1 : t.val % 6 = 5) (x3 x4 : Vec F S1024x1024 .bf16) (x5 x6 x7 x8 x9 : Vec F S1x1024 .f32) (xs : Vec F S1024x1024 .f32) (y : S1024x1024.Idx) :
    ∃ pc ∈ (runC2 c t h0 h1 x3 x4 x5 x6 x7 x8 x9 xs).1, y ∈ pc.1.set :=
  View.cover_of_tiledL (runC2 c t h0 h1 x3 x4 x5 x6 x7 x8 x9 xs).1 S1024x1024.size (by sl_kernel_rfl) y

/-- What each run leaves in the accumulator, and the last one in the output block: its pieces read back. -/
def sA2 (c : Dev nD) (t : Fin cfg2.N) (h0 : t.val % 6 = 0) (x3 x4 : Vec F S1024x1024 .bf16) : Vec F S1024x1024 .f32 :=
  VS2.read (Elt F) (VS2.writes (Elt F) VS2.junk (runA2 c t h0 x3 x4).1)
def sB2 (c : Dev nD) (t : Fin cfg2.N) (h0 : ¬t.val % 6 = 0) (h1 : ¬t.val % 6 = 5) (x3 x4 : Vec F S1024x1024 .bf16) (xs : Vec F S1024x1024 .f32) : Vec F S1024x1024 .f32 :=
  VS2.read (Elt F) (VS2.writes (Elt F) VS2.junk (runB2 c t h0 h1 x3 x4 xs).1)
def sC2 (c : Dev nD) (t : Fin cfg2.N) (h0 : ¬t.val % 6 = 0) (h1 : t.val % 6 = 5) (x3 x4 : Vec F S1024x1024 .bf16) (x5 x6 x7 x8 x9 : Vec F S1x1024 .f32) (xs : Vec F S1024x1024 .f32) : Vec F S1024x1024 .f32 :=
  VS2.read (Elt F) (VS2.writes (Elt F) VS2.junk (runC2 c t h0 h1 x3 x4 x5 x6 x7 x8 x9 xs).2.1)
def oC2 (c : Dev nD) (t : Fin cfg2.N) (h0 : ¬t.val % 6 = 0) (h1 : t.val % 6 = 5) (x3 x4 : Vec F S1024x1024 .bf16) (x5 x6 x7 x8 x9 : Vec F S1x1024 .f32) (xs : Vec F S1024x1024 .f32) : Vec F S1024x1024 .bf16 :=
  VO2.read (Elt F) (VO2.writes (Elt F) VO2.junk (runC2 c t h0 h1 x3 x4 x5 x6 x7 x8 x9 xs).1)
/-- A placeholder for the output buffer at the points that store nothing into it (never consulted). -/
def oJunk2 : Vec F S1024x1024 .bf16 := VO2.read (Elt F) VO2.junk

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- THE ACCUMULATION: what the output block's buffer and the accumulator hold after the body at position `n`. -/
def outsAt2 (c : Dev nD) : (n : ℕ) → n < cfg2.N → Vec F S1024x1024 .bf16 × Vec F S1024x1024 .f32
  | 0, hn => (oJunk2, sA2 c ⟨0, hn⟩ (Nat.zero_mod _) (iblk2 V c 0 ⟨0, hn⟩) (iblk2 V c 1 ⟨0, hn⟩))
  | n + 1, hn =>
    if h0 : (n + 1) % 6 = 0 then
      (oJunk2, sA2 c ⟨n + 1, hn⟩ h0 (iblk2 V c 0 ⟨n + 1, hn⟩) (iblk2 V c 1 ⟨n + 1, hn⟩))
    else if h1 : (n + 1) % 6 = 5 then
      (oC2 c ⟨n + 1, hn⟩ h0 h1 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2,
       sC2 c ⟨n + 1, hn⟩ h0 h1 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)
    else
      (oJunk2, sB2 c ⟨n + 1, hn⟩ h0 h1 (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 6 = 0) :
    outsAt2 V c t.val t.isLt = (oJunk2, sA2 c t h0 (iblk2 V c 0 t) (iblk2 V c 1 t)) := by
  obtain ⟨n, hn⟩ := t
  cases n with
  | zero => exact rfl
  | succ n => exact (dif_pos h0).trans rfl
theorem outsAt2_B (c : Dev nD) (t : Fin cfg2.N) (h0 : ¬t.val % 6 = 0) (h1 : ¬t.val % 6 = 5) :
    outsAt2 V c t.val t.isLt = (oJunk2, sB2 c t h0 h1 (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)
theorem outsAt2_C (c : Dev nD) (t : Fin cfg2.N) (h0 : ¬t.val % 6 = 0) (h1 : t.val % 6 = 5) :
    outsAt2 V c t.val t.isLt = (oC2 c t h0 h1 (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2,
      sC2 c t h0 h1 (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The invariant before position `n`: before the first point the region's own; afterwards the accumulator at what
    the point before left in it, the rest of the scoped buffers and the generator register as they were. -/
def PhiS2 (c : Dev nD) : (n : ℕ) → n ≤ cfg2.N → sProp 𝕄
  | 0, _ => Pipeline.ΦA spec2 c
  | n + 1, hn => iprop(iprop(iprop(owns (c : Thread nD τ) scM2 fullShare ((outsAt2 V c n hn).2))
      ∗ Pipeline.scopedRestBut (Ix := Unit) (Name := ℕ) (U := Pipeline.UD sig nD τ) (Lvl := ℕ) (Val := Elt F) spec2 c [cc2_scratch0]) ∗ (∃ r, prngReg c r))
theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2 fullShare ((outsAt2 V c n hn).2))
      ∗ Pipeline.scopedRestBut (Ix := Unit) (Name := ℕ) (U := Pipeline.UD sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(iprop(owns (c : Thread nD τ) scM2 fullShare ((outsAt2 V c (n - 1) (by omega)).2))
      ∗ Pipeline.scopedRestBut (Ix := Unit) (Name := ℕ) (U := Pipeline.UD sig nD τ) (Lvl := ℕ) (Val := Elt F) spec2 c [cc2_scratch0]) ∗ (∃ r, prngReg c r)) := by
  cases n with
  | zero => exact absurd rfl hz
  | succ n => rfl

/-- The proof data of pipeline 2 on core `c`. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
/-- Input window 0's current buffer holds its block at every point, fetched there or not (unfetched, its block index has not moved). -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
/-- Input window 1's current buffer holds its block at every point, fetched there or not (unfetched, its block index has not moved). -/
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
/-- Input window 2's current buffer holds its block at every point, fetched there or not (unfetched, its block index has not moved). -/
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
/-- Input window 3's current buffer holds its block at every point, fetched there or not (unfetched, its block index has not moved). -/
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
/-- Input window 4's current buffer holds its block at every point, fetched there or not (unfetched, its block index has not moved). -/
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
/-- Input window 5's current buffer holds its block at every point, fetched there or not (unfetched, its block index has not moved). -/
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
/-- Input window 6's current buffer holds its block at every point, fetched there or not (unfetched, its block index has not moved). -/
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ (dat2 V c).leavesExact 7 t)

set_option maxHeartbeats 8000000 in
/-- The body at any point: the inputs' buffers hold their blocks; which step of the block the point is decides the run;
    the invariant hands over the accumulator at what the step before left (anything at a block's first step) and
    takes it back at this step's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, after2_6]
  by_cases h0 : t.val % 6 = 0
  · have h1 : ¬t.val % 6 = 5 := by omega
    rw [Dat.leavesExact_idle (dat2 V c) 7 t (idle2_7 t (fun h => h1 ((last2_iff t).mp h))) (noFlush2_7 t (fun h => h1 ((last2_iff t).mp h)))]
    rw [outsAt2_A V c t h0]
    unfold sA2; (try dsimp only)
    by_cases hz : t.val = 0
    · rw [PhiS2_castSucc V c t, PhiS2_zero V c _ _ hz, PhiA2_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA2 c t h0 (iblk2 V c 0 t) (iblk2 V c 1 t)).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scoverA2 c t h0 _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA2 c t h0 (iblk2 V c 0 t) (iblk2 V c 1 t)).2 Set.univ _)
      isplitl [H0]; · iexact H0
      isplitl [H1]; · iexact H1
      isplitl [HS]; · iexists _; iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scoverA2 c t h0 _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 6 = 5
    · rw [show (dat2 V c).leavesExact 7 t = owns (c : Thread nD τ) (ms2_7 t) fullShare ((dat2 V c).after 7 t) from by
        unfold Dat.leavesExact; rw [live2_7 t ((last2_iff t).mpr h1)], after2_7]
      rw [outsAt2_C V c t h0 h1]
      unfold oC2 sC2; (try dsimp only)
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC2 c t h0 h1 (iblk2 V c 0 t) (iblk2 V c 1 t) (iblk2 V c 2 t) (iblk2 V c 3 t) (iblk2 V c 4 t) (iblk2 V c 5 t) (iblk2 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverC2 c t h0 h1 _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (ocoverC2 c t h0 h1 _ _ _ _ _ _ _ _)
    · rw [Dat.leavesExact_idle (dat2 V c) 7 t (idle2_7 t (fun h => h1 ((last2_iff t).mp h))) (noFlush2_7 t (fun h => h1 ((last2_iff t).mp h)))]
      rw [outsAt2_B V c t h0 h1]
      unfold sB2; (try dsimp only)
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB2 c t h0 h1 (iblk2 V c 0 t) (iblk2 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scoverB2 c t h0 h1 _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The region's invariant at its two ends is the class invariant (the accumulator's last contents forgotten). -/
theorem Phi2_first (c : Dev nD) : (dat2 V c).Φ 0 = Pipeline.ΦA spec2 c := rfl
theorem Phi2_last (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = grid2.N := rfl; have := N_2; omega), PhiA2_eq]
  iintro ⟨⟨HS, Hrest⟩, Hg⟩
  isplitl [HS Hrest]
  · isplitl [HS]; · iexists _; iexact HS
    iexact Hrest
  iexact Hg

end

end Cert.Kernel.Hand

end
-- ==== Proof.K.Final.lean ====
/- The last region of the program: the final layer, one grid of 8 row blocks. At each point the
   body reads a 1024-row block of the third hidden layer, the whole last weight matrix and the whole
   last bias, and writes the 1024×10 block of row-wise log-softmax of the logits. Here: what the
   body finds in each staging buffer, what it leaves, the pipeline's proof data over the region's
   entry contents, and the body's obligation at a generic point — at any float interpretation. -/
import proofs.«104501_j58892591563191_2_alg».proof.Proof.Gen.Kernel.Launch
import proofs.«104501_j58892591563191_2_alg».proof.Proof.Gen.Kernel.Skeleton
import proofs.«104501_j58892591563191_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

section FinalLayer
-- the contents of the core's buffers when the final-layer region is entered
variable (V : (c : Dev nD) → (b : Ref sig .tc) → Buf (Elt F) ((c : Thread nD τ).loc b))

/-! ## The blocks the final layer's windows show -/

/-- The block window `w` of the final layer shows at grid point `t`: the window's rectangle of its
    array, the array read as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The hidden-layer window's staging buffer holds the point's row block when the body starts:
    it is fetched at every point, and the body leaves it as found. -/
theorem hidden_block_found {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight window's staging buffer holds the whole weight matrix at every point: fetched at the
    first point only, its block index never moves afterwards and the body leaves it as found. -/
theorem weight_block_found {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias window's staging buffer holds the whole bias row at every point, for the same reason. -/
theorem bias_block_found {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each is its whole buffer -/

abbrev rHidden : Rect S1024x6144 := Rect.unit (s := S1024x6144) ![0, 0] S1024x6144.size inb_S1024x6144_S1024x6144_0_0
abbrev rWeight : Rect S10x6144 := Rect.unit (s := S10x6144) ![0, 0] S10x6144.size inb_S10x6144_S10x6144_0_0
abbrev rBias : Rect S1x10 := Rect.unit (s := S1x10) ![0, 0] S1x10.size inb_S1x10_S1x10_0_0
abbrev rOut : Rect S1024x10 := Rect.unit (s := S1024x10) ![0, 0] S1024x10.size inb_S1024x10_S1024x10_0_0

/-! ## What the body leaves in the output window's buffer -/

/-- The output buffer after the body, from the three input blocks: the one store, over the whole
    buffer, of the log-softmax payload of the blocks as loaded. -/
def out3_3 (x0 : Vec F S1024x6144 .bf16) (x1 : Vec F S10x6144 .f32) (x2 : Vec F S1x10 .f32) : Vec F S1024x10 .f32 :=
  View.canon [⟨rOut, k3_pay1 (View.ld x0 rHidden) (View.ld x1 rWeight) (View.ld x2 rBias)⟩]

/-- The one store's rectangle is the whole 1024×10 buffer, so every index is written. -/
theorem out_covered (p0 : Vec F S1024x10 .f32) (y : S1024x10.Idx) :
    ∃ pc ∈ ([⟨rOut, p0⟩] : List (View.Piece (Elt F) S1024x10 .f32)), y ∈ pc.1.set :=
  View.cover_of_tiled [⟨rOut, p0⟩] S1024x10.size (by rfl) y

/-! ## The body's triple -/

set_option maxHeartbeats 1000000 in
/-- The final-layer body on whole staging memrefs — the three inputs' read contents `x0 x1 x2`, the
    output's anything — runs to a continuation that holds the inputs unchanged and the output at
    `out3_3 x0 x1 x2`: the printed function is its skeleton, three loads, a load of the output
    buffer, and one store over all of it. -/
theorem final_kernel_triple (c : Dev nD) (E : Set ℕ) (i : grid3.Coords)
    (arg1 : Memref sig .tc .vmem S1024x6144 .bf16) (harg1 : arg1.IsWhole) (arg2 : Memref sig .tc .vmem S10x6144 .f32) (harg2 : arg2.IsWhole)
    (arg3 : Memref sig .tc .vmem S1x10 .f32) (harg3 : arg3.IsWhole) (arg4 : Memref sig .tc .vmem S1024x10 .f32) (harg4 : arg4.IsWhole)
    (x0 : Vec F S1024x6144 .bf16) (x1 : Vec F S10x6144 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__final_layer_kernel i arg1 harg1 arg2 harg2 arg3 harg3 arg4 harg4) K := by
  simp only [cc3__final_layer_kernel_eq_skeleton]; unfold cc3__final_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out_covered _)

/-! ## The pipeline's proof data -/

/-- The final layer's proof data on core `c`: the arrays as the region finds them; after the body at
    point `t` each input buffer still at its block and the output buffer at `out3_3` of the three
    blocks; the invariant is the untouched rest of the core; nothing is owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- What the body finds in each input buffer: the window's block at the point. -/
theorem before3_0 (c : Dev nD) (t : Fin cfg3.N) (d) : (dat3 V c).before 0 t d = iblk3 V c 0 t :=
  hidden_block_found V (dat3 V c) (A_eq3 V c 0) (after3_0 V c) t d
theorem before3_1 (c : Dev nD) (t : Fin cfg3.N) (d) : (dat3 V c).before 1 t d = iblk3 V c 1 t :=
  weight_block_found V (dat3 V c) (A_eq3 V c 1) (after3_1 V c) t d
theorem before3_2 (c : Dev nD) (t : Fin cfg3.N) (d) : (dat3 V c).before 2 t d = iblk3 V c 2 t :=
  bias_block_found V (dat3 V c) (A_eq3 V c 2) (after3_2 V c) t d

/-! ## The body's obligation at a generic point -/

/-- What the body is handed at point `t`: the invariant, the core's debt, and each window's current
    staging buffer at what the pipeline left there. -/
def finalPre (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What it hands back. -/
def finalPost (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs hold their blocks, so the kernel's triple applies; the
    invariant and the debt pass through unread. -/
theorem final_body_sound (c : Dev nD) (t : Fin cfg3.N) :
    finalPre V c t ⊢ wp frame (wpE (defs₀ (F := F)) Variants.none c none) Set.univ (bodyAt3 t) (fun _ => finalPost V c t) := by
  unfold finalPre finalPost bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (final_kernel_triple c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the final layer, at every point. -/
theorem body_obligation3 (c : Dev nD) : BodyObligation (dat3 (F := F) V c) (defs₀ (F := F)) Variants.none () Set.univ := fun t => by
  rw [bigSep_W3, bigSep_W3]
  exact final_body_sound V c t

end FinalLayer

end Cert.Kernel.Hand

end
-- ==== Proof.K.Run.lean ====
import proofs.«104501_j58892591563191_2_alg».proof.Proof.Gen.Kernel.Launch
import proofs.«104501_j58892591563191_2_alg».proof.Proof.Gen.Kernel.Skeleton
import proofs.«104501_j58892591563191_2_alg».proof.Proof.Gen.Kernel.Points
import proofs.«104501_j58892591563191_2_alg».proof.Proof.K.L0Dat
import proofs.«104501_j58892591563191_2_alg».proof.Proof.K.L1Dat
import proofs.«104501_j58892591563191_2_alg».proof.Proof.K.L2Dat
import proofs.«104501_j58892591563191_2_alg».proof.Proof.K.Final
import proofs.«104501_j58892591563191_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! # The run: @main's segments from the launch to the return

## The buffer contents at each segment boundary: a fold through @main -/

/-- Core `c`'s buffers at launch. -/
abbrev A0 : Dev nD → Valuation τ sig (Elt F) := fun c b => m (c, b)
/-- After the first host stretch: region 0's entry. -/
abbrev E0 : Dev nD → Valuation τ sig (Elt F) := fun c => StableHlo.after hostOps0 (A0 m c)
abbrev VE0 : (c : Dev nD) → (b : Ref sig .tc) → Buf (Elt F) ((c : Thread nD τ).loc b) := fun c b => E0 m c b

/-- At region 0's exit: its arrays at what the pipeline leaves, every other buffer as entered. -/
def X0 (c : Dev nD) : Valuation τ sig (Elt F) :=
  Pipeline.withArrays spec0 c (E0 m c) fun w => (dat0 (VE0 m) c).arrAt w cfg0.N
theorem X0_arr (c : Dev nD) (w : Fin cfg0.W) :
    X0 m c (Proc.devRef .tc (Pipeline.arrRef spec0 w)) = (dat0 (VE0 m) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m c (Proc.devRef .tc b) = E0 m c (Proc.devRef .tc b) := by
  unfold X0; exact Pipeline.withArrays_of_ne spec0 c _ _ b hb
abbrev VX0 : (c : Dev nD) → (b : Ref sig .tc) → Buf (Elt F) ((c : Thread nD τ).loc b) := fun c b => X0 m c b
theorem hF0 (c : Dev nD) (w : Fin cfg0.W) : (dat0 (VE0 m) c).arrAt w cfg0.N = VX0 m c (Pipeline.arrRef spec0 w) :=
  (X0_arr m c w).symm
theorem hrest0 (c : Dev nD) : ∀ b, b ∉ Finset.univ.image (Pipeline.arrRef spec0) → VX0 m c b = VE0 m c b :=
  fun b hb => X0_of_ne m c b fun w e => hb (Finset.mem_image.mpr ⟨w, Finset.mem_univ _, e⟩)

abbrev E1 : Dev nD → Valuation τ sig (Elt F) := fun c => StableHlo.after hostOps1 (X0 m c)
abbrev VE1 : (c : Dev nD) → (b : Ref sig .tc) → Buf (Elt F) ((c : Thread nD τ).loc b) := fun c b => E1 m c b

/-- At region 1's exit: its arrays at what the pipeline leaves, every other buffer as entered. -/
def X1 (c : Dev nD) : Valuation τ sig (Elt F) :=
  Pipeline.withArrays spec1 c (E1 m c) fun w => (dat1 (VE1 m) c).arrAt w cfg1.N
theorem X1_arr (c : Dev nD) (w : Fin cfg1.W) :
    X1 m c (Proc.devRef .tc (Pipeline.arrRef spec1 w)) = (dat1 (VE1 m) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m c (Proc.devRef .tc b) = E1 m c (Proc.devRef .tc b) := by
  unfold X1; exact Pipeline.withArrays_of_ne spec1 c _ _ b hb
abbrev VX1 : (c : Dev nD) → (b : Ref sig .tc) → Buf (Elt F) ((c : Thread nD τ).loc b) := fun c b => X1 m c b
theorem hF1 (c : Dev nD) (w : Fin cfg1.W) : (dat1 (VE1 m) c).arrAt w cfg1.N = VX1 m c (Pipeline.arrRef spec1 w) :=
  (X1_arr m c w).symm
theorem hrest1 (c : Dev nD) : ∀ b, b ∉ Finset.univ.image (Pipeline.arrRef spec1) → VX1 m c b = VE1 m c b :=
  fun b hb => X1_of_ne m c b fun w e => hb (Finset.mem_image.mpr ⟨w, Finset.mem_univ _, e⟩)

abbrev E2 : Dev nD → Valuation τ sig (Elt F) := fun c => StableHlo.after hostOps2 (X1 m c)
abbrev VE2 : (c : Dev nD) → (b : Ref sig .tc) → Buf (Elt F) ((c : Thread nD τ).loc b) := fun c b => E2 m c b

/-- At region 2's exit: its arrays at what the pipeline leaves, every other buffer as entered. -/
def X2 (c : Dev nD) : Valuation τ sig (Elt F) :=
  Pipeline.withArrays spec2 c (E2 m c) fun w => (dat2 (VE2 m) c).arrAt w cfg2.N
theorem X2_arr (c : Dev nD) (w : Fin cfg2.W) :
    X2 m c (Proc.devRef .tc (Pipeline.arrRef spec2 w)) = (dat2 (VE2 m) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 m c (Proc.devRef .tc b) = E2 m c (Proc.devRef .tc b) := by
  unfold X2; exact Pipeline.withArrays_of_ne spec2 c _ _ b hb
abbrev VX2 : (c : Dev nD) → (b : Ref sig .tc) → Buf (Elt F) ((c : Thread nD τ).loc b) := fun c b => X2 m c b
theorem hF2 (c : Dev nD) (w : Fin cfg2.W) : (dat2 (VE2 m) c).arrAt w cfg2.N = VX2 m c (Pipeline.arrRef spec2 w) :=
  (X2_arr m c w).symm
theorem hrest2 (c : Dev nD) : ∀ b, b ∉ Finset.univ.image (Pipeline.arrRef spec2) → VX2 m c b = VE2 m c b :=
  fun b hb => X2_of_ne m c b fun w e => hb (Finset.mem_image.mpr ⟨w, Finset.mem_univ _, e⟩)

abbrev E3 : Dev nD → Valuation τ sig (Elt F) := fun c => StableHlo.after hostOps3 (X2 m c)
abbrev VE3 : (c : Dev nD) → (b : Ref sig .tc) → Buf (Elt F) ((c : Thread nD τ).loc b) := fun c b => E3 m c b

/-- At region 3's exit: its arrays at what the pipeline leaves, every other buffer as entered. -/
def X3 (c : Dev nD) : Valuation τ sig (Elt F) :=
  Pipeline.withArrays spec3 c (E3 m c) fun w => (dat3 (VE3 m) c).arrAt w cfg3.N
theorem X3_arr (c : Dev nD) (w : Fin cfg3.W) :
    X3 m c (Proc.devRef .tc (Pipeline.arrRef spec3 w)) = (dat3 (VE3 m) c).arrAt w cfg3.N := by
  unfold X3; exact Pipeline.withArrays_arr spec3 launch3.win.arr_inj c _ _ w
theorem X3_of_ne (c : Dev nD) (b : Ref sig .tc) (hb : ∀ w, Pipeline.arrRef spec3 w ≠ b) :
    X3 m c (Proc.devRef .tc b) = E3 m c (Proc.devRef .tc b) := by
  unfold X3; exact Pipeline.withArrays_of_ne spec3 c _ _ b hb
abbrev VX3 : (c : Dev nD) → (b : Ref sig .tc) → Buf (Elt F) ((c : Thread nD τ).loc b) := fun c b => X3 m c b
theorem hF3 (c : Dev nD) (w : Fin cfg3.W) : (dat3 (VE3 m) c).arrAt w cfg3.N = VX3 m c (Pipeline.arrRef spec3 w) :=
  (X3_arr m c w).symm
theorem hrest3 (c : Dev nD) : ∀ b, b ∉ Finset.univ.image (Pipeline.arrRef spec3) → VX3 m c b = VE3 m c b :=
  fun b hb => X3_of_ne m c b fun w e => hb (Finset.mem_image.mpr ⟨w, Finset.mem_univ _, e⟩)

/-! ## The proof data family and the thread state -/

abbrev adm : (p : Fin 4) → (pcfgs (F := F) p).Adm := fun p => (cfgs p).toPCfg_adm
def pdats : (p : Fin 4) → (c : Dev nD) → Dat τ (Elt F) Unit ℕ (Pipeline.UD sig nD τ) ℕ (Pipeline.pin (pcfgs (F := F)) adm p) c
  | ⟨0, _⟩ => fun c => dat0 (VE0 m) c
  | ⟨1, _⟩ => fun c => dat1 (VE1 m) c
  | ⟨2, _⟩ => fun c => dat2 (VE2 m) c
  | ⟨3, _⟩ => fun c => dat3 (VE3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (X3 m c) ∗ ∃ r, prngReg c r)

/-! ## The regions as segments -/

set_option backward.isDefEq.respectTransparency.types false in
/-- REGION 0 over the thread state: entered from every unscoped buffer at `E0`, left at `X0`; its arrays split out
    of the unscoped buffers and put back at the exit contents; the generator register into the invariant and out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (E0 m c) ∗ R c)
  post c := iprop(StableHlo.held (c : Thread nD τ) (Pipeline.ucRefs τ sig) (X0 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (show (pdats m 0 c).Φ (Fin.last _) ⊢ Pipeline.ΦA spec0 c from Phi0_last (VE0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `E1`, left at `X1`; its arrays split out
    of the unscoped buffers and put back at the exit contents; the generator register into the invariant and out. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (E1 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    refine (show (pdats m 1 c).Φ (Fin.last _) ⊢ Pipeline.ΦA spec1 c from Phi1_last (VE1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `E2`, left at `X2`; its arrays split out
    of the unscoped buffers and put back at the exit contents; the generator register into the invariant and out. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m) c).loose
  hwaits := Pipeline.hwaits_of_owed_zero _ _ _ _ L lv 2 fun _ _ => rfl
  pre c := iprop(StableHlo.held (c : Thread nD τ) (Pipeline.ucRefs τ sig) (E2 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (VE2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VE2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    refine (show (pdats m 2 c).Φ (Fin.last _) ⊢ Pipeline.ΦA spec2 c from Phi2_last (VE2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (VE2 m c) (VX2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `E3`, left at `X3`; its arrays split out
    of the unscoped buffers and put back at the exit contents; the generator register into the invariant and out. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VE3 m) c).loose
  hwaits := Pipeline.hwaits_of_owed_zero _ _ _ _ L lv 3 fun _ _ => rfl
  pre c := iprop(StableHlo.held (c : Thread nD τ) (Pipeline.ucRefs τ sig) (E3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec3 c (VE3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VE3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    refine (show (pdats m 3 c).Φ (Fin.last _) ⊢ Pipeline.ΦA spec3 c from Entails.of_eq rfl).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (VE3 m c) (VX3 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (A0 m)),
    .region (reg0 m),
    .host (hseg hostOps1 hostOps1_sub hostOps1_fresh (X0 m)),
    .region (reg1 m),
    .host (hseg hostOps2 hostOps2_sub hostOps2_fresh (X1 m)),
    .region (reg2 m),
    .host (hseg hostOps3 hostOps3_sub hostOps3_fresh (X2 m)),
    .region (reg3 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X3 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (A0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (A0 m c)
        from Pipeline.unscopedBufs_held c (A0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X3 m c b)
    (hfin := fun c s' => by
      iintro ⟨⟨Hh, -⟩, HSI⟩
      unfold StableHlo.held
      imodintro
      iapply (pointsTo_read_all (Pipeline.ucRefs τ sig) (fun b => (((c : Thread nD τ)).1, b)) (X3 m c) s')
      isplitl [Hh] <;> iassumption)
    (hQ := fun s h c => h c)

/-! ## The arguments end as launched -/

/-- A buffer no host stretch writes and no region stages ends as launched. -/
theorem X3_kept (c : Dev nD) (b : Ref sig .tc) (h0 : b ∉ hostOps0_W) (h1 : b ∉ hostOps1_W) (h2 : b ∉ hostOps2_W) (h3 : b ∉ hostOps3_W)
    (r0 : ∀ w, Pipeline.arrRef spec0 w ≠ b) (r1 : ∀ w, Pipeline.arrRef spec1 w ≠ b) (r2 : ∀ w, Pipeline.arrRef spec2 w ≠ b) (r3 : ∀ w, Pipeline.arrRef spec3 w ≠ b) :
    X3 m c (Proc.devRef .tc b) = m ((c : Thread nD τ).loc b) :=
  calc X3 m c (Proc.devRef .tc b)
    _ = E3 m c (Proc.devRef .tc b) := X3_of_ne m c b r3
    _ = X2 m c (Proc.devRef .tc b) := StableHlo.after_of_writes_sub hostOps3 _ hostOps3_writes h3
    _ = E2 m c (Proc.devRef .tc b) := X2_of_ne m c b r2
    _ = X1 m c (Proc.devRef .tc b) := StableHlo.after_of_writes_sub hostOps2 _ hostOps2_writes h2
    _ = E1 m c (Proc.devRef .tc b) := X1_of_ne m c b r1
    _ = X0 m c (Proc.devRef .tc b) := StableHlo.after_of_writes_sub hostOps1 _ hostOps1_writes h1
    _ = E0 m c (Proc.devRef .tc b) := X0_of_ne m c b r0
    _ = A0 m c (Proc.devRef .tc b) := StableHlo.after_of_writes_sub hostOps0 _ hostOps0_writes h0
    _ = m ((c : Thread nD τ).loc b) := rfl
/-- The last layer's weight is an input window of region 3: it is read, never written. -/
theorem X3_main_arg19 (c : Dev nD) : X3 m c (Proc.devRef .tc main_arg19) = m ((c : Thread nD τ).loc main_arg19) :=
  calc X3 m c (Proc.devRef .tc main_arg19)
    _ = E3 m c (Proc.devRef .tc main_arg19) := (X3_arr m c 1).trans (((dat3 (VE3 m) c).arrAt_in 1 rfl _).trans (A_eq3 (VE3 m) c 1))
    _ = X2 m c (Proc.devRef .tc main_arg19) := StableHlo.after_of_writes_sub hostOps3 _ hostOps3_writes (by decide)
    _ = E2 m c (Proc.devRef .tc main_arg19) := X2_of_ne m c main_arg19 (by decide)
    _ = X1 m c (Proc.devRef .tc main_arg19) := StableHlo.after_of_writes_sub hostOps2 _ hostOps2_writes (by decide)
    _ = E1 m c (Proc.devRef .tc main_arg19) := X1_of_ne m c main_arg19 (by decide)
    _ = X0 m c (Proc.devRef .tc main_arg19) := StableHlo.after_of_writes_sub hostOps1 _ hostOps1_writes (by decide)
    _ = E0 m c (Proc.devRef .tc main_arg19) := X0_of_ne m c main_arg19 (by decide)
    _ = A0 m c (Proc.devRef .tc main_arg19) := StableHlo.after_of_writes_sub hostOps0 _ hostOps0_writes (by decide)
    _ = m ((c : Thread nD τ).loc main_arg19) := rfl

/-- THE FRAME: every weakly fair execution of @main terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun s h c =>
    ⟨(h c _ (mem_uc main_arg0 (by decide))).trans (X3_kept m c main_arg0 (by decide) (by decide) (by decide) (by decide) (by decide) (by decide) (by decide) (by decide)),
     (h c _ (mem_uc main_arg1 (by decide))).trans (X3_kept m c main_arg1 (by decide) (by decide) (by decide) (by decide) (by decide) (by decide) (by decide) (by decide)),
     (h c _ (mem_uc main_arg2 (by decide))).trans (X3_kept m c main_arg2 (by decide) (by decide) (by decide) (by decide) (by decide) (by decide) (by decide) (by decide)),
     (h c _ (mem_uc main_arg3 (by decide))).trans (X3_kept m c main_arg3 (by decide) (by decide) (by decide) (by decide) (by decide) (by decide) (by decide) (by decide)),
     (h c _ (mem_uc main_arg4 (by decide))).trans (X3_kept m c main_arg4 (by decide) (by decide) (by decide) (by decide) (by decide) (by decide) (by decide) (by decide)),
     (h c _ (mem_uc main_arg5 (by decide))).trans (X3_kept m c main_arg5 (by decide) (by decide) (by decide) (by decide) (by decide) (by decide) (by decide) (by decide)),
     (h c _ (mem_uc main_arg6 (by decide))).trans (X3_kept m c main_arg6 (by decide) (by decide) (by decide) (by decide) (by decide) (by decide) (by decide) (by decide)),
     (h c _ (mem_uc main_arg7 (by decide))).trans (X3_kept m c main_arg7 (by decide) (by decide) (by decide) (by decide) (by decide) (by decide) (by decide) (by decide)),
     (h c _ (mem_uc main_arg8 (by decide))).trans (X3_kept m c main_arg8 (by decide) (by decide) (by decide) (by decide) (by decide) (by decide) (by decide) (by decide)),
     (h c _ (mem_uc main_arg9 (by decide))).trans (X3_kept m c main_arg9 (by decide) (by decide) (by decide) (by decide) (by decide) (by decide) (by decide) (by decide)),
     (h c _ (mem_uc main_arg10 (by decide))).trans (X3_kept m c main_arg10 (by decide) (by decide) (by decide) (by decide) (by decide) (by decide) (by decide) (by decide)),
     (h c _ (mem_uc main_arg11 (by decide))).trans (X3_kept m c main_arg11 (by decide) (by decide) (by decide) (by decide) (by decide) (by decide) (by decide) (by decide)),
     (h c _ (mem_uc main_arg12 (by decide))).trans (X3_kept m c main_arg12 (by decide) (by decide) (by decide) (by decide) (by decide) (by decide) (by decide) (by decide)),
     (h c _ (mem_uc main_arg13 (by decide))).trans (X3_kept m c main_arg13 (by decide) (by decide) (by decide) (by decide) (by decide) (by decide) (by decide) (by decide)),
     (h c _ (mem_uc main_arg14 (by decide))).trans (X3_kept m c main_arg14 (by decide) (by decide) (by decide) (by decide) (by decide) (by decide) (by decide) (by decide)),
     (h c _ (mem_uc main_arg15 (by decide))).trans (X3_kept m c main_arg15 (by decide) (by decide) (by decide) (by decide) (by decide) (by decide) (by decide) (by decide)),
     (h c _ (mem_uc main_arg16 (by decide))).trans (X3_kept m c main_arg16 (by decide) (by decide) (by decide) (by decide) (by decide) (by decide) (by decide) (by decide)),
     (h c _ (mem_uc main_arg17 (by decide))).trans (X3_kept m c main_arg17 (by decide) (by decide) (by decide) (by decide) (by decide) (by decide) (by decide) (by decide)),
     (h c _ (mem_uc main_arg18 (by decide))).trans (X3_kept m c main_arg18 (by decide) (by decide) (by decide) (by decide) (by decide) (by decide) (by decide) (by decide)),
     (h c _ (mem_uc main_arg19 (by decide))).trans (X3_main_arg19 m c),
     (h c _ (mem_uc main_arg20 (by decide))).trans (X3_kept m c main_arg20 (by decide) (by decide) (by decide) (by decide) (by decide) (by decide) (by decide) (by decide))⟩)
    (run_all m ρ)

end Cert.Kernel.Hand

end
-- ==== Proof.KI.L0Runs.lean ====
import proofs.«104501_j58892591563191_2_alg».proof.Proof.Gen.KernelIdeal.Launch
import proofs.«104501_j58892591563191_2_alg».proof.Proof.Gen.KernelIdeal.Skeleton
import proofs.«104501_j58892591563191_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Region 0: the two conditions of the body, decided over the grid

The contraction axis is one block long, so every grid point both resets the accumulator and
finishes its block: both conditions hold at every point. -/

abbrev first0 (i : grid0.Coords) : Prop := (Scalar.cmpi .ne (Scalar.extui (Scalar.cmpi .eq (BitVec.ofNat 32 (i 2).val) 0#32)) 0#32) = 1#1
theorem first0_all : ∀ t : Fin cfg0.N, first0 (grid0.coords t) :=
  (by decide +kernel : ∀ t : Fin grid0.N, first0 (grid0.coords t))
abbrev last0 (i : grid0.Coords) : Prop := k0_cond2 i = 1#1
theorem last0_all : ∀ t : Fin cfg0.N, last0 (grid0.coords t) :=
  (by decide +kernel : ∀ t : Fin grid0.N, last0 (grid0.coords t))
/-- The output window is live at every point. -/
theorem live0_7 : ∀ t : Fin cfg0.N, cfg0.idle 7 (grid0.coords t) = false := by decide +kernel

abbrev VO0 : View sig .tc .vmem S1024x1024 .bf16 := (Memref.whole cc0_stg7_0 : Memref sig .tc .vmem S1024x1024 .bf16).view
abbrev scM0 : Memref sig .tc .vmem S1024x1024 .f32 := Memref.whole cc0_scratch0
abbrev VS0 : View sig .tc .vmem S1024x1024 .f32 := scM0.view

set_option maxHeartbeats 4000000 in
/-- The one step of a block: the accumulator, whatever it held, is zeroed and receives the whole product;
    the normalised, binarised block is stored into the output window's buffer, whatever that held. -/
noncomputable def kernelRun0_D (c : Dev nD) (i : grid0.Coords) (arg3 : Memref sig .tc .vmem S1024x784 .bf16) (harg3 : arg3.IsWhole) (arg4 : Memref sig .tc .vmem S1024x784 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : first0 i) (hc1 : last0 i)
    (x3 : Vec F S1024x784 .bf16) (x4 : Vec F S1024x784 .bf16) (x5 x6 x7 x8 x9 : Vec F S1x1024 .f32) :
    Σ' (L7 : List (View.Piece (Elt F) S1024x1024 .bf16)), { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS)) -∗ K ⟨⟩))
          ⊢ wp frame (wpE (defs₀ (F := F)) Variants.none c none) E (cc0__binary_layer_kernel i arg3 harg3 arg4 harg4 arg5 harg5 arg6 harg6 arg7 harg7 arg8 harg8 arg9 harg9 arg10 harg10 arg11 harg11) K } := by
  refine ⟨?_, ?_, fun E K => ?run⟩
  case run =>
    simp only [cc0__binary_layer_kernel_eq_skeleton]; unfold cc0__binary_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds, %fs, -, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; iexact HS

end Cert.KernelIdeal.Hand

end
-- ==== Proof.KI.L0Dat.lean ====
import proofs.«104501_j58892591563191_2_alg».proof.Proof.Gen.KernelIdeal.Launch
import proofs.«104501_j58892591563191_2_alg».proof.Proof.Gen.KernelIdeal.Skeleton
import proofs.«104501_j58892591563191_2_alg».proof.Proof.Gen.KernelIdeal.Points
import proofs.«104501_j58892591563191_2_alg».proof.Proof.KI.L0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Region 0: the proof data of its pipeline, at the contents `V` it is entered with -/

abbrev ms0_0 (t : Fin cfg0.N) : Memref sig .tc .vmem S1024x784 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x784 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)

theorem PhiA0_eq (c : Dev nD) :
    (Pipeline.ΦA spec0 c : sProp 𝕄)
      = iprop(iprop(iprop((∃ d, owns (c : Thread nD τ) scM0 fullShare d)) ∗ Pipeline.scopedRestBut (Ix := Unit) (Name := ℕ) (U := Pipeline.UD sig nD τ) (Lvl := ℕ) (Val := Elt F) spec0 c [cc0_scratch0]) ∗ (∃ r, prngReg c r)) := by
  unfold Pipeline.ΦA; rw [scopedRest0_split]; simp only [scM0, owns_whole]; try rfl

abbrev runD0 (c : Dev nD) (t : Fin cfg0.N) (x3 x4 : Vec F S1024x784 .bf16) (x5 x6 x7 x8 x9 : Vec F S1x1024 .f32) :=
  kernelRun0_D (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (first0_all t) (last0_all t) x3 x4 x5 x6 x7 x8 x9

theorem scoverD0 (c : Dev nD) (t : Fin cfg0.N) (x3 x4 : Vec F S1024x784 .bf16) (x5 x6 x7 x8 x9 : Vec F S1x1024 .f32) (y : S1024x1024.Idx) :
    ∃ pc ∈ (runD0 c t x3 x4 x5 x6 x7 x8 x9).2.1, y ∈ pc.1.set :=
  View.cover_of_tiledL (runD0 c t x3 x4 x5 x6 x7 x8 x9).2.1 S1024x1024.size (by sl_kernel_rfl) y
theorem ocoverD0 (c : Dev nD) (t : Fin cfg0.N) (x3 x4 : Vec F S1024x784 .bf16) (x5 x6 x7 x8 x9 : Vec F S1x1024 .f32) (y : S1024x1024.Idx) :
    ∃ pc ∈ (runD0 c t x3 x4 x5 x6 x7 x8 x9).1, y ∈ pc.1.set :=
  View.cover_of_tiledL (runD0 c t x3 x4 x5 x6 x7 x8 x9).1 S1024x1024.size (by sl_kernel_rfl) y

def sD0 (c : Dev nD) (t : Fin cfg0.N) (x3 x4 : Vec F S1024x784 .bf16) (x5 x6 x7 x8 x9 : Vec F S1x1024 .f32) : Vec F S1024x1024 .f32 :=
  VS0.read (Elt F) (VS0.writes (Elt F) VS0.junk (runD0 c t x3 x4 x5 x6 x7 x8 x9).2.1)
def oD0 (c : Dev nD) (t : Fin cfg0.N) (x3 x4 : Vec F S1024x784 .bf16) (x5 x6 x7 x8 x9 : Vec F S1x1024 .f32) : Vec F S1024x1024 .bf16 :=
  VO0.read (Elt F) (VO0.writes (Elt F) VO0.junk (runD0 c t x3 x4 x5 x6 x7 x8 x9).1)

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the output block's buffer and the accumulator hold after the body at point `t`. -/
def outsAt0 (c : Dev nD) (t : Fin cfg0.N) : Vec F S1024x1024 .bf16 × Vec F S1024x1024 .f32 :=
  (oD0 c t (iblk0 V c 0 t) (iblk0 V c 1 t) (iblk0 V c 2 t) (iblk0 V c 3 t) (iblk0 V c 4 t) (iblk0 V c 5 t) (iblk0 V c 6 t), sD0 c t (iblk0 V c 0 t) (iblk0 V c 1 t) (iblk0 V c 2 t) (iblk0 V c 3 t) (iblk0 V c 4 t) (iblk0 V c 5 t) (iblk0 V c 6 t))

def PhiS0 (c : Dev nD) : (n : ℕ) → n ≤ cfg0.N → sProp 𝕄
  | 0, _ => Pipeline.ΦA spec0 c
  | n + 1, hn => iprop(iprop(iprop(owns (c : Thread nD τ) scM0 fullShare ((outsAt0 V c ⟨n, hn⟩).2)) ∗ Pipeline.scopedRestBut (Ix := Unit) (Name := ℕ) (U := Pipeline.UD sig nD τ) (Lvl := ℕ) (Val := Elt F) spec0 c [cc0_scratch0]) ∗ (∃ r, prngReg c r))
theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0 fullShare ((outsAt0 V c ⟨n, hn⟩).2)) ∗ Pipeline.scopedRestBut (Ix := Unit) (Name := ℕ) (U := Pipeline.UD sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(iprop(owns (c : Thread nD τ) scM0 fullShare ((outsAt0 V c ⟨n - 1, by omega⟩).2)) ∗ Pipeline.scopedRestBut (Ix := Unit) (Name := ℕ) (U := Pipeline.UD sig nD τ) (Lvl := ℕ) (Val := Elt F) spec0 c [cc0_scratch0]) ∗ (∃ r, prngReg c r)) := by
  cases n with
  | zero => exact absurd rfl hz
  | succ n => rfl

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t).1 := by dsimp only [dat0]
/-- Input window 0's current buffer holds its block at every point, fetched there or not (unfetched, its block index has not moved). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input window 1's current buffer holds its block at every point, fetched there or not (unfetched, its block index has not moved). -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Input window 2's current buffer holds its block at every point, fetched there or not (unfetched, its block index has not moved). -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- Input window 3's current buffer holds its block at every point, fetched there or not (unfetched, its block index has not moved). -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
/-- Input window 4's current buffer holds its block at every point, fetched there or not (unfetched, its block index has not moved). -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- Input window 5's current buffer holds its block at every point, fetched there or not (unfetched, its block index has not moved). -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
/-- Input window 6's current buffer holds its block at every point, fetched there or not (unfetched, its block index has not moved). -/
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ (dat0 V c).leavesExact 7 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6]
  rw [show (dat0 V c).leavesExact 7 t = owns (c : Thread nD τ) (ms0_7 t) fullShare ((dat0 V c).after 7 t) from by
    unfold Dat.leavesExact; rw [live0_7 t], after0_7]
  unfold outsAt0 oD0 sD0; (try dsimp only)
  by_cases hz : t.val = 0
  · rw [PhiS0_castSucc V c t, PhiS0_zero V c _ _ hz, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runD0 c t (iblk0 V c 0 t) (iblk0 V c 1 t) (iblk0 V c 2 t) (iblk0 V c 3 t) (iblk0 V c 4 t) (iblk0 V c 5 t) (iblk0 V c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, ⟨%es, HS⟩⟩
    isplitl [HS Hrest Hg]
    · isplitl [HS Hrest]
      · isplitl [HS]
        · unfold owns; iexists _; isplitr
          swap; · iexact HS
          ipureintro; exact View.read_writes_of_cover _ _ _ _ _ (scoverD0 c t _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (ocoverD0 c t _ _ _ _ _ _ _)
  · rw [PhiS0_castSucc V c t, PhiS0_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runD0 c t (iblk0 V c 0 t) (iblk0 V c 1 t) (iblk0 V c 2 t) (iblk0 V c 3 t) (iblk0 V c 4 t) (iblk0 V c 5 t) (iblk0 V c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexists _; iexact HS
    iintro ⟨H0, H1, H2, H3, H4, H5, H6, ⟨%e7, H7⟩, ⟨%es, HS⟩⟩
    isplitl [HS Hrest Hg]
    · isplitl [HS Hrest]
      · isplitl [HS]
        · unfold owns; iexists _; isplitr
          swap; · iexact HS
          ipureintro; exact View.read_writes_of_cover _ _ _ _ _ (scoverD0 c t _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (ocoverD0 c t _ _ _ _ _ _ _)

theorem body_obligation0 (c : Dev nD) : BodyObligation (dat0 (F := F) V c) (defs₀ (F := F)) Variants.none () Set.univ := fun t => by
  rw [bigSep_W0, bigSep_W0]
  exact sound_body0 V c t

theorem Phi0_first (c : Dev nD) : (dat0 V c).Φ 0 = Pipeline.ΦA spec0 c := rfl
theorem Phi0_last (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = grid0.N := rfl; have := N_0; omega), PhiA0_eq]
  iintro ⟨⟨HS, Hrest⟩, Hg⟩
  isplitl [HS Hrest]
  · isplitl [HS]; · iexists _; iexact HS
    iexact Hrest
  iexact Hg

end

end Cert.KernelIdeal.Hand

end
-- ==== Proof.KI.L1Runs.lean ====
import proofs.«104501_j58892591563191_2_alg».proof.Proof.Gen.KernelIdeal.Launch
import proofs.«104501_j58892591563191_2_alg».proof.Proof.Gen.KernelIdeal.Skeleton
import proofs.«104501_j58892591563191_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Region 1: the two conditions of the body, decided over the grid

The body zeroes its accumulator when the innermost grid coordinate is 0 and writes the
normalised block out when it is the last one (2); in point order these are the points
≡ 0 and ≡ 2 modulo 3. -/

/-- The accumulator is reset: the innermost coordinate is 0. -/
abbrev first1 (i : grid1.Coords) : Prop := (Scalar.cmpi .ne (Scalar.extui (Scalar.cmpi .eq (BitVec.ofNat 32 (i 2).val) 0#32)) 0#32) = 1#1
theorem first1_iff : ∀ t : Fin cfg1.N, first1 (grid1.coords t) ↔ t.val % 3 = 0 :=
  (by decide +kernel : ∀ t : Fin grid1.N, first1 (grid1.coords t) ↔ t.val % 3 = 0)
/-- The block is finished: the innermost coordinate is the last. -/
abbrev last1 (i : grid1.Coords) : Prop := k1_cond2 i = 1#1
theorem last1_iff : ∀ t : Fin cfg1.N, last1 (grid1.coords t) ↔ t.val % 3 = 2 :=
  (by decide +kernel : ∀ t : Fin grid1.N, last1 (grid1.coords t) ↔ t.val % 3 = 2)

/-- Where the output window is idle: exactly where the block is not finished; there it is not written back. -/
theorem idle1_7 : ∀ t : Fin cfg1.N, ¬last1 (grid1.coords t) → cfg1.idle 7 (grid1.coords t) = true := by decide +kernel
theorem noFlush1_7 : ∀ t : Fin cfg1.N, ¬last1 (grid1.coords t) → (cfg1.win 7).flush t = false := by decide +kernel
theorem live1_7 : ∀ t : Fin cfg1.N, last1 (grid1.coords t) → cfg1.idle 7 (grid1.coords t) = false := by decide +kernel

/-- One staging buffer of the output window, through which its contents are stated. -/
abbrev VO1 : View sig .tc .vmem S1024x1024 .bf16 := (Memref.whole cc1_stg7_0 : Memref sig .tc .vmem S1024x1024 .bf16).view
/-- The accumulator scratch, as a memref and as a view. -/
abbrev scM1 : Memref sig .tc .vmem S1024x1024 .f32 := Memref.whole cc1_scratch0
abbrev VS1 : View sig .tc .vmem S1024x1024 .f32 := scM1.view

/-! ## The body run once per case -/

set_option maxHeartbeats 4000000 in
/-- First step of a block that has more to come: the accumulator, whatever it held, ends at the
    pieces the run finds (zero, then zero plus the first partial product). -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : first1 i) (hc1 : ¬last1 i)
    (x3 : Vec F S1024x1024 .bf16) (x4 : Vec F S1024x1024 .bf16) :
    { LS : List (View.Piece (Elt F) S1024x1024 .f32) //
      ∀ (E : Set ℕ) (K : PUnit → sProp 𝕄),
        iprop(owns (c : Thread nD τ) arg3 fullShare x3 ∗ owns (c : Thread nD τ) arg4 fullShare x4 ∗ (∃ d, owns (c : Thread nD τ) arg11 fullShare d)
            ∗ (iprop(owns (c : Thread nD τ) arg3 fullShare x3 ∗ owns (c : Thread nD τ) arg4 fullShare x4 ∗ (∃ f, arg11.view.loc (c : Thread nD τ) ↦[arg11.view.set]{fullShare} arg11.view.writes (Elt F) f LS)) -∗ K ⟨⟩))
          ⊢ wp frame (wpE (defs₀ (F := F)) Variants.none c none) E (cc1__binary_layer_kernel i arg3 harg3 arg4 harg4 arg5 harg5 arg6 harg6 arg7 harg7 arg8 harg8 arg9 harg9 arg10 harg10 arg11 harg11) K } := by
  refine ⟨?_, fun E K => ?run⟩
  case run =>
    simp only [cc1__binary_layer_kernel_eq_skeleton]; unfold cc1__binary_layer_kernel_skel
    unfold owns
    iintro ⟨⟨%f3, %hf3, H3⟩, ⟨%f4, %hf4, H4⟩, ⟨%ds, %fs, -, HS⟩, Hk⟩
    obtain rfl := harg3.eq_unread hf3; obtain rfl := harg4.eq_unread hf4
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    iexists _; iexact HS

set_option maxHeartbeats 4000000 in
/-- A middle step: the accumulator at the contents the step before left ends at the pieces the
    run finds (those contents plus this step's partial product). -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : ¬first1 i) (hc1 : ¬last1 i)
    (x3 : Vec F S1024x1024 .bf16) (x4 : Vec F S1024x1024 .bf16) (xs : Vec F S1024x1024 .f32) :
    { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg11 fullShare xs
            ∗ (iprop(owns (c : Thread nD τ) arg3 fullShare x3 ∗ owns (c : Thread nD τ) arg4 fullShare x4 ∗ (∃ f, arg11.view.loc (c : Thread nD τ) ↦[arg11.view.set]{fullShare} arg11.view.writes (Elt F) f LS)) -∗ K ⟨⟩))
          ⊢ wp frame (wpE (defs₀ (F := F)) Variants.none c none) E (cc1__binary_layer_kernel i arg3 harg3 arg4 harg4 arg5 harg5 arg6 harg6 arg7 harg7 arg8 harg8 arg9 harg9 arg10 harg10 arg11 harg11) K } := by
  refine ⟨?_, fun E K => ?run⟩
  case run =>
    simp only [cc1__binary_layer_kernel_eq_skeleton]; unfold cc1__binary_layer_kernel_skel
    unfold owns
    iintro ⟨⟨%f3, %hf3, H3⟩, ⟨%f4, %hf4, H4⟩, ⟨%fs, %hfs, HS⟩, Hk⟩
    obtain rfl := harg3.eq_unread hf3; obtain rfl := harg4.eq_unread hf4; obtain rfl := harg11.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    iexists _; iexact HS

set_option maxHeartbeats 4000000 in
/-- The last step: the accumulator is completed and the normalised, activated block is stored
    into the output window's buffer, whatever that held. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : ¬first1 i) (hc1 : last1 i)
    (x3 : Vec F S1024x1024 .bf16) (x4 : Vec F S1024x1024 .bf16) (x5 x6 x7 x8 x9 : Vec F S1x1024 .f32) (xs : Vec F S1024x1024 .f32) :
    Σ' (L7 : List (View.Piece (Elt F) S1024x1024 .bf16)), { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS)) -∗ K ⟨⟩))
          ⊢ wp frame (wpE (defs₀ (F := F)) Variants.none c none) E (cc1__binary_layer_kernel i arg3 harg3 arg4 harg4 arg5 harg5 arg6 harg6 arg7 harg7 arg8 harg8 arg9 harg9 arg10 harg10 arg11 harg11) K } := by
  refine ⟨?_, ?_, fun E K => ?run⟩
  case run =>
    simp only [cc1__binary_layer_kernel_eq_skeleton]; unfold cc1__binary_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg11.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; iexact HS

end Cert.KernelIdeal.Hand

end
-- ==== Proof.KI.L1Dat.lean ====
import proofs.«104501_j58892591563191_2_alg».proof.Proof.Gen.KernelIdeal.Launch
import proofs.«104501_j58892591563191_2_alg».proof.Proof.Gen.KernelIdeal.Skeleton
import proofs.«104501_j58892591563191_2_alg».proof.Proof.Gen.KernelIdeal.Points
import proofs.«104501_j58892591563191_2_alg».proof.Proof.KI.L1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Region 1: the proof data of its pipeline, at the contents `V` it is entered with -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .bf16 := win1_7.stage (cfg1.slots t 7)
abbrev hs1_7 (t : Fin cfg1.N) : (ms1_7 t).IsWhole := hstage1_7 ((cfg1.slots t 7).cast nbuf1_7)

/-- The region's invariant with the accumulator scratch taken out of the scoped rest. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := Pipeline.UD sig nD τ) (Lvl := ℕ) (Val := Elt F) spec1 c [cc1_scratch0]) ∗ (∃ r, prngReg c r)) := by
  unfold Pipeline.ΦA; rw [scopedRest1_split]; simp only [scM1, owns_whole]; try rfl

/-- The three runs at a point's memrefs. -/
abbrev runA1 (c : Dev nD) (t : Fin cfg1.N) (h0 : t.val % 3 = 0) (x3 x4 : Vec F S1024x1024 .bf16) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((first1_iff t).mpr h0) (fun h => by have := (last1_iff t).mp h; omega) x3 x4
abbrev runB1 (c : Dev nD) (t : Fin cfg1.N) (h0 : ¬t.val % 3 = 0) (h1 : ¬t.val % 3 = 2) (x3 x4 : Vec F S1024x1024 .bf16) (xs : Vec F S1024x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((first1_iff t).mp h)) (fun h => h1 ((last1_iff t).mp h)) x3 x4 xs
abbrev runC1 (c : Dev nD) (t : Fin cfg1.N) (h0 : ¬t.val % 3 = 0) (h1 : t.val % 3 = 2) (x3 x4 : Vec F S1024x1024 .bf16) (x5 x6 x7 x8 x9 : Vec F S1x1024 .f32) (xs : Vec F S1024x1024 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((first1_iff t).mp h)) ((last1_iff t).mpr h1) x3 x4 x5 x6 x7 x8 x9 xs

/-- Each run's stores into the accumulator cover it; the last run's store covers the output block. -/
theorem scoverA1 (c : Dev nD) (t : Fin cfg1.N) (h0 : t.val % 3 = 0) (x3 x4 : Vec F S1024x1024 .bf16) (y : S1024x1024.Idx) :
    ∃ pc ∈ (runA1 c t h0 x3 x4).1, y ∈ pc.1.set :=
  View.cover_of_tiledL (runA1 c t h0 x3 x4).1 S1024x1024.size (by sl_kernel_rfl) y
theorem scoverB1 (c : Dev nD) (t : Fin cfg1.N) (h0 : ¬t.val % 3 = 0) (h1 : ¬t.val % 3 = 2) (x3 x4 : Vec F S1024x1024 .bf16) (xs : Vec F S1024x1024 .f32) (y : S1024x1024.Idx) :
    ∃ pc ∈ (runB1 c t h0 h1 x3 x4 xs).1, y ∈ pc.1.set :=
  View.cover_of_tiledL (runB1 c t h0 h1 x3 x4 xs).1 S1024x1024.size (by sl_kernel_rfl) y
theorem scoverC1 (c : Dev nD) (t : Fin cfg1.N) (h0 : ¬t.val % 3 = 0) (h1 : t.val % 3 = 2) (x3 x4 : Vec F S1024x1024 .bf16) (x5 x6 x7 x8 x9 : Vec F S1x1024 .f32) (xs : Vec F S1024x1024 .f32) (y : S1024x1024.Idx) :
    ∃ pc ∈ (runC1 c t h0 h1 x3 x4 x5 x6 x7 x8 x9 xs).2.1, y ∈ pc.1.set :=
  View.cover_of_tiledL (runC1 c t h0 h1 x3 x4 x5 x6 x7 x8 x9 xs).2.1 S1024x1024.size (by sl_kernel_rfl) y
theorem ocoverC1 (c : Dev nD) (t : Fin cfg1.N) (h0 : ¬t.val % 3 = 0) (h1 : t.val % 3 = 2) (x3 x4 : Vec F S1024x1024 .bf16) (x5 x6 x7 x8 x9 : Vec F S1x1024 .f32) (xs : Vec F S1024x1024 .f32) (y : S1024x1024.Idx) :
    ∃ pc ∈ (runC1 c t h0 h1 x3 x4 x5 x6 x7 x8 x9 xs).1, y ∈ pc.1.set :=
  View.cover_of_tiledL (runC1 c t h0 h1 x3 x4 x5 x6 x7 x8 x9 xs).1 S1024x1024.size (by sl_kernel_rfl) y

/-- What each run leaves in the accumulator, and the last one in the output block: its pieces read back. -/
def sA1 (c : Dev nD) (t : Fin cfg1.N) (h0 : t.val % 3 = 0) (x3 x4 : Vec F S1024x1024 .bf16) : Vec F S1024x1024 .f32 :=
  VS1.read (Elt F) (VS1.writes (Elt F) VS1.junk (runA1 c t h0 x3 x4).1)
def sB1 (c : Dev nD) (t : Fin cfg1.N) (h0 : ¬t.val % 3 = 0) (h1 : ¬t.val % 3 = 2) (x3 x4 : Vec F S1024x1024 .bf16) (xs : Vec F S1024x1024 .f32) : Vec F S1024x1024 .f32 :=
  VS1.read (Elt F) (VS1.writes (Elt F) VS1.junk (runB1 c t h0 h1 x3 x4 xs).1)
def sC1 (c : Dev nD) (t : Fin cfg1.N) (h0 : ¬t.val % 3 = 0) (h1 : t.val % 3 = 2) (x3 x4 : Vec F S1024x1024 .bf16) (x5 x6 x7 x8 x9 : Vec F S1x1024 .f32) (xs : Vec F S1024x1024 .f32) : Vec F S1024x1024 .f32 :=
  VS1.read (Elt F) (VS1.writes (Elt F) VS1.junk (runC1 c t h0 h1 x3 x4 x5 x6 x7 x8 x9 xs).2.1)
def oC1 (c : Dev nD) (t : Fin cfg1.N) (h0 : ¬t.val % 3 = 0) (h1 : t.val % 3 = 2) (x3 x4 : Vec F S1024x1024 .bf16) (x5 x6 x7 x8 x9 : Vec F S1x1024 .f32) (xs : Vec F S1024x1024 .f32) : Vec F S1024x1024 .bf16 :=
  VO1.read (Elt F) (VO1.writes (Elt F) VO1.junk (runC1 c t h0 h1 x3 x4 x5 x6 x7 x8 x9 xs).1)
/-- A placeholder for the output buffer at the points that store nothing into it (never consulted). -/
def oJunk1 : Vec F S1024x1024 .bf16 := VO1.read (Elt F) VO1.junk

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION: what the output block's buffer and the accumulator hold after the body at position `n`. -/
def outsAt1 (c : Dev nD) : (n : ℕ) → n < cfg1.N → Vec F S1024x1024 .bf16 × Vec F S1024x1024 .f32
  | 0, hn => (oJunk1, sA1 c ⟨0, hn⟩ (Nat.zero_mod _) (iblk1 V c 0 ⟨0, hn⟩) (iblk1 V c 1 ⟨0, hn⟩))
  | n + 1, hn =>
    if h0 : (n + 1) % 3 = 0 then
      (oJunk1, sA1 c ⟨n + 1, hn⟩ h0 (iblk1 V c 0 ⟨n + 1, hn⟩) (iblk1 V c 1 ⟨n + 1, hn⟩))
    else if h1 : (n + 1) % 3 = 2 then
      (oC1 c ⟨n + 1, hn⟩ h0 h1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2,
       sC1 c ⟨n + 1, hn⟩ h0 h1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
    else
      (oJunk1, sB1 c ⟨n + 1, hn⟩ h0 h1 (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 3 = 0) :
    outsAt1 V c t.val t.isLt = (oJunk1, sA1 c t h0 (iblk1 V c 0 t) (iblk1 V c 1 t)) := by
  obtain ⟨n, hn⟩ := t
  cases n with
  | zero => exact rfl
  | succ n => exact (dif_pos h0).trans rfl
theorem outsAt1_B (c : Dev nD) (t : Fin cfg1.N) (h0 : ¬t.val % 3 = 0) (h1 : ¬t.val % 3 = 2) :
    outsAt1 V c t.val t.isLt = (oJunk1, sB1 c t h0 h1 (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬t.val % 3 = 0) (h1 : t.val % 3 = 2) :
    outsAt1 V c t.val t.isLt = (oC1 c t h0 h1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2,
      sC1 c t h0 h1 (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The invariant before position `n`: before the first point the region's own; afterwards the accumulator at what
    the point before left in it, the rest of the scoped buffers and the generator register as they were. -/
def PhiS1 (c : Dev nD) : (n : ℕ) → n ≤ cfg1.N → sProp 𝕄
  | 0, _ => Pipeline.ΦA spec1 c
  | n + 1, hn => iprop(iprop(iprop(owns (c : Thread nD τ) scM1 fullShare ((outsAt1 V c n hn).2))
      ∗ Pipeline.scopedRestBut (Ix := Unit) (Name := ℕ) (U := Pipeline.UD sig nD τ) (Lvl := ℕ) (Val := Elt F) spec1 c [cc1_scratch0]) ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1 fullShare ((outsAt1 V c n hn).2))
      ∗ Pipeline.scopedRestBut (Ix := Unit) (Name := ℕ) (U := Pipeline.UD sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(iprop(owns (c : Thread nD τ) scM1 fullShare ((outsAt1 V c (n - 1) (by omega)).2))
      ∗ Pipeline.scopedRestBut (Ix := Unit) (Name := ℕ) (U := Pipeline.UD sig nD τ) (Lvl := ℕ) (Val := Elt F) spec1 c [cc1_scratch0]) ∗ (∃ r, prngReg c r)) := by
  cases n with
  | zero => exact absurd rfl hz
  | succ n => rfl

/-- The proof data of pipeline 1 on core `c`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
/-- Input window 0's current buffer holds its block at every point, fetched there or not (unfetched, its block index has not moved). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- Input window 1's current buffer holds its block at every point, fetched there or not (unfetched, its block index has not moved). -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- Input window 2's current buffer holds its block at every point, fetched there or not (unfetched, its block index has not moved). -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- Input window 3's current buffer holds its block at every point, fetched there or not (unfetched, its block index has not moved). -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- Input window 4's current buffer holds its block at every point, fetched there or not (unfetched, its block index has not moved). -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- Input window 5's current buffer holds its block at every point, fetched there or not (unfetched, its block index has not moved). -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
/-- Input window 6's current buffer holds its block at every point, fetched there or not (unfetched, its block index has not moved). -/
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ (dat1 V c).leavesExact 7 t)

set_option maxHeartbeats 8000000 in
/-- The body at any point: the inputs' buffers hold their blocks; which step of the block the point is decides the run;
    the invariant hands over the accumulator at what the step before left (anything at a block's first step) and
    takes it back at this step's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6]
  by_cases h0 : t.val % 3 = 0
  · have h1 : ¬t.val % 3 = 2 := by omega
    rw [Dat.leavesExact_idle (dat1 V c) 7 t (idle1_7 t (fun h => h1 ((last1_iff t).mp h))) (noFlush1_7 t (fun h => h1 ((last1_iff t).mp h)))]
    rw [outsAt1_A V c t h0]
    unfold sA1; (try dsimp only)
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA1 c t h0 (iblk1 V c 0 t) (iblk1 V c 1 t)).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scoverA1 c t h0 _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA1 c t h0 (iblk1 V c 0 t) (iblk1 V c 1 t)).2 Set.univ _)
      isplitl [H0]; · iexact H0
      isplitl [H1]; · iexact H1
      isplitl [HS]; · iexists _; iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scoverA1 c t h0 _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 3 = 2
    · rw [show (dat1 V c).leavesExact 7 t = owns (c : Thread nD τ) (ms1_7 t) fullShare ((dat1 V c).after 7 t) from by
        unfold Dat.leavesExact; rw [live1_7 t ((last1_iff t).mpr h1)], after1_7]
      rw [outsAt1_C V c t h0 h1]
      unfold oC1 sC1; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC1 c t h0 h1 (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverC1 c t h0 h1 _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (ocoverC1 c t h0 h1 _ _ _ _ _ _ _ _)
    · rw [Dat.leavesExact_idle (dat1 V c) 7 t (idle1_7 t (fun h => h1 ((last1_iff t).mp h))) (noFlush1_7 t (fun h => h1 ((last1_iff t).mp h)))]
      rw [outsAt1_B V c t h0 h1]
      unfold sB1; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB1 c t h0 h1 (iblk1 V c 0 t) (iblk1 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scoverB1 c t h0 h1 _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The region's invariant at its two ends is the class invariant (the accumulator's last contents forgotten). -/
theorem Phi1_first (c : Dev nD) : (dat1 V c).Φ 0 = Pipeline.ΦA spec1 c := rfl
theorem Phi1_last (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = grid1.N := rfl; have := N_1; omega), PhiA1_eq]
  iintro ⟨⟨HS, Hrest⟩, Hg⟩
  isplitl [HS Hrest]
  · isplitl [HS]; · iexists _; iexact HS
    iexact Hrest
  iexact Hg

end

end Cert.KernelIdeal.Hand

end
-- ==== Proof.KI.L2Runs.lean ====
import proofs.«104501_j58892591563191_2_alg».proof.Proof.Gen.KernelIdeal.Launch
import proofs.«104501_j58892591563191_2_alg».proof.Proof.Gen.KernelIdeal.Skeleton
import proofs.«104501_j58892591563191_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Region 2: the two conditions of the body, decided over the grid

The body zeroes its accumulator when the innermost grid coordinate is 0 and writes the
normalised block out when it is the last one (5); in point order these are the points
≡ 0 and ≡ 5 modulo 6. -/

/-- The accumulator is reset: the innermost coordinate is 0. -/
abbrev first2 (i : grid2.Coords) : Prop := (Scalar.cmpi .ne (Scalar.extui (Scalar.cmpi .eq (BitVec.ofNat 32 (i 2).val) 0#32)) 0#32) = 1#1
theorem first2_iff : ∀ t : Fin cfg2.N, first2 (grid2.coords t) ↔ t.val % 6 = 0 :=
  (by decide +kernel : ∀ t : Fin grid2.N, first2 (grid2.coords t) ↔ t.val % 6 = 0)
/-- The block is finished: the innermost coordinate is the last. -/
abbrev last2 (i : grid2.Coords) : Prop := k2_cond2 i = 1#1
theorem last2_iff : ∀ t : Fin cfg2.N, last2 (grid2.coords t) ↔ t.val % 6 = 5 :=
  (by decide +kernel : ∀ t : Fin grid2.N, last2 (grid2.coords t) ↔ t.val % 6 = 5)

/-- Where the output window is idle: exactly where the block is not finished; there it is not written back. -/
theorem idle2_7 : ∀ t : Fin cfg2.N, ¬last2 (grid2.coords t) → cfg2.idle 7 (grid2.coords t) = true := by decide +kernel
theorem noFlush2_7 : ∀ t : Fin cfg2.N, ¬last2 (grid2.coords t) → (cfg2.win 7).flush t = false := by decide +kernel
theorem live2_7 : ∀ t : Fin cfg2.N, last2 (grid2.coords t) → cfg2.idle 7 (grid2.coords t) = false := by decide +kernel

/-- One staging buffer of the output window, through which its contents are stated. -/
abbrev VO2 : View sig .tc .vmem S1024x1024 .bf16 := (Memref.whole cc2_stg7_0 : Memref sig .tc .vmem S1024x1024 .bf16).view
/-- The accumulator scratch, as a memref and as a view. -/
abbrev scM2 : Memref sig .tc .vmem S1024x1024 .f32 := Memref.whole cc2_scratch0
abbrev VS2 : View sig .tc .vmem S1024x1024 .f32 := scM2.view

/-! ## The body run once per case -/

set_option maxHeartbeats 4000000 in
/-- First step of a block that has more to come: the accumulator, whatever it held, ends at the
    pieces the run finds (zero, then zero plus the first partial product). -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : first2 i) (hc1 : ¬last2 i)
    (x3 : Vec F S1024x1024 .bf16) (x4 : Vec F S1024x1024 .bf16) :
    { LS : List (View.Piece (Elt F) S1024x1024 .f32) //
      ∀ (E : Set ℕ) (K : PUnit → sProp 𝕄),
        iprop(owns (c : Thread nD τ) arg3 fullShare x3 ∗ owns (c : Thread nD τ) arg4 fullShare x4 ∗ (∃ d, owns (c : Thread nD τ) arg11 fullShare d)
            ∗ (iprop(owns (c : Thread nD τ) arg3 fullShare x3 ∗ owns (c : Thread nD τ) arg4 fullShare x4 ∗ (∃ f, arg11.view.loc (c : Thread nD τ) ↦[arg11.view.set]{fullShare} arg11.view.writes (Elt F) f LS)) -∗ K ⟨⟩))
          ⊢ wp frame (wpE (defs₀ (F := F)) Variants.none c none) E (cc2__binary_layer_kernel i arg3 harg3 arg4 harg4 arg5 harg5 arg6 harg6 arg7 harg7 arg8 harg8 arg9 harg9 arg10 harg10 arg11 harg11) K } := by
  refine ⟨?_, fun E K => ?run⟩
  case run =>
    simp only [cc2__binary_layer_kernel_eq_skeleton]; unfold cc2__binary_layer_kernel_skel
    unfold owns
    iintro ⟨⟨%f3, %hf3, H3⟩, ⟨%f4, %hf4, H4⟩, ⟨%ds, %fs, -, HS⟩, Hk⟩
    obtain rfl := harg3.eq_unread hf3; obtain rfl := harg4.eq_unread hf4
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    iexists _; iexact HS

set_option maxHeartbeats 4000000 in
/-- A middle step: the accumulator at the contents the step before left ends at the pieces the
    run finds (those contents plus this step's partial product). -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : ¬first2 i) (hc1 : ¬last2 i)
    (x3 : Vec F S1024x1024 .bf16) (x4 : Vec F S1024x1024 .bf16) (xs : Vec F S1024x1024 .f32) :
    { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg11 fullShare xs
            ∗ (iprop(owns (c : Thread nD τ) arg3 fullShare x3 ∗ owns (c : Thread nD τ) arg4 fullShare x4 ∗ (∃ f, arg11.view.loc (c : Thread nD τ) ↦[arg11.view.set]{fullShare} arg11.view.writes (Elt F) f LS)) -∗ K ⟨⟩))
          ⊢ wp frame (wpE (defs₀ (F := F)) Variants.none c none) E (cc2__binary_layer_kernel i arg3 harg3 arg4 harg4 arg5 harg5 arg6 harg6 arg7 harg7 arg8 harg8 arg9 harg9 arg10 harg10 arg11 harg11) K } := by
  refine ⟨?_, fun E K => ?run⟩
  case run =>
    simp only [cc2__binary_layer_kernel_eq_skeleton]; unfold cc2__binary_layer_kernel_skel
    unfold owns
    iintro ⟨⟨%f3, %hf3, H3⟩, ⟨%f4, %hf4, H4⟩, ⟨%fs, %hfs, HS⟩, Hk⟩
    obtain rfl := harg3.eq_unread hf3; obtain rfl := harg4.eq_unread hf4; obtain rfl := harg11.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    iexists _; iexact HS

set_option maxHeartbeats 4000000 in
/-- The last step: the accumulator is completed and the normalised, activated block is stored
    into the output window's buffer, whatever that held. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : ¬first2 i) (hc1 : last2 i)
    (x3 : Vec F S1024x1024 .bf16) (x4 : Vec F S1024x1024 .bf16) (x5 x6 x7 x8 x9 : Vec F S1x1024 .f32) (xs : Vec F S1024x1024 .f32) :
    Σ' (L7 : List (View.Piece (Elt F) S1024x1024 .bf16)), { LS : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS)) -∗ K ⟨⟩))
          ⊢ wp frame (wpE (defs₀ (F := F)) Variants.none c none) E (cc2__binary_layer_kernel i arg3 harg3 arg4 harg4 arg5 harg5 arg6 harg6 arg7 harg7 arg8 harg8 arg9 harg9 arg10 harg10 arg11 harg11) K } := by
  refine ⟨?_, ?_, fun E K => ?run⟩
  case run =>
    simp only [cc2__binary_layer_kernel_eq_skeleton]; unfold cc2__binary_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg11.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; iexact HS

end Cert.KernelIdeal.Hand

end
-- ==== Proof.KI.L2Dat.lean ====
import proofs.«104501_j58892591563191_2_alg».proof.Proof.Gen.KernelIdeal.Launch
import proofs.«104501_j58892591563191_2_alg».proof.Proof.Gen.KernelIdeal.Skeleton
import proofs.«104501_j58892591563191_2_alg».proof.Proof.Gen.KernelIdeal.Points
import proofs.«104501_j58892591563191_2_alg».proof.Proof.KI.L2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Region 2: the proof data of its pipeline, at the contents `V` it is entered with -/

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1024 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x1024 .bf16 := win2_7.stage (cfg2.slots t 7)
abbrev hs2_7 (t : Fin cfg2.N) : (ms2_7 t).IsWhole := hstage2_7 ((cfg2.slots t 7).cast nbuf2_7)

/-- The region's invariant with the accumulator scratch taken out of the scoped rest. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := Pipeline.UD sig nD τ) (Lvl := ℕ) (Val := Elt F) spec2 c [cc2_scratch0]) ∗ (∃ r, prngReg c r)) := by
  unfold Pipeline.ΦA; rw [scopedRest2_split]; simp only [scM2, owns_whole]; try rfl

/-- The three runs at a point's memrefs. -/
abbrev runA2 (c : Dev nD) (t : Fin cfg2.N) (h0 : t.val % 6 = 0) (x3 x4 : Vec F S1024x1024 .bf16) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((first2_iff t).mpr h0) (fun h => by have := (last2_iff t).mp h; omega) x3 x4
abbrev runB2 (c : Dev nD) (t : Fin cfg2.N) (h0 : ¬t.val % 6 = 0) (h1 : ¬t.val % 6 = 5) (x3 x4 : Vec F S1024x1024 .bf16) (xs : Vec F S1024x1024 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((first2_iff t).mp h)) (fun h => h1 ((last2_iff t).mp h)) x3 x4 xs
abbrev runC2 (c : Dev nD) (t : Fin cfg2.N) (h0 : ¬t.val % 6 = 0) (h1 : t.val % 6 = 5) (x3 x4 : Vec F S1024x1024 .bf16) (x5 x6 x7 x8 x9 : Vec F S1x1024 .f32) (xs : Vec F S1024x1024 .f32) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((first2_iff t).mp h)) ((last2_iff t).mpr h1) x3 x4 x5 x6 x7 x8 x9 xs

/-- Each run's stores into the accumulator cover it; the last run's store covers the output block. -/
theorem scoverA2 (c : Dev nD) (t : Fin cfg2.N) (h0 : t.val % 6 = 0) (x3 x4 : Vec F S1024x1024 .bf16) (y : S1024x1024.Idx) :
    ∃ pc ∈ (runA2 c t h0 x3 x4).1, y ∈ pc.1.set :=
  View.cover_of_tiledL (runA2 c t h0 x3 x4).1 S1024x1024.size (by sl_kernel_rfl) y
theorem scoverB2 (c : Dev nD) (t : Fin cfg2.N) (h0 : ¬t.val % 6 = 0) (h1 : ¬t.val % 6 = 5) (x3 x4 : Vec F S1024x1024 .bf16) (xs : Vec F S1024x1024 .f32) (y : S1024x1024.Idx) :
    ∃ pc ∈ (runB2 c t h0 h1 x3 x4 xs).1, y ∈ pc.1.set :=
  View.cover_of_tiledL (runB2 c t h0 h1 x3 x4 xs).1 S1024x1024.size (by sl_kernel_rfl) y
theorem scoverC2 (c : Dev nD) (t : Fin cfg2.N) (h0 : ¬t.val % 6 = 0) (h1 : t.val % 6 = 5) (x3 x4 : Vec F S1024x1024 .bf16) (x5 x6 x7 x8 x9 : Vec F S1x1024 .f32) (xs : Vec F S1024x1024 .f32) (y : S1024x1024.Idx) :
    ∃ pc ∈ (runC2 c t h0 h1 x3 x4 x5 x6 x7 x8 x9 xs).2.1, y ∈ pc.1.set :=
  View.cover_of_tiledL (runC2 c t h0 h1 x3 x4 x5 x6 x7 x8 x9 xs).2.1 S1024x1024.size (by sl_kernel_rfl) y
theorem ocoverC2 (c : Dev nD) (t : Fin cfg2.N) (h0 : ¬t.val % 6 = 0) (h1 : t.val % 6 = 5) (x3 x4 : Vec F S1024x1024 .bf16) (x5 x6 x7 x8 x9 : Vec F S1x1024 .f32) (xs : Vec F S1024x1024 .f32) (y : S1024x1024.Idx) :
    ∃ pc ∈ (runC2 c t h0 h1 x3 x4 x5 x6 x7 x8 x9 xs).1, y ∈ pc.1.set :=
  View.cover_of_tiledL (runC2 c t h0 h1 x3 x4 x5 x6 x7 x8 x9 xs).1 S1024x1024.size (by sl_kernel_rfl) y

/-- What each run leaves in the accumulator, and the last one in the output block: its pieces read back. -/
def sA2 (c : Dev nD) (t : Fin cfg2.N) (h0 : t.val % 6 = 0) (x3 x4 : Vec F S1024x1024 .bf16) : Vec F S1024x1024 .f32 :=
  VS2.read (Elt F) (VS2.writes (Elt F) VS2.junk (runA2 c t h0 x3 x4).1)
def sB2 (c : Dev nD) (t : Fin cfg2.N) (h0 : ¬t.val % 6 = 0) (h1 : ¬t.val % 6 = 5) (x3 x4 : Vec F S1024x1024 .bf16) (xs : Vec F S1024x1024 .f32) : Vec F S1024x1024 .f32 :=
  VS2.read (Elt F) (VS2.writes (Elt F) VS2.junk (runB2 c t h0 h1 x3 x4 xs).1)
def sC2 (c : Dev nD) (t : Fin cfg2.N) (h0 : ¬t.val % 6 = 0) (h1 : t.val % 6 = 5) (x3 x4 : Vec F S1024x1024 .bf16) (x5 x6 x7 x8 x9 : Vec F S1x1024 .f32) (xs : Vec F S1024x1024 .f32) : Vec F S1024x1024 .f32 :=
  VS2.read (Elt F) (VS2.writes (Elt F) VS2.junk (runC2 c t h0 h1 x3 x4 x5 x6 x7 x8 x9 xs).2.1)
def oC2 (c : Dev nD) (t : Fin cfg2.N) (h0 : ¬t.val % 6 = 0) (h1 : t.val % 6 = 5) (x3 x4 : Vec F S1024x1024 .bf16) (x5 x6 x7 x8 x9 : Vec F S1x1024 .f32) (xs : Vec F S1024x1024 .f32) : Vec F S1024x1024 .bf16 :=
  VO2.read (Elt F) (VO2.writes (Elt F) VO2.junk (runC2 c t h0 h1 x3 x4 x5 x6 x7 x8 x9 xs).1)
/-- A placeholder for the output buffer at the points that store nothing into it (never consulted). -/
def oJunk2 : Vec F S1024x1024 .bf16 := VO2.read (Elt F) VO2.junk

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- THE ACCUMULATION: what the output block's buffer and the accumulator hold after the body at position `n`. -/
def outsAt2 (c : Dev nD) : (n : ℕ) → n < cfg2.N → Vec F S1024x1024 .bf16 × Vec F S1024x1024 .f32
  | 0, hn => (oJunk2, sA2 c ⟨0, hn⟩ (Nat.zero_mod _) (iblk2 V c 0 ⟨0, hn⟩) (iblk2 V c 1 ⟨0, hn⟩))
  | n + 1, hn =>
    if h0 : (n + 1) % 6 = 0 then
      (oJunk2, sA2 c ⟨n + 1, hn⟩ h0 (iblk2 V c 0 ⟨n + 1, hn⟩) (iblk2 V c 1 ⟨n + 1, hn⟩))
    else if h1 : (n + 1) % 6 = 5 then
      (oC2 c ⟨n + 1, hn⟩ h0 h1 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2,
       sC2 c ⟨n + 1, hn⟩ h0 h1 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)
    else
      (oJunk2, sB2 c ⟨n + 1, hn⟩ h0 h1 (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 6 = 0) :
    outsAt2 V c t.val t.isLt = (oJunk2, sA2 c t h0 (iblk2 V c 0 t) (iblk2 V c 1 t)) := by
  obtain ⟨n, hn⟩ := t
  cases n with
  | zero => exact rfl
  | succ n => exact (dif_pos h0).trans rfl
theorem outsAt2_B (c : Dev nD) (t : Fin cfg2.N) (h0 : ¬t.val % 6 = 0) (h1 : ¬t.val % 6 = 5) :
    outsAt2 V c t.val t.isLt = (oJunk2, sB2 c t h0 h1 (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)
theorem outsAt2_C (c : Dev nD) (t : Fin cfg2.N) (h0 : ¬t.val % 6 = 0) (h1 : t.val % 6 = 5) :
    outsAt2 V c t.val t.isLt = (oC2 c t h0 h1 (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2,
      sC2 c t h0 h1 (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The invariant before position `n`: before the first point the region's own; afterwards the accumulator at what
    the point before left in it, the rest of the scoped buffers and the generator register as they were. -/
def PhiS2 (c : Dev nD) : (n : ℕ) → n ≤ cfg2.N → sProp 𝕄
  | 0, _ => Pipeline.ΦA spec2 c
  | n + 1, hn => iprop(iprop(iprop(owns (c : Thread nD τ) scM2 fullShare ((outsAt2 V c n hn).2))
      ∗ Pipeline.scopedRestBut (Ix := Unit) (Name := ℕ) (U := Pipeline.UD sig nD τ) (Lvl := ℕ) (Val := Elt F) spec2 c [cc2_scratch0]) ∗ (∃ r, prngReg c r))
theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2 fullShare ((outsAt2 V c n hn).2))
      ∗ Pipeline.scopedRestBut (Ix := Unit) (Name := ℕ) (U := Pipeline.UD sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(iprop(owns (c : Thread nD τ) scM2 fullShare ((outsAt2 V c (n - 1) (by omega)).2))
      ∗ Pipeline.scopedRestBut (Ix := Unit) (Name := ℕ) (U := Pipeline.UD sig nD τ) (Lvl := ℕ) (Val := Elt F) spec2 c [cc2_scratch0]) ∗ (∃ r, prngReg c r)) := by
  cases n with
  | zero => exact absurd rfl hz
  | succ n => rfl

/-- The proof data of pipeline 2 on core `c`. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
/-- Input window 0's current buffer holds its block at every point, fetched there or not (unfetched, its block index has not moved). -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
/-- Input window 1's current buffer holds its block at every point, fetched there or not (unfetched, its block index has not moved). -/
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
/-- Input window 2's current buffer holds its block at every point, fetched there or not (unfetched, its block index has not moved). -/
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
/-- Input window 3's current buffer holds its block at every point, fetched there or not (unfetched, its block index has not moved). -/
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
/-- Input window 4's current buffer holds its block at every point, fetched there or not (unfetched, its block index has not moved). -/
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
/-- Input window 5's current buffer holds its block at every point, fetched there or not (unfetched, its block index has not moved). -/
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
/-- Input window 6's current buffer holds its block at every point, fetched there or not (unfetched, its block index has not moved). -/
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ (dat2 V c).leavesExact 7 t)

set_option maxHeartbeats 8000000 in
/-- The body at any point: the inputs' buffers hold their blocks; which step of the block the point is decides the run;
    the invariant hands over the accumulator at what the step before left (anything at a block's first step) and
    takes it back at this step's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, after2_6]
  by_cases h0 : t.val % 6 = 0
  · have h1 : ¬t.val % 6 = 5 := by omega
    rw [Dat.leavesExact_idle (dat2 V c) 7 t (idle2_7 t (fun h => h1 ((last2_iff t).mp h))) (noFlush2_7 t (fun h => h1 ((last2_iff t).mp h)))]
    rw [outsAt2_A V c t h0]
    unfold sA2; (try dsimp only)
    by_cases hz : t.val = 0
    · rw [PhiS2_castSucc V c t, PhiS2_zero V c _ _ hz, PhiA2_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA2 c t h0 (iblk2 V c 0 t) (iblk2 V c 1 t)).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scoverA2 c t h0 _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA2 c t h0 (iblk2 V c 0 t) (iblk2 V c 1 t)).2 Set.univ _)
      isplitl [H0]; · iexact H0
      isplitl [H1]; · iexact H1
      isplitl [HS]; · iexists _; iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scoverA2 c t h0 _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 6 = 5
    · rw [show (dat2 V c).leavesExact 7 t = owns (c : Thread nD τ) (ms2_7 t) fullShare ((dat2 V c).after 7 t) from by
        unfold Dat.leavesExact; rw [live2_7 t ((last2_iff t).mpr h1)], after2_7]
      rw [outsAt2_C V c t h0 h1]
      unfold oC2 sC2; (try dsimp only)
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC2 c t h0 h1 (iblk2 V c 0 t) (iblk2 V c 1 t) (iblk2 V c 2 t) (iblk2 V c 3 t) (iblk2 V c 4 t) (iblk2 V c 5 t) (iblk2 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverC2 c t h0 h1 _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (ocoverC2 c t h0 h1 _ _ _ _ _ _ _ _)
    · rw [Dat.leavesExact_idle (dat2 V c) 7 t (idle2_7 t (fun h => h1 ((last2_iff t).mp h))) (noFlush2_7 t (fun h => h1 ((last2_iff t).mp h)))]
      rw [outsAt2_B V c t h0 h1]
      unfold sB2; (try dsimp only)
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB2 c t h0 h1 (iblk2 V c 0 t) (iblk2 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scoverB2 c t h0 h1 _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The region's invariant at its two ends is the class invariant (the accumulator's last contents forgotten). -/
theorem Phi2_first (c : Dev nD) : (dat2 V c).Φ 0 = Pipeline.ΦA spec2 c := rfl
theorem Phi2_last (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = grid2.N := rfl; have := N_2; omega), PhiA2_eq]
  iintro ⟨⟨HS, Hrest⟩, Hg⟩
  isplitl [HS Hrest]
  · isplitl [HS]; · iexists _; iexact HS
    iexact Hrest
  iexact Hg

end

end Cert.KernelIdeal.Hand

end
-- ==== Proof.KI.Final.lean ====
/- The last region of the program: the final layer, one grid of 8 row blocks. At each point the
   body reads a 1024-row block of the third hidden layer, the whole last weight matrix and the whole
   last bias, and writes the 1024×10 block of row-wise log-softmax of the logits. Here: what the
   body finds in each staging buffer, what it leaves, the pipeline's proof data over the region's
   entry contents, and the body's obligation at a generic point — at any float interpretation. -/
import proofs.«104501_j58892591563191_2_alg».proof.Proof.Gen.KernelIdeal.Launch
import proofs.«104501_j58892591563191_2_alg».proof.Proof.Gen.KernelIdeal.Skeleton
import proofs.«104501_j58892591563191_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section FinalLayer
-- the contents of the core's buffers when the final-layer region is entered
variable (V : (c : Dev nD) → (b : Ref sig .tc) → Buf (Elt F) ((c : Thread nD τ).loc b))

/-! ## The blocks the final layer's windows show -/

/-- The block window `w` of the final layer shows at grid point `t`: the window's rectangle of its
    array, the array read as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The hidden-layer window's staging buffer holds the point's row block when the body starts:
    it is fetched at every point, and the body leaves it as found. -/
theorem hidden_block_found {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight window's staging buffer holds the whole weight matrix at every point: fetched at the
    first point only, its block index never moves afterwards and the body leaves it as found. -/
theorem weight_block_found {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias window's staging buffer holds the whole bias row at every point, for the same reason. -/
theorem bias_block_found {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each is its whole buffer -/

abbrev rHidden : Rect S1024x6144 := Rect.unit (s := S1024x6144) ![0, 0] S1024x6144.size inb_S1024x6144_S1024x6144_0_0
abbrev rWeight : Rect S10x6144 := Rect.unit (s := S10x6144) ![0, 0] S10x6144.size inb_S10x6144_S10x6144_0_0
abbrev rBias : Rect S1x10 := Rect.unit (s := S1x10) ![0, 0] S1x10.size inb_S1x10_S1x10_0_0
abbrev rOut : Rect S1024x10 := Rect.unit (s := S1024x10) ![0, 0] S1024x10.size inb_S1024x10_S1024x10_0_0

/-! ## What the body leaves in the output window's buffer -/

/-- The output buffer after the body, from the three input blocks: the one store, over the whole
    buffer, of the log-softmax payload of the blocks as loaded. -/
def out3_3 (x0 : Vec F S1024x6144 .bf16) (x1 : Vec F S10x6144 .f32) (x2 : Vec F S1x10 .f32) : Vec F S1024x10 .f32 :=
  View.canon [⟨rOut, k3_pay1 (View.ld x0 rHidden) (View.ld x1 rWeight) (View.ld x2 rBias)⟩]

/-- The one store's rectangle is the whole 1024×10 buffer, so every index is written. -/
theorem out_covered (p0 : Vec F S1024x10 .f32) (y : S1024x10.Idx) :
    ∃ pc ∈ ([⟨rOut, p0⟩] : List (View.Piece (Elt F) S1024x10 .f32)), y ∈ pc.1.set :=
  View.cover_of_tiled [⟨rOut, p0⟩] S1024x10.size (by rfl) y

/-! ## The body's triple -/

set_option maxHeartbeats 1000000 in
/-- The final-layer body on whole staging memrefs — the three inputs' read contents `x0 x1 x2`, the
    output's anything — runs to a continuation that holds the inputs unchanged and the output at
    `out3_3 x0 x1 x2`: the printed function is its skeleton, three loads, a load of the output
    buffer, and one store over all of it. -/
theorem final_kernel_triple (c : Dev nD) (E : Set ℕ) (i : grid3.Coords)
    (arg1 : Memref sig .tc .vmem S1024x6144 .bf16) (harg1 : arg1.IsWhole) (arg2 : Memref sig .tc .vmem S10x6144 .f32) (harg2 : arg2.IsWhole)
    (arg3 : Memref sig .tc .vmem S1x10 .f32) (harg3 : arg3.IsWhole) (arg4 : Memref sig .tc .vmem S1024x10 .f32) (harg4 : arg4.IsWhole)
    (x0 : Vec F S1024x6144 .bf16) (x1 : Vec F S10x6144 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__final_layer_kernel i arg1 harg1 arg2 harg2 arg3 harg3 arg4 harg4) K := by
  simp only [cc3__final_layer_kernel_eq_skeleton]; unfold cc3__final_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out_covered _)

/-! ## The pipeline's proof data -/

/-- The final layer's proof data on core `c`: the arrays as the region finds them; after the body at
    point `t` each input buffer still at its block and the output buffer at `out3_3` of the three
    blocks; the invariant is the untouched rest of the core; nothing is owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- What the body finds in each input buffer: the window's block at the point. -/
theorem before3_0 (c : Dev nD) (t : Fin cfg3.N) (d) : (dat3 V c).before 0 t d = iblk3 V c 0 t :=
  hidden_block_found V (dat3 V c) (A_eq3 V c 0) (after3_0 V c) t d
theorem before3_1 (c : Dev nD) (t : Fin cfg3.N) (d) : (dat3 V c).before 1 t d = iblk3 V c 1 t :=
  weight_block_found V (dat3 V c) (A_eq3 V c 1) (after3_1 V c) t d
theorem before3_2 (c : Dev nD) (t : Fin cfg3.N) (d) : (dat3 V c).before 2 t d = iblk3 V c 2 t :=
  bias_block_found V (dat3 V c) (A_eq3 V c 2) (after3_2 V c) t d

/-! ## The body's obligation at a generic point -/

/-- What the body is handed at point `t`: the invariant, the core's debt, and each window's current
    staging buffer at what the pipeline left there. -/
def finalPre (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What it hands back. -/
def finalPost (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs hold their blocks, so the kernel's triple applies; the
    invariant and the debt pass through unread. -/
theorem final_body_sound (c : Dev nD) (t : Fin cfg3.N) :
    finalPre V c t ⊢ wp frame (wpE (defs₀ (F := F)) Variants.none c none) Set.univ (bodyAt3 t) (fun _ => finalPost V c t) := by
  unfold finalPre finalPost bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (final_kernel_triple c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the final layer, at every point. -/
theorem body_obligation3 (c : Dev nD) : BodyObligation (dat3 (F := F) V c) (defs₀ (F := F)) Variants.none () Set.univ := fun t => by
  rw [bigSep_W3, bigSep_W3]
  exact final_body_sound V c t

end FinalLayer

end Cert.KernelIdeal.Hand

end
-- ==== Proof.KI.Run.lean ====
import proofs.«104501_j58892591563191_2_alg».proof.Proof.Gen.KernelIdeal.Launch
import proofs.«104501_j58892591563191_2_alg».proof.Proof.Gen.KernelIdeal.Skeleton
import proofs.«104501_j58892591563191_2_alg».proof.Proof.Gen.KernelIdeal.Points
import proofs.«104501_j58892591563191_2_alg».proof.Proof.KI.L0Dat
import proofs.«104501_j58892591563191_2_alg».proof.Proof.KI.L1Dat
import proofs.«104501_j58892591563191_2_alg».proof.Proof.KI.L2Dat
import proofs.«104501_j58892591563191_2_alg».proof.Proof.KI.Final
import proofs.«104501_j58892591563191_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The run: @main's segments from the launch to the return

## The buffer contents at each segment boundary: a fold through @main -/

/-- Core `c`'s buffers at launch. -/
abbrev A0 : Dev nD → Valuation τ sig (Elt F) := fun c b => m (c, b)
/-- After the first host stretch: region 0's entry. -/
abbrev E0 : Dev nD → Valuation τ sig (Elt F) := fun c => StableHlo.after hostOps0 (A0 m c)
abbrev VE0 : (c : Dev nD) → (b : Ref sig .tc) → Buf (Elt F) ((c : Thread nD τ).loc b) := fun c b => E0 m c b

/-- At region 0's exit: its arrays at what the pipeline leaves, every other buffer as entered. -/
def X0 (c : Dev nD) : Valuation τ sig (Elt F) :=
  Pipeline.withArrays spec0 c (E0 m c) fun w => (dat0 (VE0 m) c).arrAt w cfg0.N
theorem X0_arr (c : Dev nD) (w : Fin cfg0.W) :
    X0 m c (Proc.devRef .tc (Pipeline.arrRef spec0 w)) = (dat0 (VE0 m) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m c (Proc.devRef .tc b) = E0 m c (Proc.devRef .tc b) := by
  unfold X0; exact Pipeline.withArrays_of_ne spec0 c _ _ b hb
abbrev VX0 : (c : Dev nD) → (b : Ref sig .tc) → Buf (Elt F) ((c : Thread nD τ).loc b) := fun c b => X0 m c b
theorem hF0 (c : Dev nD) (w : Fin cfg0.W) : (dat0 (VE0 m) c).arrAt w cfg0.N = VX0 m c (Pipeline.arrRef spec0 w) :=
  (X0_arr m c w).symm
theorem hrest0 (c : Dev nD) : ∀ b, b ∉ Finset.univ.image (Pipeline.arrRef spec0) → VX0 m c b = VE0 m c b :=
  fun b hb => X0_of_ne m c b fun w e => hb (Finset.mem_image.mpr ⟨w, Finset.mem_univ _, e⟩)

abbrev E1 : Dev nD → Valuation τ sig (Elt F) := fun c => StableHlo.after hostOps1 (X0 m c)
abbrev VE1 : (c : Dev nD) → (b : Ref sig .tc) → Buf (Elt F) ((c : Thread nD τ).loc b) := fun c b => E1 m c b

/-- At region 1's exit: its arrays at what the pipeline leaves, every other buffer as entered. -/
def X1 (c : Dev nD) : Valuation τ sig (Elt F) :=
  Pipeline.withArrays spec1 c (E1 m c) fun w => (dat1 (VE1 m) c).arrAt w cfg1.N
theorem X1_arr (c : Dev nD) (w : Fin cfg1.W) :
    X1 m c (Proc.devRef .tc (Pipeline.arrRef spec1 w)) = (dat1 (VE1 m) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m c (Proc.devRef .tc b) = E1 m c (Proc.devRef .tc b) := by
  unfold X1; exact Pipeline.withArrays_of_ne spec1 c _ _ b hb
abbrev VX1 : (c : Dev nD) → (b : Ref sig .tc) → Buf (Elt F) ((c : Thread nD τ).loc b) := fun c b => X1 m c b
theorem hF1 (c : Dev nD) (w : Fin cfg1.W) : (dat1 (VE1 m) c).arrAt w cfg1.N = VX1 m c (Pipeline.arrRef spec1 w) :=
  (X1_arr m c w).symm
theorem hrest1 (c : Dev nD) : ∀ b, b ∉ Finset.univ.image (Pipeline.arrRef spec1) → VX1 m c b = VE1 m c b :=
  fun b hb => X1_of_ne m c b fun w e => hb (Finset.mem_image.mpr ⟨w, Finset.mem_univ _, e⟩)

abbrev E2 : Dev nD → Valuation τ sig (Elt F) := fun c => StableHlo.after hostOps2 (X1 m c)
abbrev VE2 : (c : Dev nD) → (b : Ref sig .tc) → Buf (Elt F) ((c : Thread nD τ).loc b) := fun c b => E2 m c b

/-- At region 2's exit: its arrays at what the pipeline leaves, every other buffer as entered. -/
def X2 (c : Dev nD) : Valuation τ sig (Elt F) :=
  Pipeline.withArrays spec2 c (E2 m c) fun w => (dat2 (VE2 m) c).arrAt w cfg2.N
theorem X2_arr (c : Dev nD) (w : Fin cfg2.W) :
    X2 m c (Proc.devRef .tc (Pipeline.arrRef spec2 w)) = (dat2 (VE2 m) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 m c (Proc.devRef .tc b) = E2 m c (Proc.devRef .tc b) := by
  unfold X2; exact Pipeline.withArrays_of_ne spec2 c _ _ b hb
abbrev VX2 : (c : Dev nD) → (b : Ref sig .tc) → Buf (Elt F) ((c : Thread nD τ).loc b) := fun c b => X2 m c b
theorem hF2 (c : Dev nD) (w : Fin cfg2.W) : (dat2 (VE2 m) c).arrAt w cfg2.N = VX2 m c (Pipeline.arrRef spec2 w) :=
  (X2_arr m c w).symm
theorem hrest2 (c : Dev nD) : ∀ b, b ∉ Finset.univ.image (Pipeline.arrRef spec2) → VX2 m c b = VE2 m c b :=
  fun b hb => X2_of_ne m c b fun w e => hb (Finset.mem_image.mpr ⟨w, Finset.mem_univ _, e⟩)

abbrev E3 : Dev nD → Valuation τ sig (Elt F) := fun c => StableHlo.after hostOps3 (X2 m c)
abbrev VE3 : (c : Dev nD) → (b : Ref sig .tc) → Buf (Elt F) ((c : Thread nD τ).loc b) := fun c b => E3 m c b

/-- At region 3's exit: its arrays at what the pipeline leaves, every other buffer as entered. -/
def X3 (c : Dev nD) : Valuation τ sig (Elt F) :=
  Pipeline.withArrays spec3 c (E3 m c) fun w => (dat3 (VE3 m) c).arrAt w cfg3.N
theorem X3_arr (c : Dev nD) (w : Fin cfg3.W) :
    X3 m c (Proc.devRef .tc (Pipeline.arrRef spec3 w)) = (dat3 (VE3 m) c).arrAt w cfg3.N := by
  unfold X3; exact Pipeline.withArrays_arr spec3 launch3.win.arr_inj c _ _ w
theorem X3_of_ne (c : Dev nD) (b : Ref sig .tc) (hb : ∀ w, Pipeline.arrRef spec3 w ≠ b) :
    X3 m c (Proc.devRef .tc b) = E3 m c (Proc.devRef .tc b) := by
  unfold X3; exact Pipeline.withArrays_of_ne spec3 c _ _ b hb
abbrev VX3 : (c : Dev nD) → (b : Ref sig .tc) → Buf (Elt F) ((c : Thread nD τ).loc b) := fun c b => X3 m c b
theorem hF3 (c : Dev nD) (w : Fin cfg3.W) : (dat3 (VE3 m) c).arrAt w cfg3.N = VX3 m c (Pipeline.arrRef spec3 w) :=
  (X3_arr m c w).symm
theorem hrest3 (c : Dev nD) : ∀ b, b ∉ Finset.univ.image (Pipeline.arrRef spec3) → VX3 m c b = VE3 m c b :=
  fun b hb => X3_of_ne m c b fun w e => hb (Finset.mem_image.mpr ⟨w, Finset.mem_univ _, e⟩)

/-! ## The proof data family and the thread state -/

abbrev adm : (p : Fin 4) → (pcfgs (F := F) p).Adm := fun p => (cfgs p).toPCfg_adm
def pdats : (p : Fin 4) → (c : Dev nD) → Dat τ (Elt F) Unit ℕ (Pipeline.UD sig nD τ) ℕ (Pipeline.pin (pcfgs (F := F)) adm p) c
  | ⟨0, _⟩ => fun c => dat0 (VE0 m) c
  | ⟨1, _⟩ => fun c => dat1 (VE1 m) c
  | ⟨2, _⟩ => fun c => dat2 (VE2 m) c
  | ⟨3, _⟩ => fun c => dat3 (VE3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (X3 m c) ∗ ∃ r, prngReg c r)

/-! ## The regions as segments -/

set_option backward.isDefEq.respectTransparency.types false in
/-- REGION 0 over the thread state: entered from every unscoped buffer at `E0`, left at `X0`; its arrays split out
    of the unscoped buffers and put back at the exit contents; the generator register into the invariant and out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (E0 m c) ∗ R c)
  post c := iprop(StableHlo.held (c : Thread nD τ) (Pipeline.ucRefs τ sig) (X0 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (show (pdats m 0 c).Φ (Fin.last _) ⊢ Pipeline.ΦA spec0 c from Phi0_last (VE0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `E1`, left at `X1`; its arrays split out
    of the unscoped buffers and put back at the exit contents; the generator register into the invariant and out. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (E1 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    refine (show (pdats m 1 c).Φ (Fin.last _) ⊢ Pipeline.ΦA spec1 c from Phi1_last (VE1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `E2`, left at `X2`; its arrays split out
    of the unscoped buffers and put back at the exit contents; the generator register into the invariant and out. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m) c).loose
  hwaits := Pipeline.hwaits_of_owed_zero _ _ _ _ L lv 2 fun _ _ => rfl
  pre c := iprop(StableHlo.held (c : Thread nD τ) (Pipeline.ucRefs τ sig) (E2 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (VE2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VE2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    refine (show (pdats m 2 c).Φ (Fin.last _) ⊢ Pipeline.ΦA spec2 c from Phi2_last (VE2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (VE2 m c) (VX2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `E3`, left at `X3`; its arrays split out
    of the unscoped buffers and put back at the exit contents; the generator register into the invariant and out. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VE3 m) c).loose
  hwaits := Pipeline.hwaits_of_owed_zero _ _ _ _ L lv 3 fun _ _ => rfl
  pre c := iprop(StableHlo.held (c : Thread nD τ) (Pipeline.ucRefs τ sig) (E3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec3 c (VE3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VE3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    refine (show (pdats m 3 c).Φ (Fin.last _) ⊢ Pipeline.ΦA spec3 c from Entails.of_eq rfl).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (VE3 m c) (VX3 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (A0 m)),
    .region (reg0 m),
    .host (hseg hostOps1 hostOps1_sub hostOps1_fresh (X0 m)),
    .region (reg1 m),
    .host (hseg hostOps2 hostOps2_sub hostOps2_fresh (X1 m)),
    .region (reg2 m),
    .host (hseg hostOps3 hostOps3_sub hostOps3_fresh (X2 m)),
    .region (reg3 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X3 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (A0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (A0 m c)
        from Pipeline.unscopedBufs_held c (A0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X3 m c b)
    (hfin := fun c s' => by
      iintro ⟨⟨Hh, -⟩, HSI⟩
      unfold StableHlo.held
      imodintro
      iapply (pointsTo_read_all (Pipeline.ucRefs τ sig) (fun b => (((c : Thread nD τ)).1, b)) (X3 m c) s')
      isplitl [Hh] <;> iassumption)
    (hQ := fun s h c => h c)

/-! ## The arguments end as launched -/

/-- A buffer no host stretch writes and no region stages ends as launched. -/
theorem X3_kept (c : Dev nD) (b : Ref sig .tc) (h0 : b ∉ hostOps0_W) (h1 : b ∉ hostOps1_W) (h2 : b ∉ hostOps2_W) (h3 : b ∉ hostOps3_W)
    (r0 : ∀ w, Pipeline.arrRef spec0 w ≠ b) (r1 : ∀ w, Pipeline.arrRef spec1 w ≠ b) (r2 : ∀ w, Pipeline.arrRef spec2 w ≠ b) (r3 : ∀ w, Pipeline.arrRef spec3 w ≠ b) :
    X3 m c (Proc.devRef .tc b) = m ((c : Thread nD τ).loc b) :=
  calc X3 m c (Proc.devRef .tc b)
    _ = E3 m c (Proc.devRef .tc b) := X3_of_ne m c b r3
    _ = X2 m c (Proc.devRef .tc b) := StableHlo.after_of_writes_sub hostOps3 _ hostOps3_writes h3
    _ = E2 m c (Proc.devRef .tc b) := X2_of_ne m c b r2
    _ = X1 m c (Proc.devRef .tc b) := StableHlo.after_of_writes_sub hostOps2 _ hostOps2_writes h2
    _ = E1 m c (Proc.devRef .tc b) := X1_of_ne m c b r1
    _ = X0 m c (Proc.devRef .tc b) := StableHlo.after_of_writes_sub hostOps1 _ hostOps1_writes h1
    _ = E0 m c (Proc.devRef .tc b) := X0_of_ne m c b r0
    _ = A0 m c (Proc.devRef .tc b) := StableHlo.after_of_writes_sub hostOps0 _ hostOps0_writes h0
    _ = m ((c : Thread nD τ).loc b) := rfl
/-- The last layer's weight is an input window of region 3: it is read, never written. -/
theorem X3_main_arg19 (c : Dev nD) : X3 m c (Proc.devRef .tc main_arg19) = m ((c : Thread nD τ).loc main_arg19) :=
  calc X3 m c (Proc.devRef .tc main_arg19)
    _ = E3 m c (Proc.devRef .tc main_arg19) := (X3_arr m c 1).trans (((dat3 (VE3 m) c).arrAt_in 1 rfl _).trans (A_eq3 (VE3 m) c 1))
    _ = X2 m c (Proc.devRef .tc main_arg19) := StableHlo.after_of_writes_sub hostOps3 _ hostOps3_writes (by decide)
    _ = E2 m c (Proc.devRef .tc main_arg19) := X2_of_ne m c main_arg19 (by decide)
    _ = X1 m c (Proc.devRef .tc main_arg19) := StableHlo.after_of_writes_sub hostOps2 _ hostOps2_writes (by decide)
    _ = E1 m c (Proc.devRef .tc main_arg19) := X1_of_ne m c main_arg19 (by decide)
    _ = X0 m c (Proc.devRef .tc main_arg19) := StableHlo.after_of_writes_sub hostOps1 _ hostOps1_writes (by decide)
    _ = E0 m c (Proc.devRef .tc main_arg19) := X0_of_ne m c main_arg19 (by decide)
    _ = A0 m c (Proc.devRef .tc main_arg19) := StableHlo.after_of_writes_sub hostOps0 _ hostOps0_writes (by decide)
    _ = m ((c : Thread nD τ).loc main_arg19) := rfl

/-- THE FRAME: every weakly fair execution of @main terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun s h c =>
    ⟨(h c _ (mem_uc main_arg0 (by decide))).trans (X3_kept m c main_arg0 (by decide) (by decide) (by decide) (by decide) (by decide) (by decide) (by decide) (by decide)),
     (h c _ (mem_uc main_arg1 (by decide))).trans (X3_kept m c main_arg1 (by decide) (by decide) (by decide) (by decide) (by decide) (by decide) (by decide) (by decide)),
     (h c _ (mem_uc main_arg2 (by decide))).trans (X3_kept m c main_arg2 (by decide) (by decide) (by decide) (by decide) (by decide) (by decide) (by decide) (by decide)),
     (h c _ (mem_uc main_arg3 (by decide))).trans (X3_kept m c main_arg3 (by decide) (by decide) (by decide) (by decide) (by decide) (by decide) (by decide) (by decide)),
     (h c _ (mem_uc main_arg4 (by decide))).trans (X3_kept m c main_arg4 (by decide) (by decide) (by decide) (by decide) (by decide) (by decide) (by decide) (by decide)),
     (h c _ (mem_uc main_arg5 (by decide))).trans (X3_kept m c main_arg5 (by decide) (by decide) (by decide) (by decide) (by decide) (by decide) (by decide) (by decide)),
     (h c _ (mem_uc main_arg6 (by decide))).trans (X3_kept m c main_arg6 (by decide) (by decide) (by decide) (by decide) (by decide) (by decide) (by decide) (by decide)),
     (h c _ (mem_uc main_arg7 (by decide))).trans (X3_kept m c main_arg7 (by decide) (by decide) (by decide) (by decide) (by decide) (by decide) (by decide) (by decide)),
     (h c _ (mem_uc main_arg8 (by decide))).trans (X3_kept m c main_arg8 (by decide) (by decide) (by decide) (by decide) (by decide) (by decide) (by decide) (by decide)),
     (h c _ (mem_uc main_arg9 (by decide))).trans (X3_kept m c main_arg9 (by decide) (by decide) (by decide) (by decide) (by decide) (by decide) (by decide) (by decide)),
     (h c _ (mem_uc main_arg10 (by decide))).trans (X3_kept m c main_arg10 (by decide) (by decide) (by decide) (by decide) (by decide) (by decide) (by decide) (by decide)),
     (h c _ (mem_uc main_arg11 (by decide))).trans (X3_kept m c main_arg11 (by decide) (by decide) (by decide) (by decide) (by decide) (by decide) (by decide) (by decide)),
     (h c _ (mem_uc main_arg12 (by decide))).trans (X3_kept m c main_arg12 (by decide) (by decide) (by decide) (by decide) (by decide) (by decide) (by decide) (by decide)),
     (h c _ (mem_uc main_arg13 (by decide))).trans (X3_kept m c main_arg13 (by decide) (by decide) (by decide) (by decide) (by decide) (by decide) (by decide) (by decide)),
     (h c _ (mem_uc main_arg14 (by decide))).trans (X3_kept m c main_arg14 (by decide) (by decide) (by decide) (by decide) (by decide) (by decide) (by decide) (by decide)),
     (h c _ (mem_uc main_arg15 (by decide))).trans (X3_kept m c main_arg15 (by decide) (by decide) (by decide) (by decide) (by decide) (by decide) (by decide) (by decide)),
     (h c _ (mem_uc main_arg16 (by decide))).trans (X3_kept m c main_arg16 (by decide) (by decide) (by decide) (by decide) (by decide) (by decide) (by decide) (by decide)),
     (h c _ (mem_uc main_arg17 (by decide))).trans (X3_kept m c main_arg17 (by decide) (by decide) (by decide) (by decide) (by decide) (by decide) (by decide) (by decide)),
     (h c _ (mem_uc main_arg18 (by decide))).trans (X3_kept m c main_arg18 (by decide) (by decide) (by decide) (by decide) (by decide) (by decide) (by decide) (by decide)),
     (h c _ (mem_uc main_arg19 (by decide))).trans (X3_main_arg19 m c),
     (h c _ (mem_uc main_arg20 (by decide))).trans (X3_kept m c main_arg20 (by decide) (by decide) (by decide) (by decide) (by decide) (by decide) (by decide) (by decide))⟩)
    (run_all m ρ)

end Cert.KernelIdeal.Hand

end
-- ==== Proof.Spec.lean ====
/-
  The network as one function of its 21 argument arrays, at the ideal values (extended reals), index by index.

  Three layers with binarised weights: row `p` of the layer's input against the SIGNS of row `q` of the weight
  matrix, summed over the shared axis; then the bias is added, the running mean subtracted, the result scaled by
  `g · rsqrt (v + ε)` and shifted by `be` — in exactly this order of operations. The first two layers are followed by
  the sign, the third by the clamp to `[-1, 1]`; a dense layer of 10 columns and a row-wise log-softmax close the network.
  The float literals stay the words the programs print; none is evaluated here.
-/
import Idealize.ShloMosaic.PureOps.Ideal.Laws
import Idealize.ShloMosaic.Lib.ValueIdx

noncomputable section

namespace Cert.Net

open Idealize.ShloMosaic Idealize.ShloMosaic.ValueIdx
open scoped BigOperators

/-- A matrix with `a` rows and `b` columns, and a vector of length `a`, of extended reals. -/
abbrev Mat (a b : Nat) : Type := (⟨2, ![a, b]⟩ : Shape).Idx → EReal
abbrev Vc (a : Nat) : Type := (⟨1, ![a]⟩ : Shape).Idx → EReal

/-- The float literals, as the words both programs print: the batch-norm `ε`, `1`, `-1`, `-∞`, `0`. -/
abbrev epsW : EReal := Ideal.ofBits .f32 0x3727C5AC#32
abbrev oneW : EReal := Ideal.ofBits .f32 0x3F800000#32
abbrev negOneW : EReal := Ideal.ofBits .f32 0xBF800000#32
abbrev negInfW : EReal := Ideal.ofBits .f32 0xFF800000#32
abbrev zeroW : EReal := Ideal.ofBits .f32 0x00000000#32

/-- Bias, then batch normalisation, of an accumulated product `acc`:
    `((acc + b) - m) · (g · rsqrt (v + ε)) + be`, in the order both programs compute it. -/
def bnorm (acc b g be m v : EReal) : EReal := ((acc + b) - m) * (g * Ideal.rsqrt (v + epsW)) + be

/-- The clamp to `[-1, 1]`: `min 1 (max (-1) x)`. -/
def clip (x : EReal) : EReal := min oneW (max negOneW x)

/-- One binarised layer before its activation, at row `p` and column `q`: the input's row `p` against the signs of
    the weight's row `q`, then bias and batch normalisation. The input is given by its coordinates. -/
def layer {M K N : Nat} (lhs : Fin M → Fin K → EReal) (w : Mat N K) (b g be m v : Vc N) (p : Fin M) (q : Fin N) : EReal :=
  bnorm (∑ k : Fin K, lhs p k * Ideal.sign (w (ix2 q k))) (b (ix1 q)) (g (ix1 q)) (be (ix1 q)) (m (ix1 q)) (v (ix1 q))

/-- The maximum of a row of 10 logits, as both programs take it: a fold of `max` from `-∞`, once more against `-∞`. -/
def rowMax (z : Fin 10 → EReal) : EReal := max negInfW ((Finset.univ : Finset (Fin 10)).fold max negInfW z)

/-- The log-softmax of a row of 10 logits at column `c`: `(z c - mx) - log (∑ k, exp (z k - mx))`, `mx` the row's maximum. -/
def logSoftmax (z : Fin 10 → EReal) (c : Fin 10) : EReal :=
  (z c - rowMax z) - Ideal.log (∑ k : Fin 10, Ideal.exp (z k - rowMax z))

section
variable (x : Mat 8192 784)
  (w1 : Mat 3072 784) (b1 g1 be1 m1 v1 : Vc 3072)
  (w2 : Mat 6144 3072) (b2 g2 be2 m2 v2 : Vc 6144)
  (w3 : Mat 6144 6144) (b3 g3 be3 m3 v3 : Vc 6144)
  (w4 : Mat 10 6144) (b4 : Vc 10)

/-- Layer 1's output: the sign of the normalised product of `x` with the signs of `w1`. -/
def act1 (p : Fin 8192) (q : Fin 3072) : EReal :=
  Ideal.sign (layer (fun p k => x (ix2 p k)) w1 b1 g1 be1 m1 v1 p q)

/-- Layer 2's output: the sign again, of layer 1's output against the signs of `w2`. -/
def act2 (p : Fin 8192) (q : Fin 6144) : EReal :=
  Ideal.sign (layer (act1 x w1 b1 g1 be1 m1 v1) w2 b2 g2 be2 m2 v2 p q)

/-- Layer 3's output: the clamp to `[-1, 1]`, of layer 2's output against the signs of `w3`. -/
def act3 (p : Fin 8192) (q : Fin 6144) : EReal :=
  clip (layer (act2 x w1 b1 g1 be1 m1 v1 w2 b2 g2 be2 m2 v2) w3 b3 g3 be3 m3 v3 p q)

/-- The dense last layer: row `p` of layer 3's output against row `c` of `w4`, plus the bias. -/
def logits (p : Fin 8192) (c : Fin 10) : EReal :=
  (∑ k : Fin 6144, act3 x w1 b1 g1 be1 m1 v1 w2 b2 g2 be2 m2 v2 w3 b3 g3 be3 m3 v3 p k * w4 (ix2 c k)) + b4 (ix1 c)

/-- The network's result at row `p`, column `c`. -/
def netAt (p : Fin 8192) (c : Fin 10) : EReal :=
  logSoftmax (logits x w1 b1 g1 be1 m1 v1 w2 b2 g2 be2 m2 v2 w3 b3 g3 be3 m3 v3 w4 b4 p) c

/-- The network: the 8192 × 10 array of log-probabilities, one function of the 21 arguments. -/
def net : Mat 8192 10 := fun j =>
  netAt x w1 b1 g1 be1 m1 v1 w2 b2 g2 be2 m2 v2 w3 b3 g3 be3 m3 v3 w4 b4 (j 0) (j 1)

theorem net_ix2 (p : Fin 8192) (c : Fin 10) :
    net x w1 b1 g1 be1 m1 v1 w2 b2 g2 be2 m2 v2 w3 b3 g3 be3 m3 v3 w4 b4 (ix2 p c)
      = netAt x w1 b1 g1 be1 m1 v1 w2 b2 g2 be2 m2 v2 w3 b3 g3 be3 m3 v3 w4 b4 p c := rfl

end

end Cert.Net

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibMaxFold.lean ====
/-
  Maxima folded over a finite index set, as both programs' softmax takes them: the fold of `max` over the set,
  starting from some value `b` (for the programs, −∞).  Such a fold lies above its starting value and above
  every entry, and nothing smaller does: it is the least upper bound of `b` and the family.  Two consequences are
  used: taking one more maximum with the starting value changes nothing, whatever that value is; and the fold
  only depends on the family through its values, so it may be re-indexed along a bijection.
-/
import Mathlib.Data.EReal.Basic
import Mathlib.Data.Finset.Fold

namespace Cert.LibMaxFold

variable {α : Type*} [LinearOrder α] {ι : Type*}

/-- A fold of `max` lies above the value it starts from. -/
theorem start_le_fold (s : Finset ι) (b : α) (f : ι → α) : b ≤ s.fold max b f :=
  (Finset.le_fold_max b).mpr (Or.inl le_rfl)

/-- One more maximum with the starting value changes nothing. -/
theorem max_start_fold (s : Finset ι) (b : α) (f : ι → α) : max b (s.fold max b f) = s.fold max b f :=
  max_eq_right (start_le_fold s b f)

/-- The same with the operands in the other order. -/
theorem max_fold_start (s : Finset ι) (b : α) (f : ι → α) : max (s.fold max b f) b = s.fold max b f :=
  max_eq_left (start_le_fold s b f)

/-- Two families with the same values have the same fold. -/
theorem fold_congr (s : Finset ι) (b : α) {f g : ι → α} (h : ∀ i ∈ s, f i = g i) :
    s.fold max b f = s.fold max b g :=
  Finset.fold_congr h

end Cert.LibMaxFold
-- ==== Proof.KI.FinalPayload.lean ====
/- The final layer's arithmetic at the ideal values, entry by entry: the body's one payload — the
   product of the hidden block with the transposed last weight matrix, plus the bias row, then the
   row-wise log-softmax as the vector unit spells it (a lane maximum and a lane sum, each kept as a
   column and broadcast back) — read at row p, column q of the block. -/
import proofs.«104501_j58892591563191_2_alg».proof.Proof.Gen.KernelIdeal.Skeleton
import proofs.«104501_j58892591563191_2_alg».proof.Proof.Spec
import proofs.«104501_j58892591563191_2_alg».proof.Proof.LibDot
import proofs.«104501_j58892591563191_2_alg».proof.Proof.LibRowSum
import proofs.«104501_j58892591563191_2_alg».proof.Proof.LibColumn
import proofs.«104501_j58892591563191_2_alg».proof.Proof.LibMaxFold
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.ValueIdx

/-! ## The two halves of the payload -/

/-- The logits of a block: hidden block times the transposed weight matrix into a zero accumulator,
    plus the bias row broadcast down the rows. -/
def logitsVec (x0 : FVec Ideal S1024x6144 .bf16) (x1 : FVec Ideal S10x6144 .f32) (x2 : FVec Ideal S1x10 .f32) : FVec Ideal S1024x10 .f32 :=
  addf
    (matmul dot_S1024x6144_S6144x10_S1024x10_1_0_0_1_n_n none
      (shapeCast S1024x6144 x0 shapeCasts_S1024x6144_S1024x6144)
      (transpose S6144x10 [1, 0] (truncf .bf16 x1 bitsLt_bf16_f32) transposes_S10x6144_p1_0_S6144x10)
      (constant S1024x10 .f32 0x00000000#32))
    (broadcastTo S1024x10 (shapeCast S1x10 x2 shapeCasts_S1x10_S1x10) broadcasts_S1x10_S1024x10)

/-- A block of logits shifted by its rows' maxima: the lane maximum from -∞, once more against -∞,
    kept as a column, broadcast along the rows and subtracted. -/
def shiftVec (z : FVec Ideal S1024x10 .f32) : FVec Ideal S1024x10 .f32 :=
  subf z (broadcastTo S1024x10
    (shapeCast S1024x1
      (maximumf (broadcast S1024 (Scalar.ofBits (F := Ideal) .f32 0xFF800000#32))
        (multiReduction .maximumf [1] S1024 z 0xFF800000#32 reduces_S1024x10_S1024 (.inl rfl) rfl))
      shapeCasts_S1024_S1024x1)
    broadcasts_S1024x1_S1024x10)

/-- The row-wise log-softmax of a block of logits: the shifted block minus the logarithm of the lane
    sum of its exponentials, that logarithm kept as a column and broadcast along the rows. -/
def logSoftmaxVec (z : FVec Ideal S1024x10 .f32) : FVec Ideal S1024x10 .f32 :=
  subf (shiftVec z) (broadcastTo S1024x10
    (Idealize.ShloMosaic.log
      (shapeCast S1024x1
        (multiReduction .add [1] S1024 (Idealize.ShloMosaic.exp (shiftVec z)) 0x00000000#32 reduces_S1024x10_S1024 (.inl rfl) rfl)
        shapeCasts_S1024_S1024x1))
    broadcasts_S1024x1_S1024x10)

/-- The body's payload is the log-softmax of the logits. -/
theorem payload_eq (x0 : FVec Ideal S1024x6144 .bf16) (x1 : FVec Ideal S10x6144 .f32) (x2 : FVec Ideal S1x10 .f32) :
    k3_pay1 (F := Ideal) x0 x1 x2 = logSoftmaxVec (logitsVec x0 x1 x2) := rfl

/-! ## The logits at an entry -/

/-- The product's dimension numbers are those of rows against columns: the left operand's row is the
    result's, its column the contraction's; the right operand's row the contraction's, its column the
    result's. -/
theorem lastDot_plain : Cert.LibDot.Plain dot_S1024x6144_S6144x10_S1024x10_1_0_0_1_n_n where
  hrank := rfl
  hs := rfl
  hl0 := fun j k => by
    unfold DotDims.lhsIdx
    rw [dif_neg (show ¬(0 : Fin S1024x6144.rank) ∈ dot_S1024x6144_S6144x10_S1024x10_1_0_0_1_n_n.lhsBatch by decide),
      dif_pos (show (0 : Fin S1024x6144.rank) ∈ dot_S1024x6144_S6144x10_S1024x10_1_0_0_1_n_n.lhsNonContracting by decide)]
    rfl
  hl1 := fun j k => dot_S1024x6144_S6144x10_S1024x10_1_0_0_1_n_n.lhsIdx_val_of_single rfl j k
  hr0 := fun j k => dot_S1024x6144_S6144x10_S1024x10_1_0_0_1_n_n.rhsIdx_val_of_single rfl j k
  hr1 := fun j k => by
    unfold DotDims.rhsIdx
    rw [dif_neg (show ¬(1 : Fin S6144x10.rank) ∈ dot_S1024x6144_S6144x10_S1024x10_1_0_0_1_n_n.rhsBatch by decide),
      dif_pos (show (1 : Fin S6144x10.rank) ∈ dot_S1024x6144_S6144x10_S1024x10_1_0_0_1_n_n.rhsNonContracting by decide)]
    rfl

/-- The logits at (p, c): row p of the hidden block against row c of the weight matrix, plus the
    bias at c. -/
theorem logitsVec_apply (x0 : FVec Ideal S1024x6144 .bf16) (x1 : FVec Ideal S10x6144 .f32) (x2 : FVec Ideal S1x10 .f32)
    (p : Fin 1024) (c : Fin 10) :
    logitsVec x0 x1 x2 (ix2 p c) = (∑ k : Fin 6144, x0 (ix2 p k) * x1 (ix2 c k)) + x2 (ix2 (0 : Fin 1) c) := by
  unfold logitsVec
  rw [addf_apply, Cert.LibDot.matmul_ix2 lastDot_plain, broadcastTo_1b_ab_apply, shapeCast_self, shapeCast_self]
  refine congrArg (· + x2 (ix2 (0 : Fin 1) c)) (Finset.sum_congr rfl fun k _ => ?_)
  rw [transpose_ix2_apply]
  rfl

/-! ## The log-softmax at an entry -/

/-- The shift of row p is the row maximum as the specification takes it. -/
theorem shift_col_apply (z : FVec Ideal S1024x10 .f32) (p : Fin 1024) :
    maximumf (broadcast S1024 (Scalar.ofBits (F := Ideal) .f32 0xFF800000#32))
        (multiReduction .maximumf [1] S1024 z 0xFF800000#32 reduces_S1024x10_S1024 (.inl rfl) rfl) (ix1 p)
      = Cert.Net.rowMax (fun c => z (ix2 p c)) := by
  unfold Cert.Net.rowMax
  refine congrArg (max Cert.Net.negInfW) ?_
  refine (Ideal.multiReduction_maximumf_single z 0xFF800000#32 reduces_S1024x10_S1024 (.inl rfl) rfl (ix1 p)).trans ?_
  exact Cert.LibMaxFold.fold_congr _ _ fun k _ => congrArg z (idx2_ext _ p k rfl rfl)

/-- The shifted block at (p, l). -/
theorem shiftVec_apply (z : FVec Ideal S1024x10 .f32) (p : Fin 1024) (l : Fin 10) :
    shiftVec z (ix2 p l) = z (ix2 p l) - Cert.Net.rowMax (fun c => z (ix2 p c)) := by
  unfold shiftVec
  rw [subf_apply, broadcastTo_a1_ab_apply, shapeCast_a_a1_apply, shift_col_apply]

/-- The log-softmax block at (p, q) is the specification's log-softmax of row p at q. -/
theorem logSoftmaxVec_apply (z : FVec Ideal S1024x10 .f32) (p : Fin 1024) (q : Fin 10) :
    logSoftmaxVec z (ix2 p q) = Cert.Net.logSoftmax (fun c => z (ix2 p c)) q := by
  unfold logSoftmaxVec Cert.Net.logSoftmax
  rw [subf_apply, broadcastTo_a1_ab_apply, shiftVec_apply]
  refine congrArg (fun t : EReal => (z (ix2 p q) - Cert.Net.rowMax fun c => z (ix2 p c)) - Ideal.log t) ?_
  refine (shapeCast_a_a1_apply _ _ p 0).trans ?_
  refine (multiReduction_add_rows_apply (Idealize.ShloMosaic.exp (shiftVec z)) reduces_S1024x10_S1024 (.inl rfl) rfl p).trans ?_
  exact Finset.sum_congr rfl fun k _ => congrArg Ideal.exp (shiftVec_apply z p k)

/-- THE PAYLOAD AT AN ENTRY: the log-softmax, at column q, of the 10 logits of row p. -/
theorem final_payload_apply (x0 : FVec Ideal S1024x6144 .bf16) (x1 : FVec Ideal S10x6144 .f32) (x2 : FVec Ideal S1x10 .f32)
    (p : Fin 1024) (q : Fin 10) :
    k3_pay1 (F := Ideal) x0 x1 x2 (ix2 p q)
      = Cert.Net.logSoftmax (fun c => (∑ k : Fin 6144, x0 (ix2 p k) * x1 (ix2 c k)) + x2 (ix2 (0 : Fin 1) c)) q := by
  rw [payload_eq, logSoftmaxVec_apply]
  exact congrArg (fun f => Cert.Net.logSoftmax f q) (funext fun c => logitsVec_apply x0 x1 x2 p c)

end Cert.KernelIdeal.Hand

end
-- ==== Proof.KI.FinalValue.lean ====
/- What the final-layer region leaves in its result array, at the ideal values, as ONE function of the
   three arrays it reads: row p of the 8192 × 10 result is the log-softmax of the 10 logits of row p of
   the hidden array. Point t of the grid writes rows 1024 t … 1024 t + 1023; the eight blocks tile the
   array. -/
import proofs.«104501_j58892591563191_2_alg».proof.Proof.KI.Final
import proofs.«104501_j58892591563191_2_alg».proof.Proof.KI.FinalPayload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The result as one function -/

/-- The result array from the hidden array, the last weight matrix and the bias row: at (p, q) the
    log-softmax, at column q, of the logits `c ↦ ∑ₖ h3 (p, k) · w4 (c, k) + b4 (0, c)`. -/
def G3 (h3 : S8192x6144.Idx → EReal) (w4 : S10x6144.Idx → EReal) (b4 : S1x10.Idx → EReal) : S8192x10.Idx → EReal :=
  fun i => Cert.Net.logSoftmax (fun c => (∑ k : Fin 6144, h3 (ix2 (i 0) k) * w4 (ix2 c k)) + b4 (ix2 (0 : Fin 1) c)) (i 1)

theorem G3_ix2 (h3 : S8192x6144.Idx → EReal) (w4 : S10x6144.Idx → EReal) (b4 : S1x10.Idx → EReal) (p : Fin 8192) (q : Fin 10) :
    G3 h3 w4 b4 (ix2 p q)
      = Cert.Net.logSoftmax (fun c => (∑ k : Fin 6144, h3 (ix2 p k) * w4 (ix2 c k)) + b4 (ix2 (0 : Fin 1) c)) q := rfl

/-- A block's payload is the block of `G3`: if the hidden block is rows `n · 1024 …` of `h3`, and the
    weight and bias blocks are the whole arrays, then the payload at `j` is `G3` at the entry of the
    same column in row `n · 1024 + j₀`. -/
theorem payload_is_block (x0 : Vec Ideal S1024x6144 .bf16) (x1 : Vec Ideal S10x6144 .f32) (x2 : Vec Ideal S1x10 .f32)
    (h3 : S8192x6144.Idx → EReal) (w4 : S10x6144.Idx → EReal) (b4 : S1x10.Idx → EReal)
    (n : ℕ) (j : S1024x10.Idx) (i : S8192x10.Idx)
    (hi0 : (i 0).val = n * 1024 + (j 0).val) (hi1 : (i 1).val = (j 1).val)
    (hx0 : ∀ (y : S1024x6144.Idx) (z : S8192x6144.Idx), (z 0).val = n * 1024 + (y 0).val → (z 1).val = (y 1).val → x0 y = h3 z)
    (hx1 : ∀ y : S10x6144.Idx, x1 y = w4 y) (hx2 : ∀ y : S1x10.Idx, x2 y = b4 y) :
    k3_pay1 (F := Ideal) x0 x1 x2 j = G3 h3 w4 b4 i := by
  obtain ⟨p, q, rfl⟩ : ∃ (p : Fin 1024) (q : Fin 10), j = ix2 p q := ⟨j 0, j 1, eq_ix2 j⟩
  obtain ⟨p', q', rfl⟩ : ∃ (p' : Fin 8192) (q' : Fin 10), i = ix2 p' q' := ⟨i 0, i 1, eq_ix2 i⟩
  have hq : q' = q := Fin.ext hi1
  subst hq
  rw [final_payload_apply, G3_ix2]
  refine congrArg (fun f => Cert.Net.logSoftmax f q') (funext fun c => ?_)
  rw [hx2]
  refine congrArg (· + b4 (ix2 (0 : Fin 1) c)) (Finset.sum_congr rfl fun k _ => ?_)
  rw [hx0 (ix2 p k) (ix2 p' k) hi0 rfl, hx1]

section FinalLayer
variable (V : (c : Dev nD) → (b : Ref sig .tc) → Buf (Elt Ideal) ((c : Thread nD τ).loc b))

/-! ## The printed index maps over the grid -/

theorem zero_offsets : (![0, 0] : Fin 2 → Nat) = fun _ => 0 := funext fun a => by fin_cases a <;> rfl

/-- Point t shows row block t of the hidden array and of the result; the weight matrix and the bias
    row are shown whole at every point. -/
theorem final_index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-! ## What a point writes back -/

/-- WHAT POINT t WRITES BACK is block t of `G3` of the three arrays as the region finds them. -/
theorem flushed3_eq (c : Dev nD) (t : Fin cfg3.N) :
    (dat3 (F := Ideal) V c).flushed 3 t
      = ((cfg3.win 3).blk t).view.read (Elt Ideal) (G3 (V c main_v24) (V c main_arg19) (V c main_v25)) := by
  show (cfg3.win 3).cut (grid3.coords t) ((dat3 (F := Ideal) V c).after 3 t) = _
  rw [after3_3]
  unfold out3_3
  rw [View.canon_unit_zero zero_offsets]
  simp only [View.ld_unit_zero (S := S1024x6144) zero_offsets, View.ld_unit_zero (S := S10x6144) zero_offsets,
    View.ld_unit_zero (S := S1x10) zero_offsets]
  obtain ⟨e00, e01, e10, e11, e20, e21, e30, e31⟩ := final_index_maps t
  funext j
  show k3_pay1 (F := Ideal) (iblk3 V c 0 t) (iblk3 V c 1 t) (iblk3 V c 2 t) j
      = G3 (V c main_v24) (V c main_arg19) (V c main_v25) (((cfg3.win 3).blk t).view.emb j)
  refine payload_is_block _ _ _ _ _ _ t.val j _ ?_ ?_ ?_ ?_ ?_
  · show win3_3.index t (0 : Fin 2) * 1024 + 1 * (j 0).val = t.val * 1024 + (j 0).val
    omega
  · show win3_3.index t (1 : Fin 2) * 10 + 1 * (j 1).val = (j 1).val
    omega
  · intro y z h0 h1
    show V c main_v24 (((cfg3.win 0).blk t).view.emb y) = V c main_v24 z
    refine congrArg (V c main_v24) (funext fun a => Fin.ext ?_)
    match a with
    | ⟨0, _⟩ => show win3_0.index t (0 : Fin 2) * 1024 + 1 * (y 0).val = (z 0).val; omega
    | ⟨1, _⟩ => show win3_0.index t (1 : Fin 2) * 6144 + 1 * (y 1).val = (z 1).val; omega
  · intro y
    show V c main_arg19 (((cfg3.win 1).blk t).view.emb y) = V c main_arg19 y
    refine congrArg (V c main_arg19) (funext fun a => Fin.ext ?_)
    match a with
    | ⟨0, _⟩ => show win3_1.index t (0 : Fin 2) * 10 + 1 * (y 0).val = (y 0).val; omega
    | ⟨1, _⟩ => show win3_1.index t (1 : Fin 2) * 6144 + 1 * (y 1).val = (y 1).val; omega
  · intro y
    show V c main_v25 (((cfg3.win 2).blk t).view.emb y) = V c main_v25 y
    refine congrArg (V c main_v25) (funext fun a => Fin.ext ?_)
    match a with
    | ⟨0, _⟩ => show win3_2.index t (0 : Fin 2) * 1 + 1 * (y 0).val = (y 0).val; omega
    | ⟨1, _⟩ => show win3_2.index t (1 : Fin 2) * 10 + 1 * (y 1).val = (y 1).val; omega

/-! ## The blocks tile the result -/

/-- An entry of the result is in point t's block iff each coordinate is in the block's range. -/
theorem mem_final_block (t : Fin cfg3.N) (i : S8192x10.Idx) :
    i ∈ ((cfg3.win 3).blk t).view.set ↔ ∀ a : Fin 2, win3_3.index t a * S1024x10.size a ≤ (i a).val
      ∧ (i a).val < win3_3.index t a * S1024x10.size a + S1024x10.size a := by
  show i ∈ ((View.whole main_v26).slice (win3_3.rect t)).set ↔ _
  rw [View.set_slice_whole, Rect.mem_set_unit]
  exact Iff.rfl

/-- Row r of the result is written back by point r / 1024. -/
theorem final_cover (i : S8192x10.Idx) :
    ∃ t : Fin cfg3.N, (cfg3.win 3).flush t = true ∧ i ∈ ((cfg3.win 3).blk t).view.set := by
  have hi0 : (i 0).val < 8192 := (i 0).isLt
  have hi1 : (i 1).val < 10 := (i 1).isLt
  refine ⟨⟨(i 0).val / 1024, by rw [show cfg3.N = 8 from N_3]; omega⟩, flush3_3 _, ?_⟩
  rw [mem_final_block]
  obtain ⟨-, -, -, -, -, -, e30, e31⟩ := final_index_maps ⟨(i 0).val / 1024, by rw [show cfg3.N = 8 from N_3]; omega⟩
  intro a
  match a with
  | ⟨0, _⟩ =>
    show win3_3.index _ (0 : Fin 2) * 1024 ≤ (i 0).val ∧ (i 0).val < win3_3.index _ (0 : Fin 2) * 1024 + 1024
    rw [e30]; show (i 0).val / 1024 * 1024 ≤ (i 0).val ∧ (i 0).val < (i 0).val / 1024 * 1024 + 1024; omega
  | ⟨1, _⟩ =>
    show win3_3.index _ (1 : Fin 2) * 10 ≤ (i 1).val ∧ (i 1).val < win3_3.index _ (1 : Fin 2) * 10 + 10
    rw [e31]; omega

/-! ## The result array after the region -/

/-- THE RESULT ARRAY after the last point is `G3` of the hidden array, the weight matrix and the bias
    row as the region finds them. -/
theorem final3 (c : Dev nD) :
    (dat3 (F := Ideal) V c).arrAt 3 cfg3.N = G3 (V c main_v24) (V c main_arg19) (V c main_v25) :=
  (dat3 (F := Ideal) V c).arrAt_eq_of_cover 3 (G3 (V c main_v24) (V c main_arg19) (V c main_v25))
    (fun t _ => flushed3_eq V c t) (final_cover)

end FinalLayer

end Cert.KernelIdeal.Hand

end
-- ==== Proof.KI.L0Pieces.lean ====
/- The first binarised layer: what one step of a block leaves in the output window's buffer, as the
   body's stored values of the blocks it loaded. Every load and store of the body is of a whole buffer,
   so a load of what the last store left reads that store's value: the finished block is the third
   stored value of the second, the second taken from the zero block the reset stored. -/
import proofs.«104501_j58892591563191_2_alg».proof.Proof.KI.L0Dat
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]

/-- Every load and store of the first layer's body starts at the origin of its buffer. -/
theorem origin0 : (![0, 0] : Fin 2 → Nat) = fun _ => 0 := funext fun a => by fin_cases a <;> rfl

/-- The output block after the step at point t, from the seven input blocks: the normalised, signed
    value of the product accumulated from the zero block; the five row vectors enter in the order
    bias, mean, scale, variance, shift. -/
theorem oD0_eq (c : Dev nD) (t : Fin cfg0.N) (x3 x4 : Vec F S1024x784 .bf16) (x5 x6 x7 x8 x9 : Vec F S1x1024 .f32) :
    oD0 c t x3 x4 x5 x6 x7 x8 x9 = k0_pay3 (k0_pay2 x3 x4 (k0_pay1 (F := F))) x5 x8 x6 x9 x7 := by
  unfold oD0
  rw [View.read_writes_eq_canon _ _ _ (ocoverD0 c t x3 x4 x5 x6 x7 x8 x9)]
  unfold runD0
  unfold kernelRun0_D
  dsimp only
  sl_unfold_words
  rw [View.canon_unit_zero origin0, View.readCov_cons_toLoadRect, View.readCov_unit_zero (S := S1024x1024) _ origin0]
  simp only [View.readAt_eq_ld, (hs0_0 t).read_unread, (hs0_1 t).read_unread, (hs0_2 t).read_unread, (hs0_3 t).read_unread,
    (hs0_4 t).read_unread, (hs0_5 t).read_unread, (hs0_6 t).read_unread,
    View.ld_unit_zero (S := S1024x784) origin0, View.ld_unit_zero (S := S1x1024) origin0]

end Cert.KernelIdeal.Hand

end
-- ==== Proof.Laws.lean ====
/-
  Laws of the extended reals that join the two arrangements of the network.

  * The float literals' values: the printed words for `1`, `-1`, `0`, `-∞`.
  * The sign ignores the clamp to `[-1, 1]`: the clamp keeps negative values negative, positive ones positive and zero
    zero, at `±∞` too. So binarising a clamped value and binarising the value itself give the same sign.
  * A sign written as two selections — where `|a| > 0`, `-1` or `1` by `a < 0`, else `a` itself — is the sign.
-/
import proofs.«104501_j58892591563191_2_alg».proof.Proof.Spec

noncomputable section

namespace Cert.Net

open Idealize.ShloMosaic Idealize.ShloMosaic.ValueIdx

theorem oneW_eq : oneW = 1 := IdealRules.sign_bit.ideal_onePat .f32
theorem negOneW_eq : negOneW = -1 := IdealRules.sign_bit.ideal_negOnePat .f32
theorem zeroW_eq : zeroW = 0 := Ideal.ofBits_zero_f32
theorem negInfW_eq : negInfW = ⊥ := by simp [Ideal.ofBits, Ideal.ieee]

/-- The clamp of a negative value is negative, of a positive value positive, of zero zero. -/
theorem clip_neg {x : EReal} (h : x < 0) : clip x < 0 := by
  unfold clip; rw [oneW_eq, negOneW_eq]
  exact lt_of_le_of_lt (min_le_right _ _) (max_lt (by norm_num) h)
theorem clip_pos {x : EReal} (h : 0 < x) : 0 < clip x := by
  unfold clip; rw [oneW_eq, negOneW_eq]
  exact lt_min (by norm_num) (lt_of_lt_of_le h (le_max_right _ _))
theorem clip_zero : clip 0 = 0 := by
  unfold clip; rw [oneW_eq, negOneW_eq]
  rw [max_eq_right (by norm_num : (-1 : EReal) ≤ 0), min_eq_right (by norm_num : (0 : EReal) ≤ 1)]

/-- The sign of the clamped value is the sign of the value, at every extended real. -/
theorem sign_clip (x : EReal) : Ideal.sign (clip x) = Ideal.sign x := by
  rcases lt_trichotomy x 0 with h | h | h
  · rw [Ideal.sign_of_neg h, Ideal.sign_of_neg (clip_neg h)]
  · subst h; rw [clip_zero]
  · rw [Ideal.sign_of_pos h, Ideal.sign_of_pos (clip_pos h)]

/-- The sign as the kernel writes it over a whole vector, read at an element: where `|a| > 0` the selection of `-1` or `1`
    by `a < 0`, else `a` itself, is the sign of `a`. -/
theorem select_sign_apply {s : Shape} (a : FVec Ideal s .f32) (i : s.Idx) :
    select (cmpf .ogt (absf a) (broadcast s (Scalar.ofBits .f32 0x00000000#32)))
        (select (cmpf .olt a (constant s .f32 0x00000000#32)) (constant s .f32 0xBF800000#32)
          (constant s .f32 0x3F800000#32)) a i
      = Ideal.sign (a i) :=
  Ideal.jnp_sign_eq_sign_f32 (a i)

/-- The clamp as both programs write it over a whole vector, read at an element. -/
theorem clip_apply {s : Shape} (a : FVec Ideal s .f32) (i : s.Idx) :
    minimumf (broadcast s (Scalar.ofBits (F := Ideal) .f32 0x3F800000#32))
        (maximumf (broadcast s (Scalar.ofBits (F := Ideal) .f32 0xBF800000#32)) a) i
      = clip (a i) := rfl

end Cert.Net

end
-- ==== Proof.LibSumBlocks.lean ====
/-
  A sum over an index range cut into equal consecutive blocks: the sum over `Fin N`, `N = a·b`, is the sum
  over the `a` blocks of the sums over the `b` positions inside each, position `k` of block `t` being the index
  `t·b + k`. In any commutative additive monoid (the extended reals among them), so no finiteness is asked.
-/
import Mathlib

namespace Cert.LibSumBlocks

/-- Position `k` of block `t` lies inside the range. -/
theorem block_lt {a b : ℕ} (t : Fin a) (k : Fin b) : t.val * b + k.val < a * b := by
  have h1 : t.val + 1 ≤ a := t.isLt
  have h2 : k.val < b := k.isLt
  calc t.val * b + k.val < t.val * b + b := by omega
    _ = (t.val + 1) * b := by ring
    _ ≤ a * b := Nat.mul_le_mul_right b h1

/-- The sum over `Fin N`, `N = a·b`, block by block. -/
theorem sum_blocks {M : Type*} [AddCommMonoid M] (a b N : ℕ) (h : N = a * b) (f : Fin N → M) :
    ∑ n : Fin N, f n = ∑ t : Fin a, ∑ k : Fin b, f ⟨t.val * b + k.val, h ▸ block_lt t k⟩ := by
  subst h
  rw [← Equiv.sum_comp finProdFinEquiv f, Fintype.sum_prod_type]
  refine Finset.sum_congr rfl fun t _ => Finset.sum_congr rfl fun k _ => ?_
  congr 1
  apply Fin.ext
  simp only [finProdFinEquiv_apply_val]
  ring

end Cert.LibSumBlocks
-- ==== Proof.SumAccum.lean ====
/-
  A sum accumulated block by block. An accumulator starts at the zero word; at step `t` the partial sum `P t` of block
  `t` is added to it: `((0 + P 0) + P 1) + …`. After `a` steps it holds the whole sum over `Fin (a·b)`, when `P t` is
  the sum of the `b` terms at the positions `t·b + k`. Addition of extended reals is commutative and associative, so
  no finiteness is needed.
-/
import proofs.«104501_j58892591563191_2_alg».proof.Proof.LibSumBlocks
import proofs.«104501_j58892591563191_2_alg».proof.Proof.Laws

noncomputable section

namespace Cert.Net

open scoped BigOperators

/-- The accumulator after the first `n` steps, started at `z`. -/
def accum (z : EReal) (P : ℕ → EReal) : ℕ → EReal
  | 0 => z
  | n + 1 => accum z P n + P n

theorem accum_zero (z : EReal) (P : ℕ → EReal) : accum z P 0 = z := rfl
theorem accum_succ (z : EReal) (P : ℕ → EReal) (n : ℕ) : accum z P (n + 1) = accum z P n + P n := rfl

/-- The accumulator is the start value plus the sum of the steps taken. -/
theorem accum_eq_sum (z : EReal) (P : ℕ → EReal) (n : ℕ) : accum z P n = z + ∑ t ∈ Finset.range n, P t := by
  induction n with
  | zero => simp [accum]
  | succ n ih => rw [accum_succ, ih, Finset.sum_range_succ, add_assoc]

/-- The same accumulation written as a left fold over the steps `0, …, n-1`. -/
theorem foldl_eq_accum (z : EReal) (P : ℕ → EReal) (n : ℕ) :
    (List.range n).foldl (fun acc t => acc + P t) z = accum z P n := by
  induction n with
  | zero => rfl
  | succ n ih => rw [List.range_succ, List.foldl_append, ih]; rfl

/-- Started at the zero word, after `a` steps of blocks of `b` terms the accumulator is the sum over `Fin (a·b)`. -/
theorem accum_blocks (a b : ℕ) (f : Fin (a * b) → EReal) (P : ℕ → EReal)
    (hP : ∀ t : Fin a, P t.val = ∑ k : Fin b, f ⟨t.val * b + k.val, Cert.LibSumBlocks.block_lt t k⟩) :
    accum zeroW P a = ∑ n : Fin (a * b), f n := by
  rw [accum_eq_sum, zeroW_eq, zero_add, Cert.LibSumBlocks.sum_blocks a b (a * b) rfl f, Finset.sum_range]
  exact Finset.sum_congr rfl fun t _ => hP t

/-- One block (the first layer's whole shared axis in one step): the zero word plus the sum is the sum. -/
theorem zeroW_add (s : EReal) : zeroW + s = s := by rw [zeroW_eq, zero_add]

end Cert.Net

end
-- ==== Proof.KI.L0Pay.lean ====
/- The first binarised layer's arithmetic at the ideal values, entry by entry. The body stores three
   values: the zero block (the accumulator's reset); the accumulator plus the product of the input
   block with the transposed sign-weight block; and the finished block — bias added, running mean
   subtracted, scaled by g · rsqrt (v + ε), shifted by be, then the sign. Each is read here at row p,
   column q of its 1024 × 1024 block. -/
import proofs.«104501_j58892591563191_2_alg».proof.Proof.Gen.KernelIdeal.Skeleton
import proofs.«104501_j58892591563191_2_alg».proof.Proof.Laws
import proofs.«104501_j58892591563191_2_alg».proof.Proof.SumAccum
import proofs.«104501_j58892591563191_2_alg».proof.Proof.LibDot
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx

/-! ## The reset -/

/-- The block the reset stores holds the zero word at every entry. -/
theorem k0_pay1_apply (j : S1024x1024.Idx) : k0_pay1 (F := Ideal) j = Cert.Net.zeroW := by
  unfold k0_pay1
  exact congrFun (shapeCast_self _ _) j

/-! ## The product -/

/-- The first layer's product has the dimension numbers of rows against columns. -/
theorem firstDot_plain : Cert.LibDot.Plain dot_S1024x784_S784x1024_S1024x1024_1_0_0_1_n_n where
  hrank := rfl
  hs := rfl
  hl0 := fun j k => by
    unfold DotDims.lhsIdx
    rw [dif_neg (show ¬(0 : Fin S1024x784.rank) ∈ dot_S1024x784_S784x1024_S1024x1024_1_0_0_1_n_n.lhsBatch by decide),
      dif_pos (show (0 : Fin S1024x784.rank) ∈ dot_S1024x784_S784x1024_S1024x1024_1_0_0_1_n_n.lhsNonContracting by decide)]
    rfl
  hl1 := fun j k => dot_S1024x784_S784x1024_S1024x1024_1_0_0_1_n_n.lhsIdx_val_of_single rfl j k
  hr0 := fun j k => dot_S1024x784_S784x1024_S1024x1024_1_0_0_1_n_n.rhsIdx_val_of_single rfl j k
  hr1 := fun j k => by
    unfold DotDims.rhsIdx
    rw [dif_neg (show ¬(1 : Fin S784x1024.rank) ∈ dot_S1024x784_S784x1024_S1024x1024_1_0_0_1_n_n.rhsBatch by decide),
      dif_pos (show (1 : Fin S784x1024.rank) ∈ dot_S1024x784_S784x1024_S1024x1024_1_0_0_1_n_n.rhsNonContracting by decide)]
    rfl

/-- The accumulation step at (p, q): the accumulator's entry plus row p of the input block against
    row q of the sign-weight block, summed over the 784 shared coordinates. -/
theorem k0_pay2_apply (x3 x4 : FVec Ideal S1024x784 .bf16) (xs : FVec Ideal S1024x1024 .f32) (p q : Fin 1024) :
    k0_pay2 (F := Ideal) x3 x4 xs (ix2 p q) = xs (ix2 p q) + ∑ k : Fin 784, x3 (ix2 p k) * x4 (ix2 q k) := by
  unfold k0_pay2
  refine (congrFun (shapeCast_self _ _) (ix2 p q)).trans ?_
  refine congrArg (xs (ix2 p q) + ·) ?_
  refine (Cert.LibDot.matmul_ix2 firstDot_plain none _ _ p q).trans ?_
  refine Finset.sum_congr rfl fun k _ => ?_
  rw [transpose_ix2_apply, shapeCast_self, shapeCast_self]

/-! ## Bias, normalisation, sign -/

/-- The block after bias and batch normalisation, before the sign: the body's pointwise operations
    on the finished accumulator and the five row vectors, each row vector broadcast down the rows. -/
abbrev normBlock0 (acc : FVec Ideal S1024x1024 .f32) (b m g v be : FVec Ideal S1x1024 .f32) : FVec Ideal S1024x1024 .f32 :=
  addf
    (mulf
      (subf
        (addf acc (broadcastTo S1024x1024 (shapeCast S1x1024 b shapeCasts_S1x1024_S1x1024) broadcasts_S1x1024_S1024x1024))
        (broadcastTo S1024x1024 (shapeCast S1x1024 m shapeCasts_S1x1024_S1x1024) broadcasts_S1x1024_S1024x1024))
      (broadcastTo S1024x1024
        (mulf (shapeCast S1x1024 g shapeCasts_S1x1024_S1x1024)
          (rsqrt (addf (shapeCast S1x1024 v shapeCasts_S1x1024_S1x1024) (broadcast S1x1024 (Scalar.ofBits .f32 0x3727C5AC#32)))))
        broadcasts_S1x1024_S1024x1024))
    (broadcastTo S1024x1024 (shapeCast S1x1024 be shapeCasts_S1x1024_S1x1024) broadcasts_S1x1024_S1024x1024)

/-- At (p, q): ((acc + b) - m) · (g · rsqrt (v + ε)) + be, the row vectors read at column q. -/
theorem normBlock0_apply (acc : FVec Ideal S1024x1024 .f32) (b m g v be : FVec Ideal S1x1024 .f32) (p q : Fin 1024) :
    normBlock0 acc b m g v be (ix2 p q)
      = Cert.Net.bnorm (acc (ix2 p q)) (b (ix2 (0 : Fin 1) q)) (g (ix2 (0 : Fin 1) q)) (be (ix2 (0 : Fin 1) q))
          (m (ix2 (0 : Fin 1) q)) (v (ix2 (0 : Fin 1) q)) := by
  show ((acc (ix2 p q) + broadcastTo S1024x1024 (shapeCast S1x1024 b shapeCasts_S1x1024_S1x1024) broadcasts_S1x1024_S1024x1024 (ix2 p q))
        - broadcastTo S1024x1024 (shapeCast S1x1024 m shapeCasts_S1x1024_S1x1024) broadcasts_S1x1024_S1024x1024 (ix2 p q))
      * broadcastTo S1024x1024 (mulf (shapeCast S1x1024 g shapeCasts_S1x1024_S1x1024)
          (rsqrt (addf (shapeCast S1x1024 v shapeCasts_S1x1024_S1x1024) (broadcast S1x1024 (Scalar.ofBits .f32 0x3727C5AC#32))))) broadcasts_S1x1024_S1024x1024 (ix2 p q)
      + broadcastTo S1024x1024 (shapeCast S1x1024 be shapeCasts_S1x1024_S1x1024) broadcasts_S1x1024_S1024x1024 (ix2 p q) = _
  rw [broadcastTo_1b_ab_apply, broadcastTo_1b_ab_apply, broadcastTo_1b_ab_apply, broadcastTo_1b_ab_apply]
  simp only [shapeCast_self]
  rfl

/-- The finished block at (p, q): the sign of the normalised accumulator (the narrowing to bf16 is
    the identity at the ideal values). -/
theorem k0_pay3_apply (acc : FVec Ideal S1024x1024 .f32) (b m g v be : FVec Ideal S1x1024 .f32) (p q : Fin 1024) :
    k0_pay3 (F := Ideal) acc b m g v be (ix2 p q)
      = Ideal.sign (Cert.Net.bnorm (acc (ix2 p q)) (b (ix2 (0 : Fin 1) q)) (g (ix2 (0 : Fin 1) q)) (be (ix2 (0 : Fin 1) q))
          (m (ix2 (0 : Fin 1) q)) (v (ix2 (0 : Fin 1) q))) := by
  unfold k0_pay3
  refine (Cert.Net.select_sign_apply (normBlock0 acc b m g v be) (ix2 p q)).trans ?_
  exact congrArg Ideal.sign (normBlock0_apply acc b m g v be p q)

/-- The three stored values composed, as one step of a block computes them from a zeroed
    accumulator: at (p, q) the sign of the normalised product of row p of the input block with row q
    of the sign-weight block (the zero word the accumulator starts from adds nothing). -/
theorem first_layer_block_apply (x3 x4 : FVec Ideal S1024x784 .bf16) (b m g v be : FVec Ideal S1x1024 .f32) (p q : Fin 1024) :
    k0_pay3 (F := Ideal) (k0_pay2 (F := Ideal) x3 x4 (k0_pay1 (F := Ideal))) b m g v be (ix2 p q)
      = Ideal.sign (Cert.Net.bnorm (∑ k : Fin 784, x3 (ix2 p k) * x4 (ix2 q k))
          (b (ix2 (0 : Fin 1) q)) (g (ix2 (0 : Fin 1) q)) (be (ix2 (0 : Fin 1) q)) (m (ix2 (0 : Fin 1) q)) (v (ix2 (0 : Fin 1) q))) := by
  rw [k0_pay3_apply, k0_pay2_apply, k0_pay1_apply, Cert.Net.zeroW_add]

end Cert.KernelIdeal.Hand

end
-- ==== Proof.KI.L0Value.lean ====
/- What the first binarised layer's region leaves in its result array, at the ideal values, as ONE
   function of the seven arrays it reads: entry (P, Q) of the 8192 × 3072 result is the sign of the
   normalised product of row P of the input with row Q of the sign weights. The grid is 8 × 3 (× 1):
   point t handles row block t / 3 and column block t % 3, in one step; the 24 blocks tile the array. -/
import proofs.«104501_j58892591563191_2_alg».proof.Proof.KI.L0Dat
import proofs.«104501_j58892591563191_2_alg».proof.Proof.KI.L0Pieces
import proofs.«104501_j58892591563191_2_alg».proof.Proof.KI.L0Pay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The result as one function -/

/-- The first layer's result from the input, the sign weights and the five row vectors (bias, scale,
    shift, running mean, running variance, each a 1 × 3072 row): at (P, Q) the sign of
    ((∑ₖ lhs (P, k) · w (Q, k) + b Q) - m Q) · (g Q · rsqrt (v Q + ε)) + be Q. -/
def G0 (lhs : S8192x784.Idx → EReal) (w : S3072x784.Idx → EReal) (b g be m v : S1x3072.Idx → EReal) : S8192x3072.Idx → EReal :=
  fun i => Ideal.sign (Cert.Net.bnorm (∑ k : Fin 784, lhs (ix2 (i 0) k) * w (ix2 (i 1) k))
    (b (ix2 (0 : Fin 1) (i 1))) (g (ix2 (0 : Fin 1) (i 1))) (be (ix2 (0 : Fin 1) (i 1)))
    (m (ix2 (0 : Fin 1) (i 1))) (v (ix2 (0 : Fin 1) (i 1))))

theorem G0_ix2 (lhs : S8192x784.Idx → EReal) (w : S3072x784.Idx → EReal) (b g be m v : S1x3072.Idx → EReal)
    (P : Fin 8192) (Q : Fin 3072) :
    G0 lhs w b g be m v (ix2 P Q)
      = Ideal.sign (Cert.Net.bnorm (∑ k : Fin 784, lhs (ix2 P k) * w (ix2 Q k))
          (b (ix2 (0 : Fin 1) Q)) (g (ix2 (0 : Fin 1) Q)) (be (ix2 (0 : Fin 1) Q)) (m (ix2 (0 : Fin 1) Q)) (v (ix2 (0 : Fin 1) Q))) := rfl

/-- A block's finished value is the block of `G0`: if the input block is rows `n · 1024 …` of `lhs`, the
    weight block rows `n' · 1024 …` of `w`, and each row-vector block columns `n' · 1024 …` of its row,
    then the block's value at `j` is `G0` at (n · 1024 + j₀, n' · 1024 + j₁). -/
theorem first_block_is_G0 (x3 x4 : FVec Ideal S1024x784 .bf16) (xb xm xg xv xbe : FVec Ideal S1x1024 .f32)
    (lhs : S8192x784.Idx → EReal) (w : S3072x784.Idx → EReal) (b g be m v : S1x3072.Idx → EReal)
    (n n' : ℕ) (j : S1024x1024.Idx) (i : S8192x3072.Idx)
    (hi0 : (i 0).val = n * 1024 + (j 0).val) (hi1 : (i 1).val = n' * 1024 + (j 1).val)
    (hx3 : ∀ (y : S1024x784.Idx) (z : S8192x784.Idx), (z 0).val = n * 1024 + (y 0).val → (z 1).val = (y 1).val → x3 y = lhs z)
    (hx4 : ∀ (y : S1024x784.Idx) (z : S3072x784.Idx), (z 0).val = n' * 1024 + (y 0).val → (z 1).val = (y 1).val → x4 y = w z)
    (hb : ∀ (y : S1x1024.Idx) (z : S1x3072.Idx), (z 1).val = n' * 1024 + (y 1).val → xb y = b z)
    (hm : ∀ (y : S1x1024.Idx) (z : S1x3072.Idx), (z 1).val = n' * 1024 + (y 1).val → xm y = m z)
    (hg : ∀ (y : S1x1024.Idx) (z : S1x3072.Idx), (z 1).val = n' * 1024 + (y 1).val → xg y = g z)
    (hv : ∀ (y : S1x1024.Idx) (z : S1x3072.Idx), (z 1).val = n' * 1024 + (y 1).val → xv y = v z)
    (hbe : ∀ (y : S1x1024.Idx) (z : S1x3072.Idx), (z 1).val = n' * 1024 + (y 1).val → xbe y = be z) :
    k0_pay3 (F := Ideal) (k0_pay2 (F := Ideal) x3 x4 (k0_pay1 (F := Ideal))) xb xm xg xv xbe j = G0 lhs w b g be m v i := by
  obtain ⟨p, q, rfl⟩ : ∃ (p q : Fin 1024), j = ix2 p q := ⟨j 0, j 1, eq_ix2 j⟩
  obtain ⟨P, Q, rfl⟩ : ∃ (P : Fin 8192) (Q : Fin 3072), i = ix2 P Q := ⟨i 0, i 1, eq_ix2 i⟩
  rw [first_layer_block_apply, G0_ix2]
  rw [hb (ix2 (0 : Fin 1) q) (ix2 (0 : Fin 1) Q) hi1, hm (ix2 (0 : Fin 1) q) (ix2 (0 : Fin 1) Q) hi1,
    hg (ix2 (0 : Fin 1) q) (ix2 (0 : Fin 1) Q) hi1, hv (ix2 (0 : Fin 1) q) (ix2 (0 : Fin 1) Q) hi1,
    hbe (ix2 (0 : Fin 1) q) (ix2 (0 : Fin 1) Q) hi1]
  refine congrArg (fun s : EReal => Ideal.sign (Cert.Net.bnorm s _ _ _ _ _)) (Finset.sum_congr rfl fun k _ => ?_)
  rw [hx3 (ix2 p k) (ix2 P k) hi0 rfl, hx4 (ix2 q k) (ix2 Q k) hi1 rfl]

section FirstLayer
variable (V : (c : Dev nD) → (b : Ref sig .tc) → Buf (Elt Ideal) ((c : Thread nD τ).loc b))

/-! ## The printed index maps over the grid -/

/-- Point t shows row block t / 3 of the input, row block t % 3 of the sign weights, column block
    t % 3 of each of the five row vectors, and block (t / 3, t % 3) of the result. -/
theorem first_index_maps : ∀ t : Fin cfg0.N,
    win0_0.index t (0 : Fin 2) = t.val / 3 ∧ win0_0.index t (1 : Fin 2) = 0
    ∧ win0_1.index t (0 : Fin 2) = t.val % 3 ∧ win0_1.index t (1 : Fin 2) = 0
    ∧ win0_2.index t (0 : Fin 2) = 0 ∧ win0_2.index t (1 : Fin 2) = t.val % 3
    ∧ win0_3.index t (0 : Fin 2) = 0 ∧ win0_3.index t (1 : Fin 2) = t.val % 3
    ∧ win0_4.index t (0 : Fin 2) = 0 ∧ win0_4.index t (1 : Fin 2) = t.val % 3
    ∧ win0_5.index t (0 : Fin 2) = 0 ∧ win0_5.index t (1 : Fin 2) = t.val % 3
    ∧ win0_6.index t (0 : Fin 2) = 0 ∧ win0_6.index t (1 : Fin 2) = t.val % 3
    ∧ win0_7.index t (0 : Fin 2) = t.val / 3 ∧ win0_7.index t (1 : Fin 2) = t.val % 3 :=
  (by decide +kernel : ∀ t : Fin grid0.N, _)

/-! ## What a point writes back -/

/-- WHAT POINT t WRITES BACK is block t of `G0` of the seven arrays as the region finds them. -/
theorem flushed0_eq (c : Dev nD) (t : Fin cfg0.N) :
    (dat0 (F := Ideal) V c).flushed 7 t
      = ((cfg0.win 7).blk t).view.read (Elt Ideal)
          (G0 (V c main_v0) (V c main_v2) (V c main_v7) (V c main_v8) (V c main_v9) (V c main_v10) (V c main_v11)) := by
  show (cfg0.win 7).cut (grid0.coords t) ((dat0 (F := Ideal) V c).after 7 t) = _
  rw [after0_7]
  unfold outsAt0
  dsimp only
  rw [oD0_eq]
  obtain ⟨e00, e01, e10, e11, e20, e21, e30, e31, e40, e41, e50, e51, e60, e61, e70, e71⟩ := first_index_maps t
  funext j
  show k0_pay3 (F := Ideal) (k0_pay2 (F := Ideal) (iblk0 V c 0 t) (iblk0 V c 1 t) (k0_pay1 (F := Ideal)))
        (iblk0 V c 2 t) (iblk0 V c 5 t) (iblk0 V c 3 t) (iblk0 V c 6 t) (iblk0 V c 4 t) j
      = G0 (V c main_v0) (V c main_v2) (V c main_v7) (V c main_v8) (V c main_v9) (V c main_v10) (V c main_v11)
          (((cfg0.win 7).blk t).view.emb j)
  refine first_block_is_G0 _ _ _ _ _ _ _ _ _ _ _ _ _ _ (t.val / 3) (t.val % 3) j _ ?_ ?_ ?_ ?_ ?_ ?_ ?_ ?_ ?_
  · show win0_7.index t (0 : Fin 2) * 1024 + 1 * (j 0).val = t.val / 3 * 1024 + (j 0).val
    omega
  · show win0_7.index t (1 : Fin 2) * 1024 + 1 * (j 1).val = t.val % 3 * 1024 + (j 1).val
    omega
  · intro y z h0 h1
    show V c main_v0 (((cfg0.win 0).blk t).view.emb y) = V c main_v0 z
    refine congrArg (V c main_v0) (funext fun a => Fin.ext ?_)
    match a with
    | ⟨0, _⟩ => show win0_0.index t (0 : Fin 2) * 1024 + 1 * (y 0).val = (z 0).val; omega
    | ⟨1, _⟩ => show win0_0.index t (1 : Fin 2) * 784 + 1 * (y 1).val = (z 1).val; omega
  · intro y z h0 h1
    show V c main_v2 (((cfg0.win 1).blk t).view.emb y) = V c main_v2 z
    refine congrArg (V c main_v2) (funext fun a => Fin.ext ?_)
    match a with
    | ⟨0, _⟩ => show win0_1.index t (0 : Fin 2) * 1024 + 1 * (y 0).val = (z 0).val; omega
    | ⟨1, _⟩ => show win0_1.index t (1 : Fin 2) * 784 + 1 * (y 1).val = (z 1).val; omega
  · intro y z h1
    have hy0 : (y 0).val < 1 := (y 0).isLt
    have hz0 : (z 0).val < 1 := (z 0).isLt
    show V c main_v7 (((cfg0.win 2).blk t).view.emb y) = V c main_v7 z
    refine congrArg (V c main_v7) (funext fun a => Fin.ext ?_)
    match a with
    | ⟨0, _⟩ => show win0_2.index t (0 : Fin 2) * 1 + 1 * (y 0).val = (z 0).val; omega
    | ⟨1, _⟩ => show win0_2.index t (1 : Fin 2) * 1024 + 1 * (y 1).val = (z 1).val; omega
  · intro y z h1
    have hy0 : (y 0).val < 1 := (y 0).isLt
    have hz0 : (z 0).val < 1 := (z 0).isLt
    show V c main_v10 (((cfg0.win 5).blk t).view.emb y) = V c main_v10 z
    refine congrArg (V c main_v10) (funext fun a => Fin.ext ?_)
    match a with
    | ⟨0, _⟩ => show win0_5.index t (0 : Fin 2) * 1 + 1 * (y 0).val = (z 0).val; omega
    | ⟨1, _⟩ => show win0_5.index t (1 : Fin 2) * 1024 + 1 * (y 1).val = (z 1).val; omega
  · intro y z h1
    have hy0 : (y 0).val < 1 := (y 0).isLt
    have hz0 : (z 0).val < 1 := (z 0).isLt
    show V c main_v8 (((cfg0.win 3).blk t).view.emb y) = V c main_v8 z
    refine congrArg (V c main_v8) (funext fun a => Fin.ext ?_)
    match a with
    | ⟨0, _⟩ => show win0_3.index t (0 : Fin 2) * 1 + 1 * (y 0).val = (z 0).val; omega
    | ⟨1, _⟩ => show win0_3.index t (1 : Fin 2) * 1024 + 1 * (y 1).val = (z 1).val; omega
  · intro y z h1
    have hy0 : (y 0).val < 1 := (y 0).isLt
    have hz0 : (z 0).val < 1 := (z 0).isLt
    show V c main_v11 (((cfg0.win 6).blk t).view.emb y) = V c main_v11 z
    refine congrArg (V c main_v11) (funext fun a => Fin.ext ?_)
    match a with
    | ⟨0, _⟩ => show win0_6.index t (0 : Fin 2) * 1 + 1 * (y 0).val = (z 0).val; omega
    | ⟨1, _⟩ => show win0_6.index t (1 : Fin 2) * 1024 + 1 * (y 1).val = (z 1).val; omega
  · intro y z h1
    have hy0 : (y 0).val < 1 := (y 0).isLt
    have hz0 : (z 0).val < 1 := (z 0).isLt
    show V c main_v9 (((cfg0.win 4).blk t).view.emb y) = V c main_v9 z
    refine congrArg (V c main_v9) (funext fun a => Fin.ext ?_)
    match a with
    | ⟨0, _⟩ => show win0_4.index t (0 : Fin 2) * 1 + 1 * (y 0).val = (z 0).val; omega
    | ⟨1, _⟩ => show win0_4.index t (1 : Fin 2) * 1024 + 1 * (y 1).val = (z 1).val; omega

/-! ## The blocks tile the result -/

/-- An entry of the result is in point t's block iff each coordinate is in the block's range. -/
theorem mem_first_block (t : Fin cfg0.N) (i : S8192x3072.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v12).slice (win0_7.rect t)).set ↔ _
  rw [View.set_slice_whole, Rect.mem_set_unit]
  exact Iff.rfl

/-- Entry (P, Q) of the result is written back by point (P / 1024) · 3 + Q / 1024. -/
theorem first_cover (i : S8192x3072.Idx) :
    ∃ t : Fin cfg0.N, (cfg0.win 7).flush t = true ∧ i ∈ ((cfg0.win 7).blk t).view.set := by
  have hi0 : (i 0).val < 8192 := (i 0).isLt
  have hi1 : (i 1).val < 3072 := (i 1).isLt
  have hlt : (i 0).val / 1024 * 3 + (i 1).val / 1024 < cfg0.N := by rw [show cfg0.N = 24 from N_0]; omega
  refine ⟨⟨(i 0).val / 1024 * 3 + (i 1).val / 1024, hlt⟩, flush0_7 _, ?_⟩
  rw [mem_first_block]
  obtain ⟨-, -, -, -, -, -, -, -, -, -, -, -, -, -, e70, e71⟩ := first_index_maps ⟨(i 0).val / 1024 * 3 + (i 1).val / 1024, hlt⟩
  intro a
  match a with
  | ⟨0, _⟩ =>
    show win0_7.index _ (0 : Fin 2) * 1024 ≤ (i 0).val ∧ (i 0).val < win0_7.index _ (0 : Fin 2) * 1024 + 1024
    rw [e70]
    show ((i 0).val / 1024 * 3 + (i 1).val / 1024) / 3 * 1024 ≤ (i 0).val
      ∧ (i 0).val < ((i 0).val / 1024 * 3 + (i 1).val / 1024) / 3 * 1024 + 1024
    omega
  | ⟨1, _⟩ =>
    show win0_7.index _ (1 : Fin 2) * 1024 ≤ (i 1).val ∧ (i 1).val < win0_7.index _ (1 : Fin 2) * 1024 + 1024
    rw [e71]
    show ((i 0).val / 1024 * 3 + (i 1).val / 1024) % 3 * 1024 ≤ (i 1).val
      ∧ (i 1).val < ((i 0).val / 1024 * 3 + (i 1).val / 1024) % 3 * 1024 + 1024
    omega

/-! ## The result array after the region -/

/-- THE RESULT ARRAY after the last point is `G0` of the input, the sign weights and the five row
    vectors as the region finds them. -/
theorem final0 (c : Dev nD) :
    (dat0 (F := Ideal) V c).arrAt 7 cfg0.N
      = G0 (V c main_v0) (V c main_v2) (V c main_v7) (V c main_v8) (V c main_v9) (V c main_v10) (V c main_v11) :=
  (dat0 (F := Ideal) V c).arrAt_eq_of_cover 7
    (G0 (V c main_v0) (V c main_v2) (V c main_v7) (V c main_v8) (V c main_v9) (V c main_v10) (V c main_v11))
    (fun t _ => flushed0_eq V c t) first_cover

end FirstLayer

end Cert.KernelIdeal.Hand

end
-- ==== Proof.KI.L1Pieces.lean ====
/-
  Region 1: what each kind of step of the body leaves in the accumulator, and the last step in the output block,
  as the body's stored values of the blocks it loaded. Every load and store of the body covers its whole buffer, so a
  stored piece read back is the stored value, and a load of what one store left reads that value.
-/
import proofs.«104501_j58892591563191_2_alg».proof.Proof.KI.L1Dat
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]

/-- The offsets of every load and store of the body: zero on both axes. -/
theorem zeroOff : (![0, 0] : Fin 2 → Nat) = fun _ => 0 := funext fun a => by fin_cases a <;> rfl

/-- A middle step leaves in the accumulator the step's payload of the two blocks and the accumulator as found. -/
theorem sB1_eq (c : Dev nD) (t : Fin cfg1.N) (h0 : ¬t.val % 3 = 0) (h1 : ¬t.val % 3 = 2)
    (x3 x4 : Vec F S1024x1024 .bf16) (xs : Vec F S1024x1024 .f32) :
    sB1 c t h0 h1 x3 x4 xs = k1_pay2 x3 x4 xs := by
  unfold sB1
  rw [View.read_writes_eq_canon _ _ _ (scoverB1 c t h0 h1 x3 x4 xs)]
  unfold runB1
  unfold kernelRun1_B
  dsimp only
  rw [View.canon_unit_zero zeroOff]
  simp only [View.readAt_eq_ld, (hs1_0 t).read_unread, (hs1_1 t).read_unread, (Memref.isWhole_whole cc1_scratch0).read_unread,
    View.ld_unit_zero (S := S1024x1024) zeroOff]

/-- The first step of a run leaves the step's payload of the two blocks and the zero block the reset stored. -/
theorem sA1_eq (c : Dev nD) (t : Fin cfg1.N) (h0 : t.val % 3 = 0) (x3 x4 : Vec F S1024x1024 .bf16) :
    sA1 c t h0 x3 x4 = k1_pay2 x3 x4 (k1_pay1 (F := F)) := by
  unfold sA1
  rw [View.read_writes_eq_canon _ _ _ (scoverA1 c t h0 x3 x4)]
  unfold runA1
  unfold kernelRun1_A
  dsimp only
  sl_unfold_words
  rw [View.canon_cons_unit_zero (S := S1024x1024) zeroOff, View.readCov_unit_zero (S := S1024x1024) _ zeroOff]
  simp only [View.readAt_eq_ld, (hs1_0 t).read_unread, (hs1_1 t).read_unread, View.ld_unit_zero (S := S1024x1024) zeroOff]

/-- The last step leaves the same payload in the accumulator; -/
theorem sC1_eq (c : Dev nD) (t : Fin cfg1.N) (h0 : ¬t.val % 3 = 0) (h1 : t.val % 3 = 2)
    (x3 x4 : Vec F S1024x1024 .bf16) (x5 x6 x7 x8 x9 : Vec F S1x1024 .f32) (xs : Vec F S1024x1024 .f32) :
    sC1 c t h0 h1 x3 x4 x5 x6 x7 x8 x9 xs = k1_pay2 x3 x4 xs := by
  unfold sC1
  rw [View.read_writes_eq_canon _ _ _ (scoverC1 c t h0 h1 x3 x4 x5 x6 x7 x8 x9 xs)]
  unfold runC1
  unfold kernelRun1_C
  dsimp only
  sl_unfold_words
  rw [View.canon_unit_zero zeroOff]
  simp only [View.readAt_eq_ld, (hs1_0 t).read_unread, (hs1_1 t).read_unread, (Memref.isWhole_whole cc1_scratch0).read_unread,
    View.ld_unit_zero (S := S1024x1024) zeroOff]

/-- and in the output block the normalised, activated value of the finished accumulator. -/
theorem oC1_eq (c : Dev nD) (t : Fin cfg1.N) (h0 : ¬t.val % 3 = 0) (h1 : t.val % 3 = 2)
    (x3 x4 : Vec F S1024x1024 .bf16) (x5 x6 x7 x8 x9 : Vec F S1x1024 .f32) (xs : Vec F S1024x1024 .f32) :
    oC1 c t h0 h1 x3 x4 x5 x6 x7 x8 x9 xs = k1_pay3 (k1_pay2 x3 x4 xs) x5 x8 x6 x9 x7 := by
  unfold oC1
  rw [View.read_writes_eq_canon _ _ _ (ocoverC1 c t h0 h1 x3 x4 x5 x6 x7 x8 x9 xs)]
  unfold runC1
  unfold kernelRun1_C
  dsimp only
  sl_unfold_words
  rw [View.canon_unit_zero zeroOff, View.readCov_unit_zero (S := S1024x1024) _ zeroOff]
  simp only [View.readAt_eq_ld, (hs1_0 t).read_unread, (hs1_1 t).read_unread, (hs1_2 t).read_unread, (hs1_3 t).read_unread,
    (hs1_4 t).read_unread, (hs1_5 t).read_unread, (hs1_6 t).read_unread, (Memref.isWhole_whole cc1_scratch0).read_unread,
    View.ld_unit_zero (S := S1024x1024) zeroOff, View.ld_unit_zero (S := S1x1024) zeroOff]

end Cert.KernelIdeal.Hand

end
-- ==== Proof.KI.L1Pay.lean ====
/-
  Region 1 (the second binarised layer), the body's three stored values read at an entry, at the ideal values:
  the reset stores the zero word everywhere; a step adds to the accumulator's entry (p, q) the sum over the block's
  shared axis of row p of the input block against row q of the sign-weight block (the body transposes the weight
  block and multiplies into a zero accumulator); the last step's output entry is the sign of
  ((acc + b) - m) · (g · rsqrt (v + ε)) + be, the five row vectors read at column q.
-/
import proofs.«104501_j58892591563191_2_alg».proof.Proof.Gen.KernelIdeal.Skeleton
import proofs.«104501_j58892591563191_2_alg».proof.Proof.Laws
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-- A 1024×1024 block against the transpose of another, into the zero accumulator: at row `p` and column `q` the sum
    over the shared axis of the products of row `p` of the first with row `q` of the second. -/
theorem matmulNT1_apply (A B : FVec Ideal S1024x1024 .bf16) (p q : Fin 1024) :
    matmul dot_S1024x1024_S1024x1024_S1024x1024_1_0_0_1_n_n none A
        (transpose S1024x1024 [1, 0] B transposes_S1024x1024_p1_0_S1024x1024) (constant S1024x1024 .f32 0x00000000#32) (ix2 p q)
      = ∑ k : Fin 1024, A (ix2 p k) * B (ix2 q k) := by
  show FloatOps.matmul _ none A _ (constant S1024x1024 .f32 0x00000000#32) (ix2 p q) = _
  rw [Ideal.matmul_constant_zero_apply,
    ← Equiv.sum_comp (contrEquiv1 dot_S1024x1024_S1024x1024_S1024x1024_1_0_0_1_n_n 1024 rfl rfl).symm]
  refine Finset.sum_congr rfl fun k _ => ?_
  have c2 := contrEquiv1_symm_val dot_S1024x1024_S1024x1024_S1024x1024_1_0_0_1_n_n 1024 rfl rfl k
  have l2 : dot_S1024x1024_S1024x1024_S1024x1024_1_0_0_1_n_n.lhsIdx (ix2 p q) ((contrEquiv1 _ 1024 rfl rfl).symm k) = ix2 p k := by
    funext ax; apply Fin.ext
    match ax with
    | ⟨0, _⟩ => simp [DotDims.lhsIdx, dot_S1024x1024_S1024x1024_S1024x1024_1_0_0_1_n_n]; rfl
    | ⟨1, _⟩ => simp [DotDims.lhsIdx, dot_S1024x1024_S1024x1024_S1024x1024_1_0_0_1_n_n]; exact c2
  have r2 : dot_S1024x1024_S1024x1024_S1024x1024_1_0_0_1_n_n.rhsIdx (ix2 p q) ((contrEquiv1 _ 1024 rfl rfl).symm k) = ix2 k q := by
    funext ax; apply Fin.ext
    match ax with
    | ⟨0, _⟩ => simp [DotDims.rhsIdx, dot_S1024x1024_S1024x1024_S1024x1024_1_0_0_1_n_n]; exact c2
    | ⟨1, _⟩ => simp [DotDims.rhsIdx, dot_S1024x1024_S1024x1024_S1024x1024_1_0_0_1_n_n]; rfl
  rw [l2, r2]
  exact congrArg (A (ix2 p k) * ·) (transpose_ix2_apply B transposes_S1024x1024_p1_0_S1024x1024 k q)

/-- The zero block the reset stores: every entry is the zero word. -/
theorem k1_pay1_apply (j : S1024x1024.Idx) : k1_pay1 (F := Ideal) j = Cert.Net.zeroW := by
  unfold k1_pay1
  exact congrFun (shapeCast_self _ _) j

/-- One step of the accumulation: the accumulator plus the block of the input against the transposed block of the
    sign weights — at row `p`, column `q`, the accumulator's entry plus the sum over the block's shared axis. -/
theorem k1_pay2_apply (x3 x4 : Vec Ideal S1024x1024 .bf16) (xs : Vec Ideal S1024x1024 .f32) (p q : Fin 1024) :
    k1_pay2 (F := Ideal) x3 x4 xs (ix2 p q) = xs (ix2 p q) + ∑ k : Fin 1024, x3 (ix2 p k) * x4 (ix2 q k) := by
  unfold k1_pay2
  refine (congrFun (shapeCast_self _ _) (ix2 p q)).trans ?_
  refine congrArg (xs (ix2 p q) + ·) ?_
  refine (matmulNT1_apply _ _ p q).trans ?_
  refine Finset.sum_congr rfl fun k _ => ?_
  rw [shapeCast_self, shapeCast_self]

/-- The block after bias and normalisation, before the activation: the body's pointwise operations on the finished
    accumulator and the five row vectors. -/
abbrev pre1 (acc : FVec Ideal S1024x1024 .f32) (b m g v be : FVec Ideal S1x1024 .f32) : FVec Ideal S1024x1024 .f32 :=
  addf (mulf (subf (addf acc (broadcastTo S1024x1024 (shapeCast S1x1024 b shapeCasts_S1x1024_S1x1024) broadcasts_S1x1024_S1024x1024))
      (broadcastTo S1024x1024 (shapeCast S1x1024 m shapeCasts_S1x1024_S1x1024) broadcasts_S1x1024_S1024x1024))
    (broadcastTo S1024x1024 (mulf (shapeCast S1x1024 g shapeCasts_S1x1024_S1x1024)
      (rsqrt (addf (shapeCast S1x1024 v shapeCasts_S1x1024_S1x1024) (broadcast S1x1024 (Scalar.ofBits .f32 0x3727C5AC#32))))) broadcasts_S1x1024_S1024x1024))
    (broadcastTo S1024x1024 (shapeCast S1x1024 be shapeCasts_S1x1024_S1x1024) broadcasts_S1x1024_S1024x1024)

/-- At row `p`, column `q`: `((acc + b) - m) · (g · rsqrt (v + ε)) + be` with the row vectors read at column `q`. -/
theorem pre1_apply (acc : FVec Ideal S1024x1024 .f32) (b m g v be : FVec Ideal S1x1024 .f32) (p q : Fin 1024) :
    pre1 acc b m g v be (ix2 p q)
      = Cert.Net.bnorm (acc (ix2 p q)) (b (ix2 (0 : Fin 1) q)) (g (ix2 (0 : Fin 1) q)) (be (ix2 (0 : Fin 1) q)) (m (ix2 (0 : Fin 1) q)) (v (ix2 (0 : Fin 1) q)) := by
  show ((acc (ix2 p q) + broadcastTo S1024x1024 (shapeCast S1x1024 b shapeCasts_S1x1024_S1x1024) broadcasts_S1x1024_S1024x1024 (ix2 p q))
        - broadcastTo S1024x1024 (shapeCast S1x1024 m shapeCasts_S1x1024_S1x1024) broadcasts_S1x1024_S1024x1024 (ix2 p q))
      * broadcastTo S1024x1024 (mulf (shapeCast S1x1024 g shapeCasts_S1x1024_S1x1024)
          (rsqrt (addf (shapeCast S1x1024 v shapeCasts_S1x1024_S1x1024) (broadcast S1x1024 (Scalar.ofBits .f32 0x3727C5AC#32))))) broadcasts_S1x1024_S1024x1024 (ix2 p q)
      + broadcastTo S1024x1024 (shapeCast S1x1024 be shapeCasts_S1x1024_S1x1024) broadcasts_S1x1024_S1024x1024 (ix2 p q) = _
  rw [broadcastTo_1b_ab_apply, broadcastTo_1b_ab_apply, broadcastTo_1b_ab_apply, broadcastTo_1b_ab_apply]
  simp only [shapeCast_self]
  rfl

/-- The finished block of the first two layers: the sign of the normalised accumulator. -/
theorem k1_pay3_apply (acc : Vec Ideal S1024x1024 .f32) (b m g v be : Vec Ideal S1x1024 .f32) (p q : Fin 1024) :
    k1_pay3 (F := Ideal) acc b m g v be (ix2 p q)
      = Ideal.sign (Cert.Net.bnorm (acc (ix2 p q)) (b (ix2 (0 : Fin 1) q)) (g (ix2 (0 : Fin 1) q)) (be (ix2 (0 : Fin 1) q)) (m (ix2 (0 : Fin 1) q)) (v (ix2 (0 : Fin 1) q))) := by
  unfold k1_pay3
  refine (Cert.Net.select_sign_apply (pre1 acc b m g v be) (ix2 p q)).trans ?_
  exact congrArg Ideal.sign (pre1_apply acc b m g v be p q)

end Cert.KernelIdeal.Hand

end
-- ==== Proof.KI.L1Idx.lean ====
import proofs.«104501_j58892591563191_2_alg».proof.Proof.Gen.KernelIdeal.Launch
import proofs.«104501_j58892591563191_2_alg».proof.Proof.Gen.KernelIdeal.Points

set_option maxRecDepth 16384

noncomputable section

namespace Cert.KernelIdeal.Hand

open Cert.KernelIdeal Cert.KernelIdeal.Gen
open Idealize.ShloMosaic

/-- Region 1's grid is 8 × 6 × 3 in row-major point order: point `t` is row block `t / 18`, column block
    `(t / 3) % 6`, step `t % 3` of the shared axis. The printed index maps, decided once over the 144 points: the
    input block is (row block, step), the sign-weight block (column block, step), each of the five row vectors' blocks
    (0, column block), the output block (row block, column block). -/
theorem idx1 : ∀ t : Fin cfg1.N,
    win1_0.index t (0 : Fin 2) = t.val / 18 ∧ win1_0.index t (1 : Fin 2) = t.val % 3
    ∧ win1_1.index t (0 : Fin 2) = t.val / 3 % 6 ∧ win1_1.index t (1 : Fin 2) = t.val % 3
    ∧ win1_2.index t (0 : Fin 2) = 0 ∧ win1_2.index t (1 : Fin 2) = t.val / 3 % 6
    ∧ win1_3.index t (0 : Fin 2) = 0 ∧ win1_3.index t (1 : Fin 2) = t.val / 3 % 6
    ∧ win1_4.index t (0 : Fin 2) = 0 ∧ win1_4.index t (1 : Fin 2) = t.val / 3 % 6
    ∧ win1_5.index t (0 : Fin 2) = 0 ∧ win1_5.index t (1 : Fin 2) = t.val / 3 % 6
    ∧ win1_6.index t (0 : Fin 2) = 0 ∧ win1_6.index t (1 : Fin 2) = t.val / 3 % 6
    ∧ win1_7.index t (0 : Fin 2) = t.val / 18 ∧ win1_7.index t (1 : Fin 2) = t.val / 3 % 6 :=
  (by decide +kernel : ∀ t : Fin grid1.N, _)

end Cert.KernelIdeal.Hand

end
-- ==== Proof.KI.L1Acc.lean ====
/-
  Region 1: the accumulator across a run of three consecutive points. The first point of a run stores the zero block
  and adds its partial product; each later point adds its own to what the point before left. So after the run's last
  point the accumulator's entry (p, q) is the zero word plus the three partial products: row p of each input block
  against row q of the matching sign-weight block.
-/
import proofs.«104501_j58892591563191_2_alg».proof.Proof.KI.L1Pieces
import proofs.«104501_j58892591563191_2_alg».proof.Proof.KI.L1Pay
import proofs.«104501_j58892591563191_2_alg».proof.Proof.KI.L1Idx
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- The input block and the sign-weight block the body loads at a point, and the accumulator after the point. -/
abbrev xb1 (c : Dev nD) (t : Fin cfg1.N) : Vec Ideal S1024x1024 .bf16 := iblk1 V c 0 t
abbrev wb1 (c : Dev nD) (t : Fin cfg1.N) : Vec Ideal S1024x1024 .bf16 := iblk1 V c 1 t
abbrev acc1 (c : Dev nD) (n : ℕ) (hn : n < cfg1.N) : Vec Ideal S1024x1024 .f32 := (outsAt1 V c n hn).2

/-- At the first point of a run the accumulator is the step's payload over the zero block; -/
theorem acc1_first (c : Dev nD) (n : ℕ) (hn : n < cfg1.N) (h0 : n % 3 = 0) :
    acc1 V c n hn = k1_pay2 (xb1 V c ⟨n, hn⟩) (wb1 V c ⟨n, hn⟩) (k1_pay1 (F := Ideal)) := by
  have e : (outsAt1 V c n hn).2 = sA1 c ⟨n, hn⟩ h0 (iblk1 V c 0 ⟨n, hn⟩) (iblk1 V c 1 ⟨n, hn⟩) := by
    rw [outsAt1_A (F := Ideal) V c ⟨n, hn⟩ h0]
  exact e.trans (sA1_eq (F := Ideal) c ⟨n, hn⟩ h0 (xb1 V c ⟨n, hn⟩) (wb1 V c ⟨n, hn⟩))

/-- at every other point it is the step's payload over what the point before left. -/
theorem acc1_step (c : Dev nD) (n : ℕ) (hn : n + 1 < cfg1.N) (h0 : ¬(n + 1) % 3 = 0) :
    acc1 V c (n + 1) hn = k1_pay2 (xb1 V c ⟨n + 1, hn⟩) (wb1 V c ⟨n + 1, hn⟩) (acc1 V c n (Nat.lt_of_succ_lt hn)) := by
  by_cases h1 : (n + 1) % 3 = 2
  · have e : outsAt1 V c (n + 1) hn
        = (oC1 c ⟨n + 1, hn⟩ h0 h1 (iblk1 V c 0 ⟨n + 1, hn⟩) (iblk1 V c 1 ⟨n + 1, hn⟩) (iblk1 V c 2 ⟨n + 1, hn⟩) (iblk1 V c 3 ⟨n + 1, hn⟩)
            (iblk1 V c 4 ⟨n + 1, hn⟩) (iblk1 V c 5 ⟨n + 1, hn⟩) (iblk1 V c 6 ⟨n + 1, hn⟩) (outsAt1 V c n (Nat.lt_of_succ_lt hn)).2,
           sC1 c ⟨n + 1, hn⟩ h0 h1 (iblk1 V c 0 ⟨n + 1, hn⟩) (iblk1 V c 1 ⟨n + 1, hn⟩) (iblk1 V c 2 ⟨n + 1, hn⟩) (iblk1 V c 3 ⟨n + 1, hn⟩)
            (iblk1 V c 4 ⟨n + 1, hn⟩) (iblk1 V c 5 ⟨n + 1, hn⟩) (iblk1 V c 6 ⟨n + 1, hn⟩) (outsAt1 V c n (Nat.lt_of_succ_lt hn)).2) :=
      (dif_neg h0).trans (dif_pos h1)
    have e2 : (outsAt1 V c (n + 1) hn).2
        = sC1 c ⟨n + 1, hn⟩ h0 h1 (iblk1 V c 0 ⟨n + 1, hn⟩) (iblk1 V c 1 ⟨n + 1, hn⟩) (iblk1 V c 2 ⟨n + 1, hn⟩) (iblk1 V c 3 ⟨n + 1, hn⟩)
            (iblk1 V c 4 ⟨n + 1, hn⟩) (iblk1 V c 5 ⟨n + 1, hn⟩) (iblk1 V c 6 ⟨n + 1, hn⟩) (outsAt1 V c n (Nat.lt_of_succ_lt hn)).2 := by rw [e]
    exact e2.trans (sC1_eq (F := Ideal) c ⟨n + 1, hn⟩ h0 h1 (xb1 V c ⟨n + 1, hn⟩) (wb1 V c ⟨n + 1, hn⟩) (iblk1 V c 2 ⟨n + 1, hn⟩)
        (iblk1 V c 3 ⟨n + 1, hn⟩) (iblk1 V c 4 ⟨n + 1, hn⟩) (iblk1 V c 5 ⟨n + 1, hn⟩) (iblk1 V c 6 ⟨n + 1, hn⟩) (acc1 V c n (Nat.lt_of_succ_lt hn)))
  · have e : outsAt1 V c (n + 1) hn
        = (oJunk1, sB1 c ⟨n + 1, hn⟩ h0 h1 (iblk1 V c 0 ⟨n + 1, hn⟩) (iblk1 V c 1 ⟨n + 1, hn⟩) (outsAt1 V c n (Nat.lt_of_succ_lt hn)).2) :=
      (dif_neg h0).trans (dif_neg h1)
    have e2 : (outsAt1 V c (n + 1) hn).2
        = sB1 c ⟨n + 1, hn⟩ h0 h1 (iblk1 V c 0 ⟨n + 1, hn⟩) (iblk1 V c 1 ⟨n + 1, hn⟩) (outsAt1 V c n (Nat.lt_of_succ_lt hn)).2 := by rw [e]
    exact e2.trans (sB1_eq (F := Ideal) c ⟨n + 1, hn⟩ h0 h1 (xb1 V c ⟨n + 1, hn⟩) (wb1 V c ⟨n + 1, hn⟩) (acc1 V c n (Nat.lt_of_succ_lt hn)))

/-- The partial product of point `n` at row `p`, column `q` of the block: row `p` of the input block against row `q`
    of the sign-weight block (zero past the grid, where it is never used). -/
def part1 (c : Dev nD) (n : ℕ) (p q : Fin 1024) : EReal :=
  if h : n < cfg1.N then ∑ k : Fin 1024, xb1 V c ⟨n, h⟩ (ix2 p k) * wb1 V c ⟨n, h⟩ (ix2 q k) else 0

theorem part1_of_lt (c : Dev nD) (n : ℕ) (h : n < cfg1.N) (p q : Fin 1024) :
    part1 V c n p q = ∑ k : Fin 1024, xb1 V c ⟨n, h⟩ (ix2 p k) * wb1 V c ⟨n, h⟩ (ix2 q k) := dif_pos h

/-- THE ACCUMULATION. In a run starting at point `b` (a multiple of 3), after `j + 1` steps the accumulator's entry is
    the zero word plus the partial products of the steps taken (addition of extended reals is associative, so the
    nesting of the additions does not matter). -/
theorem acc1_run (c : Dev nD) (b : ℕ) (hb : b % 3 = 0) : ∀ (j : ℕ), j < 3 → ∀ (h : b + j < cfg1.N) (p q : Fin 1024),
    acc1 V c (b + j) h (ix2 p q) = Cert.Net.zeroW + ∑ s ∈ Finset.range (j + 1), part1 V c (b + s) p q
  | 0, _, h, p, q => by
    rw [acc1_first V c (b + 0) h hb, k1_pay2_apply, k1_pay1_apply, Finset.sum_range_one, part1_of_lt V c (b + 0) h]
  | j + 1, hj, h, p, q => by
    have hne : ¬(b + j + 1) % 3 = 0 := by omega
    show acc1 V c (b + j + 1) h (ix2 p q) = _
    rw [acc1_step V c (b + j) h hne, k1_pay2_apply, acc1_run c b hb j (by omega) (Nat.lt_of_succ_lt h) p q,
      Finset.sum_range_succ _ (j + 1), add_assoc, part1_of_lt V c (b + (j + 1)) h]
    rfl

end Cert.KernelIdeal.Hand

end
-- ==== Proof.KI.L1Value.lean ====
/-
  Region 1 (the second binarised layer), its value: the output array after the region is the layer's output of the
  arrays the region is entered with — entry (P, Q) the sign of the normalised product of row P of the input with row Q
  of the sign weights. Each block the body loads is a rectangle of its array, placed by the point's row block, column
  block and step; the run's three partial products are the three consecutive thirds of the sum over the shared axis;
  the finishing points' blocks tile the output array.
-/
import proofs.«104501_j58892591563191_2_alg».proof.Proof.KI.L1Acc
import proofs.«104501_j58892591563191_2_alg».proof.Proof.SumAccum
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open Cert.Net (Mat)
open scoped BigOperators

/-! ## What region 1 leaves in its output array, as one function of the arrays it is entered with -/

/-- Row `P` of the input against row `Q` of the sign weights, over the whole shared axis. -/
def dot1 (lhs : Mat 8192 3072) (ws : Mat 6144 3072) (P : Fin 8192) (Q : Fin 6144) : EReal :=
  ∑ n : Fin 3072, lhs (ix2 P n) * ws (ix2 Q n)

/-- Entry (P, Q) of the layer's output: that product, then bias and normalisation with the row vectors read at
    column `Q`, then the sign. -/
def G1at (lhs : Mat 8192 3072) (ws : Mat 6144 3072) (b g be m v : Mat 1 6144) (P : Fin 8192) (Q : Fin 6144) : EReal :=
  Ideal.sign (Cert.Net.bnorm (dot1 lhs ws P Q)
    (b (ix2 (0 : Fin 1) Q)) (g (ix2 (0 : Fin 1) Q)) (be (ix2 (0 : Fin 1) Q)) (m (ix2 (0 : Fin 1) Q)) (v (ix2 (0 : Fin 1) Q)))

/-- The layer's output array. -/
def G1 (lhs : Mat 8192 3072) (ws : Mat 6144 3072) (b g be m v : Mat 1 6144) : Mat 8192 6144 :=
  fun i => G1at lhs ws b g be m v (i 0) (i 1)

theorem G1_ix2 (lhs : Mat 8192 3072) (ws : Mat 6144 3072) (b g be m v : Mat 1 6144) (P : Fin 8192) (Q : Fin 6144) :
    G1 lhs ws b g be m v (ix2 P Q) = G1at lhs ws b g be m v P Q := rfl

variable (V : (c : Dev nD) → (b : Ref sig .tc) → Buf (Elt Ideal) ((c : Thread nD τ).loc b))

/-! ## The blocks the body loads, read off the arrays -/

/-- The input block of point `t` is rows `t / 18 · 1024 …` and columns `t % 3 · 1024 …` of the region's first array. -/
theorem xb1_apply (c : Dev nD) (t : Fin cfg1.N) (p k : Fin 1024) (P : Fin 8192) (K : Fin 3072)
    (hP : P.val = t.val / 18 * 1024 + p.val) (hK : K.val = t.val % 3 * 1024 + k.val) :
    xb1 V c t (ix2 p k) = (V c main_v12 : Mat 8192 3072) (ix2 P K) := by
  obtain ⟨e0, e1, -⟩ := idx1 t
  show ((cfg1.win 0).blk t).view.read (Elt Ideal) (V c (Pipeline.arrRef spec1 0)) (ix2 p k) = _
  rw [View.read_apply]
  show V c main_v12 _ = V c main_v12 _
  congr 1
  funext a; apply Fin.ext
  match a with
  | ⟨0, _⟩ => show win1_0.index t (0 : Fin 2) * 1024 + 1 * p.val = P.val; rw [e0, hP]; omega
  | ⟨1, _⟩ => show win1_0.index t (1 : Fin 2) * 1024 + 1 * k.val = K.val; rw [e1, hK]; omega

/-- The sign-weight block of point `t` is rows `t / 3 % 6 · 1024 …` and columns `t % 3 · 1024 …` of the second array. -/
theorem wb1_apply (c : Dev nD) (t : Fin cfg1.N) (q k : Fin 1024) (Q : Fin 6144) (K : Fin 3072)
    (hQ : Q.val = t.val / 3 % 6 * 1024 + q.val) (hK : K.val = t.val % 3 * 1024 + k.val) :
    wb1 V c t (ix2 q k) = (V c main_v4 : Mat 6144 3072) (ix2 Q K) := by
  obtain ⟨-, -, e0, e1, -⟩ := idx1 t
  show ((cfg1.win 1).blk t).view.read (Elt Ideal) (V c (Pipeline.arrRef spec1 1)) (ix2 q k) = _
  rw [View.read_apply]
  show V c main_v4 _ = V c main_v4 _
  congr 1
  funext a; apply Fin.ext
  match a with
  | ⟨0, _⟩ => show win1_1.index t (0 : Fin 2) * 1024 + 1 * q.val = Q.val; rw [e0, hQ]; omega
  | ⟨1, _⟩ => show win1_1.index t (1 : Fin 2) * 1024 + 1 * k.val = K.val; rw [e1, hK]; omega

/-- Each row vector's block of point `t` is columns `t / 3 % 6 · 1024 …` of its array. -/
theorem vb1_2_apply (c : Dev nD) (t : Fin cfg1.N) (q : Fin 1024) (Q : Fin 6144) (hQ : Q.val = t.val / 3 % 6 * 1024 + q.val) :
    (iblk1 V c 2 t : Vec Ideal S1x1024 .f32) (ix2 (0 : Fin 1) q) = (V c main_v13 : Mat 1 6144) (ix2 (0 : Fin 1) Q) := by
  obtain ⟨a00, a01, a10, a11, a20, a21, a30, a31, a40, a41, a50, a51, a60, a61, a70, a71⟩ := idx1 t
  show ((cfg1.win 2).blk t).view.read (Elt Ideal) (V c (Pipeline.arrRef spec1 2)) (ix2 (0 : Fin 1) q) = _
  rw [View.read_apply]
  show V c main_v13 _ = V c main_v13 _
  congr 1
  funext a; apply Fin.ext
  match a with
  | ⟨0, _⟩ => show win1_2.index t (0 : Fin 2) * 1 + 1 * 0 = 0; rw [a20]
  | ⟨1, _⟩ => show win1_2.index t (1 : Fin 2) * 1024 + 1 * q.val = Q.val; rw [a21, hQ]; omega

theorem vb1_3_apply (c : Dev nD) (t : Fin cfg1.N) (q : Fin 1024) (Q : Fin 6144) (hQ : Q.val = t.val / 3 % 6 * 1024 + q.val) :
    (iblk1 V c 3 t : Vec Ideal S1x1024 .f32) (ix2 (0 : Fin 1) q) = (V c main_v14 : Mat 1 6144) (ix2 (0 : Fin 1) Q) := by
  obtain ⟨a00, a01, a10, a11, a20, a21, a30, a31, a40, a41, a50, a51, a60, a61, a70, a71⟩ := idx1 t
  show ((cfg1.win 3).blk t).view.read (Elt Ideal) (V c (Pipeline.arrRef spec1 3)) (ix2 (0 : Fin 1) q) = _
  rw [View.read_apply]
  show V c main_v14 _ = V c main_v14 _
  congr 1
  funext a; apply Fin.ext
  match a with
  | ⟨0, _⟩ => show win1_3.index t (0 : Fin 2) * 1 + 1 * 0 = 0; rw [a30]
  | ⟨1, _⟩ => show win1_3.index t (1 : Fin 2) * 1024 + 1 * q.val = Q.val; rw [a31, hQ]; omega

theorem vb1_4_apply (c : Dev nD) (t : Fin cfg1.N) (q : Fin 1024) (Q : Fin 6144) (hQ : Q.val = t.val / 3 % 6 * 1024 + q.val) :
    (iblk1 V c 4 t : Vec Ideal S1x1024 .f32) (ix2 (0 : Fin 1) q) = (V c main_v15 : Mat 1 6144) (ix2 (0 : Fin 1) Q) := by
  obtain ⟨a00, a01, a10, a11, a20, a21, a30, a31, a40, a41, a50, a51, a60, a61, a70, a71⟩ := idx1 t
  show ((cfg1.win 4).blk t).view.read (Elt Ideal) (V c (Pipeline.arrRef spec1 4)) (ix2 (0 : Fin 1) q) = _
  rw [View.read_apply]
  show V c main_v15 _ = V c main_v15 _
  congr 1
  funext a; apply Fin.ext
  match a with
  | ⟨0, _⟩ => show win1_4.index t (0 : Fin 2) * 1 + 1 * 0 = 0; rw [a40]
  | ⟨1, _⟩ => show win1_4.index t (1 : Fin 2) * 1024 + 1 * q.val = Q.val; rw [a41, hQ]; omega

theorem vb1_5_apply (c : Dev nD) (t : Fin cfg1.N) (q : Fin 1024) (Q : Fin 6144) (hQ : Q.val = t.val / 3 % 6 * 1024 + q.val) :
    (iblk1 V c 5 t : Vec Ideal S1x1024 .f32) (ix2 (0 : Fin 1) q) = (V c main_v16 : Mat 1 6144) (ix2 (0 : Fin 1) Q) := by
  obtain ⟨a00, a01, a10, a11, a20, a21, a30, a31, a40, a41, a50, a51, a60, a61, a70, a71⟩ := idx1 t
  show ((cfg1.win 5).blk t).view.read (Elt Ideal) (V c (Pipeline.arrRef spec1 5)) (ix2 (0 : Fin 1) q) = _
  rw [View.read_apply]
  show V c main_v16 _ = V c main_v16 _
  congr 1
  funext a; apply Fin.ext
  match a with
  | ⟨0, _⟩ => show win1_5.index t (0 : Fin 2) * 1 + 1 * 0 = 0; rw [a50]
  | ⟨1, _⟩ => show win1_5.index t (1 : Fin 2) * 1024 + 1 * q.val = Q.val; rw [a51, hQ]; omega

theorem vb1_6_apply (c : Dev nD) (t : Fin cfg1.N) (q : Fin 1024) (Q : Fin 6144) (hQ : Q.val = t.val / 3 % 6 * 1024 + q.val) :
    (iblk1 V c 6 t : Vec Ideal S1x1024 .f32) (ix2 (0 : Fin 1) q) = (V c main_v17 : Mat 1 6144) (ix2 (0 : Fin 1) Q) := by
  obtain ⟨a00, a01, a10, a11, a20, a21, a30, a31, a40, a41, a50, a51, a60, a61, a70, a71⟩ := idx1 t
  show ((cfg1.win 6).blk t).view.read (Elt Ideal) (V c (Pipeline.arrRef spec1 6)) (ix2 (0 : Fin 1) q) = _
  rw [View.read_apply]
  show V c main_v17 _ = V c main_v17 _
  congr 1
  funext a; apply Fin.ext
  match a with
  | ⟨0, _⟩ => show win1_6.index t (0 : Fin 2) * 1 + 1 * 0 = 0; rw [a60]
  | ⟨1, _⟩ => show win1_6.index t (1 : Fin 2) * 1024 + 1 * q.val = Q.val; rw [a61, hQ]; omega

/-! ## The output block of a finishing point -/

/-- At a finishing point the output block is the activation payload of the accumulator the point leaves. -/
theorem out1_eq (c : Dev nD) (t : Fin cfg1.N) (h0 : ¬t.val % 3 = 0) (h2 : t.val % 3 = 2) :
    (outsAt1 V c t.val t.isLt).1
      = k1_pay3 (acc1 V c t.val t.isLt) (iblk1 V c 2 t) (iblk1 V c 5 t) (iblk1 V c 3 t) (iblk1 V c 6 t) (iblk1 V c 4 t) := by
  have e := outsAt1_C (F := Ideal) V c t h0 h2
  have e1 : (outsAt1 V c t.val t.isLt).1 = oC1 c t h0 h2 (iblk1 V c 0 t) (iblk1 V c 1 t) (iblk1 V c 2 t) (iblk1 V c 3 t) (iblk1 V c 4 t)
      (iblk1 V c 5 t) (iblk1 V c 6 t) (outsAt1 V c (t.val - 1) (Nat.lt_of_le_of_lt (Nat.sub_le _ _) t.isLt)).2 := by rw [e]
  have e2 : acc1 V c t.val t.isLt = sC1 c t h0 h2 (iblk1 V c 0 t) (iblk1 V c 1 t) (iblk1 V c 2 t) (iblk1 V c 3 t) (iblk1 V c 4 t)
      (iblk1 V c 5 t) (iblk1 V c 6 t) (outsAt1 V c (t.val - 1) (Nat.lt_of_le_of_lt (Nat.sub_le _ _) t.isLt)).2 := by
    show (outsAt1 V c t.val t.isLt).2 = _; rw [e]
  rw [e1, e2, oC1_eq, sC1_eq]

/-- Entry (p, q) of the output block of a finishing point `t` is entry (P, Q) of the layer's output, (P, Q) the entry's
    place in the array: the run's three partial products are the three thirds of the sum over the shared axis. -/
theorem out1_apply (c : Dev nD) (t : Fin cfg1.N) (h2 : t.val % 3 = 2) (p q : Fin 1024) (P : Fin 8192) (Q : Fin 6144)
    (hP : P.val = t.val / 18 * 1024 + p.val) (hQ : Q.val = t.val / 3 % 6 * 1024 + q.val) :
    (outsAt1 V c t.val t.isLt).1 (ix2 p q) = G1at (V c main_v12) (V c main_v4) (V c main_v13) (V c main_v14) (V c main_v15) (V c main_v16) (V c main_v17) P Q := by
  have hN : cfg1.N = 144 := N_1
  have ht := t.isLt
  have h0 : ¬t.val % 3 = 0 := by omega
  have hb : (t.val - 2) % 3 = 0 := by omega
  have hacc : acc1 V c t.val t.isLt (ix2 p q)
      = dot1 (V c main_v12) (V c main_v4) P Q := by
    unfold dot1
    have same : ∀ (u : ℕ) (hu : u < cfg1.N), u = t.val → acc1 V c u hu = acc1 V c t.val t.isLt := fun u hu e => by subst e; rfl
    rw [← same (t.val - 2 + 2) (by omega) (by omega), acc1_run V c (t.val - 2) hb 2 (by omega) (by omega) p q,
      Cert.Net.zeroW_add, Cert.LibSumBlocks.sum_blocks 3 1024 3072 rfl, Finset.sum_range]
    refine Finset.sum_congr rfl fun s _ => ?_
    have hs := s.isLt
    rw [part1_of_lt V c (t.val - 2 + s.val) (by omega)]
    refine Finset.sum_congr rfl fun k _ => ?_
    have hk := k.isLt
    exact congrArg₂ (· * ·)
      (xb1_apply V c ⟨t.val - 2 + s.val, by omega⟩ p k P (⟨s.val * 1024 + k.val, by omega⟩ : Fin 3072) (by rw [hP]; show _ = (t.val - 2 + s.val) / 18 * 1024 + p.val; omega)
        (by show s.val * 1024 + k.val = (t.val - 2 + s.val) % 3 * 1024 + k.val; omega))
      (wb1_apply V c ⟨t.val - 2 + s.val, by omega⟩ q k Q (⟨s.val * 1024 + k.val, by omega⟩ : Fin 3072) (by rw [hQ]; show _ = (t.val - 2 + s.val) / 3 % 6 * 1024 + q.val; omega)
        (by show s.val * 1024 + k.val = (t.val - 2 + s.val) % 3 * 1024 + k.val; omega))
  rw [out1_eq V c t h0 h2]
  refine (k1_pay3_apply (acc1 V c t.val t.isLt) (iblk1 V c 2 t) (iblk1 V c 5 t) (iblk1 V c 3 t) (iblk1 V c 6 t) (iblk1 V c 4 t) p q).trans ?_
  unfold G1at
  rw [hacc, vb1_2_apply V c t q Q hQ, vb1_3_apply V c t q Q hQ, vb1_4_apply V c t q Q hQ, vb1_5_apply V c t q Q hQ, vb1_6_apply V c t q Q hQ]

/-! ## From blocks to the array -/

/-- An entry of the output array is in point `t`'s block iff each coordinate is in the block's range on its axis. -/
theorem mem_blk1 (t : Fin cfg1.N) (i : S8192x6144.Idx) :
    i ∈ ((cfg1.win 7).blk t).view.set ↔ ∀ a : Fin 2, win1_7.index t a * S1024x1024.size a ≤ (i a).val
      ∧ (i a).val < win1_7.index t a * S1024x1024.size a + S1024x1024.size a := by
  show i ∈ ((View.whole main_v18).slice (win1_7.rect t)).set ↔ _
  rw [View.set_slice_whole, Rect.mem_set_unit]
  exact Iff.rfl

/-- Every entry (P, Q) of the output array is in the block of a finishing point: row block `P / 1024`, column block
    `Q / 1024`, last step. -/
theorem cover1 (i : S8192x6144.Idx) : ∃ t : Fin cfg1.N, (cfg1.win 7).flush t = true ∧ i ∈ ((cfg1.win 7).blk t).view.set := by
  have hN : cfg1.N = 144 := N_1
  have hi0 : (i 0).val < 8192 := (i 0).isLt
  have hi1 : (i 1).val < 6144 := (i 1).isLt
  have hlt : ((i 0).val / 1024 * 6 + (i 1).val / 1024) * 3 + 2 < cfg1.N := by rw [hN]; omega
  refine ⟨⟨((i 0).val / 1024 * 6 + (i 1).val / 1024) * 3 + 2, hlt⟩, (flush1_7 _).mpr (by show (((i 0).val / 1024 * 6 + (i 1).val / 1024) * 3 + 2) % 3 = 2; omega), ?_⟩
  rw [mem_blk1]
  obtain ⟨a00, a01, a10, a11, a20, a21, a30, a31, a40, a41, a50, a51, a60, a61, a70, a71⟩ := idx1 ⟨((i 0).val / 1024 * 6 + (i 1).val / 1024) * 3 + 2, hlt⟩
  intro a
  match a with
  | ⟨0, _⟩ =>
    show win1_7.index _ (0 : Fin 2) * 1024 ≤ (i 0).val ∧ (i 0).val < win1_7.index _ (0 : Fin 2) * 1024 + 1024
    rw [a70]; show (((i 0).val / 1024 * 6 + (i 1).val / 1024) * 3 + 2) / 18 * 1024 ≤ (i 0).val ∧ (i 0).val < (((i 0).val / 1024 * 6 + (i 1).val / 1024) * 3 + 2) / 18 * 1024 + 1024
    omega
  | ⟨1, _⟩ =>
    show win1_7.index _ (1 : Fin 2) * 1024 ≤ (i 1).val ∧ (i 1).val < win1_7.index _ (1 : Fin 2) * 1024 + 1024
    rw [a71]; show (((i 0).val / 1024 * 6 + (i 1).val / 1024) * 3 + 2) / 3 % 6 * 1024 ≤ (i 1).val ∧ (i 1).val < (((i 0).val / 1024 * 6 + (i 1).val / 1024) * 3 + 2) / 3 % 6 * 1024 + 1024
    omega

/-- What a finishing point writes back is its block of the layer's output. -/
theorem flushed1_eq (c : Dev nD) (t : Fin cfg1.N) (hf : (cfg1.win 7).flush t = true) :
    (dat1 (F := Ideal) V c).flushed 7 t = ((cfg1.win 7).blk t).view.read (Elt Ideal) (G1 (V c main_v12) (V c main_v4) (V c main_v13) (V c main_v14) (V c main_v15) (V c main_v16) (V c main_v17)) := by
  have h2 : t.val % 3 = 2 := (flush1_7 t).mp hf
  have hN : cfg1.N = 144 := N_1
  have ht := t.isLt
  obtain ⟨a00, a01, a10, a11, a20, a21, a30, a31, a40, a41, a50, a51, a60, a61, a70, a71⟩ := idx1 t
  funext y
  have y0 : (y 0).val < 1024 := (y 0).isLt
  have y1 : (y 1).val < 1024 := (y 1).isLt
  have hy : (cfg1.win 7).xinj (grid1.coords t) y = ix2 (⟨(y 0).val, y0⟩ : Fin 1024) (⟨(y 1).val, y1⟩ : Fin 1024) :=
    funext fun a => match a with | ⟨0, _⟩ => rfl | ⟨1, _⟩ => rfl
  have hemb : ((cfg1.win 7).blk t).view.emb y
      = ix2 (⟨t.val / 18 * 1024 + (y 0).val, by omega⟩ : Fin 8192) (⟨t.val / 3 % 6 * 1024 + (y 1).val, by omega⟩ : Fin 6144) := by
    funext a; apply Fin.ext
    match a with
    | ⟨0, _⟩ => show win1_7.index t (0 : Fin 2) * 1024 + 1 * (y 0).val = t.val / 18 * 1024 + (y 0).val; rw [a70]; omega
    | ⟨1, _⟩ => show win1_7.index t (1 : Fin 2) * 1024 + 1 * (y 1).val = t.val / 3 % 6 * 1024 + (y 1).val; rw [a71]; omega
  rw [View.read_apply, hemb, G1_ix2]
  show (dat1 V c).after 7 t ((cfg1.win 7).xinj (grid1.coords t) y) = _
  rw [hy, after1_7]
  exact out1_apply V c t h2 _ _ _ _ rfl rfl

/-- THE RESULT OF REGION 1: its output array ends holding the layer's output of the arrays the region is entered with. -/
theorem final1 (c : Dev nD) : (dat1 (F := Ideal) V c).arrAt 7 cfg1.N = G1 (V c main_v12) (V c main_v4) (V c main_v13) (V c main_v14) (V c main_v15) (V c main_v16) (V c main_v17) :=
  (dat1 (F := Ideal) V c).arrAt_eq_of_cover 7 (G1 (V c main_v12) (V c main_v4) (V c main_v13) (V c main_v14) (V c main_v15) (V c main_v16) (V c main_v17)) (fun t hf => flushed1_eq V c t hf) cover1

end Cert.KernelIdeal.Hand

end
-- ==== Proof.KI.L2Pieces.lean ====
/- The third binarised layer: what each kind of step of the body leaves in the accumulator, and the
   last step of a block in the output window's buffer, as the body's stored values of the blocks it
   loaded. Every load and store of the body is of a whole buffer, so a piece read back is the stored
   value, and a load of what one store left reads that value. -/
import proofs.«104501_j58892591563191_2_alg».proof.Proof.KI.L2Dat
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]

/-- Every load and store of the third layer's body starts at the origin of its buffer. -/
theorem zeroOff2 : (![0, 0] : Fin 2 → Nat) = fun _ => 0 := funext fun a => by fin_cases a <;> rfl

/-- The first step of a block leaves in the accumulator the step's value of the two blocks over the
    zero block the reset has just stored. -/
theorem sA2_eq (c : Dev nD) (t : Fin cfg2.N) (h0 : t.val % 6 = 0) (x3 x4 : Vec F S1024x1024 .bf16) :
    sA2 c t h0 x3 x4 = k2_pay2 x3 x4 (k2_pay1 (F := F)) := by
  unfold sA2
  rw [View.read_writes_eq_canon _ _ _ (scoverA2 c t h0 x3 x4)]
  unfold runA2
  unfold kernelRun2_A
  dsimp only
  sl_unfold_words
  rw [View.canon_cons_unit_zero (S := S1024x1024) zeroOff2, View.readCov_unit_zero (S := S1024x1024) _ zeroOff2]
  simp only [View.readAt_eq_ld, (hs2_0 t).read_unread, (hs2_1 t).read_unread, View.ld_unit_zero (S := S1024x1024) zeroOff2]

/-- A middle step leaves the step's value of the two blocks over the accumulator as found. -/
theorem sB2_eq (c : Dev nD) (t : Fin cfg2.N) (h0 : ¬t.val % 6 = 0) (h1 : ¬t.val % 6 = 5)
    (x3 x4 : Vec F S1024x1024 .bf16) (xs : Vec F S1024x1024 .f32) :
    sB2 c t h0 h1 x3 x4 xs = k2_pay2 x3 x4 xs := by
  unfold sB2
  rw [View.read_writes_eq_canon _ _ _ (scoverB2 c t h0 h1 x3 x4 xs)]
  unfold runB2
  unfold kernelRun2_B
  dsimp only
  rw [View.canon_unit_zero zeroOff2]
  simp only [View.readAt_eq_ld, (hs2_0 t).read_unread, (hs2_1 t).read_unread, (Memref.isWhole_whole cc2_scratch0).read_unread,
    View.ld_unit_zero (S := S1024x1024) zeroOff2]

/-- The last step of a block leaves the same value in the accumulator, -/
theorem sC2_eq (c : Dev nD) (t : Fin cfg2.N) (h0 : ¬t.val % 6 = 0) (h1 : t.val % 6 = 5)
    (x3 x4 : Vec F S1024x1024 .bf16) (x5 x6 x7 x8 x9 : Vec F S1x1024 .f32) (xs : Vec F S1024x1024 .f32) :
    sC2 c t h0 h1 x3 x4 x5 x6 x7 x8 x9 xs = k2_pay2 x3 x4 xs := by
  unfold sC2
  rw [View.read_writes_eq_canon _ _ _ (scoverC2 c t h0 h1 x3 x4 x5 x6 x7 x8 x9 xs)]
  unfold runC2
  unfold kernelRun2_C
  dsimp only
  sl_unfold_words
  rw [View.canon_unit_zero zeroOff2]
  simp only [View.readAt_eq_ld, (hs2_0 t).read_unread, (hs2_1 t).read_unread, (Memref.isWhole_whole cc2_scratch0).read_unread,
    View.ld_unit_zero (S := S1024x1024) zeroOff2]

/-- and in the output block the normalised, clamped value of the finished accumulator; the five row
    vectors enter in the order bias, mean, scale, variance, shift. -/
theorem oC2_eq (c : Dev nD) (t : Fin cfg2.N) (h0 : ¬t.val % 6 = 0) (h1 : t.val % 6 = 5)
    (x3 x4 : Vec F S1024x1024 .bf16) (x5 x6 x7 x8 x9 : Vec F S1x1024 .f32) (xs : Vec F S1024x1024 .f32) :
    oC2 c t h0 h1 x3 x4 x5 x6 x7 x8 x9 xs = k2_pay3 (k2_pay2 x3 x4 xs) x5 x8 x6 x9 x7 := by
  unfold oC2
  rw [View.read_writes_eq_canon _ _ _ (ocoverC2 c t h0 h1 x3 x4 x5 x6 x7 x8 x9 xs)]
  unfold runC2
  unfold kernelRun2_C
  dsimp only
  sl_unfold_words
  rw [View.canon_unit_zero zeroOff2, View.readCov_unit_zero (S := S1024x1024) _ zeroOff2]
  simp only [View.readAt_eq_ld, (hs2_0 t).read_unread, (hs2_1 t).read_unread, (hs2_2 t).read_unread, (hs2_3 t).read_unread,
    (hs2_4 t).read_unread, (hs2_5 t).read_unread, (hs2_6 t).read_unread, (Memref.isWhole_whole cc2_scratch0).read_unread,
    View.ld_unit_zero (S := S1024x1024) zeroOff2, View.ld_unit_zero (S := S1x1024) zeroOff2]

end Cert.KernelIdeal.Hand

end
-- ==== Proof.KI.L2Pay.lean ====
/- The third binarised layer's arithmetic at the ideal values, entry by entry. The body stores three
   values: the zero block (the accumulator's reset); the accumulator plus the product of the input
   block with the transposed sign-weight block (one sixth of the shared axis); and, at a block's last
   step, the finished block — bias, batch normalisation, then the clamp to [-1, 1]. -/
import proofs.«104501_j58892591563191_2_alg».proof.Proof.Gen.KernelIdeal.Skeleton
import proofs.«104501_j58892591563191_2_alg».proof.Proof.Laws
import proofs.«104501_j58892591563191_2_alg».proof.Proof.LibDot
import proofs.«104501_j58892591563191_2_alg».proof.Proof.KI.L0Pay
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx

/-- The block the reset stores holds the zero word at every entry. -/
theorem k2_pay1_apply (j : S1024x1024.Idx) : k2_pay1 (F := Ideal) j = Cert.Net.zeroW := by
  unfold k2_pay1
  exact congrFun (shapeCast_self _ _) j

/-- The square blocks' product has the dimension numbers of rows against columns. -/
theorem squareDot_plain : Cert.LibDot.Plain dot_S1024x1024_S1024x1024_S1024x1024_1_0_0_1_n_n where
  hrank := rfl
  hs := rfl
  hl0 := fun j k => by
    unfold DotDims.lhsIdx
    rw [dif_neg (show ¬(0 : Fin S1024x1024.rank) ∈ dot_S1024x1024_S1024x1024_S1024x1024_1_0_0_1_n_n.lhsBatch by decide),
      dif_pos (show (0 : Fin S1024x1024.rank) ∈ dot_S1024x1024_S1024x1024_S1024x1024_1_0_0_1_n_n.lhsNonContracting by decide)]
    rfl
  hl1 := fun j k => dot_S1024x1024_S1024x1024_S1024x1024_1_0_0_1_n_n.lhsIdx_val_of_single rfl j k
  hr0 := fun j k => dot_S1024x1024_S1024x1024_S1024x1024_1_0_0_1_n_n.rhsIdx_val_of_single rfl j k
  hr1 := fun j k => by
    unfold DotDims.rhsIdx
    rw [dif_neg (show ¬(1 : Fin S1024x1024.rank) ∈ dot_S1024x1024_S1024x1024_S1024x1024_1_0_0_1_n_n.rhsBatch by decide),
      dif_pos (show (1 : Fin S1024x1024.rank) ∈ dot_S1024x1024_S1024x1024_S1024x1024_1_0_0_1_n_n.rhsNonContracting by decide)]
    rfl

/-- One step of the accumulation at (p, q): the accumulator's entry plus row p of the input block
    against row q of the sign-weight block, summed over the block's 1024 shared coordinates. -/
theorem k2_pay2_apply (x3 x4 : Vec Ideal S1024x1024 .bf16) (xs : Vec Ideal S1024x1024 .f32) (p q : Fin 1024) :
    k2_pay2 (F := Ideal) x3 x4 xs (ix2 p q) = xs (ix2 p q) + ∑ k : Fin 1024, x3 (ix2 p k) * x4 (ix2 q k) := by
  unfold k2_pay2
  refine (congrFun (shapeCast_self _ _) (ix2 p q)).trans ?_
  refine congrArg (xs (ix2 p q) + ·) ?_
  refine (Cert.LibDot.matmul_ix2 squareDot_plain none _ _ p q).trans ?_
  refine Finset.sum_congr rfl fun k _ => ?_
  rw [transpose_ix2_apply, shapeCast_self, shapeCast_self]

/-- The finished block at (p, q): the clamp to [-1, 1] of the normalised accumulator (the pointwise
    operations before the clamp are the first layer's; the narrowing to bf16 is the identity at the
    ideal values). -/
theorem k2_pay3_apply (acc : Vec Ideal S1024x1024 .f32) (b m g v be : Vec Ideal S1x1024 .f32) (p q : Fin 1024) :
    k2_pay3 (F := Ideal) acc b m g v be (ix2 p q)
      = Cert.Net.clip (Cert.Net.bnorm (acc (ix2 p q)) (b (ix2 (0 : Fin 1) q)) (g (ix2 (0 : Fin 1) q)) (be (ix2 (0 : Fin 1) q))
          (m (ix2 (0 : Fin 1) q)) (v (ix2 (0 : Fin 1) q))) := by
  unfold k2_pay3
  refine (Cert.Net.clip_apply (normBlock0 acc b m g v be) (ix2 p q)).trans ?_
  exact congrArg Cert.Net.clip (normBlock0_apply acc b m g v be p q)

end Cert.KernelIdeal.Hand

end
-- ==== Proof.KI.L2Idx.lean ====
/- The third binarised layer's grid and its printed index maps. The grid is 8 × 6 × 6 in row-major
   point order: point t is row block t / 36, column block (t / 6) % 6, step t % 6 of the shared axis. -/
import proofs.«104501_j58892591563191_2_alg».proof.Proof.Gen.KernelIdeal.Launch
import proofs.«104501_j58892591563191_2_alg».proof.Proof.Gen.KernelIdeal.Points

set_option maxRecDepth 16384

noncomputable section

namespace Cert.KernelIdeal.Hand

open Cert.KernelIdeal Cert.KernelIdeal.Gen
open Idealize.ShloMosaic

/-- The index maps decided once over the 288 points: the input block is (row block, step), the
    sign-weight block (column block, step), each of the five row vectors' blocks (0, column block), the
    result block (row block, column block). -/
theorem idx2 : ∀ t : Fin cfg2.N,
    win2_0.index t (0 : Fin 2) = t.val / 36 ∧ win2_0.index t (1 : Fin 2) = t.val % 6
    ∧ win2_1.index t (0 : Fin 2) = t.val / 6 % 6 ∧ win2_1.index t (1 : Fin 2) = t.val % 6
    ∧ win2_2.index t (0 : Fin 2) = 0 ∧ win2_2.index t (1 : Fin 2) = t.val / 6 % 6
    ∧ win2_3.index t (0 : Fin 2) = 0 ∧ win2_3.index t (1 : Fin 2) = t.val / 6 % 6
    ∧ win2_4.index t (0 : Fin 2) = 0 ∧ win2_4.index t (1 : Fin 2) = t.val / 6 % 6
    ∧ win2_5.index t (0 : Fin 2) = 0 ∧ win2_5.index t (1 : Fin 2) = t.val / 6 % 6
    ∧ win2_6.index t (0 : Fin 2) = 0 ∧ win2_6.index t (1 : Fin 2) = t.val / 6 % 6
    ∧ win2_7.index t (0 : Fin 2) = t.val / 36 ∧ win2_7.index t (1 : Fin 2) = t.val / 6 % 6 :=
  (by decide +kernel : ∀ t : Fin grid2.N, _)

end Cert.KernelIdeal.Hand

end
-- ==== Proof.KI.L2Acc.lean ====
/-
  Region 2: the accumulator across a run of six consecutive points. The first point of a run stores the zero block
  and adds its partial product; each later point adds its own to what the point before left. So after the run's last
  point the accumulator's entry (p, q) is the zero word plus the six partial products: row p of each input block
  against row q of the matching sign-weight block.
-/
import proofs.«104501_j58892591563191_2_alg».proof.Proof.KI.L2Pieces
import proofs.«104501_j58892591563191_2_alg».proof.Proof.KI.L2Pay
import proofs.«104501_j58892591563191_2_alg».proof.Proof.KI.L2Idx
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- The input block and the sign-weight block the body loads at a point, and the accumulator after the point. -/
abbrev xb2 (c : Dev nD) (t : Fin cfg2.N) : Vec Ideal S1024x1024 .bf16 := iblk2 V c 0 t
abbrev wb2 (c : Dev nD) (t : Fin cfg2.N) : Vec Ideal S1024x1024 .bf16 := iblk2 V c 1 t
abbrev acc2 (c : Dev nD) (n : ℕ) (hn : n < cfg2.N) : Vec Ideal S1024x1024 .f32 := (outsAt2 V c n hn).2

/-- At the first point of a run the accumulator is the step's payload over the zero block; -/
theorem acc2_first (c : Dev nD) (n : ℕ) (hn : n < cfg2.N) (h0 : n % 6 = 0) :
    acc2 V c n hn = k2_pay2 (xb2 V c ⟨n, hn⟩) (wb2 V c ⟨n, hn⟩) (k2_pay1 (F := Ideal)) := by
  have e : (outsAt2 V c n hn).2 = sA2 c ⟨n, hn⟩ h0 (iblk2 V c 0 ⟨n, hn⟩) (iblk2 V c 1 ⟨n, hn⟩) := by
    rw [outsAt2_A (F := Ideal) V c ⟨n, hn⟩ h0]
  exact e.trans (sA2_eq (F := Ideal) c ⟨n, hn⟩ h0 (xb2 V c ⟨n, hn⟩) (wb2 V c ⟨n, hn⟩))

/-- at every other point it is the step's payload over what the point before left. -/
theorem acc2_step (c : Dev nD) (n : ℕ) (hn : n + 1 < cfg2.N) (h0 : ¬(n + 1) % 6 = 0) :
    acc2 V c (n + 1) hn = k2_pay2 (xb2 V c ⟨n + 1, hn⟩) (wb2 V c ⟨n + 1, hn⟩) (acc2 V c n (Nat.lt_of_succ_lt hn)) := by
  by_cases h1 : (n + 1) % 6 = 5
  · have e : outsAt2 V c (n + 1) hn
        = (oC2 c ⟨n + 1, hn⟩ h0 h1 (iblk2 V c 0 ⟨n + 1, hn⟩) (iblk2 V c 1 ⟨n + 1, hn⟩) (iblk2 V c 2 ⟨n + 1, hn⟩) (iblk2 V c 3 ⟨n + 1, hn⟩)
            (iblk2 V c 4 ⟨n + 1, hn⟩) (iblk2 V c 5 ⟨n + 1, hn⟩) (iblk2 V c 6 ⟨n + 1, hn⟩) (outsAt2 V c n (Nat.lt_of_succ_lt hn)).2,
           sC2 c ⟨n + 1, hn⟩ h0 h1 (iblk2 V c 0 ⟨n + 1, hn⟩) (iblk2 V c 1 ⟨n + 1, hn⟩) (iblk2 V c 2 ⟨n + 1, hn⟩) (iblk2 V c 3 ⟨n + 1, hn⟩)
            (iblk2 V c 4 ⟨n + 1, hn⟩) (iblk2 V c 5 ⟨n + 1, hn⟩) (iblk2 V c 6 ⟨n + 1, hn⟩) (outsAt2 V c n (Nat.lt_of_succ_lt hn)).2) :=
      (dif_neg h0).trans (dif_pos h1)
    have e2 : (outsAt2 V c (n + 1) hn).2
        = sC2 c ⟨n + 1, hn⟩ h0 h1 (iblk2 V c 0 ⟨n + 1, hn⟩) (iblk2 V c 1 ⟨n + 1, hn⟩) (iblk2 V c 2 ⟨n + 1, hn⟩) (iblk2 V c 3 ⟨n + 1, hn⟩)
            (iblk2 V c 4 ⟨n + 1, hn⟩) (iblk2 V c 5 ⟨n + 1, hn⟩) (iblk2 V c 6 ⟨n + 1, hn⟩) (outsAt2 V c n (Nat.lt_of_succ_lt hn)).2 := by rw [e]
    exact e2.trans (sC2_eq (F := Ideal) c ⟨n + 1, hn⟩ h0 h1 (xb2 V c ⟨n + 1, hn⟩) (wb2 V c ⟨n + 1, hn⟩) (iblk2 V c 2 ⟨n + 1, hn⟩)
        (iblk2 V c 3 ⟨n + 1, hn⟩) (iblk2 V c 4 ⟨n + 1, hn⟩) (iblk2 V c 5 ⟨n + 1, hn⟩) (iblk2 V c 6 ⟨n + 1, hn⟩) (acc2 V c n (Nat.lt_of_succ_lt hn)))
  · have e : outsAt2 V c (n + 1) hn
        = (oJunk2, sB2 c ⟨n + 1, hn⟩ h0 h1 (iblk2 V c 0 ⟨n + 1, hn⟩) (iblk2 V c 1 ⟨n + 1, hn⟩) (outsAt2 V c n (Nat.lt_of_succ_lt hn)).2) :=
      (dif_neg h0).trans (dif_neg h1)
    have e2 : (outsAt2 V c (n + 1) hn).2
        = sB2 c ⟨n + 1, hn⟩ h0 h1 (iblk2 V c 0 ⟨n + 1, hn⟩) (iblk2 V c 1 ⟨n + 1, hn⟩) (outsAt2 V c n (Nat.lt_of_succ_lt hn)).2 := by rw [e]
    exact e2.trans (sB2_eq (F := Ideal) c ⟨n + 1, hn⟩ h0 h1 (xb2 V c ⟨n + 1, hn⟩) (wb2 V c ⟨n + 1, hn⟩) (acc2 V c n (Nat.lt_of_succ_lt hn)))

/-- The partial product of point `n` at row `p`, column `q` of the block: row `p` of the input block against row `q`
    of the sign-weight block (zero past the grid, where it is never used). -/
def part2 (c : Dev nD) (n : ℕ) (p q : Fin 1024) : EReal :=
  if h : n < cfg2.N then ∑ k : Fin 1024, xb2 V c ⟨n, h⟩ (ix2 p k) * wb2 V c ⟨n, h⟩ (ix2 q k) else 0

theorem part2_of_lt (c : Dev nD) (n : ℕ) (h : n < cfg2.N) (p q : Fin 1024) :
    part2 V c n p q = ∑ k : Fin 1024, xb2 V c ⟨n, h⟩ (ix2 p k) * wb2 V c ⟨n, h⟩ (ix2 q k) := dif_pos h

/-- THE ACCUMULATION. In a run starting at point `b` (a multiple of 6), after `j + 1` steps the accumulator's entry is
    the zero word plus the partial products of the steps taken (addition of extended reals is associative, so the
    nesting of the additions does not matter). -/
theorem acc2_run (c : Dev nD) (b : ℕ) (hb : b % 6 = 0) : ∀ (j : ℕ), j < 6 → ∀ (h : b + j < cfg2.N) (p q : Fin 1024),
    acc2 V c (b + j) h (ix2 p q) = Cert.Net.zeroW + ∑ s ∈ Finset.range (j + 1), part2 V c (b + s) p q
  | 0, _, h, p, q => by
    rw [acc2_first V c (b + 0) h hb, k2_pay2_apply, k2_pay1_apply, Finset.sum_range_one, part2_of_lt V c (b + 0) h]
  | j + 1, hj, h, p, q => by
    have hne : ¬(b + j + 1) % 6 = 0 := by omega
    show acc2 V c (b + j + 1) h (ix2 p q) = _
    rw [acc2_step V c (b + j) h hne, k2_pay2_apply, acc2_run c b hb j (by omega) (Nat.lt_of_succ_lt h) p q,
      Finset.sum_range_succ _ (j + 1), add_assoc, part2_of_lt V c (b + (j + 1)) h]
    rfl

end Cert.KernelIdeal.Hand

end
-- ==== Proof.KI.L2Value.lean ====
/-
  Region 2 (the third binarised layer), its value: the output array after the region is the layer's output of the
  arrays the region is entered with — entry (P, Q) the clamp to [-1, 1] of the normalised product of row P of the input with row Q
  of the sign weights. Each block the body loads is a rectangle of its array, placed by the point's row block, column
  block and step; the run's six partial products are the six consecutive sixths of the sum over the shared axis;
  the finishing points' blocks tile the output array.
-/
import proofs.«104501_j58892591563191_2_alg».proof.Proof.KI.L2Acc
import proofs.«104501_j58892591563191_2_alg».proof.Proof.SumAccum
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open Cert.Net (Mat)
open scoped BigOperators

/-! ## What region 2 leaves in its output array, as one function of the arrays it is entered with -/

/-- Row `P` of the input against row `Q` of the sign weights, over the whole shared axis. -/
def dot2 (lhs : Mat 8192 6144) (ws : Mat 6144 6144) (P : Fin 8192) (Q : Fin 6144) : EReal :=
  ∑ n : Fin 6144, lhs (ix2 P n) * ws (ix2 Q n)

/-- Entry (P, Q) of the layer's output: that product, then bias and normalisation with the row vectors read at
    column `Q`, then the clamp to [-1, 1]. -/
def G2at (lhs : Mat 8192 6144) (ws : Mat 6144 6144) (b g be m v : Mat 1 6144) (P : Fin 8192) (Q : Fin 6144) : EReal :=
  Cert.Net.clip (Cert.Net.bnorm (dot2 lhs ws P Q)
    (b (ix2 (0 : Fin 1) Q)) (g (ix2 (0 : Fin 1) Q)) (be (ix2 (0 : Fin 1) Q)) (m (ix2 (0 : Fin 1) Q)) (v (ix2 (0 : Fin 1) Q)))

/-- The layer's output array. -/
def G2 (lhs : Mat 8192 6144) (ws : Mat 6144 6144) (b g be m v : Mat 1 6144) : Mat 8192 6144 :=
  fun i => G2at lhs ws b g be m v (i 0) (i 1)

theorem G2_ix2 (lhs : Mat 8192 6144) (ws : Mat 6144 6144) (b g be m v : Mat 1 6144) (P : Fin 8192) (Q : Fin 6144) :
    G2 lhs ws b g be m v (ix2 P Q) = G2at lhs ws b g be m v P Q := rfl

variable (V : (c : Dev nD) → (b : Ref sig .tc) → Buf (Elt Ideal) ((c : Thread nD τ).loc b))

/-! ## The blocks the body loads, read off the arrays -/

/-- The input block of point `t` is rows `t / 36 · 1024 …` and columns `t % 6 · 1024 …` of the region's first array. -/
theorem xb2_apply (c : Dev nD) (t : Fin cfg2.N) (p k : Fin 1024) (P : Fin 8192) (K : Fin 6144)
    (hP : P.val = t.val / 36 * 1024 + p.val) (hK : K.val = t.val % 6 * 1024 + k.val) :
    xb2 V c t (ix2 p k) = (V c main_v18 : Mat 8192 6144) (ix2 P K) := by
  obtain ⟨e0, e1, -⟩ := idx2 t
  show ((cfg2.win 0).blk t).view.read (Elt Ideal) (V c (Pipeline.arrRef spec2 0)) (ix2 p k) = _
  rw [View.read_apply]
  show V c main_v18 _ = V c main_v18 _
  congr 1
  funext a; apply Fin.ext
  match a with
  | ⟨0, _⟩ => show win2_0.index t (0 : Fin 2) * 1024 + 1 * p.val = P.val; rw [e0, hP]; omega
  | ⟨1, _⟩ => show win2_0.index t (1 : Fin 2) * 1024 + 1 * k.val = K.val; rw [e1, hK]; omega

/-- The sign-weight block of point `t` is rows `t / 6 % 6 · 1024 …` and columns `t % 6 · 1024 …` of the second array. -/
theorem wb2_apply (c : Dev nD) (t : Fin cfg2.N) (q k : Fin 1024) (Q : Fin 6144) (K : Fin 6144)
    (hQ : Q.val = t.val / 6 % 6 * 1024 + q.val) (hK : K.val = t.val % 6 * 1024 + k.val) :
    wb2 V c t (ix2 q k) = (V c main_v6 : Mat 6144 6144) (ix2 Q K) := by
  obtain ⟨-, -, e0, e1, -⟩ := idx2 t
  show ((cfg2.win 1).blk t).view.read (Elt Ideal) (V c (Pipeline.arrRef spec2 1)) (ix2 q k) = _
  rw [View.read_apply]
  show V c main_v6 _ = V c main_v6 _
  congr 1
  funext a; apply Fin.ext
  match a with
  | ⟨0, _⟩ => show win2_1.index t (0 : Fin 2) * 1024 + 1 * q.val = Q.val; rw [e0, hQ]; omega
  | ⟨1, _⟩ => show win2_1.index t (1 : Fin 2) * 1024 + 1 * k.val = K.val; rw [e1, hK]; omega

/-- Each row vector's block of point `t` is columns `t / 6 % 6 · 1024 …` of its array. -/
theorem vb2_2_apply (c : Dev nD) (t : Fin cfg2.N) (q : Fin 1024) (Q : Fin 6144) (hQ : Q.val = t.val / 6 % 6 * 1024 + q.val) :
    (iblk2 V c 2 t : Vec Ideal S1x1024 .f32) (ix2 (0 : Fin 1) q) = (V c main_v19 : Mat 1 6144) (ix2 (0 : Fin 1) Q) := by
  obtain ⟨a00, a01, a10, a11, a20, a21, a30, a31, a40, a41, a50, a51, a60, a61, a70, a71⟩ := idx2 t
  show ((cfg2.win 2).blk t).view.read (Elt Ideal) (V c (Pipeline.arrRef spec2 2)) (ix2 (0 : Fin 1) q) = _
  rw [View.read_apply]
  show V c main_v19 _ = V c main_v19 _
  congr 1
  funext a; apply Fin.ext
  match a with
  | ⟨0, _⟩ => show win2_2.index t (0 : Fin 2) * 1 + 1 * 0 = 0; rw [a20]
  | ⟨1, _⟩ => show win2_2.index t (1 : Fin 2) * 1024 + 1 * q.val = Q.val; rw [a21, hQ]; omega

theorem vb2_3_apply (c : Dev nD) (t : Fin cfg2.N) (q : Fin 1024) (Q : Fin 6144) (hQ : Q.val = t.val / 6 % 6 * 1024 + q.val) :
    (iblk2 V c 3 t : Vec Ideal S1x1024 .f32) (ix2 (0 : Fin 1) q) = (V c main_v20 : Mat 1 6144) (ix2 (0 : Fin 1) Q) := by
  obtain ⟨a00, a01, a10, a11, a20, a21, a30, a31, a40, a41, a50, a51, a60, a61, a70, a71⟩ := idx2 t
  show ((cfg2.win 3).blk t).view.read (Elt Ideal) (V c (Pipeline.arrRef spec2 3)) (ix2 (0 : Fin 1) q) = _
  rw [View.read_apply]
  show V c main_v20 _ = V c main_v20 _
  congr 1
  funext a; apply Fin.ext
  match a with
  | ⟨0, _⟩ => show win2_3.index t (0 : Fin 2) * 1 + 1 * 0 = 0; rw [a30]
  | ⟨1, _⟩ => show win2_3.index t (1 : Fin 2) * 1024 + 1 * q.val = Q.val; rw [a31, hQ]; omega

theorem vb2_4_apply (c : Dev nD) (t : Fin cfg2.N) (q : Fin 1024) (Q : Fin 6144) (hQ : Q.val = t.val / 6 % 6 * 1024 + q.val) :
    (iblk2 V c 4 t : Vec Ideal S1x1024 .f32) (ix2 (0 : Fin 1) q) = (V c main_v21 : Mat 1 6144) (ix2 (0 : Fin 1) Q) := by
  obtain ⟨a00, a01, a10, a11, a20, a21, a30, a31, a40, a41, a50, a51, a60, a61, a70, a71⟩ := idx2 t
  show ((cfg2.win 4).blk t).view.read (Elt Ideal) (V c (Pipeline.arrRef spec2 4)) (ix2 (0 : Fin 1) q) = _
  rw [View.read_apply]
  show V c main_v21 _ = V c main_v21 _
  congr 1
  funext a; apply Fin.ext
  match a with
  | ⟨0, _⟩ => show win2_4.index t (0 : Fin 2) * 1 + 1 * 0 = 0; rw [a40]
  | ⟨1, _⟩ => show win2_4.index t (1 : Fin 2) * 1024 + 1 * q.val = Q.val; rw [a41, hQ]; omega

theorem vb2_5_apply (c : Dev nD) (t : Fin cfg2.N) (q : Fin 1024) (Q : Fin 6144) (hQ : Q.val = t.val / 6 % 6 * 1024 + q.val) :
    (iblk2 V c 5 t : Vec Ideal S1x1024 .f32) (ix2 (0 : Fin 1) q) = (V c main_v22 : Mat 1 6144) (ix2 (0 : Fin 1) Q) := by
  obtain ⟨a00, a01, a10, a11, a20, a21, a30, a31, a40, a41, a50, a51, a60, a61, a70, a71⟩ := idx2 t
  show ((cfg2.win 5).blk t).view.read (Elt Ideal) (V c (Pipeline.arrRef spec2 5)) (ix2 (0 : Fin 1) q) = _
  rw [View.read_apply]
  show V c main_v22 _ = V c main_v22 _
  congr 1
  funext a; apply Fin.ext
  match a with
  | ⟨0, _⟩ => show win2_5.index t (0 : Fin 2) * 1 + 1 * 0 = 0; rw [a50]
  | ⟨1, _⟩ => show win2_5.index t (1 : Fin 2) * 1024 + 1 * q.val = Q.val; rw [a51, hQ]; omega

theorem vb2_6_apply (c : Dev nD) (t : Fin cfg2.N) (q : Fin 1024) (Q : Fin 6144) (hQ : Q.val = t.val / 6 % 6 * 1024 + q.val) :
    (iblk2 V c 6 t : Vec Ideal S1x1024 .f32) (ix2 (0 : Fin 1) q) = (V c main_v23 : Mat 1 6144) (ix2 (0 : Fin 1) Q) := by
  obtain ⟨a00, a01, a10, a11, a20, a21, a30, a31, a40, a41, a50, a51, a60, a61, a70, a71⟩ := idx2 t
  show ((cfg2.win 6).blk t).view.read (Elt Ideal) (V c (Pipeline.arrRef spec2 6)) (ix2 (0 : Fin 1) q) = _
  rw [View.read_apply]
  show V c main_v23 _ = V c main_v23 _
  congr 1
  funext a; apply Fin.ext
  match a with
  | ⟨0, _⟩ => show win2_6.index t (0 : Fin 2) * 1 + 1 * 0 = 0; rw [a60]
  | ⟨1, _⟩ => show win2_6.index t (1 : Fin 2) * 1024 + 1 * q.val = Q.val; rw [a61, hQ]; omega

/-! ## The output block of a finishing point -/

/-- At a finishing point the output block is the activation payload of the accumulator the point leaves. -/
theorem out2_eq (c : Dev nD) (t : Fin cfg2.N) (h0 : ¬t.val % 6 = 0) (h2 : t.val % 6 = 5) :
    (outsAt2 V c t.val t.isLt).1
      = k2_pay3 (acc2 V c t.val t.isLt) (iblk2 V c 2 t) (iblk2 V c 5 t) (iblk2 V c 3 t) (iblk2 V c 6 t) (iblk2 V c 4 t) := by
  have e := outsAt2_C (F := Ideal) V c t h0 h2
  have e1 : (outsAt2 V c t.val t.isLt).1 = oC2 c t h0 h2 (iblk2 V c 0 t) (iblk2 V c 1 t) (iblk2 V c 2 t) (iblk2 V c 3 t) (iblk2 V c 4 t)
      (iblk2 V c 5 t) (iblk2 V c 6 t) (outsAt2 V c (t.val - 1) (Nat.lt_of_le_of_lt (Nat.sub_le _ _) t.isLt)).2 := by rw [e]
  have e2 : acc2 V c t.val t.isLt = sC2 c t h0 h2 (iblk2 V c 0 t) (iblk2 V c 1 t) (iblk2 V c 2 t) (iblk2 V c 3 t) (iblk2 V c 4 t)
      (iblk2 V c 5 t) (iblk2 V c 6 t) (outsAt2 V c (t.val - 1) (Nat.lt_of_le_of_lt (Nat.sub_le _ _) t.isLt)).2 := by
    show (outsAt2 V c t.val t.isLt).2 = _; rw [e]
  rw [e1, e2, oC2_eq, sC2_eq]

/-- Entry (p, q) of the output block of a finishing point `t` is entry (P, Q) of the layer's output, (P, Q) the entry's
    place in the array: the run's six partial products are the six sixths of the sum over the shared axis. -/
theorem out2_apply (c : Dev nD) (t : Fin cfg2.N) (h2 : t.val % 6 = 5) (p q : Fin 1024) (P : Fin 8192) (Q : Fin 6144)
    (hP : P.val = t.val / 36 * 1024 + p.val) (hQ : Q.val = t.val / 6 % 6 * 1024 + q.val) :
    (outsAt2 V c t.val t.isLt).1 (ix2 p q) = G2at (V c main_v18) (V c main_v6) (V c main_v19) (V c main_v20) (V c main_v21) (V c main_v22) (V c main_v23) P Q := by
  have hN : cfg2.N = 288 := N_2
  have ht := t.isLt
  have h0 : ¬t.val % 6 = 0 := by omega
  have hb : (t.val - 5) % 6 = 0 := by omega
  have hacc : acc2 V c t.val t.isLt (ix2 p q)
      = dot2 (V c main_v18) (V c main_v6) P Q := by
    unfold dot2
    have same : ∀ (u : ℕ) (hu : u < cfg2.N), u = t.val → acc2 V c u hu = acc2 V c t.val t.isLt := fun u hu e => by subst e; rfl
    rw [← same (t.val - 5 + 5) (by omega) (by omega), acc2_run V c (t.val - 5) hb 5 (by omega) (by omega) p q,
      Cert.Net.zeroW_add, Cert.LibSumBlocks.sum_blocks 6 1024 6144 rfl, Finset.sum_range]
    refine Finset.sum_congr rfl fun s _ => ?_
    have hs := s.isLt
    rw [part2_of_lt V c (t.val - 5 + s.val) (by omega)]
    refine Finset.sum_congr rfl fun k _ => ?_
    have hk := k.isLt
    exact congrArg₂ (· * ·)
      (xb2_apply V c ⟨t.val - 5 + s.val, by omega⟩ p k P (⟨s.val * 1024 + k.val, by omega⟩ : Fin 6144) (by rw [hP]; show _ = (t.val - 5 + s.val) / 36 * 1024 + p.val; omega)
        (by show s.val * 1024 + k.val = (t.val - 5 + s.val) % 6 * 1024 + k.val; omega))
      (wb2_apply V c ⟨t.val - 5 + s.val, by omega⟩ q k Q (⟨s.val * 1024 + k.val, by omega⟩ : Fin 6144) (by rw [hQ]; show _ = (t.val - 5 + s.val) / 6 % 6 * 1024 + q.val; omega)
        (by show s.val * 1024 + k.val = (t.val - 5 + s.val) % 6 * 1024 + k.val; omega))
  rw [out2_eq V c t h0 h2]
  refine (k2_pay3_apply (acc2 V c t.val t.isLt) (iblk2 V c 2 t) (iblk2 V c 5 t) (iblk2 V c 3 t) (iblk2 V c 6 t) (iblk2 V c 4 t) p q).trans ?_
  unfold G2at
  rw [hacc, vb2_2_apply V c t q Q hQ, vb2_3_apply V c t q Q hQ, vb2_4_apply V c t q Q hQ, vb2_5_apply V c t q Q hQ, vb2_6_apply V c t q Q hQ]

/-! ## From blocks to the array -/

/-- An entry of the output array is in point `t`'s block iff each coordinate is in the block's range on its axis. -/
theorem mem_blk2 (t : Fin cfg2.N) (i : S8192x6144.Idx) :
    i ∈ ((cfg2.win 7).blk t).view.set ↔ ∀ a : Fin 2, win2_7.index t a * S1024x1024.size a ≤ (i a).val
      ∧ (i a).val < win2_7.index t a * S1024x1024.size a + S1024x1024.size a := by
  show i ∈ ((View.whole main_v24).slice (win2_7.rect t)).set ↔ _
  rw [View.set_slice_whole, Rect.mem_set_unit]
  exact Iff.rfl

/-- Every entry (P, Q) of the output array is in the block of a finishing point: row block `P / 1024`, column block
    `Q / 1024`, last step. -/
theorem cover2 (i : S8192x6144.Idx) : ∃ t : Fin cfg2.N, (cfg2.win 7).flush t = true ∧ i ∈ ((cfg2.win 7).blk t).view.set := by
  have hN : cfg2.N = 288 := N_2
  have hi0 : (i 0).val < 8192 := (i 0).isLt
  have hi1 : (i 1).val < 6144 := (i 1).isLt
  have hlt : ((i 0).val / 1024 * 6 + (i 1).val / 1024) * 6 + 5 < cfg2.N := by rw [hN]; omega
  refine ⟨⟨((i 0).val / 1024 * 6 + (i 1).val / 1024) * 6 + 5, hlt⟩, (flush2_7 _).mpr (by show (((i 0).val / 1024 * 6 + (i 1).val / 1024) * 6 + 5) % 6 = 5; omega), ?_⟩
  rw [mem_blk2]
  obtain ⟨a00, a01, a10, a11, a20, a21, a30, a31, a40, a41, a50, a51, a60, a61, a70, a71⟩ := idx2 ⟨((i 0).val / 1024 * 6 + (i 1).val / 1024) * 6 + 5, hlt⟩
  intro a
  match a with
  | ⟨0, _⟩ =>
    show win2_7.index _ (0 : Fin 2) * 1024 ≤ (i 0).val ∧ (i 0).val < win2_7.index _ (0 : Fin 2) * 1024 + 1024
    rw [a70]; show (((i 0).val / 1024 * 6 + (i 1).val / 1024) * 6 + 5) / 36 * 1024 ≤ (i 0).val ∧ (i 0).val < (((i 0).val / 1024 * 6 + (i 1).val / 1024) * 6 + 5) / 36 * 1024 + 1024
    omega
  | ⟨1, _⟩ =>
    show win2_7.index _ (1 : Fin 2) * 1024 ≤ (i 1).val ∧ (i 1).val < win2_7.index _ (1 : Fin 2) * 1024 + 1024
    rw [a71]; show (((i 0).val / 1024 * 6 + (i 1).val / 1024) * 6 + 5) / 6 % 6 * 1024 ≤ (i 1).val ∧ (i 1).val < (((i 0).val / 1024 * 6 + (i 1).val / 1024) * 6 + 5) / 6 % 6 * 1024 + 1024
    omega

/-- What a finishing point writes back is its block of the layer's output. -/
theorem flushed2_eq (c : Dev nD) (t : Fin cfg2.N) (hf : (cfg2.win 7).flush t = true) :
    (dat2 (F := Ideal) V c).flushed 7 t = ((cfg2.win 7).blk t).view.read (Elt Ideal) (G2 (V c main_v18) (V c main_v6) (V c main_v19) (V c main_v20) (V c main_v21) (V c main_v22) (V c main_v23)) := by
  have h2 : t.val % 6 = 5 := (flush2_7 t).mp hf
  have hN : cfg2.N = 288 := N_2
  have ht := t.isLt
  obtain ⟨a00, a01, a10, a11, a20, a21, a30, a31, a40, a41, a50, a51, a60, a61, a70, a71⟩ := idx2 t
  funext y
  have y0 : (y 0).val < 1024 := (y 0).isLt
  have y1 : (y 1).val < 1024 := (y 1).isLt
  have hy : (cfg2.win 7).xinj (grid2.coords t) y = ix2 (⟨(y 0).val, y0⟩ : Fin 1024) (⟨(y 1).val, y1⟩ : Fin 1024) :=
    funext fun a => match a with | ⟨0, _⟩ => rfl | ⟨1, _⟩ => rfl
  have hemb : ((cfg2.win 7).blk t).view.emb y
      = ix2 (⟨t.val / 36 * 1024 + (y 0).val, by omega⟩ : Fin 8192) (⟨t.val / 6 % 6 * 1024 + (y 1).val, by omega⟩ : Fin 6144) := by
    funext a; apply Fin.ext
    match a with
    | ⟨0, _⟩ => show win2_7.index t (0 : Fin 2) * 1024 + 1 * (y 0).val = t.val / 36 * 1024 + (y 0).val; rw [a70]; omega
    | ⟨1, _⟩ => show win2_7.index t (1 : Fin 2) * 1024 + 1 * (y 1).val = t.val / 6 % 6 * 1024 + (y 1).val; rw [a71]; omega
  rw [View.read_apply, hemb, G2_ix2]
  show (dat2 V c).after 7 t ((cfg2.win 7).xinj (grid2.coords t) y) = _
  rw [hy, after2_7]
  exact out2_apply V c t h2 _ _ _ _ rfl rfl

/-- THE RESULT OF REGION 2: its output array ends holding the layer's output of the arrays the region is entered with. -/
theorem final2 (c : Dev nD) : (dat2 (F := Ideal) V c).arrAt 7 cfg2.N = G2 (V c main_v18) (V c main_v6) (V c main_v19) (V c main_v20) (V c main_v21) (V c main_v22) (V c main_v23) :=
  (dat2 (F := Ideal) V c).arrAt_eq_of_cover 7 (G2 (V c main_v18) (V c main_v6) (V c main_v19) (V c main_v20) (V c main_v21) (V c main_v22) (V c main_v23)) (fun t hf => flushed2_eq V c t hf) cover2

end Cert.KernelIdeal.Hand

end
-- ==== Proof.BridgePure.lean ====
/-
  The network from its four stages. If an 8192 × 3072 array is, entry by entry, the sign of the first layer's
  normalised product, a second array the same of the first against the second weights, a third the clamp of the
  third layer's, and a fourth the row-wise log-softmax of the dense last layer of the third, then the fourth array
  is the network function of the 21 arguments.
-/
import proofs.«104501_j58892591563191_2_alg».proof.Proof.Spec

noncomputable section

namespace Cert.Bridge

open Cert.Net Idealize.ShloMosaic Idealize.ShloMosaic.ValueIdx
open scoped BigOperators

theorem net_of_stages
    (x : Mat 8192 784)
    (w1 : Mat 3072 784) (b1 g1 be1 m1 v1 : Vc 3072)
    (w2 : Mat 6144 3072) (b2 g2 be2 m2 v2 : Vc 6144)
    (w3 : Mat 6144 6144) (b3 g3 be3 m3 v3 : Vc 6144)
    (w4 : Mat 10 6144) (b4 : Vc 10)
    (a0 : Mat 8192 3072) (a1 a2 : Mat 8192 6144) (out : Mat 8192 10)
    (e0 : ∀ (P : Fin 8192) (Q : Fin 3072), a0 (ix2 P Q)
      = Ideal.sign (bnorm (∑ n : Fin 784, x (ix2 P n) * Ideal.sign (w1 (ix2 Q n)))
          (b1 (ix1 Q)) (g1 (ix1 Q)) (be1 (ix1 Q)) (m1 (ix1 Q)) (v1 (ix1 Q))))
    (e1 : ∀ (P : Fin 8192) (Q : Fin 6144), a1 (ix2 P Q)
      = Ideal.sign (bnorm (∑ n : Fin 3072, a0 (ix2 P n) * Ideal.sign (w2 (ix2 Q n)))
          (b2 (ix1 Q)) (g2 (ix1 Q)) (be2 (ix1 Q)) (m2 (ix1 Q)) (v2 (ix1 Q))))
    (e2 : ∀ (P : Fin 8192) (Q : Fin 6144), a2 (ix2 P Q)
      = clip (bnorm (∑ n : Fin 6144, a1 (ix2 P n) * Ideal.sign (w3 (ix2 Q n)))
          (b3 (ix1 Q)) (g3 (ix1 Q)) (be3 (ix1 Q)) (m3 (ix1 Q)) (v3 (ix1 Q))))
    (e3 : ∀ (P : Fin 8192) (Q : Fin 10), out (ix2 P Q)
      = logSoftmax (fun c => (∑ k : Fin 6144, a2 (ix2 P k) * w4 (ix2 c k)) + b4 (ix1 c)) Q) :
    out = net x w1 b1 g1 be1 m1 v1 w2 b2 g2 be2 m2 v2 w3 b3 g3 be3 m3 v3 w4 b4 := by
  have h0 : ∀ (P : Fin 8192) (Q : Fin 3072), a0 (ix2 P Q) = act1 x w1 b1 g1 be1 m1 v1 P Q := fun P Q => by
    rw [e0]; rfl
  have h1 : ∀ (P : Fin 8192) (Q : Fin 6144), a1 (ix2 P Q) = act2 x w1 b1 g1 be1 m1 v1 w2 b2 g2 be2 m2 v2 P Q := fun P Q => by
    rw [e1]; simp only [h0]; rfl
  have h2 : ∀ (P : Fin 8192) (Q : Fin 6144), a2 (ix2 P Q)
      = act3 x w1 b1 g1 be1 m1 v1 w2 b2 g2 be2 m2 v2 w3 b3 g3 be3 m3 v3 P Q := fun P Q => by
    rw [e2]; simp only [h1]; rfl
  funext j
  obtain ⟨p, q, rfl⟩ : ∃ (p : Fin 8192) (q : Fin 10), j = ix2 p q := ⟨j 0, j 1, eq_ix2 j⟩
  rw [e3, net_ix2]
  simp only [h2]
  rfl

end Cert.Bridge

end
-- ==== Proof.BridgeHost.lean ====
/-
  The host operations of the kernel's program, read at an index. Before each kernel region a stretch of host operations
  prepares its operands: the input array is rounded to another float format (the identity on the extended reals), the
  three weight matrices are replaced by their signs and rounded, and the bias and batch-norm vectors of length `N` are
  reshaped to 1 × `N` arrays, whose entry `(0, q)` is the vector's entry `q`. Each fact is stated for an arbitrary
  content `V` of the buffers before the stretch.
-/
import proofs.«104501_j58892591563191_2_alg».proof.Proof.Gen.KernelIdeal.Launch
import Idealize.ShloMosaic.Lib.ValueLayout
import Idealize.ShloMosaic.Lib.StableHlo.Run
import Idealize.ShloMosaic.PureOps.Ideal.Laws

noncomputable section

namespace Cert.Bridge

open Cert.KernelIdeal Cert.KernelIdeal.Gen Idealize.ShloMosaic Idealize.ShloMosaic.TcCoe Idealize.ShloMosaic.ValueIdx
open Idealize.ShloMosaic.StableHlo

variable (V : Valuation τ sig (Elt Ideal))

/-- The rounded input array is the input array. -/
theorem host0_x : (StableHlo.after hostOps0 V (Proc.devRef .tc main_v0) : S8192x784.Idx → EReal)
    = (V (Proc.devRef .tc main_arg0) : S8192x784.Idx → EReal) := by
  after_results
  rfl

/-- The rounded sign of a weight matrix is its sign, entry by entry. -/
theorem host0_main_v2 : (StableHlo.after hostOps0 V (Proc.devRef .tc main_v2) : S3072x784.Idx → EReal)
    = fun i => Ideal.sign ((V (Proc.devRef .tc main_arg1) : S3072x784.Idx → EReal) i) := by
  after_results
  rfl

/-- The rounded sign of a weight matrix is its sign, entry by entry. -/
theorem host0_main_v4 : (StableHlo.after hostOps0 V (Proc.devRef .tc main_v4) : S6144x3072.Idx → EReal)
    = fun i => Ideal.sign ((V (Proc.devRef .tc main_arg7) : S6144x3072.Idx → EReal) i) := by
  after_results
  rfl

/-- The rounded sign of a weight matrix is its sign, entry by entry. -/
theorem host0_main_v6 : (StableHlo.after hostOps0 V (Proc.devRef .tc main_v6) : S6144x6144.Idx → EReal)
    = fun i => Ideal.sign ((V (Proc.devRef .tc main_arg13) : S6144x6144.Idx → EReal) i) := by
  after_results
  rfl

/-! The reshaped vectors: entry `(0, q)` of the 1 × `N` array is entry `q` of the vector. -/

theorem host0_main_v7 (q : Fin 3072) :
    (StableHlo.after hostOps0 V (Proc.devRef .tc main_v7) : S1x3072.Idx → EReal) (ix2 (0 : Fin 1) q)
      = (V (Proc.devRef .tc main_arg2) : S3072.Idx → EReal) (ix1 q) := by
  have e : (StableHlo.after hostOps0 V (Proc.devRef .tc main_v7) : S1x3072.Idx → EReal)
      = shapeCast S1x3072 (V (Proc.devRef .tc main_arg2) : S3072.Idx → EReal) shapeCasts_S3072_S1x3072 := by
    after_results
    rfl
  rw [e]
  exact shapeCast_a_1a_apply _ _ 0 q

theorem host0_main_v8 (q : Fin 3072) :
    (StableHlo.after hostOps0 V (Proc.devRef .tc main_v8) : S1x3072.Idx → EReal) (ix2 (0 : Fin 1) q)
      = (V (Proc.devRef .tc main_arg3) : S3072.Idx → EReal) (ix1 q) := by
  have e : (StableHlo.after hostOps0 V (Proc.devRef .tc main_v8) : S1x3072.Idx → EReal)
      = shapeCast S1x3072 (V (Proc.devRef .tc main_arg3) : S3072.Idx → EReal) shapeCasts_S3072_S1x3072 := by
    after_results
    rfl
  rw [e]
  exact shapeCast_a_1a_apply _ _ 0 q

theorem host0_main_v9 (q : Fin 3072) :
    (StableHlo.after hostOps0 V (Proc.devRef .tc main_v9) : S1x3072.Idx → EReal) (ix2 (0 : Fin 1) q)
      = (V (Proc.devRef .tc main_arg4) : S3072.Idx → EReal) (ix1 q) := by
  have e : (StableHlo.after hostOps0 V (Proc.devRef .tc main_v9) : S1x3072.Idx → EReal)
      = shapeCast S1x3072 (V (Proc.devRef .tc main_arg4) : S3072.Idx → EReal) shapeCasts_S3072_S1x3072 := by
    after_results
    rfl
  rw [e]
  exact shapeCast_a_1a_apply _ _ 0 q

theorem host0_main_v10 (q : Fin 3072) :
    (StableHlo.after hostOps0 V (Proc.devRef .tc main_v10) : S1x3072.Idx → EReal) (ix2 (0 : Fin 1) q)
      = (V (Proc.devRef .tc main_arg5) : S3072.Idx → EReal) (ix1 q) := by
  have e : (StableHlo.after hostOps0 V (Proc.devRef .tc main_v10) : S1x3072.Idx → EReal)
      = shapeCast S1x3072 (V (Proc.devRef .tc main_arg5) : S3072.Idx → EReal) shapeCasts_S3072_S1x3072 := by
    after_results
    rfl
  rw [e]
  exact shapeCast_a_1a_apply _ _ 0 q

theorem host0_main_v11 (q : Fin 3072) :
    (StableHlo.after hostOps0 V (Proc.devRef .tc main_v11) : S1x3072.Idx → EReal) (ix2 (0 : Fin 1) q)
      = (V (Proc.devRef .tc main_arg6) : S3072.Idx → EReal) (ix1 q) := by
  have e : (StableHlo.after hostOps0 V (Proc.devRef .tc main_v11) : S1x3072.Idx → EReal)
      = shapeCast S1x3072 (V (Proc.devRef .tc main_arg6) : S3072.Idx → EReal) shapeCasts_S3072_S1x3072 := by
    after_results
    rfl
  rw [e]
  exact shapeCast_a_1a_apply _ _ 0 q

theorem host1_main_v13 (q : Fin 6144) :
    (StableHlo.after hostOps1 V (Proc.devRef .tc main_v13) : S1x6144.Idx → EReal) (ix2 (0 : Fin 1) q)
      = (V (Proc.devRef .tc main_arg8) : S6144.Idx → EReal) (ix1 q) := by
  have e : (StableHlo.after hostOps1 V (Proc.devRef .tc main_v13) : S1x6144.Idx → EReal)
      = shapeCast S1x6144 (V (Proc.devRef .tc main_arg8) : S6144.Idx → EReal) shapeCasts_S6144_S1x6144 := by
    after_results
    rfl
  rw [e]
  exact shapeCast_a_1a_apply _ _ 0 q

theorem host1_main_v14 (q : Fin 6144) :
    (StableHlo.after hostOps1 V (Proc.devRef .tc main_v14) : S1x6144.Idx → EReal) (ix2 (0 : Fin 1) q)
      = (V (Proc.devRef .tc main_arg9) : S6144.Idx → EReal) (ix1 q) := by
  have e : (StableHlo.after hostOps1 V (Proc.devRef .tc main_v14) : S1x6144.Idx → EReal)
      = shapeCast S1x6144 (V (Proc.devRef .tc main_arg9) : S6144.Idx → EReal) shapeCasts_S6144_S1x6144 := by
    after_results
    rfl
  rw [e]
  exact shapeCast_a_1a_apply _ _ 0 q

theorem host1_main_v15 (q : Fin 6144) :
    (StableHlo.after hostOps1 V (Proc.devRef .tc main_v15) : S1x6144.Idx → EReal) (ix2 (0 : Fin 1) q)
      = (V (Proc.devRef .tc main_arg10) : S6144.Idx → EReal) (ix1 q) := by
  have e : (StableHlo.after hostOps1 V (Proc.devRef .tc main_v15) : S1x6144.Idx → EReal)
      = shapeCast S1x6144 (V (Proc.devRef .tc main_arg10) : S6144.Idx → EReal) shapeCasts_S6144_S1x6144 := by
    after_results
    rfl
  rw [e]
  exact shapeCast_a_1a_apply _ _ 0 q

theorem host1_main_v16 (q : Fin 6144) :
    (StableHlo.after hostOps1 V (Proc.devRef .tc main_v16) : S1x6144.Idx → EReal) (ix2 (0 : Fin 1) q)
      = (V (Proc.devRef .tc main_arg11) : S6144.Idx → EReal) (ix1 q) := by
  have e : (StableHlo.after hostOps1 V (Proc.devRef .tc main_v16) : S1x6144.Idx → EReal)
      = shapeCast S1x6144 (V (Proc.devRef .tc main_arg11) : S6144.Idx → EReal) shapeCasts_S6144_S1x6144 := by
    after_results
    rfl
  rw [e]
  exact shapeCast_a_1a_apply _ _ 0 q

theorem host1_main_v17 (q : Fin 6144) :
    (StableHlo.after hostOps1 V (Proc.devRef .tc main_v17) : S1x6144.Idx → EReal) (ix2 (0 : Fin 1) q)
      = (V (Proc.devRef .tc main_arg12) : S6144.Idx → EReal) (ix1 q) := by
  have e : (StableHlo.after hostOps1 V (Proc.devRef .tc main_v17) : S1x6144.Idx → EReal)
      = shapeCast S1x6144 (V (Proc.devRef .tc main_arg12) : S6144.Idx → EReal) shapeCasts_S6144_S1x6144 := by
    after_results
    rfl
  rw [e]
  exact shapeCast_a_1a_apply _ _ 0 q

theorem host2_main_v19 (q : Fin 6144) :
    (StableHlo.after hostOps2 V (Proc.devRef .tc main_v19) : S1x6144.Idx → EReal) (ix2 (0 : Fin 1) q)
      = (V (Proc.devRef .tc main_arg14) : S6144.Idx → EReal) (ix1 q) := by
  have e : (StableHlo.after hostOps2 V (Proc.devRef .tc main_v19) : S1x6144.Idx → EReal)
      = shapeCast S1x6144 (V (Proc.devRef .tc main_arg14) : S6144.Idx → EReal) shapeCasts_S6144_S1x6144 := by
    after_results
    rfl
  rw [e]
  exact shapeCast_a_1a_apply _ _ 0 q

theorem host2_main_v20 (q : Fin 6144) :
    (StableHlo.after hostOps2 V (Proc.devRef .tc main_v20) : S1x6144.Idx → EReal) (ix2 (0 : Fin 1) q)
      = (V (Proc.devRef .tc main_arg15) : S6144.Idx → EReal) (ix1 q) := by
  have e : (StableHlo.after hostOps2 V (Proc.devRef .tc main_v20) : S1x6144.Idx → EReal)
      = shapeCast S1x6144 (V (Proc.devRef .tc main_arg15) : S6144.Idx → EReal) shapeCasts_S6144_S1x6144 := by
    after_results
    rfl
  rw [e]
  exact shapeCast_a_1a_apply _ _ 0 q

theorem host2_main_v21 (q : Fin 6144) :
    (StableHlo.after hostOps2 V (Proc.devRef .tc main_v21) : S1x6144.Idx → EReal) (ix2 (0 : Fin 1) q)
      = (V (Proc.devRef .tc main_arg16) : S6144.Idx → EReal) (ix1 q) := by
  have e : (StableHlo.after hostOps2 V (Proc.devRef .tc main_v21) : S1x6144.Idx → EReal)
      = shapeCast S1x6144 (V (Proc.devRef .tc main_arg16) : S6144.Idx → EReal) shapeCasts_S6144_S1x6144 := by
    after_results
    rfl
  rw [e]
  exact shapeCast_a_1a_apply _ _ 0 q

theorem host2_main_v22 (q : Fin 6144) :
    (StableHlo.after hostOps2 V (Proc.devRef .tc main_v22) : S1x6144.Idx → EReal) (ix2 (0 : Fin 1) q)
      = (V (Proc.devRef .tc main_arg17) : S6144.Idx → EReal) (ix1 q) := by
  have e : (StableHlo.after hostOps2 V (Proc.devRef .tc main_v22) : S1x6144.Idx → EReal)
      = shapeCast S1x6144 (V (Proc.devRef .tc main_arg17) : S6144.Idx → EReal) shapeCasts_S6144_S1x6144 := by
    after_results
    rfl
  rw [e]
  exact shapeCast_a_1a_apply _ _ 0 q

theorem host2_main_v23 (q : Fin 6144) :
    (StableHlo.after hostOps2 V (Proc.devRef .tc main_v23) : S1x6144.Idx → EReal) (ix2 (0 : Fin 1) q)
      = (V (Proc.devRef .tc main_arg18) : S6144.Idx → EReal) (ix1 q) := by
  have e : (StableHlo.after hostOps2 V (Proc.devRef .tc main_v23) : S1x6144.Idx → EReal)
      = shapeCast S1x6144 (V (Proc.devRef .tc main_arg18) : S6144.Idx → EReal) shapeCasts_S6144_S1x6144 := by
    after_results
    rfl
  rw [e]
  exact shapeCast_a_1a_apply _ _ 0 q

theorem host3_main_v25 (q : Fin 10) :
    (StableHlo.after hostOps3 V (Proc.devRef .tc main_v25) : S1x10.Idx → EReal) (ix2 (0 : Fin 1) q)
      = (V (Proc.devRef .tc main_arg20) : S10.Idx → EReal) (ix1 q) := by
  have e : (StableHlo.after hostOps3 V (Proc.devRef .tc main_v25) : S1x10.Idx → EReal)
      = shapeCast S1x10 (V (Proc.devRef .tc main_arg20) : S10.Idx → EReal) shapeCasts_S10_S1x10 := by
    after_results
    rfl
  rw [e]
  exact shapeCast_a_1a_apply _ _ 0 q

end Cert.Bridge

end
-- ==== Proof.BridgeKept.lean ====
/-
  What the buffers hold at the boundaries of the kernel's program, for the buffers that nothing has written yet. The
  program is four stretches of host operations, each followed by a kernel region. A buffer that no host stretch so far
  writes and that is no array of a region so far still holds its launch contents; a buffer that a stretch does not write
  is unchanged by the stretch.
-/
import proofs.«104501_j58892591563191_2_alg».proof.Proof.KI.Run
import Idealize.ShloMosaic.PureOps.Ideal

noncomputable section

namespace Cert.Bridge

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

/-- At the first region's entry a buffer the first host stretch does not write holds its launch contents. -/
theorem keptE0 (b : Ref sig .tc) (h0 : b ∉ hostOps0_W) :
    E0 m c (Proc.devRef .tc b) = m ((c : Thread nD τ).loc b) :=
  (StableHlo.after_of_writes_sub hostOps0 _ hostOps0_writes h0).trans rfl

theorem keptX0 (b : Ref sig .tc) (h0 : b ∉ hostOps0_W) (r0 : ∀ w, Pipeline.arrRef spec0 w ≠ b) :
    X0 m c (Proc.devRef .tc b) = m ((c : Thread nD τ).loc b) :=
  (X0_of_ne m c b r0).trans (keptE0 m c b h0)

theorem keptE1 (b : Ref sig .tc) (h0 : b ∉ hostOps0_W) (r0 : ∀ w, Pipeline.arrRef spec0 w ≠ b) (h1 : b ∉ hostOps1_W) :
    E1 m c (Proc.devRef .tc b) = m ((c : Thread nD τ).loc b) :=
  (StableHlo.after_of_writes_sub hostOps1 _ hostOps1_writes h1).trans (keptX0 m c b h0 r0)

theorem keptX1 (b : Ref sig .tc) (h0 : b ∉ hostOps0_W) (r0 : ∀ w, Pipeline.arrRef spec0 w ≠ b) (h1 : b ∉ hostOps1_W)
    (r1 : ∀ w, Pipeline.arrRef spec1 w ≠ b) :
    X1 m c (Proc.devRef .tc b) = m ((c : Thread nD τ).loc b) :=
  (X1_of_ne m c b r1).trans (keptE1 m c b h0 r0 h1)

theorem keptE2 (b : Ref sig .tc) (h0 : b ∉ hostOps0_W) (r0 : ∀ w, Pipeline.arrRef spec0 w ≠ b) (h1 : b ∉ hostOps1_W)
    (r1 : ∀ w, Pipeline.arrRef spec1 w ≠ b) (h2 : b ∉ hostOps2_W) :
    E2 m c (Proc.devRef .tc b) = m ((c : Thread nD τ).loc b) :=
  (StableHlo.after_of_writes_sub hostOps2 _ hostOps2_writes h2).trans (keptX1 m c b h0 r0 h1 r1)

theorem keptX2 (b : Ref sig .tc) (h0 : b ∉ hostOps0_W) (r0 : ∀ w, Pipeline.arrRef spec0 w ≠ b) (h1 : b ∉ hostOps1_W)
    (r1 : ∀ w, Pipeline.arrRef spec1 w ≠ b) (h2 : b ∉ hostOps2_W) (r2 : ∀ w, Pipeline.arrRef spec2 w ≠ b) :
    X2 m c (Proc.devRef .tc b) = m ((c : Thread nD τ).loc b) :=
  (X2_of_ne m c b r2).trans (keptE2 m c b h0 r0 h1 r1 h2)

theorem keptE3 (b : Ref sig .tc) (h0 : b ∉ hostOps0_W) (r0 : ∀ w, Pipeline.arrRef spec0 w ≠ b) (h1 : b ∉ hostOps1_W)
    (r1 : ∀ w, Pipeline.arrRef spec1 w ≠ b) (h2 : b ∉ hostOps2_W) (r2 : ∀ w, Pipeline.arrRef spec2 w ≠ b) (h3 : b ∉ hostOps3_W) :
    E3 m c (Proc.devRef .tc b) = m ((c : Thread nD τ).loc b) :=
  (StableHlo.after_of_writes_sub hostOps3 _ hostOps3_writes h3).trans (keptX2 m c b h0 r0 h1 r1 h2 r2)

/-! The sign weights, written by the first host stretch and only read afterwards, reach their regions unchanged. -/

theorem E1_ws : E1 m c (Proc.devRef .tc main_v4) = E0 m c (Proc.devRef .tc main_v4) :=
  (StableHlo.after_of_writes_sub (hostOps1 (F := Ideal)) _ hostOps1_writes (show _ ∉ hostOps1_W by decide)).trans (X0_of_ne m c main_v4 (by decide))

theorem E2_ws : E2 m c (Proc.devRef .tc main_v6) = E0 m c (Proc.devRef .tc main_v6) :=
  (StableHlo.after_of_writes_sub (hostOps2 (F := Ideal)) _ hostOps2_writes (show _ ∉ hostOps2_W by decide)).trans
    ((X1_of_ne m c main_v6 (by decide)).trans
      ((StableHlo.after_of_writes_sub (hostOps1 (F := Ideal)) _ hostOps1_writes (show _ ∉ hostOps1_W by decide)).trans (X0_of_ne m c main_v6 (by decide))))

/-! Each region's result array is the next region's input: the host stretch in between does not write it. -/

theorem E1_lhs : E1 m c (Proc.devRef .tc main_v12) = X0 m c (Proc.devRef .tc main_v12) :=
  StableHlo.after_of_writes_sub (hostOps1 (F := Ideal)) _ hostOps1_writes (show _ ∉ hostOps1_W by decide)
theorem E2_lhs : E2 m c (Proc.devRef .tc main_v18) = X1 m c (Proc.devRef .tc main_v18) :=
  StableHlo.after_of_writes_sub (hostOps2 (F := Ideal)) _ hostOps2_writes (show _ ∉ hostOps2_W by decide)
theorem E3_lhs : E3 m c (Proc.devRef .tc main_v24) = X2 m c (Proc.devRef .tc main_v24) :=
  StableHlo.after_of_writes_sub (hostOps3 (F := Ideal)) _ hostOps3_writes (show _ ∉ hostOps3_W by decide)

end Cert.Bridge

end
-- ==== Proof.Bridge.lean ====
/-
  The kernel's program computes the network. Its four regions leave, in turn, the first layer's signs, the second
  layer's signs, the third layer's clamped values and the log-probabilities; each region's result is one whole-array
  function of the arrays it is entered with, and those arrays are the launch contents of the argument buffers seen
  through the host operations (signs of the weights, reshaped vectors) or the previous region's result.
-/
import proofs.«104501_j58892591563191_2_alg».proof.Proof.KI.Run
import proofs.«104501_j58892591563191_2_alg».proof.Proof.KI.FinalValue
import proofs.«104501_j58892591563191_2_alg».proof.Proof.KI.L0Value
import proofs.«104501_j58892591563191_2_alg».proof.Proof.KI.L1Value
import proofs.«104501_j58892591563191_2_alg».proof.Proof.KI.L2Value
import proofs.«104501_j58892591563191_2_alg».proof.Proof.BridgePure
import proofs.«104501_j58892591563191_2_alg».proof.Proof.BridgeHost
import proofs.«104501_j58892591563191_2_alg».proof.Proof.BridgeKept

noncomputable section

namespace Cert.Bridge

open Cert.KernelIdeal Cert.KernelIdeal.Gen Cert.KernelIdeal.Hand Cert.Net
open Idealize.ShloMosaic Idealize.ShloMosaic.TcCoe Idealize.ShloMosaic.ValueIdx Idealize.SL.Sem
open scoped BigOperators

variable (m : (ℓ : Loc nD τ sig) → Buf (Elt Ideal) ℓ) (c : Dev nD)

/-! The launch contents of the 21 argument buffers, and the four regions' result arrays, as arrays of extended reals. -/
abbrev inp0 : Mat 8192 784 := m ((c : Thread nD τ).loc main_arg0)
abbrev inp1 : Mat 3072 784 := m ((c : Thread nD τ).loc main_arg1)
abbrev inp2 : Vc 3072 := m ((c : Thread nD τ).loc main_arg2)
abbrev inp3 : Vc 3072 := m ((c : Thread nD τ).loc main_arg3)
abbrev inp4 : Vc 3072 := m ((c : Thread nD τ).loc main_arg4)
abbrev inp5 : Vc 3072 := m ((c : Thread nD τ).loc main_arg5)
abbrev inp6 : Vc 3072 := m ((c : Thread nD τ).loc main_arg6)
abbrev inp7 : Mat 6144 3072 := m ((c : Thread nD τ).loc main_arg7)
abbrev inp8 : Vc 6144 := m ((c : Thread nD τ).loc main_arg8)
abbrev inp9 : Vc 6144 := m ((c : Thread nD τ).loc main_arg9)
abbrev inp10 : Vc 6144 := m ((c : Thread nD τ).loc main_arg10)
abbrev inp11 : Vc 6144 := m ((c : Thread nD τ).loc main_arg11)
abbrev inp12 : Vc 6144 := m ((c : Thread nD τ).loc main_arg12)
abbrev inp13 : Mat 6144 6144 := m ((c : Thread nD τ).loc main_arg13)
abbrev inp14 : Vc 6144 := m ((c : Thread nD τ).loc main_arg14)
abbrev inp15 : Vc 6144 := m ((c : Thread nD τ).loc main_arg15)
abbrev inp16 : Vc 6144 := m ((c : Thread nD τ).loc main_arg16)
abbrev inp17 : Vc 6144 := m ((c : Thread nD τ).loc main_arg17)
abbrev inp18 : Vc 6144 := m ((c : Thread nD τ).loc main_arg18)
abbrev inp19 : Mat 10 6144 := m ((c : Thread nD τ).loc main_arg19)
abbrev inp20 : Vc 10 := m ((c : Thread nD τ).loc main_arg20)
abbrev res0 : Mat 8192 3072 := X0 m c (Proc.devRef .tc main_v12)
abbrev res1 : Mat 8192 6144 := X1 m c (Proc.devRef .tc main_v18)
abbrev res2 : Mat 8192 6144 := X2 m c (Proc.devRef .tc main_v24)
abbrev res3 : Mat 8192 10 := X3 m c (Proc.devRef .tc main_v26)

/-- Region 0's result array, entry by entry: the sign of the normalised product of its input with the signs of the
    layer's weights, in terms of the launch contents of the argument buffers. -/
theorem stage0 (P : Fin 8192) (Q : Fin 3072) :
    res0 m c (ix2 P Q)
      = Ideal.sign (bnorm (∑ n : Fin 784, inp0 m c (ix2 P n)
            * Ideal.sign (inp1 m c (ix2 Q n)))
          (inp2 m c (ix1 Q)) (inp3 m c (ix1 Q))
          (inp4 m c (ix1 Q)) (inp5 m c (ix1 Q))
          (inp6 m c (ix1 Q))) := by
  have hX : (X0 m c (Proc.devRef .tc main_v12) : S8192x3072.Idx → EReal)
      = G0 (VE0 m c main_v0) (VE0 m c main_v2) (VE0 m c main_v7) (VE0 m c main_v8) (VE0 m c main_v9) (VE0 m c main_v10) (VE0 m c main_v11) :=
    (X0_arr m c 7).trans (final0 (VE0 m) c)
  have hl : ∀ i, (VE0 m c main_v0 : S8192x784.Idx → EReal) i = ((m ((c : Thread nD τ).loc main_arg0)) : S8192x784.Idx → EReal) i :=
    fun i => congrFun (host0_x (A0 m c)) i
  have hw : ∀ i, (VE0 m c main_v2 : S3072x784.Idx → EReal) i = Ideal.sign (((m ((c : Thread nD τ).loc main_arg1)) : S3072x784.Idx → EReal) i) :=
    fun i => congrFun (host0_main_v2 (A0 m c)) i
  have h0 : ∀ q : Fin 3072, (VE0 m c main_v7 : S1x3072.Idx → EReal) (ix2 (0 : Fin 1) q) = inp2 m c (ix1 q) :=
    fun q => host0_main_v7 (A0 m c) q
  have h1 : ∀ q : Fin 3072, (VE0 m c main_v8 : S1x3072.Idx → EReal) (ix2 (0 : Fin 1) q) = inp3 m c (ix1 q) :=
    fun q => host0_main_v8 (A0 m c) q
  have h2 : ∀ q : Fin 3072, (VE0 m c main_v9 : S1x3072.Idx → EReal) (ix2 (0 : Fin 1) q) = inp4 m c (ix1 q) :=
    fun q => host0_main_v9 (A0 m c) q
  have h3 : ∀ q : Fin 3072, (VE0 m c main_v10 : S1x3072.Idx → EReal) (ix2 (0 : Fin 1) q) = inp5 m c (ix1 q) :=
    fun q => host0_main_v10 (A0 m c) q
  have h4 : ∀ q : Fin 3072, (VE0 m c main_v11 : S1x3072.Idx → EReal) (ix2 (0 : Fin 1) q) = inp6 m c (ix1 q) :=
    fun q => host0_main_v11 (A0 m c) q
  refine (congrFun hX (ix2 P Q)).trans ?_
  rw [G0_ix2]
  first | unfold G0at dot0 | unfold G0at | skip
  simp only [hl, hw, h0, h1, h2, h3, h4]
  <;> rfl

/-- Region 1's result array, entry by entry: the sign of the normalised product of its input with the signs of the
    layer's weights, in terms of the launch contents of the argument buffers and the previous region's result. -/
theorem stage1 (P : Fin 8192) (Q : Fin 6144) :
    res1 m c (ix2 P Q)
      = Ideal.sign (bnorm (∑ n : Fin 3072, res0 m c (ix2 P n)
            * Ideal.sign (inp7 m c (ix2 Q n)))
          (inp8 m c (ix1 Q)) (inp9 m c (ix1 Q))
          (inp10 m c (ix1 Q)) (inp11 m c (ix1 Q))
          (inp12 m c (ix1 Q))) := by
  have hX : (X1 m c (Proc.devRef .tc main_v18) : S8192x6144.Idx → EReal)
      = G1 (VE1 m c main_v12) (VE1 m c main_v4) (VE1 m c main_v13) (VE1 m c main_v14) (VE1 m c main_v15) (VE1 m c main_v16) (VE1 m c main_v17) :=
    (X1_arr m c 7).trans (final1 (VE1 m) c)
  have hl : ∀ i, (VE1 m c main_v12 : S8192x3072.Idx → EReal) i = (X0 m c (Proc.devRef .tc main_v12) : S8192x3072.Idx → EReal) i :=
    fun i => congrFun (E1_lhs m c) i
  have hw : ∀ i, (VE1 m c main_v4 : S6144x3072.Idx → EReal) i = Ideal.sign (((m ((c : Thread nD τ).loc main_arg7)) : S6144x3072.Idx → EReal) i) :=
    fun i => (congrFun (E1_ws m c) i).trans (congrFun (host0_main_v4 (A0 m c)) i)
  have h0 : ∀ q : Fin 6144, (VE1 m c main_v13 : S1x6144.Idx → EReal) (ix2 (0 : Fin 1) q) = inp8 m c (ix1 q) :=
    fun q => (host1_main_v13 (X0 m c) q).trans (congrFun (keptX0 m c main_arg8 (by decide) (by decide)) (ix1 q))
  have h1 : ∀ q : Fin 6144, (VE1 m c main_v14 : S1x6144.Idx → EReal) (ix2 (0 : Fin 1) q) = inp9 m c (ix1 q) :=
    fun q => (host1_main_v14 (X0 m c) q).trans (congrFun (keptX0 m c main_arg9 (by decide) (by decide)) (ix1 q))
  have h2 : ∀ q : Fin 6144, (VE1 m c main_v15 : S1x6144.Idx → EReal) (ix2 (0 : Fin 1) q) = inp10 m c (ix1 q) :=
    fun q => (host1_main_v15 (X0 m c) q).trans (congrFun (keptX0 m c main_arg10 (by decide) (by decide)) (ix1 q))
  have h3 : ∀ q : Fin 6144, (VE1 m c main_v16 : S1x6144.Idx → EReal) (ix2 (0 : Fin 1) q) = inp11 m c (ix1 q) :=
    fun q => (host1_main_v16 (X0 m c) q).trans (congrFun (keptX0 m c main_arg11 (by decide) (by decide)) (ix1 q))
  have h4 : ∀ q : Fin 6144, (VE1 m c main_v17 : S1x6144.Idx → EReal) (ix2 (0 : Fin 1) q) = inp12 m c (ix1 q) :=
    fun q => (host1_main_v17 (X0 m c) q).trans (congrFun (keptX0 m c main_arg12 (by decide) (by decide)) (ix1 q))
  refine (congrFun hX (ix2 P Q)).trans ?_
  rw [G1_ix2]
  first | unfold G1at dot1 | unfold G1at | skip
  simp only [hl, hw, h0, h1, h2, h3, h4]
  <;> rfl

/-- Region 2's result array, entry by entry: the clamp of the normalised product of its input with the signs of the
    layer's weights, in terms of the launch contents of the argument buffers and the previous region's result. -/
theorem stage2 (P : Fin 8192) (Q : Fin 6144) :
    res2 m c (ix2 P Q)
      = clip (bnorm (∑ n : Fin 6144, res1 m c (ix2 P n)
            * Ideal.sign (inp13 m c (ix2 Q n)))
          (inp14 m c (ix1 Q)) (inp15 m c (ix1 Q))
          (inp16 m c (ix1 Q)) (inp17 m c (ix1 Q))
          (inp18 m c (ix1 Q))) := by
  have hX : (X2 m c (Proc.devRef .tc main_v24) : S8192x6144.Idx → EReal)
      = G2 (VE2 m c main_v18) (VE2 m c main_v6) (VE2 m c main_v19) (VE2 m c main_v20) (VE2 m c main_v21) (VE2 m c main_v22) (VE2 m c main_v23) :=
    (X2_arr m c 7).trans (final2 (VE2 m) c)
  have hl : ∀ i, (VE2 m c main_v18 : S8192x6144.Idx → EReal) i = (X1 m c (Proc.devRef .tc main_v18) : S8192x6144.Idx → EReal) i :=
    fun i => congrFun (E2_lhs m c) i
  have hw : ∀ i, (VE2 m c main_v6 : S6144x6144.Idx → EReal) i = Ideal.sign (((m ((c : Thread nD τ).loc main_arg13)) : S6144x6144.Idx → EReal) i) :=
    fun i => (congrFun (E2_ws m c) i).trans (congrFun (host0_main_v6 (A0 m c)) i)
  have h0 : ∀ q : Fin 6144, (VE2 m c main_v19 : S1x6144.Idx → EReal) (ix2 (0 : Fin 1) q) = inp14 m c (ix1 q) :=
    fun q => (host2_main_v19 (X1 m c) q).trans (congrFun (keptX1 m c main_arg14 (by decide) (by decide) (by decide) (by decide)) (ix1 q))
  have h1 : ∀ q : Fin 6144, (VE2 m c main_v20 : S1x6144.Idx → EReal) (ix2 (0 : Fin 1) q) = inp15 m c (ix1 q) :=
    fun q => (host2_main_v20 (X1 m c) q).trans (congrFun (keptX1 m c main_arg15 (by decide) (by decide) (by decide) (by decide)) (ix1 q))
  have h2 : ∀ q : Fin 6144, (VE2 m c main_v21 : S1x6144.Idx → EReal) (ix2 (0 : Fin 1) q) = inp16 m c (ix1 q) :=
    fun q => (host2_main_v21 (X1 m c) q).trans (congrFun (keptX1 m c main_arg16 (by decide) (by decide) (by decide) (by decide)) (ix1 q))
  have h3 : ∀ q : Fin 6144, (VE2 m c main_v22 : S1x6144.Idx → EReal) (ix2 (0 : Fin 1) q) = inp17 m c (ix1 q) :=
    fun q => (host2_main_v22 (X1 m c) q).trans (congrFun (keptX1 m c main_arg17 (by decide) (by decide) (by decide) (by decide)) (ix1 q))
  have h4 : ∀ q : Fin 6144, (VE2 m c main_v23 : S1x6144.Idx → EReal) (ix2 (0 : Fin 1) q) = inp18 m c (ix1 q) :=
    fun q => (host2_main_v23 (X1 m c) q).trans (congrFun (keptX1 m c main_arg18 (by decide) (by decide) (by decide) (by decide)) (ix1 q))
  refine (congrFun hX (ix2 P Q)).trans ?_
  rw [G2_ix2]
  first | unfold G2at dot2 | unfold G2at | skip
  simp only [hl, hw, h0, h1, h2, h3, h4]
  <;> rfl

/-- Region 3's result array, entry by entry: the log-softmax of the dense last layer of region 2's result. -/
theorem stage3 (P : Fin 8192) (Q : Fin 10) :
    res3 m c (ix2 P Q)
      = logSoftmax (fun c' => (∑ k : Fin 6144, res2 m c (ix2 P k)
            * inp19 m c (ix2 c' k))
          + inp20 m c (ix1 c')) Q := by
  have hX : (X3 m c (Proc.devRef .tc main_v26) : S8192x10.Idx → EReal) = G3 (VE3 m c main_v24) (VE3 m c main_arg19) (VE3 m c main_v25) :=
    (X3_arr m c 3).trans (final3 (VE3 m) c)
  have hl : ∀ i, (VE3 m c main_v24 : S8192x6144.Idx → EReal) i = (X2 m c (Proc.devRef .tc main_v24) : S8192x6144.Idx → EReal) i :=
    fun i => congrFun (E3_lhs m c) i
  have hw : ∀ i, (VE3 m c main_arg19 : S10x6144.Idx → EReal) i = ((m ((c : Thread nD τ).loc main_arg19)) : S10x6144.Idx → EReal) i :=
    fun i => congrFun (keptE3 m c main_arg19 (by decide) (by decide) (by decide) (by decide) (by decide) (by decide) (by decide)) i
  have hb : ∀ q : Fin 10, (VE3 m c main_v25 : S1x10.Idx → EReal) (ix2 (0 : Fin 1) q) = inp20 m c (ix1 q) :=
    fun q => (host3_main_v25 (X2 m c) q).trans
      (congrFun (keptX2 m c main_arg20 (by decide) (by decide) (by decide) (by decide) (by decide) (by decide)) (ix1 q))
  refine (congrFun hX (ix2 P Q)).trans ?_
  rw [G3_ix2]
  simp only [hl, hw, hb]
  <;> rfl

/-- THE KERNEL'S VALUE: at the end of the kernel's program its result buffer holds the network function of the launch
    contents of the 21 argument buffers. -/
theorem kernel_value :
    X3 m c (Proc.devRef .tc main_v26)
      = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  net_of_stages _ _ _ _ _ _ _ _ _ _ _ _ _ _ _ _ _ _ _ _ _
    (X0 m c (Proc.devRef .tc main_v12)) (X1 m c (Proc.devRef .tc main_v18)) (X2 m c (Proc.devRef .tc main_v24)) (X3 m c (Proc.devRef .tc main_v26))
    (stage0 m c) (stage1 m c) (stage2 m c) (stage3 m c)

end Cert.Bridge

end
-- ==== Proof.RefL1.lean ====
/-
  The reference's layer 1 is the specification's: reading the generated stages of the reference index by index, the
  product of row `p` with the signs of the weight's row `q`, the bias, the batch normalisation and the sign of the clamped
  value, which is the sign of the value.
-/
import proofs.«104501_j58892591563191_2_alg».proof.Proof.RefRead
import proofs.«104501_j58892591563191_2_alg».proof.Proof.Laws

noncomputable section

namespace Cert.Net

open Cert.ReferenceIdeal Cert.ReferenceIdeal.ReadP Idealize.ShloMosaic Idealize.ShloMosaic.ValueIdx
open scoped BigOperators

section
variable (x0 : (⟨S8192x784, .f32⟩ : BufTy).Contents (Elt Ideal)) (x1 : (⟨S3072x784, .f32⟩ : BufTy).Contents (Elt Ideal)) (x2 x3 x4 x5 x6 : (⟨S3072, .f32⟩ : BufTy).Contents (Elt Ideal))

/-- Layer 1 before its activation, as the reference computes it, at row `p` and column `q`. -/
theorem ref_pre1 (p : Fin 8192) (q : Fin 3072) :
    val_main_v18 (F := Ideal) x0 x1 x2 x3 x4 x5 x6 (ix2 p q)
      = layer (fun p k => x0 (ix2 p k)) x1 x2 x3 x4 x5 x6 p q := by
  have hl : ∀ k : Fin 784, lidx_main_v2 (ix2 p q) k = ix2 p k := fun k => funext fun a => Fin.ext (by match a with | ⟨0, _⟩ => rfl | ⟨1, _⟩ => rfl)
  have hr : ∀ k : Fin 784, idx_main_v1 (ridx_main_v2 (ix2 p q) k) = ix2 q k := fun k => funext fun a => Fin.ext (by match a with | ⟨0, _⟩ => rfl | ⟨1, _⟩ => rfl)
  have hb : idx_main_v3 (idx_main_v4 (ix2 p q)) = ix1 q := funext fun a => Fin.ext (by match a with | ⟨0, _⟩ => rfl)
  have hm : idx_main_v6 (idx_main_v7 (ix2 p q)) = ix1 q := funext fun a => Fin.ext (by match a with | ⟨0, _⟩ => rfl)
  have hg : idx_main_v13 (idx_main_v14 (ix2 p q)) = ix1 q := funext fun a => Fin.ext (by match a with | ⟨0, _⟩ => rfl)
  have hbe : idx_main_v16 (idx_main_v17 (ix2 p q)) = ix1 q := funext fun a => Fin.ext (by match a with | ⟨0, _⟩ => rfl)
  rw [val_main_v18_apply, val_main_v15_apply, val_main_v8_apply, val_main_v5_apply, val_main_v2_apply, val_main_v4_apply, val_main_v3_apply, val_main_v7_apply, val_main_v6_apply, val_main_v14_apply, val_main_v13_apply, val_main_v12_apply, val_main_v11_apply, val_main_v10_apply, val_main_v9_apply, val_main_cst_apply, val_main_v17_apply, val_main_v16_apply]
  simp only [val_main_v1_apply, val_main_v0_apply, hl, hr, hb, hm, hg, hbe, Ideal.hostUnary_sign_def, Ideal.hostUnary_rsqrt_def,
    Ideal.addf_def, Ideal.subf_def, Ideal.mulf_def, Ideal.ofBits_def]
  rfl

/-- Layer 1's output as the reference computes it — the sign of the CLAMPED value — is the sign of the value. -/
theorem ref_act1 (p : Fin 8192) (q : Fin 3072) :
    val_main_v20 (F := Ideal) x0 x1 x2 x3 x4 x5 x6 (ix2 p q) = act1 x0 x1 x2 x3 x4 x5 x6 p q := by
  rw [val_main_v20_apply, val_main_v19_apply, val_main_call0_v4_apply, val_main_call0_v3_apply, val_main_cst_1_apply, val_main_call0_v2_apply,
    val_main_call0_v1_apply, val_main_call0_v0_apply, val_main_cst_0_apply, ref_pre1]
  simp only [Ideal.hostUnary_sign_def, Ideal.minimumf_def, Ideal.maximumf_def, Ideal.ofBits_def]
  exact sign_clip _

end

end Cert.Net

end
-- ==== Proof.RefL2.lean ====
/-
  The reference's layer 2 is the specification's: reading the generated stages of the reference index by index, the
  product of row `p` with the signs of the weight's row `q`, the bias, the batch normalisation and the sign of the clamped
  value, which is the sign of the value; its input is layer 1's output.
-/
import proofs.«104501_j58892591563191_2_alg».proof.Proof.RefL1

noncomputable section

namespace Cert.Net

open Cert.ReferenceIdeal Cert.ReferenceIdeal.ReadP Idealize.ShloMosaic Idealize.ShloMosaic.ValueIdx
open scoped BigOperators

section
variable (x0 : (⟨S8192x784, .f32⟩ : BufTy).Contents (Elt Ideal)) (x1 : (⟨S3072x784, .f32⟩ : BufTy).Contents (Elt Ideal)) (x2 x3 x4 x5 x6 : (⟨S3072, .f32⟩ : BufTy).Contents (Elt Ideal))
  (x7 : (⟨S6144x3072, .f32⟩ : BufTy).Contents (Elt Ideal)) (x8 x9 x10 x11 x12 : (⟨S6144, .f32⟩ : BufTy).Contents (Elt Ideal))

/-- Layer 2 before its activation, as the reference computes it, at row `p` and column `q`. -/
theorem ref_pre2 (p : Fin 8192) (q : Fin 6144) :
    val_main_v39 (F := Ideal) x0 x1 x2 x3 x4 x5 x6 x7 x8 x9 x10 x11 x12 (ix2 p q)
      = layer (act1 x0 x1 x2 x3 x4 x5 x6) x7 x8 x9 x10 x11 x12 p q := by
  have hl : ∀ k : Fin 3072, lidx_main_v23 (ix2 p q) k = ix2 p k := fun k => funext fun a => Fin.ext (by match a with | ⟨0, _⟩ => rfl | ⟨1, _⟩ => rfl)
  have hr : ∀ k : Fin 3072, idx_main_v22 (ridx_main_v23 (ix2 p q) k) = ix2 q k := fun k => funext fun a => Fin.ext (by match a with | ⟨0, _⟩ => rfl | ⟨1, _⟩ => rfl)
  have hb : idx_main_v24 (idx_main_v25 (ix2 p q)) = ix1 q := funext fun a => Fin.ext (by match a with | ⟨0, _⟩ => rfl)
  have hm : idx_main_v27 (idx_main_v28 (ix2 p q)) = ix1 q := funext fun a => Fin.ext (by match a with | ⟨0, _⟩ => rfl)
  have hg : idx_main_v34 (idx_main_v35 (ix2 p q)) = ix1 q := funext fun a => Fin.ext (by match a with | ⟨0, _⟩ => rfl)
  have hbe : idx_main_v37 (idx_main_v38 (ix2 p q)) = ix1 q := funext fun a => Fin.ext (by match a with | ⟨0, _⟩ => rfl)
  rw [val_main_v39_apply, val_main_v36_apply, val_main_v29_apply, val_main_v26_apply, val_main_v23_apply, val_main_v25_apply, val_main_v24_apply, val_main_v28_apply, val_main_v27_apply, val_main_v35_apply, val_main_v34_apply, val_main_v33_apply, val_main_v32_apply, val_main_v31_apply, val_main_v30_apply, val_main_cst_2_apply, val_main_v38_apply, val_main_v37_apply]
  simp only [val_main_v22_apply, val_main_v21_apply, hl, hr, hb, hm, hg, hbe, ref_act1, Ideal.hostUnary_sign_def, Ideal.hostUnary_rsqrt_def,
    Ideal.addf_def, Ideal.subf_def, Ideal.mulf_def, Ideal.ofBits_def]
  rfl

/-- Layer 2's output as the reference computes it — the sign of the CLAMPED value — is the sign of the value. -/
theorem ref_act2 (p : Fin 8192) (q : Fin 6144) :
    val_main_v41 (F := Ideal) x0 x1 x2 x3 x4 x5 x6 x7 x8 x9 x10 x11 x12 (ix2 p q) = act2 x0 x1 x2 x3 x4 x5 x6 x7 x8 x9 x10 x11 x12 p q := by
  rw [val_main_v41_apply, val_main_v40_apply, val_main_call1_v4_apply, val_main_call1_v3_apply, val_main_cst_4_apply, val_main_call1_v2_apply,
    val_main_call1_v1_apply, val_main_call1_v0_apply, val_main_cst_3_apply, ref_pre2]
  simp only [Ideal.hostUnary_sign_def, Ideal.minimumf_def, Ideal.maximumf_def, Ideal.ofBits_def]
  exact sign_clip _

end

end Cert.Net

end
-- ==== Proof.RefL3.lean ====
/-
  The reference's layer 3 is the specification's: reading the generated stages of the reference index by index, the
  product of row `p` with the signs of the weight's row `q`, the bias, the batch normalisation and the clamp to [-1, 1];
  its input is layer 2's output.
-/
import proofs.«104501_j58892591563191_2_alg».proof.Proof.RefL2

noncomputable section

namespace Cert.Net

open Cert.ReferenceIdeal Cert.ReferenceIdeal.ReadP Idealize.ShloMosaic Idealize.ShloMosaic.ValueIdx
open scoped BigOperators

section
variable (x0 : (⟨S8192x784, .f32⟩ : BufTy).Contents (Elt Ideal)) (x1 : (⟨S3072x784, .f32⟩ : BufTy).Contents (Elt Ideal)) (x2 x3 x4 x5 x6 : (⟨S3072, .f32⟩ : BufTy).Contents (Elt Ideal))
  (x7 : (⟨S6144x3072, .f32⟩ : BufTy).Contents (Elt Ideal)) (x8 x9 x10 x11 x12 : (⟨S6144, .f32⟩ : BufTy).Contents (Elt Ideal))
  (x13 : (⟨S6144x6144, .f32⟩ : BufTy).Contents (Elt Ideal)) (x14 x15 x16 x17 x18 : (⟨S6144, .f32⟩ : BufTy).Contents (Elt Ideal))

/-- Layer 3 before its activation, as the reference computes it, at row `p` and column `q`. -/
theorem ref_pre3 (p : Fin 8192) (q : Fin 6144) :
    val_main_v60 (F := Ideal) x0 x1 x2 x3 x4 x5 x6 x7 x8 x9 x10 x11 x12 x13 x14 x15 x16 x17 x18 (ix2 p q)
      = layer (act2 x0 x1 x2 x3 x4 x5 x6 x7 x8 x9 x10 x11 x12) x13 x14 x15 x16 x17 x18 p q := by
  have hl : ∀ k : Fin 6144, lidx_main_v44 (ix2 p q) k = ix2 p k := fun k => funext fun a => Fin.ext (by match a with | ⟨0, _⟩ => rfl | ⟨1, _⟩ => rfl)
  have hr : ∀ k : Fin 6144, idx_main_v43 (ridx_main_v44 (ix2 p q) k) = ix2 q k := fun k => funext fun a => Fin.ext (by match a with | ⟨0, _⟩ => rfl | ⟨1, _⟩ => rfl)
  have hb : idx_main_v45 (idx_main_v46 (ix2 p q)) = ix1 q := funext fun a => Fin.ext (by match a with | ⟨0, _⟩ => rfl)
  have hm : idx_main_v48 (idx_main_v49 (ix2 p q)) = ix1 q := funext fun a => Fin.ext (by match a with | ⟨0, _⟩ => rfl)
  have hg : idx_main_v55 (idx_main_v56 (ix2 p q)) = ix1 q := funext fun a => Fin.ext (by match a with | ⟨0, _⟩ => rfl)
  have hbe : idx_main_v58 (idx_main_v59 (ix2 p q)) = ix1 q := funext fun a => Fin.ext (by match a with | ⟨0, _⟩ => rfl)
  rw [val_main_v60_apply, val_main_v57_apply, val_main_v50_apply, val_main_v47_apply, val_main_v44_apply, val_main_v46_apply, val_main_v45_apply, val_main_v49_apply, val_main_v48_apply, val_main_v56_apply, val_main_v55_apply, val_main_v54_apply, val_main_v53_apply, val_main_v52_apply, val_main_v51_apply, val_main_cst_5_apply, val_main_v59_apply, val_main_v58_apply]
  simp only [val_main_v43_apply, val_main_v42_apply, hl, hr, hb, hm, hg, hbe, ref_act2, Ideal.hostUnary_sign_def, Ideal.hostUnary_rsqrt_def,
    Ideal.addf_def, Ideal.subf_def, Ideal.mulf_def, Ideal.ofBits_def]
  rfl

/-- Layer 3's output as the reference computes it: the clamped value. -/
theorem ref_act3 (p : Fin 8192) (q : Fin 6144) :
    val_main_v61 (F := Ideal) x0 x1 x2 x3 x4 x5 x6 x7 x8 x9 x10 x11 x12 x13 x14 x15 x16 x17 x18 (ix2 p q) = act3 x0 x1 x2 x3 x4 x5 x6 x7 x8 x9 x10 x11 x12 x13 x14 x15 x16 x17 x18 p q := by
  rw [val_main_v61_apply, val_main_call2_v4_apply, val_main_call2_v3_apply, val_main_cst_7_apply, val_main_call2_v2_apply,
    val_main_call2_v1_apply, val_main_call2_v0_apply, val_main_cst_6_apply, ref_pre3]
  simp only [Ideal.minimumf_def, Ideal.maximumf_def, Ideal.ofBits_def]
  rfl

end

end Cert.Net

end
-- ==== Proof.RefOut.lean ====
/-
  The reference's result is the specification's network: its dense last layer and its row-wise log-softmax read index by
  index from the generated stages (the row maximum, which the generated reading leaves as a fold over the row, is read
  here by the library's lemma for a reduction over one axis), and with them the reference's run: every execution ends
  with the result array equal to the network function of the argument arrays.
-/
import proofs.«104501_j58892591563191_2_alg».proof.Proof.RefL3

noncomputable section

namespace Cert.Net

open Cert.ReferenceIdeal Cert.ReferenceIdeal.Gen Cert.ReferenceIdeal.ReadP Idealize.ShloMosaic Idealize.ShloMosaic.ValueIdx
open Idealize.ShloMosaic.TcCoe Idealize.SL.Sem Idealize.ShloMosaic.StableHlo
open scoped BigOperators

section
variable (x0 : (⟨S8192x784, .f32⟩ : BufTy).Contents (Elt Ideal)) (x1 : (⟨S3072x784, .f32⟩ : BufTy).Contents (Elt Ideal)) (x2 x3 x4 x5 x6 : (⟨S3072, .f32⟩ : BufTy).Contents (Elt Ideal))
  (x7 : (⟨S6144x3072, .f32⟩ : BufTy).Contents (Elt Ideal)) (x8 x9 x10 x11 x12 : (⟨S6144, .f32⟩ : BufTy).Contents (Elt Ideal))
  (x13 : (⟨S6144x6144, .f32⟩ : BufTy).Contents (Elt Ideal)) (x14 x15 x16 x17 x18 : (⟨S6144, .f32⟩ : BufTy).Contents (Elt Ideal))
  (x19 : (⟨S10x6144, .f32⟩ : BufTy).Contents (Elt Ideal)) (x20 : (⟨S10, .f32⟩ : BufTy).Contents (Elt Ideal))

/-- The dense last layer as the reference computes it. -/
theorem ref_logits (p : Fin 8192) (c : Fin 10) :
    val_main_v66 (F := Ideal) x0 x1 x2 x3 x4 x5 x6 x7 x8 x9 x10 x11 x12 x13 x14 x15 x16 x17 x18 x19 x20 (ix2 p c)
      = logits x0 x1 x2 x3 x4 x5 x6 x7 x8 x9 x10 x11 x12 x13 x14 x15 x16 x17 x18 x19 x20 p c := by
  have hl : ∀ k : Fin 6144, lidx_main_v63 (ix2 p c) k = ix2 p k := fun k => funext fun a => Fin.ext (by match a with | ⟨0, _⟩ => rfl | ⟨1, _⟩ => rfl)
  have hr : ∀ k : Fin 6144, idx_main_v62 (ridx_main_v63 (ix2 p c) k) = ix2 c k := fun k => funext fun a => Fin.ext (by match a with | ⟨0, _⟩ => rfl | ⟨1, _⟩ => rfl)
  have hb : idx_main_v64 (idx_main_v65 (ix2 p c)) = ix1 c := funext fun a => Fin.ext (by match a with | ⟨0, _⟩ => rfl)
  rw [val_main_v66_apply, val_main_v63_apply, val_main_v65_apply, val_main_v64_apply]
  simp only [val_main_v62_apply, hl, hr, hb, ref_act3, Ideal.addf_def]
  rfl

/-- A row of the reduced array with column `k` put back is the element `(p, k)`. -/
theorem lift_row (h : S8192x10.Reduces [1] S8192) (p : Fin 8192) (k : Fin (S8192x10.size 1)) :
    h.lift (ix1 p) k = ix2 p (⟨k.val, k.isLt⟩ : Fin 10) := by
  funext a; apply Fin.ext
  fin_cases a <;> rfl

/-- The host's reduction of an 8192 × 10 array by `max` over its rows, at row `p`: the fold of `max` over the row's 10
    entries from the initial value. -/
theorem reduce_max_row (y : FVec Ideal S8192x10 .f32) (init : FVec Ideal S_ .f32) (p : Fin 8192) :
    Host.reduce (FloatOps.maximumf (F := Ideal) (φ := .f32)) y init reducesTo_S8192x10_S8192_d1 h_S_ (ix1 p)
      = (Finset.univ : Finset (Fin 10)).fold max (init (Shape.Idx.first h_S_)) (fun c => y (ix2 p c)) := by
  have h : S8192x10.Reduces [1] S8192 := by decide
  rw [Host.reduce_eq_fold_single (FloatOps.maximumf (F := Ideal) (φ := .f32)) y init reducesTo_S8192x10_S8192_d1 h h_S_]
  exact congrArg (fun f => (Finset.univ : Finset (Fin 10)).fold max (init (Shape.Idx.first h_S_)) f)
    (funext fun k => congrArg y (lift_row h p k))

/-- The row maximum as the reference computes it. -/
theorem ref_rowMax (p : Fin 8192) :
    val_main_call3_v2 (F := Ideal) x0 x1 x2 x3 x4 x5 x6 x7 x8 x9 x10 x11 x12 x13 x14 x15 x16 x17 x18 x19 x20 (ix1 p)
      = rowMax (logits x0 x1 x2 x3 x4 x5 x6 x7 x8 x9 x10 x11 x12 x13 x14 x15 x16 x17 x18 x19 x20 p) := by
  rw [val_main_call3_v2_apply, val_main_call3_v1_apply, val_main_call3_cst_0_apply]
  unfold val_main_call3_v0
  rw [reduce_max_row, val_main_call3_cst_apply]
  simp only [ref_logits, Ideal.maximumf_def, Ideal.ofBits_def]
  rfl

/-- A logit less its row's maximum, as the reference computes it. -/
theorem ref_shifted (p : Fin 8192) (c : Fin 10) :
    val_main_call3_v5 (F := Ideal) x0 x1 x2 x3 x4 x5 x6 x7 x8 x9 x10 x11 x12 x13 x14 x15 x16 x17 x18 x19 x20 (ix2 p c)
      = logits x0 x1 x2 x3 x4 x5 x6 x7 x8 x9 x10 x11 x12 x13 x14 x15 x16 x17 x18 x19 x20 p c
        - rowMax (logits x0 x1 x2 x3 x4 x5 x6 x7 x8 x9 x10 x11 x12 x13 x14 x15 x16 x17 x18 x19 x20 p) := by
  have h4 : idx_main_call3_v3 (idx_main_call3_v4 (ix2 p c)) = ix1 p := funext fun a => Fin.ext (by match a with | ⟨0, _⟩ => rfl)
  rw [val_main_call3_v5_apply, val_main_call3_v4_apply, val_main_call3_v3_apply, h4, ref_rowMax, ref_logits]
  rfl

/-- The reference's result at row `p`, column `c`. -/
theorem ref_netAt (p : Fin 8192) (c : Fin 10) :
    val_main_v67 (F := Ideal) x0 x1 x2 x3 x4 x5 x6 x7 x8 x9 x10 x11 x12 x13 x14 x15 x16 x17 x18 x19 x20 (ix2 p c)
      = netAt x0 x1 x2 x3 x4 x5 x6 x7 x8 x9 x10 x11 x12 x13 x14 x15 x16 x17 x18 x19 x20 p c := by
  have h10 : idx_main_call3_v8 (idx_main_call3_v10 (ix2 p c)) = ix1 p := funext fun a => Fin.ext (by match a with | ⟨0, _⟩ => rfl)
  have h7 : ∀ k : Fin 10, idx_main_call3_v7 (ix1 p) k = ix2 p k := fun k => funext fun a => Fin.ext (by match a with | ⟨0, _⟩ => rfl | ⟨1, _⟩ => rfl)
  rw [val_main_v67_apply, val_main_call3_v10_apply, val_main_call3_v9_apply, val_main_call3_v8_apply, h10,
    val_main_call3_v7_apply, val_main_call3_cst_1_apply, ref_shifted]
  simp only [val_main_call3_v6_apply, h7, ref_shifted, Ideal.hostUnary_exp_def, Ideal.hostUnary_log_def, Ideal.subf_def,
    Ideal.ofBits_def, Ideal.ofBits_zero_f32, zero_add]
  rfl

/-- The reference's result array is the network function of the arguments. -/
theorem ref_is_net :
    val_main_v67 (F := Ideal) x0 x1 x2 x3 x4 x5 x6 x7 x8 x9 x10 x11 x12 x13 x14 x15 x16 x17 x18 x19 x20
      = net x0 x1 x2 x3 x4 x5 x6 x7 x8 x9 x10 x11 x12 x13 x14 x15 x16 x17 x18 x19 x20 := by
  funext j
  obtain ⟨p, c, rfl⟩ : ∃ (p : Fin 8192) (c : Fin 10), j = ix2 p c := ⟨j 0, j 1, eq_ix2 j⟩
  rw [ref_netAt, net_ix2]

end

/-- The term the reference's run leaves in its result buffer is the network function of the launch contents of the
    21 argument buffers. -/
theorem ref_value (m : (ℓ : Loc nD τ sig) → Buf (Elt Ideal) ℓ) (c : Dev nD) :
    Cert.ReferenceIdeal.ValueP.res_main_v67 (F := Ideal) m c
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  (val_main_v67_eq (F := Ideal) m c).trans (ref_is_net _ _ _ _ _ _ _ _ _ _ _ _ _ _ _ _ _ _ _ _ _)

/-- The reference's run: every weakly fair execution of the reference ends with its result buffer at the network function
    of the arguments' launch contents, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v67)
        = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c).1.trans (ref_value m c), (h c).2⟩)
    (Cert.ReferenceIdeal.ValueP.run (F := Ideal) m ρ)

/-- The reference's frame: it runs to the end and leaves its arguments unchanged. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => (h c).2) (Cert.ReferenceIdeal.ValueP.run (F := Ideal) m ρ)

end Cert.Net

end
-- ==== Proof.Algebraic.lean ====
/-
  The algebraic claim. Run from memories that agree on the 21 arguments, the idealized kernel and the idealized reference
  end with equal results as extended reals: both result arrays are the network function of the arguments — the kernel's
  by the composition of its four regions' values, the reference's by reading its generated run.
-/
import proofs.«104501_j58892591563191_2_alg».proof.Defs
import proofs.«104501_j58892591563191_2_alg».proof.Proof.Gen.KernelIdeal
import proofs.«104501_j58892591563191_2_alg».proof.Proof.Gen.ReferenceIdeal
import proofs.«104501_j58892591563191_2_alg».proof.Proof.Gen.Pre_finite_inputs
import proofs.«104501_j58892591563191_2_alg».proof.Proof.Bridge
import proofs.«104501_j58892591563191_2_alg».proof.Proof.RefOut

noncomputable section

namespace Cert.Bridge

open Idealize.ShloMosaic Idealize.ShloMosaic.TcCoe Idealize.SL.Sem

/-- The network function of equal arguments. -/
theorem net_congr {a0 b0 : Cert.Net.Mat 8192 784} {a1 b1 : Cert.Net.Mat 3072 784} {a2 b2 : Cert.Net.Vc 3072} {a3 b3 : Cert.Net.Vc 3072} {a4 b4 : Cert.Net.Vc 3072} {a5 b5 : Cert.Net.Vc 3072} {a6 b6 : Cert.Net.Vc 3072} {a7 b7 : Cert.Net.Mat 6144 3072} {a8 b8 : Cert.Net.Vc 6144} {a9 b9 : Cert.Net.Vc 6144} {a10 b10 : Cert.Net.Vc 6144} {a11 b11 : Cert.Net.Vc 6144} {a12 b12 : Cert.Net.Vc 6144} {a13 b13 : Cert.Net.Mat 6144 6144} {a14 b14 : Cert.Net.Vc 6144} {a15 b15 : Cert.Net.Vc 6144} {a16 b16 : Cert.Net.Vc 6144} {a17 b17 : Cert.Net.Vc 6144} {a18 b18 : Cert.Net.Vc 6144} {a19 b19 : Cert.Net.Mat 10 6144} {a20 b20 : Cert.Net.Vc 10}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) :
    Cert.Net.net a0 a1 a2 a3 a4 a5 a6 a7 a8 a9 a10 a11 a12 a13 a14 a15 a16 a17 a18 a19 a20
      = Cert.Net.net b0 b1 b2 b3 b4 b5 b6 b7 b8 b9 b10 b11 b12 b13 b14 b15 b16 b17 b18 b19 b20 := by
  subst h0 h1 h2 h3 h4 h5 h6 h7 h8 h9 h10 h11 h12 h13 h14 h15 h16 h17 h18 h19 h20
  rfl

/-- The network function of the reference's arguments is that of the kernel's, when the two memories agree on them. -/
theorem net_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.Net.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20))
      = Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) := by
  obtain ⟨e0, e1, e2, e3, e4, e5, e6, e7, e8, e9, e10, e11, e12, e13, e14, e15, e16, e17, e18, e19, e20⟩ := hagree
  exact net_congr e0 e1 e2 e3 e4 e5 e6 e7 e8 e9 e10 e11 e12 e13 e14 e15 e16 e17 e18 e19 e20

theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono (fun s h c =>
      ⟨(h c _ (Cert.KernelIdeal.Hand.mem_uc Cert.KernelIdeal.main_v26 (by decide))).trans (kernel_value m c),
     (h c _ (Cert.KernelIdeal.Hand.mem_uc Cert.KernelIdeal.main_arg0 (by decide))).trans (Cert.KernelIdeal.Hand.X3_kept m c Cert.KernelIdeal.main_arg0 (by decide) (by decide) (by decide) (by decide) (by decide) (by decide) (by decide) (by decide)),
     (h c _ (Cert.KernelIdeal.Hand.mem_uc Cert.KernelIdeal.main_arg1 (by decide))).trans (Cert.KernelIdeal.Hand.X3_kept m c Cert.KernelIdeal.main_arg1 (by decide) (by decide) (by decide) (by decide) (by decide) (by decide) (by decide) (by decide)),
     (h c _ (Cert.KernelIdeal.Hand.mem_uc Cert.KernelIdeal.main_arg2 (by decide))).trans (Cert.KernelIdeal.Hand.X3_kept m c Cert.KernelIdeal.main_arg2 (by decide) (by decide) (by decide) (by decide) (by decide) (by decide) (by decide) (by decide)),
     (h c _ (Cert.KernelIdeal.Hand.mem_uc Cert.KernelIdeal.main_arg3 (by decide))).trans (Cert.KernelIdeal.Hand.X3_kept m c Cert.KernelIdeal.main_arg3 (by decide) (by decide) (by decide) (by decide) (by decide) (by decide) (by decide) (by decide)),
     (h c _ (Cert.KernelIdeal.Hand.mem_uc Cert.KernelIdeal.main_arg4 (by decide))).trans (Cert.KernelIdeal.Hand.X3_kept m c Cert.KernelIdeal.main_arg4 (by decide) (by decide) (by decide) (by decide) (by decide) (by decide) (by decide) (by decide)),
     (h c _ (Cert.KernelIdeal.Hand.mem_uc Cert.KernelIdeal.main_arg5 (by decide))).trans (Cert.KernelIdeal.Hand.X3_kept m c Cert.KernelIdeal.main_arg5 (by decide) (by decide) (by decide) (by decide) (by decide) (by decide) (by decide) (by decide)),
     (h c _ (Cert.KernelIdeal.Hand.mem_uc Cert.KernelIdeal.main_arg6 (by decide))).trans (Cert.KernelIdeal.Hand.X3_kept m c Cert.KernelIdeal.main_arg6 (by decide) (by decide) (by decide) (by decide) (by decide) (by decide) (by decide) (by decide)),
     (h c _ (Cert.KernelIdeal.Hand.mem_uc Cert.KernelIdeal.main_arg7 (by decide))).trans (Cert.KernelIdeal.Hand.X3_kept m c Cert.KernelIdeal.main_arg7 (by decide) (by decide) (by decide) (by decide) (by decide) (by decide) (by decide) (by decide)),
     (h c _ (Cert.KernelIdeal.Hand.mem_uc Cert.KernelIdeal.main_arg8 (by decide))).trans (Cert.KernelIdeal.Hand.X3_kept m c Cert.KernelIdeal.main_arg8 (by decide) (by decide) (by decide) (by decide) (by decide) (by decide) (by decide) (by decide)),
     (h c _ (Cert.KernelIdeal.Hand.mem_uc Cert.KernelIdeal.main_arg9 (by decide))).trans (Cert.KernelIdeal.Hand.X3_kept m c Cert.KernelIdeal.main_arg9 (by decide) (by decide) (by decide) (by decide) (by decide) (by decide) (by decide) (by decide)),
     (h c _ (Cert.KernelIdeal.Hand.mem_uc Cert.KernelIdeal.main_arg10 (by decide))).trans (Cert.KernelIdeal.Hand.X3_kept m c Cert.KernelIdeal.main_arg10 (by decide) (by decide) (by decide) (by decide) (by decide) (by decide) (by decide) (by decide)),
     (h c _ (Cert.KernelIdeal.Hand.mem_uc Cert.KernelIdeal.main_arg11 (by decide))).trans (Cert.KernelIdeal.Hand.X3_kept m c Cert.KernelIdeal.main_arg11 (by decide) (by decide) (by decide) (by decide) (by decide) (by decide) (by decide) (by decide)),
     (h c _ (Cert.KernelIdeal.Hand.mem_uc Cert.KernelIdeal.main_arg12 (by decide))).trans (Cert.KernelIdeal.Hand.X3_kept m c Cert.KernelIdeal.main_arg12 (by decide) (by decide) (by decide) (by decide) (by decide) (by decide) (by decide) (by decide)),
     (h c _ (Cert.KernelIdeal.Hand.mem_uc Cert.KernelIdeal.main_arg13 (by decide))).trans (Cert.KernelIdeal.Hand.X3_kept m c Cert.KernelIdeal.main_arg13 (by decide) (by decide) (by decide) (by decide) (by decide) (by decide) (by decide) (by decide)),
     (h c _ (Cert.KernelIdeal.Hand.mem_uc Cert.KernelIdeal.main_arg14 (by decide))).trans (Cert.KernelIdeal.Hand.X3_kept m c Cert.KernelIdeal.main_arg14 (by decide) (by decide) (by decide) (by decide) (by decide) (by decide) (by decide) (by decide)),
     (h c _ (Cert.KernelIdeal.Hand.mem_uc Cert.KernelIdeal.main_arg15 (by decide))).trans (Cert.KernelIdeal.Hand.X3_kept m c Cert.KernelIdeal.main_arg15 (by decide) (by decide) (by decide) (by decide) (by decide) (by decide) (by decide) (by decide)),
     (h c _ (Cert.KernelIdeal.Hand.mem_uc Cert.KernelIdeal.main_arg16 (by decide))).trans (Cert.KernelIdeal.Hand.X3_kept m c Cert.KernelIdeal.main_arg16 (by decide) (by decide) (by decide) (by decide) (by decide) (by decide) (by decide) (by decide)),
     (h c _ (Cert.KernelIdeal.Hand.mem_uc Cert.KernelIdeal.main_arg17 (by decide))).trans (Cert.KernelIdeal.Hand.X3_kept m c Cert.KernelIdeal.main_arg17 (by decide) (by decide) (by decide) (by decide) (by decide) (by decide) (by decide) (by decide)),
     (h c _ (Cert.KernelIdeal.Hand.mem_uc Cert.KernelIdeal.main_arg18 (by decide))).trans (Cert.KernelIdeal.Hand.X3_kept m c Cert.KernelIdeal.main_arg18 (by decide) (by decide) (by decide) (by decide) (by decide) (by decide) (by decide) (by decide)),
     (h c _ (Cert.KernelIdeal.Hand.mem_uc Cert.KernelIdeal.main_arg19 (by decide))).trans (Cert.KernelIdeal.Hand.X3_main_arg19 m c),
     (h c _ (Cert.KernelIdeal.Hand.mem_uc Cert.KernelIdeal.main_arg20 (by decide))).trans (Cert.KernelIdeal.Hand.X3_kept m c Cert.KernelIdeal.main_arg20 (by decide) (by decide) (by decide) (by decide) (by decide) (by decide) (by decide) (by decide))⟩)
      (Cert.KernelIdeal.Hand.run_all m ρ)
  · exact (θ_run Cert.ReferenceIdeal.defs _ _).mono (fun _ h c => ⟨(h c).1.trans (net_agree m m' c (hagree c)), (h c).2⟩)
      (Cert.Net.ref_run m' ρ')

end Cert.Bridge

end
-- ==== Proof.lean ====
/- The proof of `Cert.Claim`: the binarised network's four kernel regions against the plain
   reference.

   Frames. Both printed kernel programs are four pipelined regions among short stretches of host
   operations. Each of the first three regions walks a grid (row block, column block, contraction
   block): it zeroes an accumulator at the first contraction block, adds one partial product per
   block, and at the last block normalises the accumulated product and stores the activated
   block; the fourth region computes one row block of logits and its row-wise log-softmax. Each
   region's proof data say what every staging buffer holds after every grid point, the accumulator
   being carried in the region's invariant; the run threads the contents of every unscoped buffer
   through the eight segments, and every argument array is read back unchanged at the end. The
   reference is a straight line of host operations and its frame is its run with the result dropped.

   Preserves. The idealised kernel replaces "1.0 with the sign bit of x" by the selection of -1 or 1
   on x < 0, twice (regions 0 and 1): the rule's own statement.

   Algebraic. At the ideal instance a change of float format is the identity; the blocked matrix
   products are the whole sums over the contraction axis in another grouping; binarising the
   normalised value equals binarising its clipped value; the in-kernel log-softmax is the reference's. -/
import proofs.«104501_j58892591563191_2_alg».proof.Defs
import proofs.«104501_j58892591563191_2_alg».proof.Proof.Gen.Kernel
import proofs.«104501_j58892591563191_2_alg».proof.Proof.Gen.KernelIdeal
import proofs.«104501_j58892591563191_2_alg».proof.Proof.Gen.ReferenceIdeal
import proofs.«104501_j58892591563191_2_alg».proof.Proof.Gen.Pre_finite_inputs
import proofs.«104501_j58892591563191_2_alg».proof.Proof.K.Run
import proofs.«104501_j58892591563191_2_alg».proof.Proof.KI.Run
import proofs.«104501_j58892591563191_2_alg».proof.Proof.RefRun
import proofs.«104501_j58892591563191_2_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The two rewrites of the sign-bit window, each the rule's statement at the block's shape. -/
theorem preserves : Cert.preserves_Kernel_KernelIdeal :=
  ⟨IdealRules.sign_bit.statement Cert.KernelIdeal.S1024x1024 .f32, IdealRules.sign_bit.statement Cert.KernelIdeal.S1024x1024 .f32⟩

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Bridge.algebraic⟩

end Cert.Proof

end
